-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S2x524288 : Shape := ⟨2, ![2, 524288]⟩
abbrev S524288 : Shape := ⟨1, ![524288]⟩
abbrev S16384x128 : Shape := ⟨2, ![16384, 128]⟩
abbrev S3x128x128 : Shape := ⟨3, ![3, 128, 128]⟩
abbrev S3x128 : Shape := ⟨2, ![3, 128]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S524288 : S_.BroadcastsInDim S524288 (![] : Fin 0 → Fin S524288.rank)
  reducesTo_S524288_S_d0 : S524288.ReducesTo [0] S_
  bcast_S_S16384x128 : S_.BroadcastsInDim S16384x128 (![] : Fin 0 → Fin S16384x128.rank)
  reducesTo_S16384x128_S_d0_1 : S16384x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128 .f32) (main_arg6 : FVec F S3x128x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S16384x16384 .f32) (main_arg1 : IVec S2x524288 32) (main_arg2 : FVec F S524288 .f32) (main_arg3 : FVec F S16384x128 .f32) (main_arg4 : FVec F S3x128x128 .f32) (main_arg5 : FVec F S3x128 .f32) (main_arg6 : FVec F S3x128x128 .f32) (main_arg7 : FVec F S3x128 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S524288 .f32 := Host.absf main_arg2
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S16384x128 .f32 := Host.absf main_arg3
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_v13 main_v16
-- ==== Kernel.lean ====
abbrev S16384x16384 : Shape := ⟨2, ![16384, 16384]⟩
abbrev S2x524288 : Shape := ⟨2, ![2, 524288]⟩
abbrev S524288 : Shape := ⟨1, ![524288]⟩
abbrev S16384x128 : Shape := ⟨2, ![16384, 128]⟩
abbrev S3x128x128 : Shape := ⟨3, ![3, 128, 128]⟩
abbrev S3x128 : Shape := ⟨2, ![3, 128]⟩
abbrev S1x524288 : Shape := ⟨2, ![1, 524288]⟩
abbrev S_ : Shape := ⟨0, ![]⟩
abbrev S2048x1024 : Shape := ⟨2, ![2048, 1024]⟩
abbrev S1024x128 : Shape := ⟨2, ![1024, 128]⟩
abbrev S2048x128 : Shape := ⟨2, ![2048, 128]⟩
abbrev S524288x1 : Shape := ⟨2, ![524288, 1]⟩
abbrev S524288x128 : Shape := ⟨2, ![524288, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2048 : Shape := ⟨1, ![2048]⟩
abbrev S2048x1 : Shape := ⟨2, ![2048, 1]⟩
abbrev S16384x512 : Shape := ⟨2, ![16384, 512]⟩

abbrev nBuf : Space → Nat
  | .hbm => 109
  | .vmem => 63
  | .smem => 0
  | _ => 0

abbrev bufTy : (tb : Table) → Fin (tcTables nBuf tb) → BufTy
  | .hbm, ⟨0, _⟩ => ⟨S16384x16384, .f32⟩
  | .hbm, ⟨1, _⟩ => ⟨S2x524288, .i32⟩
  | .hbm, ⟨2, _⟩ => ⟨S524288, .f32⟩
  | .hbm, ⟨3, _⟩ => ⟨S16384x128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S1x524288, .i32⟩
  | .hbm, ⟨9, _⟩ => ⟨S524288, .i32⟩
  | .hbm, ⟨10, _⟩ => ⟨S1x524288, .i32⟩
  | .hbm, ⟨11, _⟩ => ⟨S524288, .i32⟩
  | .hbm, ⟨12, _⟩ => ⟨S_, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S524288x1, .f32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S524288x128, .f32⟩
  | .hbm, ⟨26, _⟩ => ⟨S524288x128, .f32⟩
  | .hbm, ⟨27, _⟩ => ⟨S524288x128, .f32⟩
  | .hbm, ⟨28, _⟩ => ⟨S_, .f32⟩
  | .hbm, ⟨29, _⟩ => ⟨S16384x128, .f32⟩
  | .hbm, ⟨30, _⟩ => ⟨S524288x1, .i32⟩
  | .hbm, ⟨31, _⟩ => ⟨S16384x128, .f32⟩
  | .hbm, ⟨32, _⟩ => ⟨S1x128x128, .f32⟩
  | .hbm, ⟨33, _⟩ => ⟨S128x128, .f32⟩
  | .hbm, ⟨34, _⟩ => ⟨S128x128, .f32⟩
  | .hbm, ⟨35, _⟩ => ⟨S1x128x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S524288x1, .f32⟩
  | .hbm, ⟨48, _⟩ => ⟨S_, .i32⟩
  | .hbm, ⟨49, _⟩ => ⟨S524288, .i32⟩
  | .hbm, ⟨50, _⟩ => ⟨S524288, .i1⟩
  | .hbm, ⟨51, _⟩ => ⟨S_, .i32⟩
  | .hbm, ⟨52, _⟩ => ⟨S524288, .i32⟩
  | .hbm, ⟨53, _⟩ => ⟨S524288, .i32⟩
  | .hbm, ⟨54, _⟩ => ⟨S524288, .i32⟩
  | .hbm, ⟨55, _⟩ => ⟨S524288x1, .i32⟩
  | .hbm, ⟨56, _⟩ => ⟨S524288x128, .f32⟩
  | .hbm, ⟨57, _⟩ => ⟨S524288x128, .f32⟩
  | .hbm, ⟨58, _⟩ => ⟨S524288x128, .f32⟩
  | .hbm, ⟨59, _⟩ => ⟨S_, .f32⟩
  | .hbm, ⟨60, _⟩ => ⟨S16384x128, .f32⟩
  | .hbm, ⟨61, _⟩ => ⟨S524288x1, .i32⟩
  | .hbm, ⟨62, _⟩ => ⟨S16384x128, .f32⟩
  | .hbm, ⟨63, _⟩ => ⟨S1x128x128, .f32⟩
  | .hbm, ⟨64, _⟩ => ⟨S128x128, .f32⟩
  | .hbm, ⟨65, _⟩ => ⟨S128x128, .f32⟩
  | .hbm, ⟨66, _⟩ => ⟨S1x128x128, .f32⟩
  | .hbm, ⟨67, _⟩ => ⟨S128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S16384x128, .f32⟩
  | .hbm, ⟨76, _⟩ => ⟨S16384x128, .f32⟩
  | .hbm, ⟨77, _⟩ => ⟨S16384x128, .f32⟩
  | .hbm, ⟨78, _⟩ => ⟨S524288x1, .f32⟩
  | .hbm, ⟨79, _⟩ => ⟨S_, .i32⟩
  | .hbm, ⟨80, _⟩ => ⟨S524288, .i32⟩
  | .hbm, ⟨81, _⟩ => ⟨S524288, .i1⟩
  | .hbm, ⟨82, _⟩ => ⟨S_, .i32⟩
  | .hbm, ⟨83, _⟩ => ⟨S524288, .i32⟩
  | .hbm, ⟨84, _⟩ => ⟨S524288, .i32⟩
  | .hbm, ⟨85, _⟩ => ⟨S524288, .i32⟩
  | .hbm, ⟨86, _⟩ => ⟨S524288x1, .i32⟩
  | .hbm, ⟨87, _⟩ => ⟨S524288x128, .f32⟩
  | .hbm, ⟨88, _⟩ => ⟨S524288x128, .f32⟩
  | .hbm, ⟨89, _⟩ => ⟨S524288x128, .f32⟩
  | .hbm, ⟨90, _⟩ => ⟨S_, .f32⟩
  | .hbm, ⟨91, _⟩ => ⟨S16384x128, .f32⟩
  | .hbm, ⟨92, _⟩ => ⟨S524288x1, .i32⟩
  | .hbm, ⟨93, _⟩ => ⟨S16384x128, .f32⟩
  | .hbm, ⟨94, _⟩ => ⟨S1x128x128, .f32⟩
  | .hbm, ⟨95, _⟩ => ⟨S128x128, .f32⟩
  | .hbm, ⟨96, _⟩ => ⟨S128x128, .f32⟩
  | .hbm, ⟨97, _⟩ => ⟨S1x128x128, .f32⟩
  | .hbm, ⟨98, _⟩ => ⟨S128x128, .f32⟩
  | .hbm, ⟨99, _⟩ => ⟨S128x128, .f32⟩
  | .hbm, ⟨100, _⟩ => ⟨S1x128, .f32⟩
  | .hbm, ⟨101, _⟩ => ⟨S128, .f32⟩
  | .hbm, ⟨102, _⟩ => ⟨S1x128, .f32⟩
  | .hbm, ⟨103, _⟩ => ⟨S1x128, .f32⟩
  | .hbm, ⟨104, _⟩ => ⟨S128, .f32⟩
  | .hbm, ⟨105, _⟩ => ⟨S1x128, .f32⟩
  | .hbm, ⟨106, _⟩ => ⟨S16384x128, .f32⟩
  | .hbm, ⟨107, _⟩ => ⟨S16384x128, .f32⟩
  | .hbm, ⟨108, _⟩ => ⟨S16384x512, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1024x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x1024, .f32⟩
  | .local _ .vmem, ⟨22, _⟩ => ⟨S2048x1024, .f32⟩
  | .local _ .vmem, ⟨23, _⟩ => ⟨S1024x128, .f32⟩
  | .local _ .vmem, ⟨24, _⟩ => ⟨S1024x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .vmem, ⟨41, _⟩ => ⟨S2048x128, .f32⟩
  | .local _ .vmem, ⟨42, _⟩ => ⟨S2048x1024, .f32⟩
  | .local _ .vmem, ⟨43, _⟩ => ⟨S2048x1024, .f32⟩
  | .local _ .vmem, ⟨44, _⟩ => ⟨S1024x128, .f32⟩
  | .local _ .vmem, ⟨45, _⟩ => ⟨S1024x128, .f32⟩
  | .local _ .vmem, ⟨46, _⟩ => ⟨S2048x128, .f32⟩
  | .local _ .vmem, ⟨47, _⟩ => ⟨S2048x128, .f32⟩
  | .local _ .vmem, ⟨48, _⟩ => ⟨S2048x128, .f32⟩
  | .local _ .vmem, ⟨49, _⟩ => ⟨S2048x128, .f32⟩
  | .local _ .vmem, ⟨50, _⟩ => ⟨S2048x128, .f32⟩
  | .local _ .vmem, ⟨51, _⟩ => ⟨S2048x128, .f32⟩
  | .local _ .vmem, ⟨52, _⟩ => ⟨S2048x128, .f32⟩
  | .local _ .vmem, ⟨53, _⟩ => ⟨S2048x128, .f32⟩
  | .local _ .vmem, ⟨54, _⟩ => ⟨S2048x128, .f32⟩
  | .local _ .vmem, ⟨55, _⟩ => ⟨S128x128, .f32⟩
  | .local _ .vmem, ⟨56, _⟩ => ⟨S1x128, .f32⟩
  | .local _ .vmem, ⟨57, _⟩ => ⟨S128x128, .f32⟩
  | .local _ .vmem, ⟨58, _⟩ => ⟨S1x128, .f32⟩
  | .local _ .vmem, ⟨59, _⟩ => ⟨S2048x128, .f32⟩
  | .local _ .vmem, ⟨60, _⟩ => ⟨S2048x128, .f32⟩
  | .local _ .vmem, ⟨61, _⟩ => ⟨S2048x128, .f32⟩
  | .local _ .vmem, ⟨62, _⟩ => ⟨S2048x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v33 : Ref sig .tc := ⟨.hbm, 46, rfl⟩
abbrev main_v34 : Ref sig .tc := ⟨.hbm, 47, rfl⟩
abbrev main_c_2 : Ref sig .tc := ⟨.hbm, 48, rfl⟩
abbrev main_v35 : Ref sig .tc := ⟨.hbm, 49, rfl⟩
abbrev main_v36 : Ref sig .tc := ⟨.hbm, 50, rfl⟩
abbrev main_c_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59_0 : Ref sig .tc := ⟨.hbm, 75, rfl⟩
abbrev main_v59_1 : Ref sig .tc := ⟨.hbm, 76, rfl⟩
abbrev main_v60 : Ref sig .tc := ⟨.hbm, 77, rfl⟩
abbrev main_v61 : Ref sig .tc := ⟨.hbm, 78, rfl⟩
abbrev main_c_5 : Ref sig .tc := ⟨.hbm, 79, rfl⟩
abbrev main_v62 : Ref sig .tc := ⟨.hbm, 80, rfl⟩
abbrev main_v63 : Ref sig .tc := ⟨.hbm, 81, rfl⟩
abbrev main_c_6 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_7 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86_0 : Ref sig .tc := ⟨.hbm, 106, rfl⟩
abbrev main_v86_1 : Ref sig .tc := ⟨.hbm, 107, rfl⟩
abbrev main_v87 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_scratch0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg7_0 : Ref sig .tc := ⟨.vmem, 59, rfl⟩
abbrev cc5_stg7_1 : Ref sig .tc := ⟨.vmem, 60, rfl⟩
abbrev cc5_stg8_0 : Ref sig .tc := ⟨.vmem, 61, rfl⟩
abbrev cc5_stg8_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37
abbrev cc3_sem8_0 : DmaSem sig := 38
abbrev cc3_sem8_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem7_0 : DmaSem sig := 56
abbrev cc5_sem7_1 : DmaSem sig := 57
abbrev cc5_sem8_0 : DmaSem sig := 58
abbrev cc5_sem8_1 : DmaSem sig := 59

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2048x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2048x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨2, ![8, 16], ![false, false]⟩

def k4_cond2 (i : grid4.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2048x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S2048x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x128 : S_.BroadcastsInDim S16384x128 (![] : Fin 0 → Fin S16384x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x128_0_1 : S524288x1.BroadcastsInDim S524288x128 (![0, 1] : Fin 2 → Fin S524288x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  shapeCasts_S1024x128_S1024x128 : S1024x128.ShapeCasts S1024x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S16384x128_S16384x128_S16384x128_S16384x128_S16384x512_d1 : Shape.Concatenates [S16384x128, S16384x128, S16384x128, S16384x128] S16384x512 1
  dot_S2048x1024_S1024x128_S2048x128_1_0_0_1_n_n_wf : DotDims.WF S2048x1024 S1024x128 S2048x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S16384x128.size a
  hwx1_2 : ∀ i : grid1.Coords, EltTy.bits .f32 = 32 ∨ (Rect.block (s := S16384x128) S2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x128.size a ≤ S16384x128.size a
  hwx1_7 : ∀ i : grid1.Coords, EltTy.bits .f32 = 32 ∨ (Rect.block (s := S16384x128) S2048x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x128.size a ≤ S16384x128.size a
  hwx1_8 : ∀ i : grid1.Coords, EltTy.bits .f32 = 32 ∨ (Rect.block (s := S16384x128) S2048x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S16384x16384.size a
  hwx2_0 : ∀ i : grid2.Coords, EltTy.bits .f32 = 32 ∨ (Rect.block (s := S16384x16384) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S16384x128.size a
  hwx2_1 : ∀ i : grid2.Coords, EltTy.bits .f32 = 32 ∨ (Rect.block (s := S16384x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S16384x128.size a
  hwx2_2 : ∀ i : grid2.Coords, EltTy.bits .f32 = 32 ∨ (Rect.block (s := S16384x128) S2048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S16384x128.size a
  hwx3_0 : ∀ i : grid3.Coords, EltTy.bits .f32 = 32 ∨ (Rect.block (s := S16384x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S16384x128.size a
  hwx3_1 : ∀ i : grid3.Coords, EltTy.bits .f32 = 32 ∨ (Rect.block (s := S16384x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S16384x128.size a
  hwx3_2 : ∀ i : grid3.Coords, EltTy.bits .f32 = 32 ∨ (Rect.block (s := S16384x128) S2048x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2048x128.size a ≤ S16384x128.size a
  hwx3_7 : ∀ i : grid3.Coords, EltTy.bits .f32 = 32 ∨ (Rect.block (s := S16384x128) S2048x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2048x128.size a ≤ S16384x128.size a
  hwx3_8 : ∀ i : grid3.Coords, EltTy.bits .f32 = 32 ∨ (Rect.block (s := S16384x128) S2048x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S16384x16384.size a
  hwx4_0 : ∀ i : grid4.Coords, EltTy.bits .f32 = 32 ∨ (Rect.block (s := S16384x16384) S2048x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S16384x128.size a
  hwx4_1 : ∀ i : grid4.Coords, EltTy.bits .f32 = 32 ∨ (Rect.block (s := S16384x128) S1024x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x128.size a ≤ S16384x128.size a
  hwx4_2 : ∀ i : grid4.Coords, EltTy.bits .f32 = 32 ∨ (Rect.block (s := S16384x128) S2048x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S16384x128.size a
  hwx5_0 : ∀ i : grid5.Coords, EltTy.bits .f32 = 32 ∨ (Rect.block (s := S16384x128) S2048x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S16384x128.size a
  hwx5_1 : ∀ i : grid5.Coords, EltTy.bits .f32 = 32 ∨ (Rect.block (s := S16384x128) S2048x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x128.size a ≤ S16384x128.size a
  hwx5_2 : ∀ i : grid5.Coords, EltTy.bits .f32 = 32 ∨ (Rect.block (s := S16384x128) S2048x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2048x128.size a ≤ S16384x128.size a
  hwx5_7 : ∀ i : grid5.Coords, EltTy.bits .f32 = 32 ∨ (Rect.block (s := S16384x128) S2048x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2048x128.size a ≤ S16384x128.size a
  hwx5_8 : ∀ i : grid5.Coords, EltTy.bits .f32 = 32 ∨ (Rect.block (s := S16384x128) S2048x128.size (cc5_transform_8 i) (hinb5_8 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg3) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32_0) S2048x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v32_1) S2048x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg0) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32_0) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v32_0) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v46) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v58) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v59_0) S2048x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v59_1) S2048x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_arg0) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59_0) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S2048x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v59_0) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v73) S2048x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v76) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v85) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v86_0) S2048x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v86_1) S2048x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S16384x16384 : Shape := ⟨2, ![16384, 16384]⟩
abbrev S2x524288 : Shape := ⟨2, ![2, 524288]⟩
abbrev S524288 : Shape := ⟨1, ![524288]⟩
abbrev S16384x128 : Shape := ⟨2, ![16384, 128]⟩
abbrev S3x128x128 : Shape := ⟨3, ![3, 128, 128]⟩
abbrev S3x128 : Shape := ⟨2, ![3, 128]⟩
abbrev S1x524288 : Shape := ⟨2, ![1, 524288]⟩
abbrev S_ : Shape := ⟨0, ![]⟩
abbrev S524288x1 : Shape := ⟨2, ![524288, 1]⟩
abbrev S524288x128 : Shape := ⟨2, ![524288, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S16384 : Shape := ⟨1, ![16384]⟩
abbrev S16384x1 : Shape := ⟨2, ![16384, 1]⟩
abbrev S16384x512 : Shape := ⟨2, ![16384, 512]⟩

abbrev nBuf : Space → Nat
  | .hbm => 217
  | .vmem => 0
  | .smem => 0
  | _ => 0

abbrev hbmTy0_0 (i : Nat) : BufTy := match i % 128 with
  | 0 => ⟨S16384x16384, .f32⟩
  | 1 => ⟨S2x524288, .i32⟩
  | 2 => ⟨S524288, .f32⟩
  | 3 => ⟨S16384x128, .f32⟩
  | 4 => ⟨S3x128x128, .f32⟩
  | 5 => ⟨S3x128, .f32⟩
  | 6 => ⟨S3x128x128, .f32⟩
  | 7 => ⟨S3x128, .f32⟩
  | 8 => ⟨S1x524288, .i32⟩
  | 9 => ⟨S524288, .i32⟩
  | 10 => ⟨S1x524288, .i32⟩
  | 11 => ⟨S524288, .i32⟩
  | 12 => ⟨S_, .f32⟩
  | 13 => ⟨S16384x128, .f32⟩
  | 14 => ⟨S16384x128, .f32⟩
  | 15 => ⟨S16384x128, .f32⟩
  | 16 => ⟨S524288x1, .f32⟩
  | 17 => ⟨S_, .i32⟩
  | 18 => ⟨S524288, .i32⟩
  | 19 => ⟨S524288, .i1⟩
  | 20 => ⟨S_, .i32⟩
  | 21 => ⟨S524288, .i32⟩
  | 22 => ⟨S524288, .i32⟩
  | 23 => ⟨S524288, .i32⟩
  | 24 => ⟨S524288x1, .i32⟩
  | 25 => ⟨S524288x128, .f32⟩
  | 26 => ⟨S524288x128, .f32⟩
  | 27 => ⟨S524288x128, .f32⟩
  | 28 => ⟨S_, .f32⟩
  | 29 => ⟨S16384x128, .f32⟩
  | 30 => ⟨S524288x1, .i32⟩
  | 31 => ⟨S16384x128, .f32⟩
  | 32 => ⟨S16384x128, .f32⟩
  | 33 => ⟨S16384x128, .f32⟩
  | 34 => ⟨S1x128x128, .f32⟩
  | 35 => ⟨S128x128, .f32⟩
  | 36 => ⟨S16384x128, .f32⟩
  | 37 => ⟨S1x128, .f32⟩
  | 38 => ⟨S128, .f32⟩
  | 39 => ⟨S1x128, .f32⟩
  | 40 => ⟨S16384x128, .f32⟩
  | 41 => ⟨S16384x128, .f32⟩
  | 42 => ⟨S1x128x128, .f32⟩
  | 43 => ⟨S128x128, .f32⟩
  | 44 => ⟨S16384x128, .f32⟩
  | 45 => ⟨S1x128, .f32⟩
  | 46 => ⟨S128, .f32⟩
  | 47 => ⟨S1x128, .f32⟩
  | 48 => ⟨S16384x128, .f32⟩
  | 49 => ⟨S16384x128, .f32⟩
  | 50 => ⟨S_, .f32⟩
  | 51 => ⟨S16384x128, .f32⟩
  | 52 => ⟨S16384x128, .f32⟩
  | 53 => ⟨S16384x128, .f32⟩
  | 54 => ⟨S16384x128, .f32⟩
  | 55 => ⟨S_, .f32⟩
  | 56 => ⟨S16384x128, .f32⟩
  | 57 => ⟨S16384x128, .f32⟩
  | 58 => ⟨S_, .f32⟩
  | 59 => ⟨S16384x128, .f32⟩
  | 60 => ⟨S16384x128, .f32⟩
  | 61 => ⟨S_, .f32⟩
  | 62 => ⟨S16384x128, .f32⟩
  | 63 => ⟨S16384x128, .f32⟩
  | 64 => ⟨S_, .f32⟩
  | 65 => ⟨S16384x128, .f32⟩
  | 66 => ⟨S16384x128, .i1⟩
  | 67 => ⟨S_, .f32⟩
  | 68 => ⟨S16384x128, .f32⟩
  | 69 => ⟨S16384x128, .f32⟩
  | 70 => ⟨S16384x128, .f32⟩
  | 71 => ⟨S16384x128, .f32⟩
  | 72 => ⟨S16384x128, .f32⟩
  | 73 => ⟨S_, .f32⟩
  | 74 => ⟨S16384, .f32⟩
  | 75 => ⟨S16384x1, .f32⟩
  | 76 => ⟨S16384x1, .f32⟩
  | 77 => ⟨S_, .f32⟩
  | 78 => ⟨S16384x1, .f32⟩
  | 79 => ⟨S16384x1, .f32⟩
  | 80 => ⟨S16384x128, .f32⟩
  | 81 => ⟨S16384x128, .f32⟩
  | 82 => ⟨S16384x128, .f32⟩
  | 83 => ⟨S524288x1, .f32⟩
  | 84 => ⟨S_, .i32⟩
  | 85 => ⟨S524288, .i32⟩
  | 86 => ⟨S524288, .i1⟩
  | 87 => ⟨S_, .i32⟩
  | 88 => ⟨S524288, .i32⟩
  | 89 => ⟨S524288, .i32⟩
  | 90 => ⟨S524288, .i32⟩
  | 91 => ⟨S524288x1, .i32⟩
  | 92 => ⟨S524288x128, .f32⟩
  | 93 => ⟨S524288x128, .f32⟩
  | 94 => ⟨S524288x128, .f32⟩
  | 95 => ⟨S_, .f32⟩
  | 96 => ⟨S16384x128, .f32⟩
  | 97 => ⟨S524288x1, .i32⟩
  | 98 => ⟨S16384x128, .f32⟩
  | 99 => ⟨S16384x128, .f32⟩
  | 100 => ⟨S16384x128, .f32⟩
  | 101 => ⟨S1x128x128, .f32⟩
  | 102 => ⟨S128x128, .f32⟩
  | 103 => ⟨S16384x128, .f32⟩
  | 104 => ⟨S1x128, .f32⟩
  | 105 => ⟨S128, .f32⟩
  | 106 => ⟨S1x128, .f32⟩
  | 107 => ⟨S16384x128, .f32⟩
  | 108 => ⟨S16384x128, .f32⟩
  | 109 => ⟨S1x128x128, .f32⟩
  | 110 => ⟨S128x128, .f32⟩
  | 111 => ⟨S16384x128, .f32⟩
  | 112 => ⟨S1x128, .f32⟩
  | 113 => ⟨S128, .f32⟩
  | 114 => ⟨S1x128, .f32⟩
  | 115 => ⟨S16384x128, .f32⟩
  | 116 => ⟨S16384x128, .f32⟩
  | 117 => ⟨S_, .f32⟩
  | 118 => ⟨S16384x128, .f32⟩
  | 119 => ⟨S16384x128, .f32⟩
  | 120 => ⟨S16384x128, .f32⟩
  | 121 => ⟨S16384x128, .f32⟩
  | 122 => ⟨S_, .f32⟩
  | 123 => ⟨S16384x128, .f32⟩
  | 124 => ⟨S16384x128, .f32⟩
  | 125 => ⟨S_, .f32⟩
  | 126 => ⟨S16384x128, .f32⟩
  | 127 => ⟨S16384x128, .f32⟩
  | _ => ⟨S16384x16384, .f32⟩

abbrev hbmTy0_1 (i : Nat) : BufTy := match i % 128 with
  | 0 => ⟨S_, .f32⟩
  | 1 => ⟨S16384x128, .f32⟩
  | 2 => ⟨S16384x128, .f32⟩
  | 3 => ⟨S_, .f32⟩
  | 4 => ⟨S16384x128, .f32⟩
  | 5 => ⟨S16384x128, .i1⟩
  | 6 => ⟨S_, .f32⟩
  | 7 => ⟨S16384x128, .f32⟩
  | 8 => ⟨S16384x128, .f32⟩
  | 9 => ⟨S16384x128, .f32⟩
  | 10 => ⟨S16384x128, .f32⟩
  | 11 => ⟨S16384x128, .f32⟩
  | 12 => ⟨S_, .f32⟩
  | 13 => ⟨S16384, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x128, .f32⟩
  | 20 => ⟨S16384x128, .f32⟩
  | 21 => ⟨S16384x128, .f32⟩
  | 22 => ⟨S524288x1, .f32⟩
  | 23 => ⟨S_, .i32⟩
  | 24 => ⟨S524288, .i32⟩
  | 25 => ⟨S524288, .i1⟩
  | 26 => ⟨S_, .i32⟩
  | 27 => ⟨S524288, .i32⟩
  | 28 => ⟨S524288, .i32⟩
  | 29 => ⟨S524288, .i32⟩
  | 30 => ⟨S524288x1, .i32⟩
  | 31 => ⟨S524288x128, .f32⟩
  | 32 => ⟨S524288x128, .f32⟩
  | 33 => ⟨S524288x128, .f32⟩
  | 34 => ⟨S_, .f32⟩
  | 35 => ⟨S16384x128, .f32⟩
  | 36 => ⟨S524288x1, .i32⟩
  | 37 => ⟨S16384x128, .f32⟩
  | 38 => ⟨S16384x128, .f32⟩
  | 39 => ⟨S16384x128, .f32⟩
  | 40 => ⟨S1x128x128, .f32⟩
  | 41 => ⟨S128x128, .f32⟩
  | 42 => ⟨S16384x128, .f32⟩
  | 43 => ⟨S1x128, .f32⟩
  | 44 => ⟨S128, .f32⟩
  | 45 => ⟨S1x128, .f32⟩
  | 46 => ⟨S16384x128, .f32⟩
  | 47 => ⟨S16384x128, .f32⟩
  | 48 => ⟨S1x128x128, .f32⟩
  | 49 => ⟨S128x128, .f32⟩
  | 50 => ⟨S16384x128, .f32⟩
  | 51 => ⟨S1x128, .f32⟩
  | 52 => ⟨S128, .f32⟩
  | 53 => ⟨S1x128, .f32⟩
  | 54 => ⟨S16384x128, .f32⟩
  | 55 => ⟨S16384x128, .f32⟩
  | 56 => ⟨S_, .f32⟩
  | 57 => ⟨S16384x128, .f32⟩
  | 58 => ⟨S16384x128, .f32⟩
  | 59 => ⟨S16384x128, .f32⟩
  | 60 => ⟨S16384x128, .f32⟩
  | 61 => ⟨S_, .f32⟩
  | 62 => ⟨S16384x128, .f32⟩
  | 63 => ⟨S16384x128, .f32⟩
  | 64 => ⟨S_, .f32⟩
  | 65 => ⟨S16384x128, .f32⟩
  | 66 => ⟨S16384x128, .f32⟩
  | 67 => ⟨S_, .f32⟩
  | 68 => ⟨S16384x128, .f32⟩
  | 69 => ⟨S16384x128, .f32⟩
  | 70 => ⟨S_, .f32⟩
  | 71 => ⟨S16384x128, .f32⟩
  | 72 => ⟨S16384x128, .i1⟩
  | 73 => ⟨S_, .f32⟩
  | 74 => ⟨S16384x128, .f32⟩
  | 75 => ⟨S16384x128, .f32⟩
  | 76 => ⟨S16384x128, .f32⟩
  | 77 => ⟨S16384x128, .f32⟩
  | 78 => ⟨S16384x128, .f32⟩
  | 79 => ⟨S_, .f32⟩
  | 80 => ⟨S16384, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S16384x128, .f32⟩
  | 87 => ⟨S16384x128, .f32⟩
  | 88 => ⟨S16384x512, .f32⟩
  | _ => ⟨S16384x16384, .f32⟩

abbrev hbmTy (i : Nat) : BufTy := match i / 128 with
  | 0 => hbmTy0_0 i
  | 1 => hbmTy0_1 i
  | _ => ⟨S16384x16384, .f32⟩

abbrev bufTy : (tb : Table) → Fin (tcTables nBuf tb) → BufTy
  | .hbm, ⟨i, _⟩ => hbmTy i
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_8 : Ref sig .tc := ⟨.hbm, 84, rfl⟩
abbrev main_v60 : Ref sig .tc := ⟨.hbm, 85, rfl⟩
abbrev main_v61 : Ref sig .tc := ⟨.hbm, 86, rfl⟩
abbrev main_c_9 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_10 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_11 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_12 : Ref sig .tc := ⟨.hbm, 122, rfl⟩
abbrev main_v94 : Ref sig .tc := ⟨.hbm, 123, rfl⟩
abbrev main_v95 : Ref sig .tc := ⟨.hbm, 124, rfl⟩
abbrev main_cst_13 : Ref sig .tc := ⟨.hbm, 125, rfl⟩
abbrev main_v96 : Ref sig .tc := ⟨.hbm, 126, rfl⟩
abbrev main_v97 : Ref sig .tc := ⟨.hbm, 127, rfl⟩
abbrev main_cst_14 : Ref sig .tc := ⟨.hbm, 128, rfl⟩
abbrev main_v98 : Ref sig .tc := ⟨.hbm, 129, rfl⟩
abbrev main_v99 : Ref sig .tc := ⟨.hbm, 130, rfl⟩
abbrev main_call1_cst : Ref sig .tc := ⟨.hbm, 131, rfl⟩
abbrev main_call1_v0 : Ref sig .tc := ⟨.hbm, 132, rfl⟩
abbrev main_call1_v1 : Ref sig .tc := ⟨.hbm, 133, rfl⟩
abbrev main_call1_cst_0 : Ref sig .tc := ⟨.hbm, 134, rfl⟩
abbrev main_call1_v2 : Ref sig .tc := ⟨.hbm, 135, rfl⟩
abbrev main_call1_v3 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_15 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_16 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_17 : Ref sig .tc := ⟨.hbm, 151, rfl⟩
abbrev main_v112 : Ref sig .tc := ⟨.hbm, 152, rfl⟩
abbrev main_v113 : Ref sig .tc := ⟨.hbm, 153, rfl⟩
abbrev main_c_18 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_19 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_20 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_21 : Ref sig .tc := ⟨.hbm, 189, rfl⟩
abbrev main_v146 : Ref sig .tc := ⟨.hbm, 190, rfl⟩
abbrev main_v147 : Ref sig .tc := ⟨.hbm, 191, rfl⟩
abbrev main_cst_22 : Ref sig .tc := ⟨.hbm, 192, rfl⟩
abbrev main_v148 : Ref sig .tc := ⟨.hbm, 193, rfl⟩
abbrev main_v149 : Ref sig .tc := ⟨.hbm, 194, rfl⟩
abbrev main_cst_23 : Ref sig .tc := ⟨.hbm, 195, rfl⟩
abbrev main_v150 : Ref sig .tc := ⟨.hbm, 196, rfl⟩
abbrev main_v151 : Ref sig .tc := ⟨.hbm, 197, rfl⟩
abbrev main_call2_cst : Ref sig .tc := ⟨.hbm, 198, rfl⟩
abbrev main_call2_v0 : Ref sig .tc := ⟨.hbm, 199, rfl⟩
abbrev main_call2_v1 : Ref sig .tc := ⟨.hbm, 200, rfl⟩
abbrev main_call2_cst_0 : Ref sig .tc := ⟨.hbm, 201, rfl⟩
abbrev main_call2_v2 : Ref sig .tc := ⟨.hbm, 202, rfl⟩
abbrev main_call2_v3 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_24 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_cst_25 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x128 : S_.BroadcastsInDim S16384x128 (![] : Fin 0 → Fin S16384x128.rank)
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x128_0_1 : S524288x1.BroadcastsInDim S524288x128 (![0, 1] : Fin 2 → Fin S524288x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S16384x128_S16384x128_S16384x128_S16384x128_S16384x512_d1 : Shape.Concatenates [S16384x128, S16384x128, S16384x128, S16384x128] S16384x512 1
  dot_S16384x16384_S16384x128_S16384x128_1_0_0_1_n_n_wf : DotDims.WF S16384x16384 S16384x128 S16384x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S16384x128_S128x128_S16384x128_1_1_0_0_n_n_wf : DotDims.WF S16384x128 S128x128 S16384x128 [1] [1] [0] [0] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S16384x128_S128x128_S16384x128_1_1_0_0_n_n : DotDims S16384x128 S128x128 S16384x128 where
  lhsContracting := [1]
  rhsContracting := [1]
  lhsNonContracting := [0]
  rhsNonContracting := [0]
  lhsBatch := []
  rhsBatch := []
  wf := dot_S16384x128_S128x128_S16384x128_1_1_0_0_n_n_wf

class Facts : Prop extends Facts₀ where

variable [Facts]
-- ==== Proof.K.Matmul0Runs.lean ====
/-
  The blocked product of one layer, `A · pre` with `A : [16384, 16384]` and `pre : [16384, 128]`, as region 0 runs it: the
  grid is 8 × 16, point `t` = (row block `t / 16`, contraction block `t % 16`); at a point the body adds the product of the
  [2048, 1024] block of `A` and the [1024, 128] block of `pre` to an accumulator it keeps in a scratch buffer between
  points — cleared at the first contraction block of a row block, copied to the output block at the last one.
  This module holds what the three control cases share: the windows' blocks read off the arrays as the region finds
  them, the two branch conditions decided over the grid (first contraction block: `t % 16 = 0`; last: `t % 16 = 15`),
  where the output window is idle (everywhere but the last contraction block), the memrefs the body is called with,
  and the scoped rest split at the accumulator.
-/
import proofs.«119509_j83949430767932_1_alg».proof.Proof.Gen.Kernel.Launch
import proofs.«119509_j83949430767932_1_alg».proof.Proof.Gen.Kernel.Skeleton
import proofs.«119509_j83949430767932_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `A` sits in its staging buffer at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The block of `pre` sits in its staging buffer at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- "This is the first contraction block": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last contraction block": the body's second conditional. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first contraction block the output window is idle: nothing is stored into it, -/
theorem idleAt0_2_A : ∀ t : Fin cfg0.N, cond0_0 (grid0.coords t) → ¬cond0_1 (grid0.coords t) → cfg0.idle 2 (grid0.coords t) = true := by decide +kernel
/-- and its block is not written back. -/
theorem noFlush0_2_A : ∀ t : Fin cfg0.N, cond0_0 (grid0.coords t) → ¬cond0_1 (grid0.coords t) → (cfg0.win 2).flush t = false := by decide +kernel
/-- The same at a middle contraction block. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a last contraction block the output window is live: the accumulator is copied into it. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S2048x128 .f32 := (Memref.whole cc0_stg2_0 : Memref sig .tc .vmem S2048x128 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S2048x128 .f32 := Memref.whole cc0_scratch0
abbrev VS0_0 : View sig .tc .vmem S2048x128 .f32 := scM0_0.view

/-- The scoped buffers no window stages, but for the accumulator: what the body never touches. -/
abbrev restBut0 (c : Dev nD) : sProp 𝕄 :=
  Pipeline.scopedRestBut (Ix := Unit) (Name := ℕ) (U := UR sig nD τ) (Lvl := ℕ) (Val := Elt F) spec0 c [cc0_scratch0]

/-- The class invariant with the accumulator as a memref owned at some contents. -/
theorem PhiA0_eq (c : Dev nD) :
    (Pipeline.ΦA spec0 c : sProp 𝕄)
      = iprop(iprop(iprop((∃ d, owns (c : Thread nD τ) scM0_0 fullShare d)) ∗ restBut0 (F := F) c) ∗ (∃ r, prngReg c r)) := by
  unfold Pipeline.ΦA; rw [scopedRest0_split]; simp only [scM0_0, owns_whole]; try rfl

end Cert.Kernel.Hand

end
-- ==== Proof.K.Matmul0RunA.lean ====
/-
  Region 0's body run whole in one of its three control cases; the stores each buffer ends with are found by the run.
-/
import proofs.«119509_j83949430767932_1_alg».proof.Proof.K.Matmul0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a FIRST contraction block (the first conditional taken, the second not): the accumulator, found at anything, is cleared and then
    holds the block product added to zero; the output window's buffer is handed back untouched. -/
noncomputable def kernelRun0_A (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1024 .f32) (x1 : Vec F S1024x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_matmul_kernel i arg2 harg2 arg3 harg3 arg4 harg4 arg5 harg5) K } := by
  refine ⟨[], ?_, fun xi2 E K => ?run⟩
  case run =>
    simp only [cc0_matmul_kernel_eq_skeleton]; unfold cc0_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Matmul0RunB.lean ====
/-
  Region 0's body run whole in one of its three control cases; the stores each buffer ends with are found by the run.
-/
import proofs.«119509_j83949430767932_1_alg».proof.Proof.K.Matmul0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a MIDDLE contraction block (neither conditional taken): the accumulator, found at what the point before left (`xs0`),
    ends at that plus the block product; the output window's buffer is handed back untouched. -/
noncomputable def kernelRun0_B (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_matmul_kernel i arg2 harg2 arg3 harg3 arg4 harg4 arg5 harg5) K } := by
  refine ⟨[], ?_, fun xi2 E K => ?run⟩
  case run =>
    simp only [cc0_matmul_kernel_eq_skeleton]; unfold cc0_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Matmul0RunC.lean ====
/-
  Region 0's body run whole in one of its three control cases; the stores each buffer ends with are found by the run.
-/
import proofs.«119509_j83949430767932_1_alg».proof.Proof.K.Matmul0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a LAST contraction block (the first conditional not taken, the second taken): the accumulator, found at what the point
    before left (`xs0`), ends at that plus the block product, and that sum is stored whole into the output window's buffer. -/
noncomputable def kernelRun0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_matmul_kernel i arg2 harg2 arg3 harg3 arg4 harg4 arg5 harg5) K } := by
  refine ⟨?_, ?_, fun E K => ?run⟩
  case run =>
    simp only [cc0_matmul_kernel_eq_skeleton]; unfold cc0_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Matmul0.lean ====
/-
  Region 0, the blocked product `A · pre`: what the output window's buffer and the accumulator hold after every point
  (`outsAt0`: by recursion on the point — cleared and one block product at a first contraction block, the previous
  contents plus one block product afterwards, the output a copy of the accumulator at a last contraction block), the
  invariant that carries the accumulator from point to point, the proof data and the body obligation.
-/
import proofs.«119509_j83949430767932_1_alg».proof.Proof.K.Matmul0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first contraction block stores nothing into the output window (a placeholder nothing consults). -/
def out0_A_2 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1024 .f32) (x1 : Vec F S1024x128 .f32) : Vec F S2048x128 .f32 :=
  VO0_2.read (Elt F) (VO0_2.writes (Elt F) VO0_2.junk (kernelRun0_A c i arg2 harg2 arg3 harg3 arg4 harg4 arg5 harg5 hc0 hc1 x0 x1).1)

/-- Its stores into the accumulator cover it. -/
theorem scover0_A_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1024 .f32) (x1 : Vec F S1024x128 .f32) (y : S2048x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x128.size (by sl_kernel_rfl) y

/-- What it leaves in the accumulator. -/
def sout0_A_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1024 .f32) (x1 : Vec F S1024x128 .f32) : Vec F S2048x128 .f32 :=
  VS0_0.read (Elt F) (VS0_0.writes (Elt F) VS0_0.junk (kernelRun0_A c i arg2 harg2 arg3 harg3 arg4 harg4 arg5 harg5 hc0 hc1 x0 x1).2.1)

/-- A middle contraction block stores nothing into the output window. -/
def out0_B_2 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1024 .f32) (x1 : Vec F S1024x128 .f32) (xs0 : Vec F S2048x128 .f32) : Vec F S2048x128 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1024 .f32) (x1 : Vec F S1024x128 .f32) (xs0 : Vec F S2048x128 .f32) (y : S2048x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x128.size (by sl_kernel_rfl) y

def sout0_B_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1024 .f32) (x1 : Vec F S1024x128 .f32) (xs0 : Vec F S2048x128 .f32) : Vec F S2048x128 .f32 :=
  VS0_0.read (Elt F) (VS0_0.writes (Elt F) VS0_0.junk (kernelRun0_B c i arg2 harg2 arg3 harg3 arg4 harg4 arg5 harg5 hc0 hc1 x0 x1 xs0).2.1)

/-- A last contraction block's one store covers the output window's buffer. -/
theorem cover0_C_2 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1024 .f32) (x1 : Vec F S1024x128 .f32) (xs0 : Vec F S2048x128 .f32) (y : S2048x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x128.size (by sl_kernel_rfl) y

def out0_C_2 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1024 .f32) (x1 : Vec F S1024x128 .f32) (xs0 : Vec F S2048x128 .f32) : Vec F S2048x128 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1024 .f32) (x1 : Vec F S1024x128 .f32) (xs0 : Vec F S2048x128 .f32) (y : S2048x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x128.size (by sl_kernel_rfl) y

def sout0_C_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1024 .f32) (x1 : Vec F S1024x128 .f32) (xs0 : Vec F S2048x128 .f32) : Vec F S2048x128 .f32 :=
  VS0_0.read (Elt F) (VS0_0.writes (Elt F) VS0_0.junk (kernelRun0_C c i arg2 harg2 arg3 harg3 arg4 harg4 arg5 harg5 hc0 hc1 x0 x1 xs0).2.1)

/-! ## What the output window's buffer and the accumulator hold after each point -/

/-- THE ACCUMULATION: (the output window's buffer, the accumulator) after the body at position `n`. -/
def outsAt0 (c : Dev nD) : (n : ℕ) → n < cfg0.N → Vec F S2048x128 .f32 × Vec F S2048x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer no window stages at
    anything, the generator register at some state); afterwards the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restBut0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; the
    invariant hands the body the accumulator at what the point before left (at anything at the very first point) and
    takes it back at this point's contents; the untouched scoped buffers, the generator register and the core's
    `owes` pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · by_cases h1 : t.val % 16 = 15
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun e => h0 (by rw [e])
    by_cases h1 : t.val % 16 = 15
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Cert.Kernel.Hand

end
-- ==== Proof.K.Matmul2Runs.lean ====
/-
  The blocked product of one layer, `A · pre` with `A : [16384, 16384]` and `pre : [16384, 128]`, as region 2 runs it: the
  grid is 8 × 16, point `t` = (row block `t / 16`, contraction block `t % 16`); at a point the body adds the product of the
  [2048, 1024] block of `A` and the [1024, 128] block of `pre` to an accumulator it keeps in a scratch buffer between
  points — cleared at the first contraction block of a row block, copied to the output block at the last one.
  This module holds what the three control cases share: the windows' blocks read off the arrays as the region finds
  them, the two branch conditions decided over the grid (first contraction block: `t % 16 = 0`; last: `t % 16 = 15`),
  where the output window is idle (everywhere but the last contraction block), the memrefs the body is called with,
  and the scoped rest split at the accumulator.
-/
import proofs.«119509_j83949430767932_1_alg».proof.Proof.Gen.Kernel.Launch
import proofs.«119509_j83949430767932_1_alg».proof.Proof.Gen.Kernel.Skeleton
import proofs.«119509_j83949430767932_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of `A` sits in its staging buffer at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The block of `pre` sits in its staging buffer at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- "This is the first contraction block": the body's first conditional, from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 16). -/
theorem hcond2_0 : ∀ t : Fin cfg2.N, cond2_0 (grid2.coords t) ↔ t.val % 16 = 0 :=
  (by decide +kernel : ∀ t : Fin grid2.N, cond2_0 (grid2.coords t) ↔ t.val % 16 = 0)

/-- "This is the last contraction block": the body's second conditional. -/
abbrev cond2_1 (i : grid2.Coords) : Prop := k2_cond2 i = 1#1
/-- It holds at the points ≡ 15 (mod 16). -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At a first contraction block the output window is idle: nothing is stored into it, -/
theorem idleAt2_2_A : ∀ t : Fin cfg2.N, cond2_0 (grid2.coords t) → ¬cond2_1 (grid2.coords t) → cfg2.idle 2 (grid2.coords t) = true := by decide +kernel
/-- and its block is not written back. -/
theorem noFlush2_2_A : ∀ t : Fin cfg2.N, cond2_0 (grid2.coords t) → ¬cond2_1 (grid2.coords t) → (cfg2.win 2).flush t = false := by decide +kernel
/-- The same at a middle contraction block. -/
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At a last contraction block the output window is live: the accumulator is copied into it. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S2048x128 .f32 := (Memref.whole cc2_stg2_0 : Memref sig .tc .vmem S2048x128 .f32).view
abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S2048x128 .f32 := Memref.whole cc2_scratch0
abbrev VS2_0 : View sig .tc .vmem S2048x128 .f32 := scM2_0.view

/-- The scoped buffers no window stages, but for the accumulator: what the body never touches. -/
abbrev restBut2 (c : Dev nD) : sProp 𝕄 :=
  Pipeline.scopedRestBut (Ix := Unit) (Name := ℕ) (U := UR sig nD τ) (Lvl := ℕ) (Val := Elt F) spec2 c [cc2_scratch0]

/-- The class invariant with the accumulator as a memref owned at some contents. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_split]; simp only [scM2_0, owns_whole]; try rfl

end Cert.Kernel.Hand

end
-- ==== Proof.K.Matmul2RunA.lean ====
/-
  Region 2's body run whole in one of its three control cases; the stores each buffer ends with are found by the run.
-/
import proofs.«119509_j83949430767932_1_alg».proof.Proof.K.Matmul2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a FIRST contraction block (the first conditional taken, the second not): the accumulator, found at anything, is cleared and then
    holds the block product added to zero; the output window's buffer is handed back untouched. -/
noncomputable def kernelRun2_A (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S1024x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_matmul_kernel i arg2 harg2 arg3 harg3 arg4 harg4 arg5 harg5) K } := by
  refine ⟨[], ?_, fun xi2 E K => ?run⟩
  case run =>
    simp only [cc2_matmul_kernel_eq_skeleton]; unfold cc2_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Matmul2RunB.lean ====
/-
  Region 2's body run whole in one of its three control cases; the stores each buffer ends with are found by the run.
-/
import proofs.«119509_j83949430767932_1_alg».proof.Proof.K.Matmul2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a MIDDLE contraction block (neither conditional taken): the accumulator, found at what the point before left (`xs0`),
    ends at that plus the block product; the output window's buffer is handed back untouched. -/
noncomputable def kernelRun2_B (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_matmul_kernel i arg2 harg2 arg3 harg3 arg4 harg4 arg5 harg5) K } := by
  refine ⟨[], ?_, fun xi2 E K => ?run⟩
  case run =>
    simp only [cc2_matmul_kernel_eq_skeleton]; unfold cc2_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Matmul2RunC.lean ====
/-
  Region 2's body run whole in one of its three control cases; the stores each buffer ends with are found by the run.
-/
import proofs.«119509_j83949430767932_1_alg».proof.Proof.K.Matmul2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a LAST contraction block (the first conditional not taken, the second taken): the accumulator, found at what the point
    before left (`xs0`), ends at that plus the block product, and that sum is stored whole into the output window's buffer. -/
noncomputable def kernelRun2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2_matmul_kernel i arg2 harg2 arg3 harg3 arg4 harg4 arg5 harg5) K } := by
  refine ⟨?_, ?_, fun E K => ?run⟩
  case run =>
    simp only [cc2_matmul_kernel_eq_skeleton]; unfold cc2_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Matmul2.lean ====
/-
  Region 2, the blocked product `A · pre`: what the output window's buffer and the accumulator hold after every point
  (`outsAt2`: by recursion on the point — cleared and one block product at a first contraction block, the previous
  contents plus one block product afterwards, the output a copy of the accumulator at a last contraction block), the
  invariant that carries the accumulator from point to point, the proof data and the body obligation.
-/
import proofs.«119509_j83949430767932_1_alg».proof.Proof.K.Matmul2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first contraction block stores nothing into the output window (a placeholder nothing consults). -/
def out2_A_2 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S1024x128 .f32) : Vec F S2048x128 .f32 :=
  VO2_2.read (Elt F) (VO2_2.writes (Elt F) VO2_2.junk (kernelRun2_A c i arg2 harg2 arg3 harg3 arg4 harg4 arg5 harg5 hc0 hc1 x0 x1).1)

/-- Its stores into the accumulator cover it. -/
theorem scover2_A_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S1024x128 .f32) (y : S2048x128.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S2048x128.size (by sl_kernel_rfl) y

/-- What it leaves in the accumulator. -/
def sout2_A_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S1024x128 .f32) : Vec F S2048x128 .f32 :=
  VS2_0.read (Elt F) (VS2_0.writes (Elt F) VS2_0.junk (kernelRun2_A c i arg2 harg2 arg3 harg3 arg4 harg4 arg5 harg5 hc0 hc1 x0 x1).2.1)

/-- A middle contraction block stores nothing into the output window. -/
def out2_B_2 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S1024x128 .f32) (xs0 : Vec F S2048x128 .f32) : Vec F S2048x128 .f32 :=
  VO2_2.read (Elt F) (VO2_2.writes (Elt F) VO2_2.junk (kernelRun2_B c i arg2 harg2 arg3 harg3 arg4 harg4 arg5 harg5 hc0 hc1 x0 x1 xs0).1)

theorem scover2_B_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S1024x128 .f32) (xs0 : Vec F S2048x128 .f32) (y : S2048x128.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S2048x128.size (by sl_kernel_rfl) y

def sout2_B_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S1024x128 .f32) (xs0 : Vec F S2048x128 .f32) : Vec F S2048x128 .f32 :=
  VS2_0.read (Elt F) (VS2_0.writes (Elt F) VS2_0.junk (kernelRun2_B c i arg2 harg2 arg3 harg3 arg4 harg4 arg5 harg5 hc0 hc1 x0 x1 xs0).2.1)

/-- A last contraction block's one store covers the output window's buffer. -/
theorem cover2_C_2 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S1024x128 .f32) (xs0 : Vec F S2048x128 .f32) (y : S2048x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S2048x128.size (by sl_kernel_rfl) y

def out2_C_2 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S1024x128 .f32) (xs0 : Vec F S2048x128 .f32) : Vec F S2048x128 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S1024x128 .f32) (xs0 : Vec F S2048x128 .f32) (y : S2048x128.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S2048x128.size (by sl_kernel_rfl) y

def sout2_C_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S1024x128 .f32) (xs0 : Vec F S2048x128 .f32) : Vec F S2048x128 .f32 :=
  VS2_0.read (Elt F) (VS2_0.writes (Elt F) VS2_0.junk (kernelRun2_C c i arg2 harg2 arg3 harg3 arg4 harg4 arg5 harg5 hc0 hc1 x0 x1 xs0).2.1)

/-! ## What the output window's buffer and the accumulator hold after each point -/

/-- THE ACCUMULATION: (the output window's buffer, the accumulator) after the body at position `n`. -/
def outsAt2 (c : Dev nD) : (n : ℕ) → n < cfg2.N → Vec F S2048x128 .f32 × Vec F S2048x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 16 = 0 then
      if h1 : (n + 1) % 16 = 15 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 16 = 15 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer no window stages at
    anything, the generator register at some state); afterwards the accumulator at what the point before left in it. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ restBut2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 (F := F) c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; the
    invariant hands the body the accumulator at what the point before left (at anything at the very first point) and
    takes it back at this point's contents; the untouched scoped buffers, the generator register and the core's
    `owes` pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 16 = 0
  · by_cases h1 : t.val % 16 = 15
    · exfalso; omega
    · rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun e => h0 (by rw [e])
    by_cases h1 : t.val % 16 = 15
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

end Cert.Kernel.Hand

end
-- ==== Proof.K.Matmul4Runs.lean ====
/-
  The blocked product of one layer, `A · pre` with `A : [16384, 16384]` and `pre : [16384, 128]`, as region 4 runs it: the
  grid is 8 × 16, point `t` = (row block `t / 16`, contraction block `t % 16`); at a point the body adds the product of the
  [2048, 1024] block of `A` and the [1024, 128] block of `pre` to an accumulator it keeps in a scratch buffer between
  points — cleared at the first contraction block of a row block, copied to the output block at the last one.
  This module holds what the three control cases share: the windows' blocks read off the arrays as the region finds
  them, the two branch conditions decided over the grid (first contraction block: `t % 16 = 0`; last: `t % 16 = 15`),
  where the output window is idle (everywhere but the last contraction block), the memrefs the body is called with,
  and the scoped rest split at the accumulator.
-/
import proofs.«119509_j83949430767932_1_alg».proof.Proof.Gen.Kernel.Launch
import proofs.«119509_j83949430767932_1_alg».proof.Proof.Gen.Kernel.Skeleton
import proofs.«119509_j83949430767932_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of `A` sits in its staging buffer at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The block of `pre` sits in its staging buffer at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- "This is the first contraction block": the body's first conditional, from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 16). -/
theorem hcond4_0 : ∀ t : Fin cfg4.N, cond4_0 (grid4.coords t) ↔ t.val % 16 = 0 :=
  (by decide +kernel : ∀ t : Fin grid4.N, cond4_0 (grid4.coords t) ↔ t.val % 16 = 0)

/-- "This is the last contraction block": the body's second conditional. -/
abbrev cond4_1 (i : grid4.Coords) : Prop := k4_cond2 i = 1#1
/-- It holds at the points ≡ 15 (mod 16). -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- At a first contraction block the output window is idle: nothing is stored into it, -/
theorem idleAt4_2_A : ∀ t : Fin cfg4.N, cond4_0 (grid4.coords t) → ¬cond4_1 (grid4.coords t) → cfg4.idle 2 (grid4.coords t) = true := by decide +kernel
/-- and its block is not written back. -/
theorem noFlush4_2_A : ∀ t : Fin cfg4.N, cond4_0 (grid4.coords t) → ¬cond4_1 (grid4.coords t) → (cfg4.win 2).flush t = false := by decide +kernel
/-- The same at a middle contraction block. -/
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
/-- At a last contraction block the output window is live: the accumulator is copied into it. -/
theorem liveAt4_2_C : ∀ t : Fin cfg4.N, ¬cond4_0 (grid4.coords t) → cond4_1 (grid4.coords t) → cfg4.idle 2 (grid4.coords t) = false := by decide +kernel

/-! ## The memrefs the body is called with -/

/-- One staging buffer of the output window, through which its contents are stated. -/
abbrev VO4_2 : View sig .tc .vmem S2048x128 .f32 := (Memref.whole cc4_stg2_0 : Memref sig .tc .vmem S2048x128 .f32).view
abbrev ms4_0 (t : Fin cfg4.N) : Memref sig .tc .vmem S2048x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x128 .f32 := win4_2.stage (cfg4.slots t 2)
abbrev hs4_2 (t : Fin cfg4.N) : (ms4_2 t).IsWhole := hstage4_2 ((cfg4.slots t 2).cast nbuf4_2)
/-- The accumulator: a whole scoped buffer of the kernel's own. -/
abbrev scM4_0 : Memref sig .tc .vmem S2048x128 .f32 := Memref.whole cc4_scratch0
abbrev VS4_0 : View sig .tc .vmem S2048x128 .f32 := scM4_0.view

/-- The scoped buffers no window stages, but for the accumulator: what the body never touches. -/
abbrev restBut4 (c : Dev nD) : sProp 𝕄 :=
  Pipeline.scopedRestBut (Ix := Unit) (Name := ℕ) (U := UR sig nD τ) (Lvl := ℕ) (Val := Elt F) spec4 c [cc4_scratch0]

/-- The class invariant with the accumulator as a memref owned at some contents. -/
theorem PhiA4_eq (c : Dev nD) :
    (Pipeline.ΦA spec4 c : sProp 𝕄)
      = iprop(iprop(iprop((∃ d, owns (c : Thread nD τ) scM4_0 fullShare d)) ∗ restBut4 (F := F) c) ∗ (∃ r, prngReg c r)) := by
  unfold Pipeline.ΦA; rw [scopedRest4_split]; simp only [scM4_0, owns_whole]; try rfl

end Cert.Kernel.Hand

end
-- ==== Proof.K.Matmul4RunA.lean ====
/-
  Region 4's body run whole in one of its three control cases; the stores each buffer ends with are found by the run.
-/
import proofs.«119509_j83949430767932_1_alg».proof.Proof.K.Matmul4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a FIRST contraction block (the first conditional taken, the second not): the accumulator, found at anything, is cleared and then
    holds the block product added to zero; the output window's buffer is handed back untouched. -/
noncomputable def kernelRun4_A (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond4_0 i) (hc1 : ¬cond4_1 i)
    (x0 : Vec F S2048x1024 .f32) (x1 : Vec F S1024x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_matmul_kernel i arg2 harg2 arg3 harg3 arg4 harg4 arg5 harg5) K } := by
  refine ⟨[], ?_, fun xi2 E K => ?run⟩
  case run =>
    simp only [cc4_matmul_kernel_eq_skeleton]; unfold cc4_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Matmul4RunB.lean ====
/-
  Region 4's body run whole in one of its three control cases; the stores each buffer ends with are found by the run.
-/
import proofs.«119509_j83949430767932_1_alg».proof.Proof.K.Matmul4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a MIDDLE contraction block (neither conditional taken): the accumulator, found at what the point before left (`xs0`),
    ends at that plus the block product; the output window's buffer is handed back untouched. -/
noncomputable def kernelRun4_B (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : ¬cond4_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_matmul_kernel i arg2 harg2 arg3 harg3 arg4 harg4 arg5 harg5) K } := by
  refine ⟨[], ?_, fun xi2 E K => ?run⟩
  case run =>
    simp only [cc4_matmul_kernel_eq_skeleton]; unfold cc4_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Matmul4RunC.lean ====
/-
  Region 4's body run whole in one of its three control cases; the stores each buffer ends with are found by the run.
-/
import proofs.«119509_j83949430767932_1_alg».proof.Proof.K.Matmul4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a LAST contraction block (the first conditional not taken, the second taken): the accumulator, found at what the point
    before left (`xs0`), ends at that plus the block product, and that sum is stored whole into the output window's buffer. -/
noncomputable def kernelRun4_C (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : cond4_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4_matmul_kernel i arg2 harg2 arg3 harg3 arg4 harg4 arg5 harg5) K } := by
  refine ⟨?_, ?_, fun E K => ?run⟩
  case run =>
    simp only [cc4_matmul_kernel_eq_skeleton]; unfold cc4_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Matmul4.lean ====
/-
  Region 4, the blocked product `A · pre`: what the output window's buffer and the accumulator hold after every point
  (`outsAt4`: by recursion on the point — cleared and one block product at a first contraction block, the previous
  contents plus one block product afterwards, the output a copy of the accumulator at a last contraction block), the
  invariant that carries the accumulator from point to point, the proof data and the body obligation.
-/
import proofs.«119509_j83949430767932_1_alg».proof.Proof.K.Matmul4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first contraction block stores nothing into the output window (a placeholder nothing consults). -/
def out4_A_2 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond4_0 i) (hc1 : ¬cond4_1 i)
    (x0 : Vec F S2048x1024 .f32) (x1 : Vec F S1024x128 .f32) : Vec F S2048x128 .f32 :=
  VO4_2.read (Elt F) (VO4_2.writes (Elt F) VO4_2.junk (kernelRun4_A c i arg2 harg2 arg3 harg3 arg4 harg4 arg5 harg5 hc0 hc1 x0 x1).1)

/-- Its stores into the accumulator cover it. -/
theorem scover4_A_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond4_0 i) (hc1 : ¬cond4_1 i)
    (x0 : Vec F S2048x1024 .f32) (x1 : Vec F S1024x128 .f32) (y : S2048x128.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S2048x128.size (by sl_kernel_rfl) y

/-- What it leaves in the accumulator. -/
def sout4_A_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond4_0 i) (hc1 : ¬cond4_1 i)
    (x0 : Vec F S2048x1024 .f32) (x1 : Vec F S1024x128 .f32) : Vec F S2048x128 .f32 :=
  VS4_0.read (Elt F) (VS4_0.writes (Elt F) VS4_0.junk (kernelRun4_A c i arg2 harg2 arg3 harg3 arg4 harg4 arg5 harg5 hc0 hc1 x0 x1).2.1)

/-- A middle contraction block stores nothing into the output window. -/
def out4_B_2 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : ¬cond4_1 i)
    (x0 : Vec F S2048x1024 .f32) (x1 : Vec F S1024x128 .f32) (xs0 : Vec F S2048x128 .f32) : Vec F S2048x128 .f32 :=
  VO4_2.read (Elt F) (VO4_2.writes (Elt F) VO4_2.junk (kernelRun4_B c i arg2 harg2 arg3 harg3 arg4 harg4 arg5 harg5 hc0 hc1 x0 x1 xs0).1)

theorem scover4_B_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : ¬cond4_1 i)
    (x0 : Vec F S2048x1024 .f32) (x1 : Vec F S1024x128 .f32) (xs0 : Vec F S2048x128 .f32) (y : S2048x128.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S2048x128.size (by sl_kernel_rfl) y

def sout4_B_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : ¬cond4_1 i)
    (x0 : Vec F S2048x1024 .f32) (x1 : Vec F S1024x128 .f32) (xs0 : Vec F S2048x128 .f32) : Vec F S2048x128 .f32 :=
  VS4_0.read (Elt F) (VS4_0.writes (Elt F) VS4_0.junk (kernelRun4_B c i arg2 harg2 arg3 harg3 arg4 harg4 arg5 harg5 hc0 hc1 x0 x1 xs0).2.1)

/-- A last contraction block's one store covers the output window's buffer. -/
theorem cover4_C_2 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : cond4_1 i)
    (x0 : Vec F S2048x1024 .f32) (x1 : Vec F S1024x128 .f32) (xs0 : Vec F S2048x128 .f32) (y : S2048x128.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S2048x128.size (by sl_kernel_rfl) y

def out4_C_2 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : cond4_1 i)
    (x0 : Vec F S2048x1024 .f32) (x1 : Vec F S1024x128 .f32) (xs0 : Vec F S2048x128 .f32) : Vec F S2048x128 .f32 :=
  VO4_2.read (Elt F) (VO4_2.writes (Elt F) VO4_2.junk (kernelRun4_C c i arg2 harg2 arg3 harg3 arg4 harg4 arg5 harg5 hc0 hc1 x0 x1 xs0).1)

theorem scover4_C_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : cond4_1 i)
    (x0 : Vec F S2048x1024 .f32) (x1 : Vec F S1024x128 .f32) (xs0 : Vec F S2048x128 .f32) (y : S2048x128.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S2048x128.size (by sl_kernel_rfl) y

def sout4_C_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : cond4_1 i)
    (x0 : Vec F S2048x1024 .f32) (x1 : Vec F S1024x128 .f32) (xs0 : Vec F S2048x128 .f32) : Vec F S2048x128 .f32 :=
  VS4_0.read (Elt F) (VS4_0.writes (Elt F) VS4_0.junk (kernelRun4_C c i arg2 harg2 arg3 harg3 arg4 harg4 arg5 harg5 hc0 hc1 x0 x1 xs0).2.1)

/-! ## What the output window's buffer and the accumulator hold after each point -/

/-- THE ACCUMULATION: (the output window's buffer, the accumulator) after the body at position `n`. -/
def outsAt4 (c : Dev nD) : (n : ℕ) → n < cfg4.N → Vec F S2048x128 .f32 × Vec F S2048x128 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 16 = 0 then
      if h1 : (n + 1) % 16 = 15 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 16 = 15 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 16 = 0) (h1 : ¬t.val % 16 = 15) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 16 = 0) (h1 : ¬t.val % 16 = 15) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 16 = 0) (h1 : t.val % 16 = 15) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer no window stages at
    anything, the generator register at some state); afterwards the accumulator at what the point before left in it. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ restBut4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ restBut4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ restBut4 (F := F) c) ∗ (∃ r, prngReg c r)) := by
  cases n with
  | zero => exact absurd rfl hz
  | succ n => rfl

/-! ## The pipeline's proof data -/

/-- The proof data of pipeline 4 on core `c`: the arrays as the region finds them; after the body at point `t` each
    input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in; the
    invariant hands the body the accumulator at what the point before left (at anything at the very first point) and
    takes it back at this point's contents; the untouched scoped buffers, the generator register and the core's
    `owes` pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 16 = 0
  · by_cases h1 : t.val % 16 = 15
    · exfalso; omega
    · rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hrest⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover4_A_0 c _ _ _ _ _ _ _ _ _ _ _ _ _)
            iexact Hrest
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, Hrest⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover4_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun e => h0 (by rw [e])
    by_cases h1 : t.val % 16 = 15
    · rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the accumulator's contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 128 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

end Cert.Kernel.Hand

end
-- ==== Proof.K.Layer1.lean ====
import proofs.«119509_j83949430767932_1_alg».proof.Proof.Gen.Kernel.Launch
import proofs.«119509_j83949430767932_1_alg».proof.Proof.Gen.Kernel.Skeleton
import proofs.«119509_j83949430767932_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused layer kernel of region 1: what its body leaves, and its body obligation

The pipeline of region 1 runs the layer kernel on a grid of 8 points over nine windows: three [2048,128] row
blocks of the inputs (windows 0, 1, 2), two [128,128] weights and two [1,128] biases held whole (windows 3 to 6,
their block index constant, so the pipeline fetches them at the first point only), and two [2048,128] row blocks of
the outputs (windows 7, 8), written back at every point. Everything is stated at a parameter `V`, the contents of
the core's buffers when the region is entered.

The body reads every input buffer whole, computes, and stores each output buffer whole; it also loads each output
buffer before storing it, but uses nothing of what it loaded. So what it leaves in an output buffer is a closed
function of the seven input blocks (`out1_7`, `out1_8`: the one store's payload laid over the buffer), and what
it finds in an input buffer is that window's block at the point, whether the pipeline fetched it there or not. -/

-- membership in a rectangle of these extents: the elaborator recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x128 := Rect.unit (s := S2048x128) ![0, 0] S2048x128.size inb_S2048x128_S2048x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in each output window's buffer -/

/-- Window 7's buffer after the body, from the seven input blocks: its one store, of the layer's value
    (the sum of the logistic branch and the leaky branch), over the whole buffer. -/
def out1_7 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r1_0, k1_pay2 (View.ld x0 r1_0) (View.ld x1 r1_0) (View.ld x2 r1_0) (View.ld x3 r1_1) (View.ld x5 r1_1) (View.ld x4 r1_2) (View.ld x6 r1_2)⟩]

/-- Window 8's buffer after the body: its one store, of the layer's value divided row by row by the larger of
    its row norm and a small constant, over the whole buffer. -/
def out1_8 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r1_0, k1_pay1 (k1_pay2 (View.ld x0 r1_0) (View.ld x1 r1_0) (View.ld x2 r1_0) (View.ld x3 r1_1) (View.ld x5 r1_1) (View.ld x4 r1_2) (View.ld x6 r1_2)) (k1_pay3 (View.ld x0 r1_0) (View.ld x1 r1_0) (View.ld x2 r1_0) (View.ld x3 r1_1) (View.ld x5 r1_1) (View.ld x4 r1_2) (View.ld x6 r1_2))⟩]

/-- One store of the whole shape covers it. -/
theorem cover1 (p0 : Vec F S2048x128 .f32) (y : S2048x128.Idx) :
    ∃ pc ∈ ([⟨r1_0, p0⟩] : List (View.Piece (Elt F) S2048x128 .f32)), y ∈ pc.1.set :=
  View.cover_of_tiled [⟨r1_0, p0⟩] S2048x128.size (by rfl) y

/-! ## The body's triple -/

set_option maxHeartbeats 4000000 in
/-- The kernel body on whole staging memrefs, the inputs' at read contents `xW` and the outputs' at anything, runs
    to the continuation holding the inputs' as they were and each output's at `out1_W` of the inputs'. -/
theorem sound_kernel1 (c : Dev nD) (E : Set ℕ) (i : grid1.Coords) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole)
    (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6) ∗ owns (c : Thread nD τ) arg8 fullShare (out1_8 x0 x1 x2 x3 x4 x5 x6)) -∗ K ⟨⟩))
      ⊢ wp frame (wpE (defs₀ (F := F)) Variants.none c none) E (cc1_layer_kernel i arg0 harg0 arg1 harg1 arg2 harg2 arg3 harg3 arg4 harg4 arg5 harg5 arg6 harg6 arg7 harg7 arg8 harg8) K := by
  simp only [cc1_layer_kernel_eq_skeleton]; unfold cc1_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1 _)
  iexists _; isplitr
  swap; · iexact H8
  ipureintro
  exact View.read_writes_eq_canon _ _ _ (cover1 _)

/-! ## The pipeline's proof data -/

/-- The proof data of pipeline 1 on core `c`: the arrays as the region finds them (`V`); after the body at
    point `t` each input's buffer at its block and each output's at `out1_W` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand
-- ==== Proof.K.Layer3.lean ====
import proofs.«119509_j83949430767932_1_alg».proof.Proof.Gen.Kernel.Launch
import proofs.«119509_j83949430767932_1_alg».proof.Proof.Gen.Kernel.Skeleton
import proofs.«119509_j83949430767932_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused layer kernel of region 3: what its body leaves, and its body obligation

The pipeline of region 3 runs the layer kernel on a grid of 8 points over nine windows: three [2048,128] row
blocks of the inputs (windows 0, 1, 2), two [128,128] weights and two [1,128] biases held whole (windows 3 to 6,
their block index constant, so the pipeline fetches them at the first point only), and two [2048,128] row blocks of
the outputs (windows 7, 8), written back at every point. Everything is stated at a parameter `V`, the contents of
the core's buffers when the region is entered.

The body reads every input buffer whole, computes, and stores each output buffer whole; it also loads each output
buffer before storing it, but uses nothing of what it loaded. So what it leaves in an output buffer is a closed
function of the seven input blocks (`out3_7`, `out3_8`: the one store's payload laid over the buffer), and what
it finds in an input buffer is that window's block at the point, whether the pipeline fetched it there or not. -/

-- membership in a rectangle of these extents: the elaborator recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2048x128 := Rect.unit (s := S2048x128) ![0, 0] S2048x128.size inb_S2048x128_S2048x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in each output window's buffer -/

/-- Window 7's buffer after the body, from the seven input blocks: its one store, of the layer's value
    (the sum of the logistic branch and the leaky branch), over the whole buffer. -/
def out3_7 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r3_0, k3_pay2 (View.ld x0 r3_0) (View.ld x1 r3_0) (View.ld x2 r3_0) (View.ld x3 r3_1) (View.ld x5 r3_1) (View.ld x4 r3_2) (View.ld x6 r3_2)⟩]

/-- Window 8's buffer after the body: its one store, of the layer's value divided row by row by the larger of
    its row norm and a small constant, over the whole buffer. -/
def out3_8 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r3_0, k3_pay1 (k3_pay2 (View.ld x0 r3_0) (View.ld x1 r3_0) (View.ld x2 r3_0) (View.ld x3 r3_1) (View.ld x5 r3_1) (View.ld x4 r3_2) (View.ld x6 r3_2)) (k3_pay3 (View.ld x0 r3_0) (View.ld x1 r3_0) (View.ld x2 r3_0) (View.ld x3 r3_1) (View.ld x5 r3_1) (View.ld x4 r3_2) (View.ld x6 r3_2))⟩]

/-- One store of the whole shape covers it. -/
theorem cover3 (p0 : Vec F S2048x128 .f32) (y : S2048x128.Idx) :
    ∃ pc ∈ ([⟨r3_0, p0⟩] : List (View.Piece (Elt F) S2048x128 .f32)), y ∈ pc.1.set :=
  View.cover_of_tiled [⟨r3_0, p0⟩] S2048x128.size (by rfl) y

/-! ## The body's triple -/

set_option maxHeartbeats 4000000 in
/-- The kernel body on whole staging memrefs, the inputs' at read contents `xW` and the outputs' at anything, runs
    to the continuation holding the inputs' as they were and each output's at `out3_W` of the inputs'. -/
theorem sound_kernel3 (c : Dev nD) (E : Set ℕ) (i : grid3.Coords) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole)
    (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6) ∗ owns (c : Thread nD τ) arg8 fullShare (out3_8 x0 x1 x2 x3 x4 x5 x6)) -∗ K ⟨⟩))
      ⊢ wp frame (wpE (defs₀ (F := F)) Variants.none c none) E (cc3_layer_kernel i arg0 harg0 arg1 harg1 arg2 harg2 arg3 harg3 arg4 harg4 arg5 harg5 arg6 harg6 arg7 harg7 arg8 harg8) K := by
  simp only [cc3_layer_kernel_eq_skeleton]; unfold cc3_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover3 _)
  iexists _; isplitr
  swap; · iexact H8
  ipureintro
  exact View.read_writes_eq_canon _ _ _ (cover3 _)

/-! ## The pipeline's proof data -/

/-- The proof data of pipeline 3 on core `c`: the arrays as the region finds them (`V`); after the body at
    point `t` each input's buffer at its block and each output's at `out3_W` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
    | ⟨8, _⟩ => out3_8 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 4000000 in
/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand
-- ==== Proof.K.Layer5.lean ====
import proofs.«119509_j83949430767932_1_alg».proof.Proof.Gen.Kernel.Launch
import proofs.«119509_j83949430767932_1_alg».proof.Proof.Gen.Kernel.Skeleton
import proofs.«119509_j83949430767932_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused layer kernel of region 5: what its body leaves, and its body obligation

The pipeline of region 5 runs the layer kernel on a grid of 8 points over nine windows: three [2048,128] row
blocks of the inputs (windows 0, 1, 2), two [128,128] weights and two [1,128] biases held whole (windows 3 to 6,
their block index constant, so the pipeline fetches them at the first point only), and two [2048,128] row blocks of
the outputs (windows 7, 8), written back at every point. Everything is stated at a parameter `V`, the contents of
the core's buffers when the region is entered.

The body reads every input buffer whole, computes, and stores each output buffer whole; it also loads each output
buffer before storing it, but uses nothing of what it loaded. So what it leaves in an output buffer is a closed
function of the seven input blocks (`out5_7`, `out5_8`: the one store's payload laid over the buffer), and what
it finds in an input buffer is that window's block at the point, whether the pipeline fetched it there or not. -/

-- membership in a rectangle of these extents: the elaborator recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S2048x128 := Rect.unit (s := S2048x128) ![0, 0] S2048x128.size inb_S2048x128_S2048x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

/-! ## What the body leaves in each output window's buffer -/

/-- Window 7's buffer after the body, from the seven input blocks: its one store, of the layer's value
    (the sum of the logistic branch and the leaky branch), over the whole buffer. -/
def out5_7 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r5_0, k5_pay2 (View.ld x0 r5_0) (View.ld x1 r5_0) (View.ld x2 r5_0) (View.ld x3 r5_1) (View.ld x5 r5_1) (View.ld x4 r5_2) (View.ld x6 r5_2)⟩]

/-- Window 8's buffer after the body: its one store, of the layer's value divided row by row by the larger of
    its row norm and a small constant, over the whole buffer. -/
def out5_8 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r5_0, k5_pay1 (k5_pay2 (View.ld x0 r5_0) (View.ld x1 r5_0) (View.ld x2 r5_0) (View.ld x3 r5_1) (View.ld x5 r5_1) (View.ld x4 r5_2) (View.ld x6 r5_2)) (k5_pay3 (View.ld x0 r5_0) (View.ld x1 r5_0) (View.ld x2 r5_0) (View.ld x3 r5_1) (View.ld x5 r5_1) (View.ld x4 r5_2) (View.ld x6 r5_2))⟩]

/-- One store of the whole shape covers it. -/
theorem cover5 (p0 : Vec F S2048x128 .f32) (y : S2048x128.Idx) :
    ∃ pc ∈ ([⟨r5_0, p0⟩] : List (View.Piece (Elt F) S2048x128 .f32)), y ∈ pc.1.set :=
  View.cover_of_tiled [⟨r5_0, p0⟩] S2048x128.size (by rfl) y

/-! ## The body's triple -/

set_option maxHeartbeats 4000000 in
/-- The kernel body on whole staging memrefs, the inputs' at read contents `xW` and the outputs' at anything, runs
    to the continuation holding the inputs' as they were and each output's at `out5_W` of the inputs'. -/
theorem sound_kernel5 (c : Dev nD) (E : Set ℕ) (i : grid5.Coords) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole)
    (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out5_7 x0 x1 x2 x3 x4 x5 x6) ∗ owns (c : Thread nD τ) arg8 fullShare (out5_8 x0 x1 x2 x3 x4 x5 x6)) -∗ K ⟨⟩))
      ⊢ wp frame (wpE (defs₀ (F := F)) Variants.none c none) E (cc5_layer_kernel i arg0 harg0 arg1 harg1 arg2 harg2 arg3 harg3 arg4 harg4 arg5 harg5 arg6 harg6 arg7 harg7 arg8 harg8) K := by
  simp only [cc5_layer_kernel_eq_skeleton]; unfold cc5_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover5 _)
  iexists _; isplitr
  swap; · iexact H8
  ipureintro
  exact View.read_writes_eq_canon _ _ _ (cover5 _)

/-! ## The pipeline's proof data -/

/-- The proof data of pipeline 5 on core `c`: the arrays as the region finds them (`V`); after the body at
    point `t` each input's buffer at its block and each output's at `out5_W` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
    | ⟨8, _⟩ => out5_8 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t))

set_option maxHeartbeats 4000000 in
/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Region

end Cert.Kernel.Hand
-- ==== Proof.K.Run.lean ====
/-
  The whole program as eleven segments — five stretches of host operations and six kernel regions (per layer: the blocked
  product `A · pre`, then the fused layer) — run from the launch to the return. `WJ` is what core `c`'s buffers hold at the
  J-th boundary: a host stretch applies its operations to the contents before it; a region leaves each of its arrays at
  what its write-backs fold to and every other buffer as it found it. The run ends with every unscoped buffer at `W11`.
-/
import proofs.«119509_j83949430767932_1_alg».proof.Proof.K.Matmul0
import proofs.«119509_j83949430767932_1_alg».proof.Proof.K.Matmul2
import proofs.«119509_j83949430767932_1_alg».proof.Proof.K.Matmul4
import proofs.«119509_j83949430767932_1_alg».proof.Proof.K.Layer1
import proofs.«119509_j83949430767932_1_alg».proof.Proof.K.Layer3
import proofs.«119509_j83949430767932_1_alg».proof.Proof.K.Layer5
import proofs.«119509_j83949430767932_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- At region 2's exit: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- At region 4's exit: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- At region 5's exit: its arrays at what the pipeline leaves, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b

/-! ## The proof data family and the thread state -/

abbrev admH : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    have hPhi := hout0 (V1 m ρ) c
    unfold Pipeline.ΦA at hPhi
    iintro Hphi
    ihave H := hPhi $$ Hphi
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = (dat2 (V4 m ρ) c).Φ (Fin.last cfg2.N) from rfl]
    have hPhi := hout2 (V4 m ρ) c
    unfold Pipeline.ΦA at hPhi
    iintro Hphi
    ihave H := hPhi $$ Hphi
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. -/
def reg3 : Pipeline.RegionSeg (pcfgs (F := F)) admH (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W7`, left at `W8`. -/
def reg4 : Pipeline.RegionSeg (pcfgs (F := F)) admH (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = (dat4 (V7 m ρ) c).Φ (Fin.last cfg4.N) from rfl]
    have hPhi := hout4 (V7 m ρ) c
    unfold Pipeline.ΦA at hPhi
    iintro Hphi
    ihave H := hPhi $$ Hphi
    icases H with ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W9`, left at `W10`. -/
def reg5 : Pipeline.RegionSeg (pcfgs (F := F)) admH (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) admH (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)) ]

set_option backward.isDefEq.respectTransparency.types false in
/-- THE RUN: from any memory with zero counters every weakly fair execution of @main terminates, nothing faulting, and every
    final state has every unscoped buffer of every core at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) admH (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.Kernel.Hand

end
-- ==== Proof.K.RunKeep.lean ====
/-
  What each segment leaves untouched: a stretch of host operations leaves every buffer none of its operations writes; a
  region leaves every buffer that is not one of its output arrays (an input array it only reads, any other buffer it
  never sees).
-/
import proofs.«119509_j83949430767932_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_keep (c : Dev nD) (b : Ref sig .tc) (h : b ∉ hostOps0_W) : W1 m ρ c b = W0 m ρ c b :=
  StableHlo.after_of_writes_sub hostOps0 _ hostOps0_writes h
theorem W3_keep (c : Dev nD) (b : Ref sig .tc) (h : b ∉ hostOps1_W) : W3 m ρ c b = W2 m ρ c b :=
  StableHlo.after_of_writes_sub hostOps1 _ hostOps1_writes h
theorem W6_keep (c : Dev nD) (b : Ref sig .tc) (h : b ∉ hostOps3_W) : W6 m ρ c b = W5 m ρ c b :=
  StableHlo.after_of_writes_sub hostOps3 _ hostOps3_writes h
theorem W9_keep (c : Dev nD) (b : Ref sig .tc) (h : b ∉ hostOps5_W) : W9 m ρ c b = W8 m ρ c b :=
  StableHlo.after_of_writes_sub hostOps5 _ hostOps5_writes h
theorem W11_keep (c : Dev nD) (b : Ref sig .tc) (h : b ∉ hostOps6_W) : W11 m ρ c b = W10 m ρ c b :=
  StableHlo.after_of_writes_sub hostOps6 _ hostOps6_writes h
theorem W2_keep (c : Dev nD) (b : Ref sig .tc) (ho0 : b ≠ main_v6) : W2 m ρ c b = W1 m ρ c b := by
  by_cases hi0 : b = main_arg0
  · subst hi0; exact (W2_arr m ρ c 0).trans (((dat0 (V1 m ρ) c).arrAt_in 0 rfl _).trans (A_eq0 (V1 m ρ) c 0))
  by_cases hi1 : b = main_arg3
  · subst hi1; exact (W2_arr m ρ c 1).trans (((dat0 (V1 m ρ) c).arrAt_in 1 rfl _).trans (A_eq0 (V1 m ρ) c 1))
  exact W2_of_ne m ρ c b (fun w => by
    match w with
    | ⟨0, _⟩ => exact fun e => hi0 e.symm
    | ⟨1, _⟩ => exact fun e => hi1 e.symm
    | ⟨2, _⟩ => exact fun e => ho0 e.symm)
theorem W4_keep (c : Dev nD) (b : Ref sig .tc) (ho0 : b ≠ main_v32_0) (ho1 : b ≠ main_v32_1) : W4 m ρ c b = W3 m ρ c b := by
  by_cases hi0 : b = main_arg3
  · subst hi0; exact (W4_arr m ρ c 0).trans (((dat1 (V3 m ρ) c).arrAt_in 0 rfl _).trans (A_eq1 (V3 m ρ) c 0))
  by_cases hi1 : b = main_v6
  · subst hi1; exact (W4_arr m ρ c 1).trans (((dat1 (V3 m ρ) c).arrAt_in 1 rfl _).trans (A_eq1 (V3 m ρ) c 1))
  by_cases hi2 : b = main_v19
  · subst hi2; exact (W4_arr m ρ c 2).trans (((dat1 (V3 m ρ) c).arrAt_in 2 rfl _).trans (A_eq1 (V3 m ρ) c 2))
  by_cases hi3 : b = main_v22
  · subst hi3; exact (W4_arr m ρ c 3).trans (((dat1 (V3 m ρ) c).arrAt_in 3 rfl _).trans (A_eq1 (V3 m ρ) c 3))
  by_cases hi4 : b = main_v28
  · subst hi4; exact (W4_arr m ρ c 4).trans (((dat1 (V3 m ρ) c).arrAt_in 4 rfl _).trans (A_eq1 (V3 m ρ) c 4))
  by_cases hi5 : b = main_v25
  · subst hi5; exact (W4_arr m ρ c 5).trans (((dat1 (V3 m ρ) c).arrAt_in 5 rfl _).trans (A_eq1 (V3 m ρ) c 5))
  by_cases hi6 : b = main_v31
  · subst hi6; exact (W4_arr m ρ c 6).trans (((dat1 (V3 m ρ) c).arrAt_in 6 rfl _).trans (A_eq1 (V3 m ρ) c 6))
  exact W4_of_ne m ρ c b (fun w => by
    match w with
    | ⟨0, _⟩ => exact fun e => hi0 e.symm
    | ⟨1, _⟩ => exact fun e => hi1 e.symm
    | ⟨2, _⟩ => exact fun e => hi2 e.symm
    | ⟨3, _⟩ => exact fun e => hi3 e.symm
    | ⟨4, _⟩ => exact fun e => hi4 e.symm
    | ⟨5, _⟩ => exact fun e => hi5 e.symm
    | ⟨6, _⟩ => exact fun e => hi6 e.symm
    | ⟨7, _⟩ => exact fun e => ho0 e.symm
    | ⟨8, _⟩ => exact fun e => ho1 e.symm)
theorem W5_keep (c : Dev nD) (b : Ref sig .tc) (ho0 : b ≠ main_v33) : W5 m ρ c b = W4 m ρ c b := by
  by_cases hi0 : b = main_arg0
  · subst hi0; exact (W5_arr m ρ c 0).trans (((dat2 (V4 m ρ) c).arrAt_in 0 rfl _).trans (A_eq2 (V4 m ρ) c 0))
  by_cases hi1 : b = main_v32_0
  · subst hi1; exact (W5_arr m ρ c 1).trans (((dat2 (V4 m ρ) c).arrAt_in 1 rfl _).trans (A_eq2 (V4 m ρ) c 1))
  exact W5_of_ne m ρ c b (fun w => by
    match w with
    | ⟨0, _⟩ => exact fun e => hi0 e.symm
    | ⟨1, _⟩ => exact fun e => hi1 e.symm
    | ⟨2, _⟩ => exact fun e => ho0 e.symm)
theorem W7_keep (c : Dev nD) (b : Ref sig .tc) (ho0 : b ≠ main_v59_0) (ho1 : b ≠ main_v59_1) : W7 m ρ c b = W6 m ρ c b := by
  by_cases hi0 : b = main_v32_0
  · subst hi0; exact (W7_arr m ρ c 0).trans (((dat3 (V6 m ρ) c).arrAt_in 0 rfl _).trans (A_eq3 (V6 m ρ) c 0))
  by_cases hi1 : b = main_v33
  · subst hi1; exact (W7_arr m ρ c 1).trans (((dat3 (V6 m ρ) c).arrAt_in 1 rfl _).trans (A_eq3 (V6 m ρ) c 1))
  by_cases hi2 : b = main_v46
  · subst hi2; exact (W7_arr m ρ c 2).trans (((dat3 (V6 m ρ) c).arrAt_in 2 rfl _).trans (A_eq3 (V6 m ρ) c 2))
  by_cases hi3 : b = main_v49
  · subst hi3; exact (W7_arr m ρ c 3).trans (((dat3 (V6 m ρ) c).arrAt_in 3 rfl _).trans (A_eq3 (V6 m ρ) c 3))
  by_cases hi4 : b = main_v55
  · subst hi4; exact (W7_arr m ρ c 4).trans (((dat3 (V6 m ρ) c).arrAt_in 4 rfl _).trans (A_eq3 (V6 m ρ) c 4))
  by_cases hi5 : b = main_v52
  · subst hi5; exact (W7_arr m ρ c 5).trans (((dat3 (V6 m ρ) c).arrAt_in 5 rfl _).trans (A_eq3 (V6 m ρ) c 5))
  by_cases hi6 : b = main_v58
  · subst hi6; exact (W7_arr m ρ c 6).trans (((dat3 (V6 m ρ) c).arrAt_in 6 rfl _).trans (A_eq3 (V6 m ρ) c 6))
  exact W7_of_ne m ρ c b (fun w => by
    match w with
    | ⟨0, _⟩ => exact fun e => hi0 e.symm
    | ⟨1, _⟩ => exact fun e => hi1 e.symm
    | ⟨2, _⟩ => exact fun e => hi2 e.symm
    | ⟨3, _⟩ => exact fun e => hi3 e.symm
    | ⟨4, _⟩ => exact fun e => hi4 e.symm
    | ⟨5, _⟩ => exact fun e => hi5 e.symm
    | ⟨6, _⟩ => exact fun e => hi6 e.symm
    | ⟨7, _⟩ => exact fun e => ho0 e.symm
    | ⟨8, _⟩ => exact fun e => ho1 e.symm)
theorem W8_keep (c : Dev nD) (b : Ref sig .tc) (ho0 : b ≠ main_v60) : W8 m ρ c b = W7 m ρ c b := by
  by_cases hi0 : b = main_arg0
  · subst hi0; exact (W8_arr m ρ c 0).trans (((dat4 (V7 m ρ) c).arrAt_in 0 rfl _).trans (A_eq4 (V7 m ρ) c 0))
  by_cases hi1 : b = main_v59_0
  · subst hi1; exact (W8_arr m ρ c 1).trans (((dat4 (V7 m ρ) c).arrAt_in 1 rfl _).trans (A_eq4 (V7 m ρ) c 1))
  exact W8_of_ne m ρ c b (fun w => by
    match w with
    | ⟨0, _⟩ => exact fun e => hi0 e.symm
    | ⟨1, _⟩ => exact fun e => hi1 e.symm
    | ⟨2, _⟩ => exact fun e => ho0 e.symm)
theorem W10_keep (c : Dev nD) (b : Ref sig .tc) (ho0 : b ≠ main_v86_0) (ho1 : b ≠ main_v86_1) : W10 m ρ c b = W9 m ρ c b := by
  by_cases hi0 : b = main_v59_0
  · subst hi0; exact (W10_arr m ρ c 0).trans (((dat5 (V9 m ρ) c).arrAt_in 0 rfl _).trans (A_eq5 (V9 m ρ) c 0))
  by_cases hi1 : b = main_v60
  · subst hi1; exact (W10_arr m ρ c 1).trans (((dat5 (V9 m ρ) c).arrAt_in 1 rfl _).trans (A_eq5 (V9 m ρ) c 1))
  by_cases hi2 : b = main_v73
  · subst hi2; exact (W10_arr m ρ c 2).trans (((dat5 (V9 m ρ) c).arrAt_in 2 rfl _).trans (A_eq5 (V9 m ρ) c 2))
  by_cases hi3 : b = main_v76
  · subst hi3; exact (W10_arr m ρ c 3).trans (((dat5 (V9 m ρ) c).arrAt_in 3 rfl _).trans (A_eq5 (V9 m ρ) c 3))
  by_cases hi4 : b = main_v82
  · subst hi4; exact (W10_arr m ρ c 4).trans (((dat5 (V9 m ρ) c).arrAt_in 4 rfl _).trans (A_eq5 (V9 m ρ) c 4))
  by_cases hi5 : b = main_v79
  · subst hi5; exact (W10_arr m ρ c 5).trans (((dat5 (V9 m ρ) c).arrAt_in 5 rfl _).trans (A_eq5 (V9 m ρ) c 5))
  by_cases hi6 : b = main_v85
  · subst hi6; exact (W10_arr m ρ c 6).trans (((dat5 (V9 m ρ) c).arrAt_in 6 rfl _).trans (A_eq5 (V9 m ρ) c 6))
  exact W10_of_ne m ρ c b (fun w => by
    match w with
    | ⟨0, _⟩ => exact fun e => hi0 e.symm
    | ⟨1, _⟩ => exact fun e => hi1 e.symm
    | ⟨2, _⟩ => exact fun e => hi2 e.symm
    | ⟨3, _⟩ => exact fun e => hi3 e.symm
    | ⟨4, _⟩ => exact fun e => hi4 e.symm
    | ⟨5, _⟩ => exact fun e => hi5 e.symm
    | ⟨6, _⟩ => exact fun e => hi6 e.symm
    | ⟨7, _⟩ => exact fun e => ho0 e.symm
    | ⟨8, _⟩ => exact fun e => ho1 e.symm)

/-- A buffer no host operation writes and no region has for an output ends as launched. -/
theorem W11_never (c : Dev nD) (b : Ref sig .tc) (h0 : b ∉ hostOps0_W) (h1 : b ∉ hostOps1_W) (h3 : b ∉ hostOps3_W) (h5 : b ∉ hostOps5_W) (h6 : b ∉ hostOps6_W)
    (hr : b ∉ ([main_v6, main_v32_0, main_v32_1, main_v33, main_v59_0, main_v59_1, main_v60, main_v86_0, main_v86_1] : List (Ref sig .tc))) : W11 m ρ c b = W0 m ρ c b := by
  have hne : ∀ x ∈ ([main_v6, main_v32_0, main_v32_1, main_v33, main_v59_0, main_v59_1, main_v60, main_v86_0, main_v86_1] : List (Ref sig .tc)), b ≠ x := fun x hx e => hr (e ▸ hx)
  exact (W11_keep m ρ c b h6).trans <| (W10_keep m ρ c b (hne _ (by decide)) (hne _ (by decide))).trans <| (W9_keep m ρ c b h5).trans <|
    (W8_keep m ρ c b (hne _ (by decide))).trans <| (W7_keep m ρ c b (hne _ (by decide)) (hne _ (by decide))).trans <| (W6_keep m ρ c b h3).trans <|
    (W5_keep m ρ c b (hne _ (by decide))).trans <| (W4_keep m ρ c b (hne _ (by decide)) (hne _ (by decide))).trans <| (W3_keep m ρ c b h1).trans <|
    (W2_keep m ρ c b (hne _ (by decide))).trans (W1_keep m ρ c b h0)

theorem W11_main_arg0 (c : Dev nD) : W11 m ρ c main_arg0 = m ((c : Thread nD τ).loc main_arg0) :=
  (W11_never m ρ c main_arg0 (by decide) (by decide) (by decide) (by decide) (by decide) (by decide)).trans rfl
theorem W11_main_arg1 (c : Dev nD) : W11 m ρ c main_arg1 = m ((c : Thread nD τ).loc main_arg1) :=
  (W11_never m ρ c main_arg1 (by decide) (by decide) (by decide) (by decide) (by decide) (by decide)).trans rfl
theorem W11_main_arg2 (c : Dev nD) : W11 m ρ c main_arg2 = m ((c : Thread nD τ).loc main_arg2) :=
  (W11_never m ρ c main_arg2 (by decide) (by decide) (by decide) (by decide) (by decide) (by decide)).trans rfl
theorem W11_main_arg3 (c : Dev nD) : W11 m ρ c main_arg3 = m ((c : Thread nD τ).loc main_arg3) :=
  (W11_never m ρ c main_arg3 (by decide) (by decide) (by decide) (by decide) (by decide) (by decide)).trans rfl
theorem W11_main_arg4 (c : Dev nD) : W11 m ρ c main_arg4 = m ((c : Thread nD τ).loc main_arg4) :=
  (W11_never m ρ c main_arg4 (by decide) (by decide) (by decide) (by decide) (by decide) (by decide)).trans rfl
theorem W11_main_arg5 (c : Dev nD) : W11 m ρ c main_arg5 = m ((c : Thread nD τ).loc main_arg5) :=
  (W11_never m ρ c main_arg5 (by decide) (by decide) (by decide) (by decide) (by decide) (by decide)).trans rfl
theorem W11_main_arg6 (c : Dev nD) : W11 m ρ c main_arg6 = m ((c : Thread nD τ).loc main_arg6) :=
  (W11_never m ρ c main_arg6 (by decide) (by decide) (by decide) (by decide) (by decide) (by decide)).trans rfl
theorem W11_main_arg7 (c : Dev nD) : W11 m ρ c main_arg7 = m ((c : Thread nD τ).loc main_arg7) :=
  (W11_never m ρ c main_arg7 (by decide) (by decide) (by decide) (by decide) (by decide) (by decide)).trans rfl

/-- THE FRAME: every weakly fair execution terminates, nothing faulting, and the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c)⟩) (run_all m ρ)

end Cert.Kernel.Hand

end
-- ==== Proof.KI.Matmul0Runs.lean ====
/-
  The blocked product of one layer, `A · pre` with `A : [16384, 16384]` and `pre : [16384, 128]`, as region 0 runs it: the
  grid is 8 × 16, point `t` = (row block `t / 16`, contraction block `t % 16`); at a point the body adds the product of the
  [2048, 1024] block of `A` and the [1024, 128] block of `pre` to an accumulator it keeps in a scratch buffer between
  points — cleared at the first contraction block of a row block, copied to the output block at the last one.
  This module holds what the three control cases share: the windows' blocks read off the arrays as the region finds
  them, the two branch conditions decided over the grid (first contraction block: `t % 16 = 0`; last: `t % 16 = 15`),
  where the output window is idle (everywhere but the last contraction block), the memrefs the body is called with,
  and the scoped rest split at the accumulator.
-/
import proofs.«119509_j83949430767932_1_alg».proof.Proof.Gen.KernelIdeal.Launch
import proofs.«119509_j83949430767932_1_alg».proof.Proof.Gen.KernelIdeal.Skeleton
import proofs.«119509_j83949430767932_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `A` sits in its staging buffer at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The block of `pre` sits in its staging buffer at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- "This is the first contraction block": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last contraction block": the body's second conditional. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first contraction block the output window is idle: nothing is stored into it, -/
theorem idleAt0_2_A : ∀ t : Fin cfg0.N, cond0_0 (grid0.coords t) → ¬cond0_1 (grid0.coords t) → cfg0.idle 2 (grid0.coords t) = true := by decide +kernel
/-- and its block is not written back. -/
theorem noFlush0_2_A : ∀ t : Fin cfg0.N, cond0_0 (grid0.coords t) → ¬cond0_1 (grid0.coords t) → (cfg0.win 2).flush t = false := by decide +kernel
/-- The same at a middle contraction block. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a last contraction block the output window is live: the accumulator is copied into it. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S2048x128 .f32 := (Memref.whole cc0_stg2_0 : Memref sig .tc .vmem S2048x128 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S2048x128 .f32 := Memref.whole cc0_scratch0
abbrev VS0_0 : View sig .tc .vmem S2048x128 .f32 := scM0_0.view

/-- The scoped buffers no window stages, but for the accumulator: what the body never touches. -/
abbrev restBut0 (c : Dev nD) : sProp 𝕄 :=
  Pipeline.scopedRestBut (Ix := Unit) (Name := ℕ) (U := UR sig nD τ) (Lvl := ℕ) (Val := Elt F) spec0 c [cc0_scratch0]

/-- The class invariant with the accumulator as a memref owned at some contents. -/
theorem PhiA0_eq (c : Dev nD) :
    (Pipeline.ΦA spec0 c : sProp 𝕄)
      = iprop(iprop(iprop((∃ d, owns (c : Thread nD τ) scM0_0 fullShare d)) ∗ restBut0 (F := F) c) ∗ (∃ r, prngReg c r)) := by
  unfold Pipeline.ΦA; rw [scopedRest0_split]; simp only [scM0_0, owns_whole]; try rfl

end Cert.KernelIdeal.Hand

end
-- ==== Proof.KI.Matmul0RunA.lean ====
/-
  Region 0's body run whole in one of its three control cases; the stores each buffer ends with are found by the run.
-/
import proofs.«119509_j83949430767932_1_alg».proof.Proof.KI.Matmul0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a FIRST contraction block (the first conditional taken, the second not): the accumulator, found at anything, is cleared and then
    holds the block product added to zero; the output window's buffer is handed back untouched. -/
noncomputable def kernelRun0_A (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1024 .f32) (x1 : Vec F S1024x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_matmul_kernel i arg2 harg2 arg3 harg3 arg4 harg4 arg5 harg5) K } := by
  refine ⟨[], ?_, fun xi2 E K => ?run⟩
  case run =>
    simp only [cc0_matmul_kernel_eq_skeleton]; unfold cc0_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Matmul0RunB.lean ====
/-
  Region 0's body run whole in one of its three control cases; the stores each buffer ends with are found by the run.
-/
import proofs.«119509_j83949430767932_1_alg».proof.Proof.KI.Matmul0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a MIDDLE contraction block (neither conditional taken): the accumulator, found at what the point before left (`xs0`),
    ends at that plus the block product; the output window's buffer is handed back untouched. -/
noncomputable def kernelRun0_B (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_matmul_kernel i arg2 harg2 arg3 harg3 arg4 harg4 arg5 harg5) K } := by
  refine ⟨[], ?_, fun xi2 E K => ?run⟩
  case run =>
    simp only [cc0_matmul_kernel_eq_skeleton]; unfold cc0_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Matmul0RunC.lean ====
/-
  Region 0's body run whole in one of its three control cases; the stores each buffer ends with are found by the run.
-/
import proofs.«119509_j83949430767932_1_alg».proof.Proof.KI.Matmul0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a LAST contraction block (the first conditional not taken, the second taken): the accumulator, found at what the point
    before left (`xs0`), ends at that plus the block product, and that sum is stored whole into the output window's buffer. -/
noncomputable def kernelRun0_C (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_matmul_kernel i arg2 harg2 arg3 harg3 arg4 harg4 arg5 harg5) K } := by
  refine ⟨?_, ?_, fun E K => ?run⟩
  case run =>
    simp only [cc0_matmul_kernel_eq_skeleton]; unfold cc0_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Matmul0.lean ====
/-
  Region 0, the blocked product `A · pre`: what the output window's buffer and the accumulator hold after every point
  (`outsAt0`: by recursion on the point — cleared and one block product at a first contraction block, the previous
  contents plus one block product afterwards, the output a copy of the accumulator at a last contraction block), the
  invariant that carries the accumulator from point to point, the proof data and the body obligation.
-/
import proofs.«119509_j83949430767932_1_alg».proof.Proof.KI.Matmul0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first contraction block stores nothing into the output window (a placeholder nothing consults). -/
def out0_A_2 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1024 .f32) (x1 : Vec F S1024x128 .f32) : Vec F S2048x128 .f32 :=
  VO0_2.read (Elt F) (VO0_2.writes (Elt F) VO0_2.junk (kernelRun0_A c i arg2 harg2 arg3 harg3 arg4 harg4 arg5 harg5 hc0 hc1 x0 x1).1)

/-- Its stores into the accumulator cover it. -/
theorem scover0_A_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1024 .f32) (x1 : Vec F S1024x128 .f32) (y : S2048x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x128.size (by sl_kernel_rfl) y

/-- What it leaves in the accumulator. -/
def sout0_A_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1024 .f32) (x1 : Vec F S1024x128 .f32) : Vec F S2048x128 .f32 :=
  VS0_0.read (Elt F) (VS0_0.writes (Elt F) VS0_0.junk (kernelRun0_A c i arg2 harg2 arg3 harg3 arg4 harg4 arg5 harg5 hc0 hc1 x0 x1).2.1)

/-- A middle contraction block stores nothing into the output window. -/
def out0_B_2 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1024 .f32) (x1 : Vec F S1024x128 .f32) (xs0 : Vec F S2048x128 .f32) : Vec F S2048x128 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1024 .f32) (x1 : Vec F S1024x128 .f32) (xs0 : Vec F S2048x128 .f32) (y : S2048x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x128.size (by sl_kernel_rfl) y

def sout0_B_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1024 .f32) (x1 : Vec F S1024x128 .f32) (xs0 : Vec F S2048x128 .f32) : Vec F S2048x128 .f32 :=
  VS0_0.read (Elt F) (VS0_0.writes (Elt F) VS0_0.junk (kernelRun0_B c i arg2 harg2 arg3 harg3 arg4 harg4 arg5 harg5 hc0 hc1 x0 x1 xs0).2.1)

/-- A last contraction block's one store covers the output window's buffer. -/
theorem cover0_C_2 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1024 .f32) (x1 : Vec F S1024x128 .f32) (xs0 : Vec F S2048x128 .f32) (y : S2048x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x128.size (by sl_kernel_rfl) y

def out0_C_2 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1024 .f32) (x1 : Vec F S1024x128 .f32) (xs0 : Vec F S2048x128 .f32) : Vec F S2048x128 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1024 .f32) (x1 : Vec F S1024x128 .f32) (xs0 : Vec F S2048x128 .f32) (y : S2048x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x128.size (by sl_kernel_rfl) y

def sout0_C_0 (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1024 .f32) (x1 : Vec F S1024x128 .f32) (xs0 : Vec F S2048x128 .f32) : Vec F S2048x128 .f32 :=
  VS0_0.read (Elt F) (VS0_0.writes (Elt F) VS0_0.junk (kernelRun0_C c i arg2 harg2 arg3 harg3 arg4 harg4 arg5 harg5 hc0 hc1 x0 x1 xs0).2.1)

/-! ## What the output window's buffer and the accumulator hold after each point -/

/-- THE ACCUMULATION: (the output window's buffer, the accumulator) after the body at position `n`. -/
def outsAt0 (c : Dev nD) : (n : ℕ) → n < cfg0.N → Vec F S2048x128 .f32 × Vec F S2048x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer no window stages at
    anything, the generator register at some state); afterwards the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restBut0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; the
    invariant hands the body the accumulator at what the point before left (at anything at the very first point) and
    takes it back at this point's contents; the untouched scoped buffers, the generator register and the core's
    `owes` pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · by_cases h1 : t.val % 16 = 15
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun e => h0 (by rw [e])
    by_cases h1 : t.val % 16 = 15
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.Matmul2Runs.lean ====
/-
  The blocked product of one layer, `A · pre` with `A : [16384, 16384]` and `pre : [16384, 128]`, as region 2 runs it: the
  grid is 8 × 16, point `t` = (row block `t / 16`, contraction block `t % 16`); at a point the body adds the product of the
  [2048, 1024] block of `A` and the [1024, 128] block of `pre` to an accumulator it keeps in a scratch buffer between
  points — cleared at the first contraction block of a row block, copied to the output block at the last one.
  This module holds what the three control cases share: the windows' blocks read off the arrays as the region finds
  them, the two branch conditions decided over the grid (first contraction block: `t % 16 = 0`; last: `t % 16 = 15`),
  where the output window is idle (everywhere but the last contraction block), the memrefs the body is called with,
  and the scoped rest split at the accumulator.
-/
import proofs.«119509_j83949430767932_1_alg».proof.Proof.Gen.KernelIdeal.Launch
import proofs.«119509_j83949430767932_1_alg».proof.Proof.Gen.KernelIdeal.Skeleton
import proofs.«119509_j83949430767932_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of `A` sits in its staging buffer at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The block of `pre` sits in its staging buffer at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- "This is the first contraction block": the body's first conditional, from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 16). -/
theorem hcond2_0 : ∀ t : Fin cfg2.N, cond2_0 (grid2.coords t) ↔ t.val % 16 = 0 :=
  (by decide +kernel : ∀ t : Fin grid2.N, cond2_0 (grid2.coords t) ↔ t.val % 16 = 0)

/-- "This is the last contraction block": the body's second conditional. -/
abbrev cond2_1 (i : grid2.Coords) : Prop := k2_cond2 i = 1#1
/-- It holds at the points ≡ 15 (mod 16). -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At a first contraction block the output window is idle: nothing is stored into it, -/
theorem idleAt2_2_A : ∀ t : Fin cfg2.N, cond2_0 (grid2.coords t) → ¬cond2_1 (grid2.coords t) → cfg2.idle 2 (grid2.coords t) = true := by decide +kernel
/-- and its block is not written back. -/
theorem noFlush2_2_A : ∀ t : Fin cfg2.N, cond2_0 (grid2.coords t) → ¬cond2_1 (grid2.coords t) → (cfg2.win 2).flush t = false := by decide +kernel
/-- The same at a middle contraction block. -/
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- At a last contraction block the output window is live: the accumulator is copied into it. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated. -/
abbrev VO2_2 : View sig .tc .vmem S2048x128 .f32 := (Memref.whole cc2_stg2_0 : Memref sig .tc .vmem S2048x128 .f32).view
abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S2048x128 .f32 := Memref.whole cc2_scratch0
abbrev VS2_0 : View sig .tc .vmem S2048x128 .f32 := scM2_0.view

/-- The scoped buffers no window stages, but for the accumulator: what the body never touches. -/
abbrev restBut2 (c : Dev nD) : sProp 𝕄 :=
  Pipeline.scopedRestBut (Ix := Unit) (Name := ℕ) (U := UR sig nD τ) (Lvl := ℕ) (Val := Elt F) spec2 c [cc2_scratch0]

/-- The class invariant with the accumulator as a memref owned at some contents. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_split]; simp only [scM2_0, owns_whole]; try rfl

end Cert.KernelIdeal.Hand

end
-- ==== Proof.KI.Matmul2RunA.lean ====
/-
  Region 2's body run whole in one of its three control cases; the stores each buffer ends with are found by the run.
-/
import proofs.«119509_j83949430767932_1_alg».proof.Proof.KI.Matmul2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a FIRST contraction block (the first conditional taken, the second not): the accumulator, found at anything, is cleared and then
    holds the block product added to zero; the output window's buffer is handed back untouched. -/
noncomputable def kernelRun2_A (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S1024x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_matmul_kernel i arg2 harg2 arg3 harg3 arg4 harg4 arg5 harg5) K } := by
  refine ⟨[], ?_, fun xi2 E K => ?run⟩
  case run =>
    simp only [cc2_matmul_kernel_eq_skeleton]; unfold cc2_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Matmul2RunB.lean ====
/-
  Region 2's body run whole in one of its three control cases; the stores each buffer ends with are found by the run.
-/
import proofs.«119509_j83949430767932_1_alg».proof.Proof.KI.Matmul2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a MIDDLE contraction block (neither conditional taken): the accumulator, found at what the point before left (`xs0`),
    ends at that plus the block product; the output window's buffer is handed back untouched. -/
noncomputable def kernelRun2_B (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_matmul_kernel i arg2 harg2 arg3 harg3 arg4 harg4 arg5 harg5) K } := by
  refine ⟨[], ?_, fun xi2 E K => ?run⟩
  case run =>
    simp only [cc2_matmul_kernel_eq_skeleton]; unfold cc2_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Matmul2RunC.lean ====
/-
  Region 2's body run whole in one of its three control cases; the stores each buffer ends with are found by the run.
-/
import proofs.«119509_j83949430767932_1_alg».proof.Proof.KI.Matmul2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a LAST contraction block (the first conditional not taken, the second taken): the accumulator, found at what the point
    before left (`xs0`), ends at that plus the block product, and that sum is stored whole into the output window's buffer. -/
noncomputable def kernelRun2_C (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2_matmul_kernel i arg2 harg2 arg3 harg3 arg4 harg4 arg5 harg5) K } := by
  refine ⟨?_, ?_, fun E K => ?run⟩
  case run =>
    simp only [cc2_matmul_kernel_eq_skeleton]; unfold cc2_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Matmul2.lean ====
/-
  Region 2, the blocked product `A · pre`: what the output window's buffer and the accumulator hold after every point
  (`outsAt2`: by recursion on the point — cleared and one block product at a first contraction block, the previous
  contents plus one block product afterwards, the output a copy of the accumulator at a last contraction block), the
  invariant that carries the accumulator from point to point, the proof data and the body obligation.
-/
import proofs.«119509_j83949430767932_1_alg».proof.Proof.KI.Matmul2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first contraction block stores nothing into the output window (a placeholder nothing consults). -/
def out2_A_2 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S1024x128 .f32) : Vec F S2048x128 .f32 :=
  VO2_2.read (Elt F) (VO2_2.writes (Elt F) VO2_2.junk (kernelRun2_A c i arg2 harg2 arg3 harg3 arg4 harg4 arg5 harg5 hc0 hc1 x0 x1).1)

/-- Its stores into the accumulator cover it. -/
theorem scover2_A_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S1024x128 .f32) (y : S2048x128.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S2048x128.size (by sl_kernel_rfl) y

/-- What it leaves in the accumulator. -/
def sout2_A_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond2_0 i) (hc1 : ¬cond2_1 i)
    (x0 : Vec F S2048x1024 .f32) (x1 : Vec F S1024x128 .f32) : Vec F S2048x128 .f32 :=
  VS2_0.read (Elt F) (VS2_0.writes (Elt F) VS2_0.junk (kernelRun2_A c i arg2 harg2 arg3 harg3 arg4 harg4 arg5 harg5 hc0 hc1 x0 x1).2.1)

/-- A middle contraction block stores nothing into the output window. -/
def out2_B_2 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S1024x128 .f32) (xs0 : Vec F S2048x128 .f32) : Vec F S2048x128 .f32 :=
  VO2_2.read (Elt F) (VO2_2.writes (Elt F) VO2_2.junk (kernelRun2_B c i arg2 harg2 arg3 harg3 arg4 harg4 arg5 harg5 hc0 hc1 x0 x1 xs0).1)

theorem scover2_B_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S1024x128 .f32) (xs0 : Vec F S2048x128 .f32) (y : S2048x128.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S2048x128.size (by sl_kernel_rfl) y

def sout2_B_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : ¬cond2_1 i)
    (x0 : Vec F S2048x1024 .f32) (x1 : Vec F S1024x128 .f32) (xs0 : Vec F S2048x128 .f32) : Vec F S2048x128 .f32 :=
  VS2_0.read (Elt F) (VS2_0.writes (Elt F) VS2_0.junk (kernelRun2_B c i arg2 harg2 arg3 harg3 arg4 harg4 arg5 harg5 hc0 hc1 x0 x1 xs0).2.1)

/-- A last contraction block's one store covers the output window's buffer. -/
theorem cover2_C_2 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S1024x128 .f32) (xs0 : Vec F S2048x128 .f32) (y : S2048x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S2048x128.size (by sl_kernel_rfl) y

def out2_C_2 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S1024x128 .f32) (xs0 : Vec F S2048x128 .f32) : Vec F S2048x128 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S1024x128 .f32) (xs0 : Vec F S2048x128 .f32) (y : S2048x128.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S2048x128.size (by sl_kernel_rfl) y

def sout2_C_0 (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond2_0 i) (hc1 : cond2_1 i)
    (x0 : Vec F S2048x1024 .f32) (x1 : Vec F S1024x128 .f32) (xs0 : Vec F S2048x128 .f32) : Vec F S2048x128 .f32 :=
  VS2_0.read (Elt F) (VS2_0.writes (Elt F) VS2_0.junk (kernelRun2_C c i arg2 harg2 arg3 harg3 arg4 harg4 arg5 harg5 hc0 hc1 x0 x1 xs0).2.1)

/-! ## What the output window's buffer and the accumulator hold after each point -/

/-- THE ACCUMULATION: (the output window's buffer, the accumulator) after the body at position `n`. -/
def outsAt2 (c : Dev nD) : (n : ℕ) → n < cfg2.N → Vec F S2048x128 .f32 × Vec F S2048x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 16 = 0 then
      if h1 : (n + 1) % 16 = 15 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 16 = 15 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer no window stages at
    anything, the generator register at some state); afterwards the accumulator at what the point before left in it. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ restBut2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 (F := F) c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; the
    invariant hands the body the accumulator at what the point before left (at anything at the very first point) and
    takes it back at this point's contents; the untouched scoped buffers, the generator register and the core's
    `owes` pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 16 = 0
  · by_cases h1 : t.val % 16 = 15
    · exfalso; omega
    · rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun e => h0 (by rw [e])
    by_cases h1 : t.val % 16 = 15
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.Matmul4Runs.lean ====
/-
  The blocked product of one layer, `A · pre` with `A : [16384, 16384]` and `pre : [16384, 128]`, as region 4 runs it: the
  grid is 8 × 16, point `t` = (row block `t / 16`, contraction block `t % 16`); at a point the body adds the product of the
  [2048, 1024] block of `A` and the [1024, 128] block of `pre` to an accumulator it keeps in a scratch buffer between
  points — cleared at the first contraction block of a row block, copied to the output block at the last one.
  This module holds what the three control cases share: the windows' blocks read off the arrays as the region finds
  them, the two branch conditions decided over the grid (first contraction block: `t % 16 = 0`; last: `t % 16 = 15`),
  where the output window is idle (everywhere but the last contraction block), the memrefs the body is called with,
  and the scoped rest split at the accumulator.
-/
import proofs.«119509_j83949430767932_1_alg».proof.Proof.Gen.KernelIdeal.Launch
import proofs.«119509_j83949430767932_1_alg».proof.Proof.Gen.KernelIdeal.Skeleton
import proofs.«119509_j83949430767932_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The block of `A` sits in its staging buffer at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The block of `pre` sits in its staging buffer at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- "This is the first contraction block": the body's first conditional, from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 16). -/
theorem hcond4_0 : ∀ t : Fin cfg4.N, cond4_0 (grid4.coords t) ↔ t.val % 16 = 0 :=
  (by decide +kernel : ∀ t : Fin grid4.N, cond4_0 (grid4.coords t) ↔ t.val % 16 = 0)

/-- "This is the last contraction block": the body's second conditional. -/
abbrev cond4_1 (i : grid4.Coords) : Prop := k4_cond2 i = 1#1
/-- It holds at the points ≡ 15 (mod 16). -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- At a first contraction block the output window is idle: nothing is stored into it, -/
theorem idleAt4_2_A : ∀ t : Fin cfg4.N, cond4_0 (grid4.coords t) → ¬cond4_1 (grid4.coords t) → cfg4.idle 2 (grid4.coords t) = true := by decide +kernel
/-- and its block is not written back. -/
theorem noFlush4_2_A : ∀ t : Fin cfg4.N, cond4_0 (grid4.coords t) → ¬cond4_1 (grid4.coords t) → (cfg4.win 2).flush t = false := by decide +kernel
/-- The same at a middle contraction block. -/
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
/-- At a last contraction block the output window is live: the accumulator is copied into it. -/
theorem liveAt4_2_C : ∀ t : Fin cfg4.N, ¬cond4_0 (grid4.coords t) → cond4_1 (grid4.coords t) → cfg4.idle 2 (grid4.coords t) = false := by decide +kernel

/-! ## The memrefs the body is called with -/

/-- One staging buffer of the output window, through which its contents are stated. -/
abbrev VO4_2 : View sig .tc .vmem S2048x128 .f32 := (Memref.whole cc4_stg2_0 : Memref sig .tc .vmem S2048x128 .f32).view
abbrev ms4_0 (t : Fin cfg4.N) : Memref sig .tc .vmem S2048x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x128 .f32 := win4_2.stage (cfg4.slots t 2)
abbrev hs4_2 (t : Fin cfg4.N) : (ms4_2 t).IsWhole := hstage4_2 ((cfg4.slots t 2).cast nbuf4_2)
/-- The accumulator: a whole scoped buffer of the kernel's own. -/
abbrev scM4_0 : Memref sig .tc .vmem S2048x128 .f32 := Memref.whole cc4_scratch0
abbrev VS4_0 : View sig .tc .vmem S2048x128 .f32 := scM4_0.view

/-- The scoped buffers no window stages, but for the accumulator: what the body never touches. -/
abbrev restBut4 (c : Dev nD) : sProp 𝕄 :=
  Pipeline.scopedRestBut (Ix := Unit) (Name := ℕ) (U := UR sig nD τ) (Lvl := ℕ) (Val := Elt F) spec4 c [cc4_scratch0]

/-- The class invariant with the accumulator as a memref owned at some contents. -/
theorem PhiA4_eq (c : Dev nD) :
    (Pipeline.ΦA spec4 c : sProp 𝕄)
      = iprop(iprop(iprop((∃ d, owns (c : Thread nD τ) scM4_0 fullShare d)) ∗ restBut4 (F := F) c) ∗ (∃ r, prngReg c r)) := by
  unfold Pipeline.ΦA; rw [scopedRest4_split]; simp only [scM4_0, owns_whole]; try rfl

end Cert.KernelIdeal.Hand

end
-- ==== Proof.KI.Matmul4RunA.lean ====
/-
  Region 4's body run whole in one of its three control cases; the stores each buffer ends with are found by the run.
-/
import proofs.«119509_j83949430767932_1_alg».proof.Proof.KI.Matmul4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a FIRST contraction block (the first conditional taken, the second not): the accumulator, found at anything, is cleared and then
    holds the block product added to zero; the output window's buffer is handed back untouched. -/
noncomputable def kernelRun4_A (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond4_0 i) (hc1 : ¬cond4_1 i)
    (x0 : Vec F S2048x1024 .f32) (x1 : Vec F S1024x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_matmul_kernel i arg2 harg2 arg3 harg3 arg4 harg4 arg5 harg5) K } := by
  refine ⟨[], ?_, fun xi2 E K => ?run⟩
  case run =>
    simp only [cc4_matmul_kernel_eq_skeleton]; unfold cc4_matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Matmul4RunB.lean ====
/-
  Region 4's body run whole in one of its three control cases; the stores each buffer ends with are found by the run.
-/
import proofs.«119509_j83949430767932_1_alg».proof.Proof.KI.Matmul4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a MIDDLE contraction block (neither conditional taken): the accumulator, found at what the point before left (`xs0`),
    ends at that plus the block product; the output window's buffer is handed back untouched. -/
noncomputable def kernelRun4_B (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : ¬cond4_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_matmul_kernel i arg2 harg2 arg3 harg3 arg4 harg4 arg5 harg5) K } := by
  refine ⟨[], ?_, fun xi2 E K => ?run⟩
  case run =>
    simp only [cc4_matmul_kernel_eq_skeleton]; unfold cc4_matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Matmul4RunC.lean ====
/-
  Region 4's body run whole in one of its three control cases; the stores each buffer ends with are found by the run.
-/
import proofs.«119509_j83949430767932_1_alg».proof.Proof.KI.Matmul4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- At a LAST contraction block (the first conditional not taken, the second taken): the accumulator, found at what the point
    before left (`xs0`), ends at that plus the block product, and that sum is stored whole into the output window's buffer. -/
noncomputable def kernelRun4_C (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : cond4_1 i)
    (x0 : Vec F S2048x1024 .f32) (x1 : Vec F S1024x128 .f32) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4_matmul_kernel i arg2 harg2 arg3 harg3 arg4 harg4 arg5 harg5) K } := by
  refine ⟨?_, ?_, fun E K => ?run⟩
  case run =>
    simp only [cc4_matmul_kernel_eq_skeleton]; unfold cc4_matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Matmul4.lean ====
/-
  Region 4, the blocked product `A · pre`: what the output window's buffer and the accumulator hold after every point
  (`outsAt4`: by recursion on the point — cleared and one block product at a first contraction block, the previous
  contents plus one block product afterwards, the output a copy of the accumulator at a last contraction block), the
  invariant that carries the accumulator from point to point, the proof data and the body obligation.
-/
import proofs.«119509_j83949430767932_1_alg».proof.Proof.KI.Matmul4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first contraction block stores nothing into the output window (a placeholder nothing consults). -/
def out4_A_2 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond4_0 i) (hc1 : ¬cond4_1 i)
    (x0 : Vec F S2048x1024 .f32) (x1 : Vec F S1024x128 .f32) : Vec F S2048x128 .f32 :=
  VO4_2.read (Elt F) (VO4_2.writes (Elt F) VO4_2.junk (kernelRun4_A c i arg2 harg2 arg3 harg3 arg4 harg4 arg5 harg5 hc0 hc1 x0 x1).1)

/-- Its stores into the accumulator cover it. -/
theorem scover4_A_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond4_0 i) (hc1 : ¬cond4_1 i)
    (x0 : Vec F S2048x1024 .f32) (x1 : Vec F S1024x128 .f32) (y : S2048x128.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S2048x128.size (by sl_kernel_rfl) y

/-- What it leaves in the accumulator. -/
def sout4_A_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : cond4_0 i) (hc1 : ¬cond4_1 i)
    (x0 : Vec F S2048x1024 .f32) (x1 : Vec F S1024x128 .f32) : Vec F S2048x128 .f32 :=
  VS4_0.read (Elt F) (VS4_0.writes (Elt F) VS4_0.junk (kernelRun4_A c i arg2 harg2 arg3 harg3 arg4 harg4 arg5 harg5 hc0 hc1 x0 x1).2.1)

/-- A middle contraction block stores nothing into the output window. -/
def out4_B_2 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : ¬cond4_1 i)
    (x0 : Vec F S2048x1024 .f32) (x1 : Vec F S1024x128 .f32) (xs0 : Vec F S2048x128 .f32) : Vec F S2048x128 .f32 :=
  VO4_2.read (Elt F) (VO4_2.writes (Elt F) VO4_2.junk (kernelRun4_B c i arg2 harg2 arg3 harg3 arg4 harg4 arg5 harg5 hc0 hc1 x0 x1 xs0).1)

theorem scover4_B_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : ¬cond4_1 i)
    (x0 : Vec F S2048x1024 .f32) (x1 : Vec F S1024x128 .f32) (xs0 : Vec F S2048x128 .f32) (y : S2048x128.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S2048x128.size (by sl_kernel_rfl) y

def sout4_B_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : ¬cond4_1 i)
    (x0 : Vec F S2048x1024 .f32) (x1 : Vec F S1024x128 .f32) (xs0 : Vec F S2048x128 .f32) : Vec F S2048x128 .f32 :=
  VS4_0.read (Elt F) (VS4_0.writes (Elt F) VS4_0.junk (kernelRun4_B c i arg2 harg2 arg3 harg3 arg4 harg4 arg5 harg5 hc0 hc1 x0 x1 xs0).2.1)

/-- A last contraction block's one store covers the output window's buffer. -/
theorem cover4_C_2 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : cond4_1 i)
    (x0 : Vec F S2048x1024 .f32) (x1 : Vec F S1024x128 .f32) (xs0 : Vec F S2048x128 .f32) (y : S2048x128.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S2048x128.size (by sl_kernel_rfl) y

def out4_C_2 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : cond4_1 i)
    (x0 : Vec F S2048x1024 .f32) (x1 : Vec F S1024x128 .f32) (xs0 : Vec F S2048x128 .f32) : Vec F S2048x128 .f32 :=
  VO4_2.read (Elt F) (VO4_2.writes (Elt F) VO4_2.junk (kernelRun4_C c i arg2 harg2 arg3 harg3 arg4 harg4 arg5 harg5 hc0 hc1 x0 x1 xs0).1)

theorem scover4_C_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : cond4_1 i)
    (x0 : Vec F S2048x1024 .f32) (x1 : Vec F S1024x128 .f32) (xs0 : Vec F S2048x128 .f32) (y : S2048x128.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S2048x128.size (by sl_kernel_rfl) y

def sout4_C_0 (c : Dev nD) (i : grid4.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (hc0 : ¬cond4_0 i) (hc1 : cond4_1 i)
    (x0 : Vec F S2048x1024 .f32) (x1 : Vec F S1024x128 .f32) (xs0 : Vec F S2048x128 .f32) : Vec F S2048x128 .f32 :=
  VS4_0.read (Elt F) (VS4_0.writes (Elt F) VS4_0.junk (kernelRun4_C c i arg2 harg2 arg3 harg3 arg4 harg4 arg5 harg5 hc0 hc1 x0 x1 xs0).2.1)

/-! ## What the output window's buffer and the accumulator hold after each point -/

/-- THE ACCUMULATION: (the output window's buffer, the accumulator) after the body at position `n`. -/
def outsAt4 (c : Dev nD) : (n : ℕ) → n < cfg4.N → Vec F S2048x128 .f32 × Vec F S2048x128 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 16 = 0 then
      if h1 : (n + 1) % 16 = 15 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 16 = 15 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 16 = 0) (h1 : ¬t.val % 16 = 15) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 16 = 0) (h1 : ¬t.val % 16 = 15) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 16 = 0) (h1 : t.val % 16 = 15) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer no window stages at
    anything, the generator register at some state); afterwards the accumulator at what the point before left in it. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ restBut4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ restBut4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ restBut4 (F := F) c) ∗ (∃ r, prngReg c r)) := by
  cases n with
  | zero => exact absurd rfl hz
  | succ n => rfl

/-! ## The pipeline's proof data -/

/-- The proof data of pipeline 4 on core `c`: the arrays as the region finds them; after the body at point `t` each
    input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in; the
    invariant hands the body the accumulator at what the point before left (at anything at the very first point) and
    takes it back at this point's contents; the untouched scoped buffers, the generator register and the core's
    `owes` pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h0 : t.val % 16 = 0
  · by_cases h1 : t.val % 16 = 15
    · exfalso; omega
    · rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hrest⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover4_A_0 c _ _ _ _ _ _ _ _ _ _ _ _ _)
            iexact Hrest
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, Hrest⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover4_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun e => h0 (by rw [e])
    by_cases h1 : t.val % 16 = 15
    · rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hrest⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the accumulator's contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 128 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

end Cert.KernelIdeal.Hand

end
-- ==== Proof.KI.Layer1.lean ====
import proofs.«119509_j83949430767932_1_alg».proof.Proof.Gen.KernelIdeal.Launch
import proofs.«119509_j83949430767932_1_alg».proof.Proof.Gen.KernelIdeal.Skeleton
import proofs.«119509_j83949430767932_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused layer kernel of region 1: what its body leaves, and its body obligation

The pipeline of region 1 runs the layer kernel on a grid of 8 points over nine windows: three [2048,128] row
blocks of the inputs (windows 0, 1, 2), two [128,128] weights and two [1,128] biases held whole (windows 3 to 6,
their block index constant, so the pipeline fetches them at the first point only), and two [2048,128] row blocks of
the outputs (windows 7, 8), written back at every point. Everything is stated at a parameter `V`, the contents of
the core's buffers when the region is entered.

The body reads every input buffer whole, computes, and stores each output buffer whole; it also loads each output
buffer before storing it, but uses nothing of what it loaded. So what it leaves in an output buffer is a closed
function of the seven input blocks (`out1_7`, `out1_8`: the one store's payload laid over the buffer), and what
it finds in an input buffer is that window's block at the point, whether the pipeline fetched it there or not. -/

-- membership in a rectangle of these extents: the elaborator recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x128 := Rect.unit (s := S2048x128) ![0, 0] S2048x128.size inb_S2048x128_S2048x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in each output window's buffer -/

/-- Window 7's buffer after the body, from the seven input blocks: its one store, of the layer's value
    (the sum of the logistic branch and the leaky branch), over the whole buffer. -/
def out1_7 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r1_0, k1_pay2 (View.ld x0 r1_0) (View.ld x1 r1_0) (View.ld x2 r1_0) (View.ld x3 r1_1) (View.ld x5 r1_1) (View.ld x4 r1_2) (View.ld x6 r1_2)⟩]

/-- Window 8's buffer after the body: its one store, of the layer's value divided row by row by the larger of
    its row norm and a small constant, over the whole buffer. -/
def out1_8 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r1_0, k1_pay1 (k1_pay2 (View.ld x0 r1_0) (View.ld x1 r1_0) (View.ld x2 r1_0) (View.ld x3 r1_1) (View.ld x5 r1_1) (View.ld x4 r1_2) (View.ld x6 r1_2)) (k1_pay3 (View.ld x0 r1_0) (View.ld x1 r1_0) (View.ld x2 r1_0) (View.ld x3 r1_1) (View.ld x5 r1_1) (View.ld x4 r1_2) (View.ld x6 r1_2))⟩]

/-- One store of the whole shape covers it. -/
theorem cover1 (p0 : Vec F S2048x128 .f32) (y : S2048x128.Idx) :
    ∃ pc ∈ ([⟨r1_0, p0⟩] : List (View.Piece (Elt F) S2048x128 .f32)), y ∈ pc.1.set :=
  View.cover_of_tiled [⟨r1_0, p0⟩] S2048x128.size (by rfl) y

/-! ## The body's triple -/

set_option maxHeartbeats 4000000 in
/-- The kernel body on whole staging memrefs, the inputs' at read contents `xW` and the outputs' at anything, runs
    to the continuation holding the inputs' as they were and each output's at `out1_W` of the inputs'. -/
theorem sound_kernel1 (c : Dev nD) (E : Set ℕ) (i : grid1.Coords) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole)
    (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6) ∗ owns (c : Thread nD τ) arg8 fullShare (out1_8 x0 x1 x2 x3 x4 x5 x6)) -∗ K ⟨⟩))
      ⊢ wp frame (wpE (defs₀ (F := F)) Variants.none c none) E (cc1_layer_kernel i arg0 harg0 arg1 harg1 arg2 harg2 arg3 harg3 arg4 harg4 arg5 harg5 arg6 harg6 arg7 harg7 arg8 harg8) K := by
  simp only [cc1_layer_kernel_eq_skeleton]; unfold cc1_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1 _)
  iexists _; isplitr
  swap; · iexact H8
  ipureintro
  exact View.read_writes_eq_canon _ _ _ (cover1 _)

/-! ## The pipeline's proof data -/

/-- The proof data of pipeline 1 on core `c`: the arrays as the region finds them (`V`); after the body at
    point `t` each input's buffer at its block and each output's at `out1_W` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 4000000 in
/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand
-- ==== Proof.KI.Layer3.lean ====
import proofs.«119509_j83949430767932_1_alg».proof.Proof.Gen.KernelIdeal.Launch
import proofs.«119509_j83949430767932_1_alg».proof.Proof.Gen.KernelIdeal.Skeleton
import proofs.«119509_j83949430767932_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused layer kernel of region 3: what its body leaves, and its body obligation

The pipeline of region 3 runs the layer kernel on a grid of 8 points over nine windows: three [2048,128] row
blocks of the inputs (windows 0, 1, 2), two [128,128] weights and two [1,128] biases held whole (windows 3 to 6,
their block index constant, so the pipeline fetches them at the first point only), and two [2048,128] row blocks of
the outputs (windows 7, 8), written back at every point. Everything is stated at a parameter `V`, the contents of
the core's buffers when the region is entered.

The body reads every input buffer whole, computes, and stores each output buffer whole; it also loads each output
buffer before storing it, but uses nothing of what it loaded. So what it leaves in an output buffer is a closed
function of the seven input blocks (`out3_7`, `out3_8`: the one store's payload laid over the buffer), and what
it finds in an input buffer is that window's block at the point, whether the pipeline fetched it there or not. -/

-- membership in a rectangle of these extents: the elaborator recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2048x128 := Rect.unit (s := S2048x128) ![0, 0] S2048x128.size inb_S2048x128_S2048x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-! ## What the body leaves in each output window's buffer -/

/-- Window 7's buffer after the body, from the seven input blocks: its one store, of the layer's value
    (the sum of the logistic branch and the leaky branch), over the whole buffer. -/
def out3_7 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r3_0, k3_pay2 (View.ld x0 r3_0) (View.ld x1 r3_0) (View.ld x2 r3_0) (View.ld x3 r3_1) (View.ld x5 r3_1) (View.ld x4 r3_2) (View.ld x6 r3_2)⟩]

/-- Window 8's buffer after the body: its one store, of the layer's value divided row by row by the larger of
    its row norm and a small constant, over the whole buffer. -/
def out3_8 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r3_0, k3_pay1 (k3_pay2 (View.ld x0 r3_0) (View.ld x1 r3_0) (View.ld x2 r3_0) (View.ld x3 r3_1) (View.ld x5 r3_1) (View.ld x4 r3_2) (View.ld x6 r3_2)) (k3_pay3 (View.ld x0 r3_0) (View.ld x1 r3_0) (View.ld x2 r3_0) (View.ld x3 r3_1) (View.ld x5 r3_1) (View.ld x4 r3_2) (View.ld x6 r3_2))⟩]

/-- One store of the whole shape covers it. -/
theorem cover3 (p0 : Vec F S2048x128 .f32) (y : S2048x128.Idx) :
    ∃ pc ∈ ([⟨r3_0, p0⟩] : List (View.Piece (Elt F) S2048x128 .f32)), y ∈ pc.1.set :=
  View.cover_of_tiled [⟨r3_0, p0⟩] S2048x128.size (by rfl) y

/-! ## The body's triple -/

set_option maxHeartbeats 4000000 in
/-- The kernel body on whole staging memrefs, the inputs' at read contents `xW` and the outputs' at anything, runs
    to the continuation holding the inputs' as they were and each output's at `out3_W` of the inputs'. -/
theorem sound_kernel3 (c : Dev nD) (E : Set ℕ) (i : grid3.Coords) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole)
    (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6) ∗ owns (c : Thread nD τ) arg8 fullShare (out3_8 x0 x1 x2 x3 x4 x5 x6)) -∗ K ⟨⟩))
      ⊢ wp frame (wpE (defs₀ (F := F)) Variants.none c none) E (cc3_layer_kernel i arg0 harg0 arg1 harg1 arg2 harg2 arg3 harg3 arg4 harg4 arg5 harg5 arg6 harg6 arg7 harg7 arg8 harg8) K := by
  simp only [cc3_layer_kernel_eq_skeleton]; unfold cc3_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover3 _)
  iexists _; isplitr
  swap; · iexact H8
  ipureintro
  exact View.read_writes_eq_canon _ _ _ (cover3 _)

/-! ## The pipeline's proof data -/

/-- The proof data of pipeline 3 on core `c`: the arrays as the region finds them (`V`); after the body at
    point `t` each input's buffer at its block and each output's at `out3_W` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
    | ⟨8, _⟩ => out3_8 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 4000000 in
/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand
-- ==== Proof.KI.Layer5.lean ====
import proofs.«119509_j83949430767932_1_alg».proof.Proof.Gen.KernelIdeal.Launch
import proofs.«119509_j83949430767932_1_alg».proof.Proof.Gen.KernelIdeal.Skeleton
import proofs.«119509_j83949430767932_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused layer kernel of region 5: what its body leaves, and its body obligation

The pipeline of region 5 runs the layer kernel on a grid of 8 points over nine windows: three [2048,128] row
blocks of the inputs (windows 0, 1, 2), two [128,128] weights and two [1,128] biases held whole (windows 3 to 6,
their block index constant, so the pipeline fetches them at the first point only), and two [2048,128] row blocks of
the outputs (windows 7, 8), written back at every point. Everything is stated at a parameter `V`, the contents of
the core's buffers when the region is entered.

The body reads every input buffer whole, computes, and stores each output buffer whole; it also loads each output
buffer before storing it, but uses nothing of what it loaded. So what it leaves in an output buffer is a closed
function of the seven input blocks (`out5_7`, `out5_8`: the one store's payload laid over the buffer), and what
it finds in an input buffer is that window's block at the point, whether the pipeline fetched it there or not. -/

-- membership in a rectangle of these extents: the elaborator recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s (`hA`) and whose body leaves the block in place (`hafter`): unfetched, the block
    index has not moved, so the buffer still holds the block (`Dat.before_in_eq_fetched`); the window is uncut and
    never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S2048x128 := Rect.unit (s := S2048x128) ![0, 0] S2048x128.size inb_S2048x128_S2048x128_0_0
abbrev r5_1 : Rect S128x128 := Rect.unit (s := S128x128) ![0, 0] S128x128.size inb_S128x128_S128x128_0_0
abbrev r5_2 : Rect S1x128 := Rect.unit (s := S1x128) ![0, 0] S1x128.size inb_S1x128_S1x128_0_0

/-! ## What the body leaves in each output window's buffer -/

/-- Window 7's buffer after the body, from the seven input blocks: its one store, of the layer's value
    (the sum of the logistic branch and the leaky branch), over the whole buffer. -/
def out5_7 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r5_0, k5_pay2 (View.ld x0 r5_0) (View.ld x1 r5_0) (View.ld x2 r5_0) (View.ld x3 r5_1) (View.ld x5 r5_1) (View.ld x4 r5_2) (View.ld x6 r5_2)⟩]

/-- Window 8's buffer after the body: its one store, of the layer's value divided row by row by the larger of
    its row norm and a small constant, over the whole buffer. -/
def out5_8 (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) : Vec F S2048x128 .f32 :=
  View.canon [⟨r5_0, k5_pay1 (k5_pay2 (View.ld x0 r5_0) (View.ld x1 r5_0) (View.ld x2 r5_0) (View.ld x3 r5_1) (View.ld x5 r5_1) (View.ld x4 r5_2) (View.ld x6 r5_2)) (k5_pay3 (View.ld x0 r5_0) (View.ld x1 r5_0) (View.ld x2 r5_0) (View.ld x3 r5_1) (View.ld x5 r5_1) (View.ld x4 r5_2) (View.ld x6 r5_2))⟩]

/-- One store of the whole shape covers it. -/
theorem cover5 (p0 : Vec F S2048x128 .f32) (y : S2048x128.Idx) :
    ∃ pc ∈ ([⟨r5_0, p0⟩] : List (View.Piece (Elt F) S2048x128 .f32)), y ∈ pc.1.set :=
  View.cover_of_tiled [⟨r5_0, p0⟩] S2048x128.size (by rfl) y

/-! ## The body's triple -/

set_option maxHeartbeats 4000000 in
/-- The kernel body on whole staging memrefs, the inputs' at read contents `xW` and the outputs' at anything, runs
    to the continuation holding the inputs' as they were and each output's at `out5_W` of the inputs'. -/
theorem sound_kernel5 (c : Dev nD) (E : Set ℕ) (i : grid5.Coords) (arg0 : Memref sig .tc .vmem S2048x128 .f32) (harg0 : arg0.IsWhole) (arg1 : Memref sig .tc .vmem S2048x128 .f32) (harg1 : arg1.IsWhole) (arg2 : Memref sig .tc .vmem S2048x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x128 .f32) (harg8 : arg8.IsWhole)
    (x0 : Vec F S2048x128 .f32) (x1 : Vec F S2048x128 .f32) (x2 : Vec F S2048x128 .f32) (x3 : Vec F S128x128 .f32) (x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out5_7 x0 x1 x2 x3 x4 x5 x6) ∗ owns (c : Thread nD τ) arg8 fullShare (out5_8 x0 x1 x2 x3 x4 x5 x6)) -∗ K ⟨⟩))
      ⊢ wp frame (wpE (defs₀ (F := F)) Variants.none c none) E (cc5_layer_kernel i arg0 harg0 arg1 harg1 arg2 harg2 arg3 harg3 arg4 harg4 arg5 harg5 arg6 harg6 arg7 harg7 arg8 harg8) K := by
  simp only [cc5_layer_kernel_eq_skeleton]; unfold cc5_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover5 _)
  iexists _; isplitr
  swap; · iexact H8
  ipureintro
  exact View.read_writes_eq_canon _ _ _ (cover5 _)

/-! ## The pipeline's proof data -/

/-- The proof data of pipeline 5 on core `c`: the arrays as the region finds them (`V`); after the body at
    point `t` each input's buffer at its block and each output's at `out5_W` of the input blocks; the invariant
    the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
    | ⟨8, _⟩ => out5_8 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t))

set_option maxHeartbeats 4000000 in
/-- The body at any point: the inputs' memrefs hold their blocks, so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 c Set.univ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Region

end Cert.KernelIdeal.Hand
-- ==== Proof.KI.Run.lean ====
/-
  The whole program as eleven segments — five stretches of host operations and six kernel regions (per layer: the blocked
  product `A · pre`, then the fused layer) — run from the launch to the return. `WJ` is what core `c`'s buffers hold at the
  J-th boundary: a host stretch applies its operations to the contents before it; a region leaves each of its arrays at
  what its write-backs fold to and every other buffer as it found it. The run ends with every unscoped buffer at `W11`.
-/
import proofs.«119509_j83949430767932_1_alg».proof.Proof.KI.Matmul0
import proofs.«119509_j83949430767932_1_alg».proof.Proof.KI.Matmul2
import proofs.«119509_j83949430767932_1_alg».proof.Proof.KI.Matmul4
import proofs.«119509_j83949430767932_1_alg».proof.Proof.KI.Layer1
import proofs.«119509_j83949430767932_1_alg».proof.Proof.KI.Layer3
import proofs.«119509_j83949430767932_1_alg».proof.Proof.KI.Layer5
import proofs.«119509_j83949430767932_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- At region 2's exit: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- At region 4's exit: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- At region 5's exit: its arrays at what the pipeline leaves, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b

/-! ## The proof data family and the thread state -/

abbrev admH : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) admH p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    have hPhi := hout0 (V1 m ρ) c
    unfold Pipeline.ΦA at hPhi
    iintro Hphi
    ihave H := hPhi $$ Hphi
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = (dat2 (V4 m ρ) c).Φ (Fin.last cfg2.N) from rfl]
    have hPhi := hout2 (V4 m ρ) c
    unfold Pipeline.ΦA at hPhi
    iintro Hphi
    ihave H := hPhi $$ Hphi
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. -/
def reg3 : Pipeline.RegionSeg (pcfgs (F := F)) admH (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W7`, left at `W8`. -/
def reg4 : Pipeline.RegionSeg (pcfgs (F := F)) admH (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = (dat4 (V7 m ρ) c).Φ (Fin.last cfg4.N) from rfl]
    have hPhi := hout4 (V7 m ρ) c
    unfold Pipeline.ΦA at hPhi
    iintro Hphi
    ihave H := hPhi $$ Hphi
    icases H with ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W9`, left at `W10`. -/
def reg5 : Pipeline.RegionSeg (pcfgs (F := F)) admH (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) admH (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)) ]

set_option backward.isDefEq.respectTransparency.types false in
/-- THE RUN: from any memory with zero counters every weakly fair execution of @main terminates, nothing faulting, and every
    final state has every unscoped buffer of every core at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) admH (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Hand

end
-- ==== Proof.KI.RunKeep.lean ====
/-
  What each segment leaves untouched: a stretch of host operations leaves every buffer none of its operations writes; a
  region leaves every buffer that is not one of its output arrays (an input array it only reads, any other buffer it
  never sees).
-/
import proofs.«119509_j83949430767932_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_keep (c : Dev nD) (b : Ref sig .tc) (h : b ∉ hostOps0_W) : W1 m ρ c b = W0 m ρ c b :=
  StableHlo.after_of_writes_sub hostOps0 _ hostOps0_writes h
theorem W3_keep (c : Dev nD) (b : Ref sig .tc) (h : b ∉ hostOps1_W) : W3 m ρ c b = W2 m ρ c b :=
  StableHlo.after_of_writes_sub hostOps1 _ hostOps1_writes h
theorem W6_keep (c : Dev nD) (b : Ref sig .tc) (h : b ∉ hostOps3_W) : W6 m ρ c b = W5 m ρ c b :=
  StableHlo.after_of_writes_sub hostOps3 _ hostOps3_writes h
theorem W9_keep (c : Dev nD) (b : Ref sig .tc) (h : b ∉ hostOps5_W) : W9 m ρ c b = W8 m ρ c b :=
  StableHlo.after_of_writes_sub hostOps5 _ hostOps5_writes h
theorem W11_keep (c : Dev nD) (b : Ref sig .tc) (h : b ∉ hostOps6_W) : W11 m ρ c b = W10 m ρ c b :=
  StableHlo.after_of_writes_sub hostOps6 _ hostOps6_writes h
theorem W2_keep (c : Dev nD) (b : Ref sig .tc) (ho0 : b ≠ main_v6) : W2 m ρ c b = W1 m ρ c b := by
  by_cases hi0 : b = main_arg0
  · subst hi0; exact (W2_arr m ρ c 0).trans (((dat0 (V1 m ρ) c).arrAt_in 0 rfl _).trans (A_eq0 (V1 m ρ) c 0))
  by_cases hi1 : b = main_arg3
  · subst hi1; exact (W2_arr m ρ c 1).trans (((dat0 (V1 m ρ) c).arrAt_in 1 rfl _).trans (A_eq0 (V1 m ρ) c 1))
  exact W2_of_ne m ρ c b (fun w => by
    match w with
    | ⟨0, _⟩ => exact fun e => hi0 e.symm
    | ⟨1, _⟩ => exact fun e => hi1 e.symm
    | ⟨2, _⟩ => exact fun e => ho0 e.symm)
theorem W4_keep (c : Dev nD) (b : Ref sig .tc) (ho0 : b ≠ main_v32_0) (ho1 : b ≠ main_v32_1) : W4 m ρ c b = W3 m ρ c b := by
  by_cases hi0 : b = main_arg3
  · subst hi0; exact (W4_arr m ρ c 0).trans (((dat1 (V3 m ρ) c).arrAt_in 0 rfl _).trans (A_eq1 (V3 m ρ) c 0))
  by_cases hi1 : b = main_v6
  · subst hi1; exact (W4_arr m ρ c 1).trans (((dat1 (V3 m ρ) c).arrAt_in 1 rfl _).trans (A_eq1 (V3 m ρ) c 1))
  by_cases hi2 : b = main_v19
  · subst hi2; exact (W4_arr m ρ c 2).trans (((dat1 (V3 m ρ) c).arrAt_in 2 rfl _).trans (A_eq1 (V3 m ρ) c 2))
  by_cases hi3 : b = main_v22
  · subst hi3; exact (W4_arr m ρ c 3).trans (((dat1 (V3 m ρ) c).arrAt_in 3 rfl _).trans (A_eq1 (V3 m ρ) c 3))
  by_cases hi4 : b = main_v28
  · subst hi4; exact (W4_arr m ρ c 4).trans (((dat1 (V3 m ρ) c).arrAt_in 4 rfl _).trans (A_eq1 (V3 m ρ) c 4))
  by_cases hi5 : b = main_v25
  · subst hi5; exact (W4_arr m ρ c 5).trans (((dat1 (V3 m ρ) c).arrAt_in 5 rfl _).trans (A_eq1 (V3 m ρ) c 5))
  by_cases hi6 : b = main_v31
  · subst hi6; exact (W4_arr m ρ c 6).trans (((dat1 (V3 m ρ) c).arrAt_in 6 rfl _).trans (A_eq1 (V3 m ρ) c 6))
  exact W4_of_ne m ρ c b (fun w => by
    match w with
    | ⟨0, _⟩ => exact fun e => hi0 e.symm
    | ⟨1, _⟩ => exact fun e => hi1 e.symm
    | ⟨2, _⟩ => exact fun e => hi2 e.symm
    | ⟨3, _⟩ => exact fun e => hi3 e.symm
    | ⟨4, _⟩ => exact fun e => hi4 e.symm
    | ⟨5, _⟩ => exact fun e => hi5 e.symm
    | ⟨6, _⟩ => exact fun e => hi6 e.symm
    | ⟨7, _⟩ => exact fun e => ho0 e.symm
    | ⟨8, _⟩ => exact fun e => ho1 e.symm)
theorem W5_keep (c : Dev nD) (b : Ref sig .tc) (ho0 : b ≠ main_v33) : W5 m ρ c b = W4 m ρ c b := by
  by_cases hi0 : b = main_arg0
  · subst hi0; exact (W5_arr m ρ c 0).trans (((dat2 (V4 m ρ) c).arrAt_in 0 rfl _).trans (A_eq2 (V4 m ρ) c 0))
  by_cases hi1 : b = main_v32_0
  · subst hi1; exact (W5_arr m ρ c 1).trans (((dat2 (V4 m ρ) c).arrAt_in 1 rfl _).trans (A_eq2 (V4 m ρ) c 1))
  exact W5_of_ne m ρ c b (fun w => by
    match w with
    | ⟨0, _⟩ => exact fun e => hi0 e.symm
    | ⟨1, _⟩ => exact fun e => hi1 e.symm
    | ⟨2, _⟩ => exact fun e => ho0 e.symm)
theorem W7_keep (c : Dev nD) (b : Ref sig .tc) (ho0 : b ≠ main_v59_0) (ho1 : b ≠ main_v59_1) : W7 m ρ c b = W6 m ρ c b := by
  by_cases hi0 : b = main_v32_0
  · subst hi0; exact (W7_arr m ρ c 0).trans (((dat3 (V6 m ρ) c).arrAt_in 0 rfl _).trans (A_eq3 (V6 m ρ) c 0))
  by_cases hi1 : b = main_v33
  · subst hi1; exact (W7_arr m ρ c 1).trans (((dat3 (V6 m ρ) c).arrAt_in 1 rfl _).trans (A_eq3 (V6 m ρ) c 1))
  by_cases hi2 : b = main_v46
  · subst hi2; exact (W7_arr m ρ c 2).trans (((dat3 (V6 m ρ) c).arrAt_in 2 rfl _).trans (A_eq3 (V6 m ρ) c 2))
  by_cases hi3 : b = main_v49
  · subst hi3; exact (W7_arr m ρ c 3).trans (((dat3 (V6 m ρ) c).arrAt_in 3 rfl _).trans (A_eq3 (V6 m ρ) c 3))
  by_cases hi4 : b = main_v55
  · subst hi4; exact (W7_arr m ρ c 4).trans (((dat3 (V6 m ρ) c).arrAt_in 4 rfl _).trans (A_eq3 (V6 m ρ) c 4))
  by_cases hi5 : b = main_v52
  · subst hi5; exact (W7_arr m ρ c 5).trans (((dat3 (V6 m ρ) c).arrAt_in 5 rfl _).trans (A_eq3 (V6 m ρ) c 5))
  by_cases hi6 : b = main_v58
  · subst hi6; exact (W7_arr m ρ c 6).trans (((dat3 (V6 m ρ) c).arrAt_in 6 rfl _).trans (A_eq3 (V6 m ρ) c 6))
  exact W7_of_ne m ρ c b (fun w => by
    match w with
    | ⟨0, _⟩ => exact fun e => hi0 e.symm
    | ⟨1, _⟩ => exact fun e => hi1 e.symm
    | ⟨2, _⟩ => exact fun e => hi2 e.symm
    | ⟨3, _⟩ => exact fun e => hi3 e.symm
    | ⟨4, _⟩ => exact fun e => hi4 e.symm
    | ⟨5, _⟩ => exact fun e => hi5 e.symm
    | ⟨6, _⟩ => exact fun e => hi6 e.symm
    | ⟨7, _⟩ => exact fun e => ho0 e.symm
    | ⟨8, _⟩ => exact fun e => ho1 e.symm)
theorem W8_keep (c : Dev nD) (b : Ref sig .tc) (ho0 : b ≠ main_v60) : W8 m ρ c b = W7 m ρ c b := by
  by_cases hi0 : b = main_arg0
  · subst hi0; exact (W8_arr m ρ c 0).trans (((dat4 (V7 m ρ) c).arrAt_in 0 rfl _).trans (A_eq4 (V7 m ρ) c 0))
  by_cases hi1 : b = main_v59_0
  · subst hi1; exact (W8_arr m ρ c 1).trans (((dat4 (V7 m ρ) c).arrAt_in 1 rfl _).trans (A_eq4 (V7 m ρ) c 1))
  exact W8_of_ne m ρ c b (fun w => by
    match w with
    | ⟨0, _⟩ => exact fun e => hi0 e.symm
    | ⟨1, _⟩ => exact fun e => hi1 e.symm
    | ⟨2, _⟩ => exact fun e => ho0 e.symm)
theorem W10_keep (c : Dev nD) (b : Ref sig .tc) (ho0 : b ≠ main_v86_0) (ho1 : b ≠ main_v86_1) : W10 m ρ c b = W9 m ρ c b := by
  by_cases hi0 : b = main_v59_0
  · subst hi0; exact (W10_arr m ρ c 0).trans (((dat5 (V9 m ρ) c).arrAt_in 0 rfl _).trans (A_eq5 (V9 m ρ) c 0))
  by_cases hi1 : b = main_v60
  · subst hi1; exact (W10_arr m ρ c 1).trans (((dat5 (V9 m ρ) c).arrAt_in 1 rfl _).trans (A_eq5 (V9 m ρ) c 1))
  by_cases hi2 : b = main_v73
  · subst hi2; exact (W10_arr m ρ c 2).trans (((dat5 (V9 m ρ) c).arrAt_in 2 rfl _).trans (A_eq5 (V9 m ρ) c 2))
  by_cases hi3 : b = main_v76
  · subst hi3; exact (W10_arr m ρ c 3).trans (((dat5 (V9 m ρ) c).arrAt_in 3 rfl _).trans (A_eq5 (V9 m ρ) c 3))
  by_cases hi4 : b = main_v82
  · subst hi4; exact (W10_arr m ρ c 4).trans (((dat5 (V9 m ρ) c).arrAt_in 4 rfl _).trans (A_eq5 (V9 m ρ) c 4))
  by_cases hi5 : b = main_v79
  · subst hi5; exact (W10_arr m ρ c 5).trans (((dat5 (V9 m ρ) c).arrAt_in 5 rfl _).trans (A_eq5 (V9 m ρ) c 5))
  by_cases hi6 : b = main_v85
  · subst hi6; exact (W10_arr m ρ c 6).trans (((dat5 (V9 m ρ) c).arrAt_in 6 rfl _).trans (A_eq5 (V9 m ρ) c 6))
  exact W10_of_ne m ρ c b (fun w => by
    match w with
    | ⟨0, _⟩ => exact fun e => hi0 e.symm
    | ⟨1, _⟩ => exact fun e => hi1 e.symm
    | ⟨2, _⟩ => exact fun e => hi2 e.symm
    | ⟨3, _⟩ => exact fun e => hi3 e.symm
    | ⟨4, _⟩ => exact fun e => hi4 e.symm
    | ⟨5, _⟩ => exact fun e => hi5 e.symm
    | ⟨6, _⟩ => exact fun e => hi6 e.symm
    | ⟨7, _⟩ => exact fun e => ho0 e.symm
    | ⟨8, _⟩ => exact fun e => ho1 e.symm)

/-- A buffer no host operation writes and no region has for an output ends as launched. -/
theorem W11_never (c : Dev nD) (b : Ref sig .tc) (h0 : b ∉ hostOps0_W) (h1 : b ∉ hostOps1_W) (h3 : b ∉ hostOps3_W) (h5 : b ∉ hostOps5_W) (h6 : b ∉ hostOps6_W)
    (hr : b ∉ ([main_v6, main_v32_0, main_v32_1, main_v33, main_v59_0, main_v59_1, main_v60, main_v86_0, main_v86_1] : List (Ref sig .tc))) : W11 m ρ c b = W0 m ρ c b := by
  have hne : ∀ x ∈ ([main_v6, main_v32_0, main_v32_1, main_v33, main_v59_0, main_v59_1, main_v60, main_v86_0, main_v86_1] : List (Ref sig .tc)), b ≠ x := fun x hx e => hr (e ▸ hx)
  exact (W11_keep m ρ c b h6).trans <| (W10_keep m ρ c b (hne _ (by decide)) (hne _ (by decide))).trans <| (W9_keep m ρ c b h5).trans <|
    (W8_keep m ρ c b (hne _ (by decide))).trans <| (W7_keep m ρ c b (hne _ (by decide)) (hne _ (by decide))).trans <| (W6_keep m ρ c b h3).trans <|
    (W5_keep m ρ c b (hne _ (by decide))).trans <| (W4_keep m ρ c b (hne _ (by decide)) (hne _ (by decide))).trans <| (W3_keep m ρ c b h1).trans <|
    (W2_keep m ρ c b (hne _ (by decide))).trans (W1_keep m ρ c b h0)

theorem W11_main_arg0 (c : Dev nD) : W11 m ρ c main_arg0 = m ((c : Thread nD τ).loc main_arg0) :=
  (W11_never m ρ c main_arg0 (by decide) (by decide) (by decide) (by decide) (by decide) (by decide)).trans rfl
theorem W11_main_arg1 (c : Dev nD) : W11 m ρ c main_arg1 = m ((c : Thread nD τ).loc main_arg1) :=
  (W11_never m ρ c main_arg1 (by decide) (by decide) (by decide) (by decide) (by decide) (by decide)).trans rfl
theorem W11_main_arg2 (c : Dev nD) : W11 m ρ c main_arg2 = m ((c : Thread nD τ).loc main_arg2) :=
  (W11_never m ρ c main_arg2 (by decide) (by decide) (by decide) (by decide) (by decide) (by decide)).trans rfl
theorem W11_main_arg3 (c : Dev nD) : W11 m ρ c main_arg3 = m ((c : Thread nD τ).loc main_arg3) :=
  (W11_never m ρ c main_arg3 (by decide) (by decide) (by decide) (by decide) (by decide) (by decide)).trans rfl
theorem W11_main_arg4 (c : Dev nD) : W11 m ρ c main_arg4 = m ((c : Thread nD τ).loc main_arg4) :=
  (W11_never m ρ c main_arg4 (by decide) (by decide) (by decide) (by decide) (by decide) (by decide)).trans rfl
theorem W11_main_arg5 (c : Dev nD) : W11 m ρ c main_arg5 = m ((c : Thread nD τ).loc main_arg5) :=
  (W11_never m ρ c main_arg5 (by decide) (by decide) (by decide) (by decide) (by decide) (by decide)).trans rfl
theorem W11_main_arg6 (c : Dev nD) : W11 m ρ c main_arg6 = m ((c : Thread nD τ).loc main_arg6) :=
  (W11_never m ρ c main_arg6 (by decide) (by decide) (by decide) (by decide) (by decide) (by decide)).trans rfl
theorem W11_main_arg7 (c : Dev nD) : W11 m ρ c main_arg7 = m ((c : Thread nD τ).loc main_arg7) :=
  (W11_never m ρ c main_arg7 (by decide) (by decide) (by decide) (by decide) (by decide) (by decide)).trans rfl

/-- THE FRAME: every weakly fair execution terminates, nothing faulting, and the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c)⟩) (run_all m ρ)

end Cert.KernelIdeal.Hand

end
-- ==== Proof.Spec.lean ====
/-
  The reference's mathematics as whole-array functions.

  Each function below is the composition of the very host operations the reference program applies, in its
  order and with its literals, so that the contents the program leaves in a buffer are one of these functions of
  the argument arrays by unfolding alone.  Nothing here is evaluated: a three-layer graph network —
  per layer a dense aggregation `A · pre`, a sparse aggregation (gather the rows `pre[col]`, scale by the edge
  values, add them up at the rows `row`), two dense layers, a logistic and a leaky rectifier, and the rows
  normalised to unit length — whose four blocks `2·X, n(e₁), n(e₂), n(e₃)` are laid side by side.
-/
import proofs.«119509_j83949430767932_1_alg».proof.ReferenceIdeal

noncomputable section

namespace Cert.Spec

open Idealize.ShloMosaic Cert.ReferenceIdeal Cert.ReferenceIdeal.Facts₀

variable {F : FTy → Type} [FloatOps F] [Facts₀]

/-- An `n × d` array of node features. -/
abbrev Mat (F : FTy → Type) : Type := FVec F S16384x128 .f32

/-! ## The edge table -/

/-- Row `0` of the edge table as a vector: each edge's destination node. -/
def rowVec (idx : IVec S2x524288 32) : IVec S524288 32 :=
  shapeCast S524288 (extractStridedSlice S1x524288 ![0, 0] idx slices_S2x524288_S1x524288_0_0) shapeCasts_S1x524288_S524288

/-- Row `1` of the edge table as a vector: each edge's source node. -/
def colVec (idx : IVec S2x524288 32) : IVec S524288 32 :=
  shapeCast S524288 (extractStridedSlice S1x524288 ![1, 0] idx slices_S2x524288_S1x524288_1_0) shapeCasts_S1x524288_S524288

/-- A vector of destination nodes as a one-column table of scatter indices. -/
def rowColOf (r : IVec S524288 32) : IVec S524288x1 32 :=
  broadcastInDim S524288x1 ![0] bcast_S524288_S524288x1_0 r

/-- A vector of source nodes as a one-column table of gather indices, a negative entry counted from the end
    (`c < 0 ? c + n : c`). -/
def colColOf (c : IVec S524288 32) : IVec S524288x1 32 :=
  broadcastInDim S524288x1 ![0] bcast_S524288_S524288x1_0
    (select (cmpi .slt c (broadcastInDim S524288 ![] bcast_S_S524288 (constantI S_ 32 0#32)))
      (addi c (broadcastInDim S524288 ![] bcast_S_S524288 (constantI S_ 32 16384#32))) c)

/-- The destination nodes of the edge table, as scatter indices. -/
def rowCol (idx : IVec S2x524288 32) : IVec S524288x1 32 := rowColOf (rowVec idx)

/-- The source nodes of the edge table, as gather indices. -/
def colCol (idx : IVec S2x524288 32) : IVec S524288x1 32 := colColOf (colVec idx)

/-! ## One layer's aggregations -/

/-- The dense aggregation `A · pre`. -/
def allAgg (A : FVec F S16384x16384 .f32) (pre : Mat F) : Mat F :=
  Host.dotGeneral dot_S16384x16384_S16384x128_S16384x128_1_0_0_1_n_n none A pre

/-- The all-zero array the sparse aggregation accumulates into. -/
def zeros : Mat F := broadcastInDim S16384x128 ![] bcast_S_S16384x128 (constant S_ .f32 0x00000000#32)

/-- The sparse aggregation over given index tables: row `cc e` of `pre` scaled by `vals e`, added into row `rc e`. -/
def subAggOf (rc cc : IVec S524288x1 32) (vals : FVec F S524288 .f32) (pre : Mat F) : Mat F :=
  Host.scatterAdd scatter_S16384x128_S524288x1_S524288x128_1_0_0_1 (zeros (F := F)) rc
    (mulf (broadcastInDim S524288x128 ![0, 1] bcast_S524288x1_S524288x128_0_1
            (broadcastInDim S524288x1 ![0] bcast_S524288_S524288x1_0 vals))
      (Host.gather gather_S16384x128_S524288x1_S524288x128_1_0_n_n_0_1_1128 pre cc))

/-- The sparse aggregation of the edge table `idx` with edge values `vals`. -/
def subAgg (idx : IVec S2x524288 32) (vals : FVec F S524288 .f32) (pre : Mat F) : Mat F :=
  subAggOf (rowCol idx) (colCol idx) vals pre

/-! ## The layers' parameters -/

def w0 (W : FVec F S3x128x128 .f32) : FVec F S128x128 .f32 :=
  shapeCast S128x128 (extractStridedSlice S1x128x128 ![0, 0, 0] W slices_S3x128x128_S1x128x128_0_0_0) shapeCasts_S1x128x128_S128x128
def w1 (W : FVec F S3x128x128 .f32) : FVec F S128x128 .f32 :=
  shapeCast S128x128 (extractStridedSlice S1x128x128 ![1, 0, 0] W slices_S3x128x128_S1x128x128_1_0_0) shapeCasts_S1x128x128_S128x128
def w2 (W : FVec F S3x128x128 .f32) : FVec F S128x128 .f32 :=
  shapeCast S128x128 (extractStridedSlice S1x128x128 ![2, 0, 0] W slices_S3x128x128_S1x128x128_2_0_0) shapeCasts_S1x128x128_S128x128

def b0 (b : FVec F S3x128 .f32) : FVec F S128 .f32 :=
  shapeCast S128 (extractStridedSlice S1x128 ![0, 0] b slices_S3x128_S1x128_0_0) shapeCasts_S1x128_S128
def b1 (b : FVec F S3x128 .f32) : FVec F S128 .f32 :=
  shapeCast S128 (extractStridedSlice S1x128 ![1, 0] b slices_S3x128_S1x128_1_0) shapeCasts_S1x128_S128
def b2 (b : FVec F S3x128 .f32) : FVec F S128 .f32 :=
  shapeCast S128 (extractStridedSlice S1x128 ![2, 0] b slices_S3x128_S1x128_2_0) shapeCasts_S1x128_S128

/-! ## One layer -/

/-- The array of ones (the layer's two unit scales). -/
def one : Mat F := broadcastInDim S16384x128 ![] bcast_S_S16384x128 (constant S_ .f32 0x3F800000#32)

/-- A dense layer `x · wᵀ + b`, the bias laid along every row. -/
def dense (x : Mat F) (w : FVec F S128x128 .f32) (b : FVec F S128 .f32) : Mat F :=
  addf (Host.dotGeneral dot_S16384x128_S128x128_S16384x128_1_1_0_0_n_n none x w)
    (broadcastInDim S16384x128 ![0, 1] bcast_S1x128_S16384x128_0_1 (broadcastInDim S1x128 ![1] bcast_S128_S1x128_1 b))

/-- The logistic function of `1 · h`, written `1 / (1 + exp (-(1 · h)))`. -/
def sigm (h : Mat F) : Mat F :=
  Host.divf (one (F := F)) (addf (one (F := F)) (Host.exp (Host.negf (mulf (one (F := F)) h))))

/-- The leaky rectifier: `z` where `z ≥ 0`, else `z` times the slope literal. -/
def lrelu (z : Mat F) : Mat F :=
  select (cmpf .oge z (broadcastInDim S16384x128 ![] bcast_S_S16384x128 (constant S_ .f32 0x00000000#32))) z
    (mulf (broadcastInDim S16384x128 ![] bcast_S_S16384x128 (constant S_ .f32 0x3C23D70A#32)) z)

/-- One layer's embedding from the previous one `pre` and its two aggregations. -/
def emb (pre agg sub : Mat F) (w2 : FVec F S128x128 .f32) (bb2 : FVec F S128 .f32) (w3 : FVec F S128x128 .f32)
    (bb3 : FVec F S128 .f32) : Mat F :=
  addf (sigm (dense (addf pre agg) w2 bb2)) (lrelu (mulf (one (F := F)) (dense (mulf pre sub) w3 bb3)))

/-- Each row divided by its length, the length kept above the literal `1e-12`. -/
def l2n (e : Mat F) : Mat F :=
  Host.divf e
    (broadcastInDim S16384x128 ![0, 1] bcast_S16384x1_S16384x128_0_1
      (maximumf
        (Host.sqrt (broadcastInDim S16384x1 ![0] bcast_S16384_S16384x1_0
          (Host.reduceAdd (mulf e e) (constant S_ .f32 0x00000000#32 : FVec F S_ .f32) reducesTo_S16384x128_S16384_d1 h_S_)))
        (broadcastInDim S16384x1 ![] bcast_S_S16384x1 (constant S_ .f32 0x2B8CBCCC#32))))

/-- Twice the input features. -/
def twice (X : Mat F) : Mat F :=
  mulf (broadcastInDim S16384x128 ![] bcast_S_S16384x128 (constant S_ .f32 0x40000000#32)) X

/-! ## The whole function -/

/-- The first layer's embedding. -/
def e1 (A : FVec F S16384x16384 .f32) (idx : IVec S2x524288 32) (vals : FVec F S524288 .f32) (X : Mat F)
    (W2 : FVec F S3x128x128 .f32) (B2 : FVec F S3x128 .f32) (W3 : FVec F S3x128x128 .f32) (B3 : FVec F S3x128 .f32) : Mat F :=
  emb X (allAgg A X) (subAgg idx vals X) (w0 W2) (b0 B2) (w0 W3) (b0 B3)

/-- The second layer's embedding. -/
def e2 (A : FVec F S16384x16384 .f32) (idx : IVec S2x524288 32) (vals : FVec F S524288 .f32) (X : Mat F)
    (W2 : FVec F S3x128x128 .f32) (B2 : FVec F S3x128 .f32) (W3 : FVec F S3x128x128 .f32) (B3 : FVec F S3x128 .f32) : Mat F :=
  emb (e1 A idx vals X W2 B2 W3 B3) (allAgg A (e1 A idx vals X W2 B2 W3 B3)) (subAgg idx vals (e1 A idx vals X W2 B2 W3 B3))
    (w1 W2) (b1 B2) (w1 W3) (b1 B3)

/-- The third layer's embedding. -/
def e3 (A : FVec F S16384x16384 .f32) (idx : IVec S2x524288 32) (vals : FVec F S524288 .f32) (X : Mat F)
    (W2 : FVec F S3x128x128 .f32) (B2 : FVec F S3x128 .f32) (W3 : FVec F S3x128x128 .f32) (B3 : FVec F S3x128 .f32) : Mat F :=
  emb (e2 A idx vals X W2 B2 W3 B3) (allAgg A (e2 A idx vals X W2 B2 W3 B3)) (subAgg idx vals (e2 A idx vals X W2 B2 W3 B3))
    (w2 W2) (b2 B2) (w2 W3) (b2 B3)

/-- The four blocks side by side. -/
def cat4 (p q r s : Mat F) : FVec F S16384x512 .f32 :=
  concatenate S16384x512 1 [⟨S16384x128, p⟩, ⟨S16384x128, q⟩, ⟨S16384x128, r⟩, ⟨S16384x128, s⟩]
    concatenates_S16384x128_S16384x128_S16384x128_S16384x128_S16384x512_d1

/-- The reference's result: `[2·X | n(e₁) | n(e₂) | n(e₃)]`. -/
def out (A : FVec F S16384x16384 .f32) (idx : IVec S2x524288 32) (vals : FVec F S524288 .f32) (X : Mat F)
    (W2 : FVec F S3x128x128 .f32) (B2 : FVec F S3x128 .f32) (W3 : FVec F S3x128x128 .f32) (B3 : FVec F S3x128 .f32) :
    FVec F S16384x512 .f32 :=
  cat4 (twice X) (l2n (e1 A idx vals X W2 B2 W3 B3)) (l2n (e2 A idx vals X W2 B2 W3 B3)) (l2n (e3 A idx vals X W2 B2 W3 B3))

end Cert.Spec

end
-- ==== Proof.KI.HostStretch.lean ====
import proofs.«119509_j83949430767932_1_alg».proof.Proof.Gen.KernelIdeal.Launch
import proofs.«119509_j83949430767932_1_alg».proof.Proof.Gen.ReferenceIdeal
import proofs.«119509_j83949430767932_1_alg».proof.Proof.Spec
import Idealize.ShloMosaic.Lib.StableHlo.Run

set_option maxRecDepth 16384

/-! # The host operations between the regions, as the specification's functions

Between its six regions the program applies host operations to whole arrays: before the first region it cuts the
edge table into its destination and source rows and doubles the features; before each layer region it builds the
sparse aggregation of the previous embedding (gather the source rows, scale by the edge values, add up at the
destination rows), takes that layer's two weights (a slab of the stacked weights, transposed) and its two biases (a
row of the stacked biases, laid out as a one-row matrix); after the last region it lays the four result blocks side
by side. Each such result is, by unfolding alone, the specification's function of the stretch's own inputs: the same
operations with the same literals. Every lemma is stated over an arbitrary valuation of the buffers the stretch
starts from. -/

noncomputable section

namespace Cert.KernelIdeal.Hand

open Cert.KernelIdeal Cert.KernelIdeal.Gen
open Idealize.ShloMosaic Idealize.ShloMosaic.StableHlo

variable {F : FTy → Type} [FloatOps F]

/-! ## Before the first region -/

/-- Row 0 of the edge table, as a vector: the destination nodes. -/
theorem host0_v1 (Vb : Valuation τ sig (Elt F)) :
    StableHlo.after (hostOps0 (F := F)) Vb (Proc.devRef .tc main_v1) = Cert.Spec.rowVec (Vb (Proc.devRef .tc main_arg1)) := by
  after_results
  rfl

/-- Row 1 of the edge table, as a vector: the source nodes. -/
theorem host0_v3 (Vb : Valuation τ sig (Elt F)) :
    StableHlo.after (hostOps0 (F := F)) Vb (Proc.devRef .tc main_v3) = Cert.Spec.colVec (Vb (Proc.devRef .tc main_arg1)) := by
  after_results
  rfl

/-- Twice the input features. -/
theorem host0_v5 (Vb : Valuation τ sig (Elt F)) :
    StableHlo.after (hostOps0 (F := F)) Vb (Proc.devRef .tc main_v5) = Cert.Spec.twice (Vb (Proc.devRef .tc main_arg3)) := by
  after_results
  rfl

/-! ## Before the first layer region -/

/-- The sparse aggregation of the previous embedding over the edge table's index vectors. -/
theorem host1_v19 (Vb : Valuation τ sig (Elt F)) :
    StableHlo.after (hostOps1 (F := F)) Vb (Proc.devRef .tc main_v19) = Cert.Spec.subAggOf (Cert.Spec.rowColOf (Vb (Proc.devRef .tc main_v1))) (Cert.Spec.colColOf (Vb (Proc.devRef .tc main_v3))) (Vb (Proc.devRef .tc main_arg2)) (Vb (Proc.devRef .tc main_arg3)) := by
  after_results_simp
  rfl

/-- The first dense form's weight: the layer's slab of the first stacked weights, transposed. -/
theorem host1_v22 (Vb : Valuation τ sig (Elt F)) :
    StableHlo.after (hostOps1 (F := F)) Vb (Proc.devRef .tc main_v22) = transpose S128x128 [1, 0] (Cert.Spec.w0 (Vb (Proc.devRef .tc main_arg4))) transposes_S128x128_S128x128_1_0 := by
  after_results_simp
  rfl

/-- The second dense form's weight: the layer's slab of the second stacked weights, transposed. -/
theorem host1_v25 (Vb : Valuation τ sig (Elt F)) :
    StableHlo.after (hostOps1 (F := F)) Vb (Proc.devRef .tc main_v25) = transpose S128x128 [1, 0] (Cert.Spec.w0 (Vb (Proc.devRef .tc main_arg6))) transposes_S128x128_S128x128_1_0 := by
  after_results_simp
  rfl

/-- The first dense form's bias: the layer's row of the first stacked biases, as a one-row matrix. -/
theorem host1_v28 (Vb : Valuation τ sig (Elt F)) :
    StableHlo.after (hostOps1 (F := F)) Vb (Proc.devRef .tc main_v28) = shapeCast S1x128 (Cert.Spec.b0 (Vb (Proc.devRef .tc main_arg5))) shapeCasts_S128_S1x128 := by
  after_results_simp
  rfl

/-- The second dense form's bias: the layer's row of the second stacked biases, as a one-row matrix. -/
theorem host1_v31 (Vb : Valuation τ sig (Elt F)) :
    StableHlo.after (hostOps1 (F := F)) Vb (Proc.devRef .tc main_v31) = shapeCast S1x128 (Cert.Spec.b0 (Vb (Proc.devRef .tc main_arg7))) shapeCasts_S128_S1x128 := by
  after_results_simp
  rfl

/-! ## Before the second layer region -/

/-- The sparse aggregation of the previous embedding over the edge table's index vectors. -/
theorem host3_v46 (Vb : Valuation τ sig (Elt F)) :
    StableHlo.after (hostOps3 (F := F)) Vb (Proc.devRef .tc main_v46) = Cert.Spec.subAggOf (Cert.Spec.rowColOf (Vb (Proc.devRef .tc main_v1))) (Cert.Spec.colColOf (Vb (Proc.devRef .tc main_v3))) (Vb (Proc.devRef .tc main_arg2)) (Vb (Proc.devRef .tc main_v32_0)) := by
  after_results_simp
  rfl

/-- The first dense form's weight: the layer's slab of the first stacked weights, transposed. -/
theorem host3_v49 (Vb : Valuation τ sig (Elt F)) :
    StableHlo.after (hostOps3 (F := F)) Vb (Proc.devRef .tc main_v49) = transpose S128x128 [1, 0] (Cert.Spec.w1 (Vb (Proc.devRef .tc main_arg4))) transposes_S128x128_S128x128_1_0 := by
  after_results_simp
  rfl

/-- The second dense form's weight: the layer's slab of the second stacked weights, transposed. -/
theorem host3_v52 (Vb : Valuation τ sig (Elt F)) :
    StableHlo.after (hostOps3 (F := F)) Vb (Proc.devRef .tc main_v52) = transpose S128x128 [1, 0] (Cert.Spec.w1 (Vb (Proc.devRef .tc main_arg6))) transposes_S128x128_S128x128_1_0 := by
  after_results_simp
  rfl

/-- The first dense form's bias: the layer's row of the first stacked biases, as a one-row matrix. -/
theorem host3_v55 (Vb : Valuation τ sig (Elt F)) :
    StableHlo.after (hostOps3 (F := F)) Vb (Proc.devRef .tc main_v55) = shapeCast S1x128 (Cert.Spec.b1 (Vb (Proc.devRef .tc main_arg5))) shapeCasts_S128_S1x128 := by
  after_results_simp
  rfl

/-- The second dense form's bias: the layer's row of the second stacked biases, as a one-row matrix. -/
theorem host3_v58 (Vb : Valuation τ sig (Elt F)) :
    StableHlo.after (hostOps3 (F := F)) Vb (Proc.devRef .tc main_v58) = shapeCast S1x128 (Cert.Spec.b1 (Vb (Proc.devRef .tc main_arg7))) shapeCasts_S128_S1x128 := by
  after_results_simp
  rfl

/-! ## Before the third layer region -/

/-- The sparse aggregation of the previous embedding over the edge table's index vectors. -/
theorem host5_v73 (Vb : Valuation τ sig (Elt F)) :
    StableHlo.after (hostOps5 (F := F)) Vb (Proc.devRef .tc main_v73) = Cert.Spec.subAggOf (Cert.Spec.rowColOf (Vb (Proc.devRef .tc main_v1))) (Cert.Spec.colColOf (Vb (Proc.devRef .tc main_v3))) (Vb (Proc.devRef .tc main_arg2)) (Vb (Proc.devRef .tc main_v59_0)) := by
  after_results_simp
  rfl

/-- The first dense form's weight: the layer's slab of the first stacked weights, transposed. -/
theorem host5_v76 (Vb : Valuation τ sig (Elt F)) :
    StableHlo.after (hostOps5 (F := F)) Vb (Proc.devRef .tc main_v76) = transpose S128x128 [1, 0] (Cert.Spec.w2 (Vb (Proc.devRef .tc main_arg4))) transposes_S128x128_S128x128_1_0 := by
  after_results_simp
  rfl

/-- The second dense form's weight: the layer's slab of the second stacked weights, transposed. -/
theorem host5_v79 (Vb : Valuation τ sig (Elt F)) :
    StableHlo.after (hostOps5 (F := F)) Vb (Proc.devRef .tc main_v79) = transpose S128x128 [1, 0] (Cert.Spec.w2 (Vb (Proc.devRef .tc main_arg6))) transposes_S128x128_S128x128_1_0 := by
  after_results_simp
  rfl

/-- The first dense form's bias: the layer's row of the first stacked biases, as a one-row matrix. -/
theorem host5_v82 (Vb : Valuation τ sig (Elt F)) :
    StableHlo.after (hostOps5 (F := F)) Vb (Proc.devRef .tc main_v82) = shapeCast S1x128 (Cert.Spec.b2 (Vb (Proc.devRef .tc main_arg5))) shapeCasts_S128_S1x128 := by
  after_results_simp
  rfl

/-- The second dense form's bias: the layer's row of the second stacked biases, as a one-row matrix. -/
theorem host5_v85 (Vb : Valuation τ sig (Elt F)) :
    StableHlo.after (hostOps5 (F := F)) Vb (Proc.devRef .tc main_v85) = shapeCast S1x128 (Cert.Spec.b2 (Vb (Proc.devRef .tc main_arg7))) shapeCasts_S128_S1x128 := by
  after_results_simp
  rfl

/-! ## After the last region -/

/-- The four blocks side by side. -/
theorem host6_v87 (Vb : Valuation τ sig (Elt F)) :
    StableHlo.after (hostOps6 (F := F)) Vb (Proc.devRef .tc main_v87) = Cert.Spec.cat4 (Vb (Proc.devRef .tc main_v5)) (Vb (Proc.devRef .tc main_v32_1)) (Vb (Proc.devRef .tc main_v59_1)) (Vb (Proc.devRef .tc main_v86_1)) := by
  after_results
  rfl

end Cert.KernelIdeal.Hand
-- ==== Proof.KI.Matmul0ValuePieces.lean ====
/-
  Region 0, the blocked product: what the stores a point's body ends with leave, read back as values. At a first
  contraction block the accumulator ends at the block product added to the zero block it was just cleared to; at a
  later one at what the point before left plus the block product; at a last one the output window's buffer ends at a
  copy of that. The body loads and stores its whole buffers, so a load reads a buffer's contents, the last store into a
  buffer leaves its payload, and a load after a store reads that payload back.
-/
import proofs.«119509_j83949430767932_1_alg».proof.Proof.KI.Matmul0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The offsets of every load and store of the body, however spelt, are zero. -/
theorem zeroOffsets0 : (![0, 0] : Fin 2 → Nat) = fun _ => 0 := funext fun a => by fin_cases a <;> rfl

/-- A first contraction block leaves in the accumulator the block product added to the zero block. -/
theorem sout0_A_0_eq (c : Dev nD) (i : grid0.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : cond0_0 i) (hc1 : ¬cond0_1 i)
    (x0 : Vec F S2048x1024 .f32) (x1 : Vec F S1024x128 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x128) zeroOffsets0, View.readCov_unit_zero (S := S2048x128) _ zeroOffsets0]
  simp only [View.readAt_eq_ld, h2.read_unread, h3.read_unread, View.ld_unit_zero (S := S2048x1024) zeroOffsets0,
    View.ld_unit_zero (S := S1024x128) zeroOffsets0]

/-- A middle contraction block leaves in the accumulator what it found there plus the block product. -/
theorem sout0_B_0_eq (c : Dev nD) (i : grid0.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : ¬cond0_0 i) (hc1 : ¬cond0_1 i)
    (x0 : Vec F S2048x1024 .f32) (x1 : Vec F S1024x128 .f32) (xs0 : Vec F S2048x128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero (S := S2048x128) zeroOffsets0]
  simp only [View.readAt_eq_ld, h2.read_unread, h3.read_unread, h5.read_unread, View.ld_unit_zero (S := S2048x1024) zeroOffsets0,
    View.ld_unit_zero (S := S1024x128) zeroOffsets0, View.ld_unit_zero (S := S2048x128) zeroOffsets0]

/-- A last contraction block leaves the same in the accumulator, -/
theorem sout0_C_0_eq (c : Dev nD) (i : grid0.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : ¬cond0_0 i) (hc1 : cond0_1 i)
    (x0 : Vec F S2048x1024 .f32) (x1 : Vec F S1024x128 .f32) (xs0 : Vec F S2048x128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S2048x128) zeroOffsets0]
  simp only [View.readAt_eq_ld, h2.read_unread, h3.read_unread, h5.read_unread, View.ld_unit_zero (S := S2048x1024) zeroOffsets0,
    View.ld_unit_zero (S := S1024x128) zeroOffsets0, View.ld_unit_zero (S := S2048x128) zeroOffsets0]

/-- and a copy of it, read back from the accumulator, in the output window's buffer. -/
theorem out0_C_2_eq (c : Dev nD) (i : grid0.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : ¬cond0_0 i) (hc1 : cond0_1 i)
    (x0 : Vec F S2048x1024 .f32) (x1 : Vec F S1024x128 .f32) (xs0 : Vec F S2048x128 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S2048x128) zeroOffsets0, View.readCov_unit_zero (S := S2048x128) _ zeroOffsets0]
  simp only [View.readAt_eq_ld, h2.read_unread, h3.read_unread, h5.read_unread, View.ld_unit_zero (S := S2048x1024) zeroOffsets0,
    View.ld_unit_zero (S := S1024x128) zeroOffsets0, View.ld_unit_zero (S := S2048x128) zeroOffsets0]

end Cert.KernelIdeal.Hand

end
-- ==== Proof.LibBlockSum.lean ====
/-
  Two general facts used to put a blocked contraction back together.

  A sum over nb · bs consecutive naturals is the sum, over the nb blocks, of the bs terms of each block; stated with
  the terms of a block indexed by Fin bs and the whole range by Fin (nb · bs), as matrix products come. And a
  rank-2 array extended by zero to all pairs of naturals, so that offsets computed in ℕ need no bound proofs while
  they are being rearranged: inside the extents the extension is the array.
-/
import Mathlib.Algebra.BigOperators.Fin
import Mathlib.Algebra.BigOperators.Intervals
import Idealize.ShloMosaic.Lib.ValueIdx

noncomputable section

open scoped BigOperators

namespace Cert.LibBlockSum

open Idealize.ShloMosaic Idealize.ShloMosaic.ValueIdx

/-- Block by block over ranges: Σ_{s < nb} Σ_{kk < bs} g (bs · s + kk) = Σ_{k < nb · bs} g k. -/
theorem sum_range_blocks {β : Type*} [AddCommMonoid β] (g : ℕ → β) (bs : ℕ) :
    ∀ nb : ℕ, ∑ s ∈ Finset.range nb, ∑ kk ∈ Finset.range bs, g (bs * s + kk) = ∑ k ∈ Finset.range (nb * bs), g k
  | 0 => by simp
  | nb + 1 => by
    rw [Finset.sum_range_succ, sum_range_blocks g bs nb, Nat.succ_mul, Finset.sum_range_add, Nat.mul_comm bs nb]

/-- The same with each block's terms indexed by Fin bs and the whole by Fin (nb · bs). -/
theorem sum_fin_blocks {β : Type*} [AddCommMonoid β] (g : ℕ → β) (nb bs : ℕ) :
    ∑ s ∈ Finset.range nb, ∑ kk : Fin bs, g (bs * s + kk.val) = ∑ k : Fin (nb * bs), g k.val := by
  rw [Fin.sum_univ_eq_sum_range g (nb * bs), ← sum_range_blocks g bs nb]
  exact Finset.sum_congr rfl fun s _ => Fin.sum_univ_eq_sum_range (fun kk => g (bs * s + kk)) bs

/-- The same with the total count named: n = nb · bs. -/
theorem sum_fin_blocks_eq {β : Type*} [AddCommMonoid β] (g : ℕ → β) (nb bs n : ℕ) (hn : nb * bs = n) :
    ∑ s ∈ Finset.range nb, ∑ kk : Fin bs, g (bs * s + kk.val) = ∑ k : Fin n, g k.val := by
  subst hn
  exact sum_fin_blocks g nb bs

/-- A rank-2 array extended by zero to all of ℕ × ℕ. -/
def ext2 {α : Type*} [Zero α] {n0 n1 : ℕ} (A : (⟨2, ![n0, n1]⟩ : Shape).Idx → α) (r k : ℕ) : α :=
  if h : r < n0 ∧ k < n1 then A (ix2 ⟨r, h.1⟩ ⟨k, h.2⟩) else 0

/-- Inside the extents the extension is the array. -/
theorem ext2_of_lt {α : Type*} [Zero α] {n0 n1 : ℕ} (A : (⟨2, ![n0, n1]⟩ : Shape).Idx → α) {r k : ℕ}
    (hr : r < n0) (hk : k < n1) : ext2 A r k = A (ix2 ⟨r, hr⟩ ⟨k, hk⟩) := dif_pos ⟨hr, hk⟩

/-- At the coordinates of an index the extension is the array at that index. -/
theorem ext2_ix {α : Type*} [Zero α] {n0 n1 : ℕ} (A : (⟨2, ![n0, n1]⟩ : Shape).Idx → α) (p : Fin n0) (k : Fin n1) :
    ext2 A p.val k.val = A (ix2 p k) := ext2_of_lt A p.isLt k.isLt

end Cert.LibBlockSum

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibAccum.lean ====
/-
  A matrix product accumulated block by block over the contracted range, put back together on the extended reals.

  A blocked product keeps, for each output entry (r, q), a running sum to which the j-th step adds the products of
  the j-th block of bs contraction positions: row r of the first matrix against column q of the second, positions
  bs · j, …, bs · j + bs - 1. Below, that running sum after j steps is a definition over the two matrices extended
  by zero to all pairs of naturals (so that offsets are plain arithmetic in ℕ); it starts at 0, a step adds one
  block's products, and after nb steps with nb · bs the contracted extent it is the whole product's entry
  ∑ₖ A (r, k) · B (k, q). Addition on the extended reals is commutative and associative, so nothing about the
  finiteness of the entries is needed. One step of the accumulation as a vector unit computes it — the running sum
  plus a matrix product, into a zero accumulator, of the two operands rounded to a narrower format, which on the
  extended reals is no rounding at all — is read at an entry as that sum.
-/
import proofs.«119509_j83949430767932_1_alg».proof.Proof.LibBlockSum
import proofs.«119509_j83949430767932_1_alg».proof.Proof.LibPlainDot
import Idealize.ShloMosaic.Lib.ValueIdx
import Idealize.ShloMosaic.PureOps.Ideal.Laws

noncomputable section

open scoped BigOperators

namespace Cert.LibAccum

open Idealize.ShloMosaic Idealize.ShloMosaic.ValueIdx Cert.LibBlockSum

/-- Row `r` of `A` against column `q` of `B` over the first `j` blocks of `bs` contraction positions:
    Σ_{s < j} Σ_{kk < bs} A (r, bs · s + kk) · B (bs · s + kk, q), the matrices extended by zero. -/
def partialDot {n K M : ℕ} (A : (⟨2, ![n, K]⟩ : Shape).Idx → EReal) (B : (⟨2, ![K, M]⟩ : Shape).Idx → EReal)
    (bs r q j : ℕ) : EReal :=
  ∑ s ∈ Finset.range j, ∑ kk : Fin bs, ext2 A r (bs * s + kk.val) * ext2 B (bs * s + kk.val) q

/-- Over no blocks the sum is 0. -/
theorem partialDot_zero {n K M : ℕ} (A : (⟨2, ![n, K]⟩ : Shape).Idx → EReal) (B : (⟨2, ![K, M]⟩ : Shape).Idx → EReal)
    (bs r q : ℕ) : partialDot A B bs r q 0 = 0 := Finset.sum_range_zero _

/-- One more block adds that block's products. -/
theorem partialDot_succ {n K M : ℕ} (A : (⟨2, ![n, K]⟩ : Shape).Idx → EReal) (B : (⟨2, ![K, M]⟩ : Shape).Idx → EReal)
    (bs r q j : ℕ) :
    partialDot A B bs r q (j + 1)
      = partialDot A B bs r q j + ∑ kk : Fin bs, ext2 A r (bs * j + kk.val) * ext2 B (bs * j + kk.val) q :=
  Finset.sum_range_succ _ _

/-- The first block alone, added to zero. -/
theorem partialDot_one {n K M : ℕ} (A : (⟨2, ![n, K]⟩ : Shape).Idx → EReal) (B : (⟨2, ![K, M]⟩ : Shape).Idx → EReal)
    (bs r q : ℕ) :
    partialDot A B bs r q 1 = 0 + ∑ kk : Fin bs, ext2 A r (bs * 0 + kk.val) * ext2 B (bs * 0 + kk.val) q := by
  rw [partialDot_succ, partialDot_zero]

/-- Over all `nb` blocks, `nb · bs` the contracted extent, the sum is the product's entry. -/
theorem partialDot_full {n K M : ℕ} (A : (⟨2, ![n, K]⟩ : Shape).Idx → EReal) (B : (⟨2, ![K, M]⟩ : Shape).Idx → EReal)
    (bs nb : ℕ) (hK : nb * bs = K) (r : Fin n) (q : Fin M) :
    partialDot A B bs r.val q.val nb = ∑ k : Fin K, A (ix2 r k) * B (ix2 k q) :=
  (sum_fin_blocks_eq (fun k => ext2 A r.val k * ext2 B k q.val) nb bs K hK).trans
    (Finset.sum_congr rfl fun k _ => by
      show ext2 A r.val k.val * ext2 B k.val q.val = _
      rw [ext2_ix, ext2_ix])

/-- One step of a vector unit's accumulation at entry (p, c): the running sum plus the product, into a zero
    accumulator, of the operands rounded to a narrower format (no rounding on the extended reals) is
    acc (p, c) + ∑ₖ x0 (p, k) · x1 (k, c). -/
theorem acc_matmul_apply {n K M : ℕ} {ψ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (hb : ψ.bits < FTy.f32.bits)
    (x0 : FVec Ideal (⟨2, ![n, K]⟩ : Shape) .f32) (x1 : FVec Ideal (⟨2, ![K, M]⟩ : Shape) .f32)
    (acc : FVec Ideal (⟨2, ![n, M]⟩ : Shape) .f32) (p : Fin n) (c : Fin M) :
    addf acc (matmul D prec (truncf ψ x0 hb) (truncf ψ x1 hb) (constant (⟨2, ![n, M]⟩ : Shape) .f32 0x00000000#32)) (ix2 p c)
      = (acc (ix2 p c) : EReal) + ∑ k : Fin K, (x0 (ix2 p k) : EReal) * (x1 (ix2 k c) : EReal) := by
  rw [addf_apply]
  simp only [matmul]
  rw [Cert.PlainDot.matmul_zero_apply D hr hs l0 l1 r0 r1]
  rfl

end Cert.LibAccum

end
-- ==== Proof.KI.Matmul0Value.lean ====
/-
  Region 0, the blocked product `A · pre` on the extended reals: the array its output window ends holding is the
  whole product, entry (r, q) at ∑ₖ A (r, k) · pre (k, q).

  The grid is 8 × 16: point t works on row block t / 16 (2048 rows) and contraction block t % 16 (1024 positions).
  The accumulator after point t holds, at (p, q), row 2048 · (t / 16) + p of `A` against column q of `pre` over the
  first t % 16 + 1 contraction blocks — by induction on the point: a first contraction block stores the block product
  added to zero, a later one adds its block product to what the point before left. At a last contraction block that is
  the whole contraction, the output window's buffer holds a copy of it, and the blocks written back there cover the
  array. The roundings of the operands on the way into the block product are no roundings on the extended reals, and
  sums of extended reals regroup freely, so no entry needs to be finite.
-/
import proofs.«119509_j83949430767932_1_alg».proof.Proof.KI.Matmul0ValuePieces
import proofs.«119509_j83949430767932_1_alg».proof.Proof.LibAccum
import proofs.«119509_j83949430767932_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.LibBlockSum Cert.LibAccum

variable (V : (c : Dev nD) → (b : Ref sig .tc) → Buf (Elt Ideal) ((c : Thread nD τ).loc b))

/-- The two arrays the region multiplies, as it finds them: arrays of extended reals. -/
abbrev lhs0 (c : Dev nD) : (⟨2, ![16384, 16384]⟩ : Shape).Idx → EReal := V c main_arg0
abbrev rhs0 (c : Dev nD) : (⟨2, ![16384, 128]⟩ : Shape).Idx → EReal := V c main_arg3

/-! ## The block product's dimension numbers -/

/-- The dimension numbers of the block product: a [2048,1024] block against a [1024,128] block, the first's columns
    contracted against the second's rows. -/
abbrev DB0 := dot_S2048x1024_S1024x128_S2048x128_1_0_0_1_n_n

/-- One axis is contracted, of extent 1024; -/
theorem DB0_hr : DB0.contr.rank = 1 := rfl
theorem DB0_hs : DB0.contr.size ⟨0, by rw [DB0_hr]; exact Nat.one_pos⟩ = 1024 := rfl
/-- at output entry `i` and contraction position `k` the first operand is read at (i 0, k), the second at (k, i 1). -/
theorem DB0_l0 (i : S2048x128.Idx) (k : DB0.contr.Idx) : (DB0.lhsIdx i k 0).val = (i 0).val := by
  simp [DotDims.lhsIdx, DB0, dot_S2048x1024_S1024x128_S2048x128_1_0_0_1_n_n]; rfl
theorem DB0_l1 (i : S2048x128.Idx) (k : DB0.contr.Idx) : (DB0.lhsIdx i k 1).val = (k ⟨0, by rw [DB0_hr]; exact Nat.one_pos⟩).val := by
  simp [DotDims.lhsIdx, DB0, dot_S2048x1024_S1024x128_S2048x128_1_0_0_1_n_n]; rfl
theorem DB0_r0 (i : S2048x128.Idx) (k : DB0.contr.Idx) : (DB0.rhsIdx i k 0).val = (k ⟨0, by rw [DB0_hr]; exact Nat.one_pos⟩).val := by
  simp [DotDims.rhsIdx, DB0, dot_S2048x1024_S1024x128_S2048x128_1_0_0_1_n_n]; rfl
theorem DB0_r1 (i : S2048x128.Idx) (k : DB0.contr.Idx) : (DB0.rhsIdx i k 1).val = (i 1).val := by
  simp [DotDims.rhsIdx, DB0, dot_S2048x1024_S1024x128_S2048x128_1_0_0_1_n_n]; rfl

/-! ## The body's two stored values, at an entry -/

/-- The block the accumulator is cleared to is zero at every entry. -/
theorem pay0_1_apply (p : Fin 2048) (q : Fin 128) : (k0_pay1 (F := Ideal) (ix2 p q) : EReal) = 0 := by
  unfold k0_pay1
  rw [shapeCast_self]
  exact Ideal.ofBits_zero_f32

/-- The accumulated block at entry (p, q): what was there plus ∑ₖ x0 (p, k) · x1 (k, q). -/
theorem pay0_2_apply (x0 : Vec Ideal S2048x1024 .f32) (x1 : Vec Ideal S1024x128 .f32) (acc : Vec Ideal S2048x128 .f32)
    (p : Fin 2048) (q : Fin 128) :
    (k0_pay2 (F := Ideal) x0 x1 acc (ix2 p q) : EReal)
      = (acc (ix2 p q) : EReal) + ∑ k : Fin 1024, (x0 (ix2 p k) : EReal) * (x1 (ix2 k q) : EReal) := by
  unfold k0_pay2
  rw [shapeCast_self]
  exact acc_matmul_apply DB0 DB0_hr DB0_hs DB0_l0 DB0_l1 DB0_r0 DB0_r1 none bitsLt_bf16_f32 x0 x1 acc p q

/-! ## The blocks, read where their rectangles say -/

/-- The block of `A` at point `t`, a [2048,1024] array. -/
def blkA0 (c : Dev nD) (t : Fin cfg0.N) : Vec Ideal S2048x1024 .f32 := iblk0 V c 0 t
/-- The block of `pre` at point `t`, a [1024,128] array. -/
def blkB0 (c : Dev nD) (t : Fin cfg0.N) : Vec Ideal S1024x128 .f32 := iblk0 V c 1 t

/-- The windows' block indices at point `t`, decided once over the grid: the block of `A` is (t / 16, t % 16), that of
    `pre` (t % 16, 0), the output's (t / 16, 0). -/
theorem blockIdx0 : ∀ t : Fin cfg0.N, win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- The block of `A` at point `t`, at (p, k): `A` at row 2048 · (t / 16) + p, column 1024 · (t % 16) + k. -/
theorem iblk0_0_apply (c : Dev nD) (t : Fin cfg0.N) (p : Fin 2048) (k : Fin 1024) :
    blkA0 V c t (ix2 p k)
      = ext2 (lhs0 V c) (2048 * (t.val / 16) + p.val) (1024 * (t.val % 16) + k.val) := by
  obtain ⟨e0, e1, -, -, -, -⟩ := blockIdx0 t
  have hN : grid0.N = 128 := N_0
  have ht : t.val < grid0.N := t.isLt
  have hp := p.isLt
  have hk := k.isLt
  rw [ext2_of_lt _ (by omega) (by omega)]
  unfold blkA0 iblk0
  rw [View.read_apply]
  show V c main_arg0 _ = V c main_arg0 _
  refine congrArg (V c main_arg0) ?_
  funext a
  apply Fin.ext
  match a with
  | ⟨0, _⟩ => show win0_0.index t (0 : Fin 2) * 2048 + 1 * p.val = 2048 * (t.val / 16) + p.val; rw [e0]; omega
  | ⟨1, _⟩ => show win0_0.index t (1 : Fin 2) * 1024 + 1 * k.val = 1024 * (t.val % 16) + k.val; rw [e1]; omega

/-- The block of `pre` at point `t`, at (k, q): `pre` at row 1024 · (t % 16) + k, column q. -/
theorem iblk0_1_apply (c : Dev nD) (t : Fin cfg0.N) (k : Fin 1024) (q : Fin 128) :
    blkB0 V c t (ix2 k q)
      = ext2 (rhs0 V c) (1024 * (t.val % 16) + k.val) q.val := by
  obtain ⟨-, -, e0, e1, -, -⟩ := blockIdx0 t
  have hN : grid0.N = 128 := N_0
  have ht : t.val < grid0.N := t.isLt
  have hk := k.isLt
  have hq := q.isLt
  rw [ext2_of_lt _ (by omega) (by omega)]
  unfold blkB0 iblk0
  rw [View.read_apply]
  show V c main_arg3 _ = V c main_arg3 _
  refine congrArg (V c main_arg3) ?_
  funext a
  apply Fin.ext
  match a with
  | ⟨0, _⟩ => show win0_1.index t (0 : Fin 2) * 1024 + 1 * k.val = 1024 * (t.val % 16) + k.val; rw [e0]; omega
  | ⟨1, _⟩ => show win0_1.index t (1 : Fin 2) * 128 + 1 * q.val = q.val; rw [e1]; omega

/-! ## The accumulator, point by point -/

/-- At a first contraction block the accumulator ends, at (p, q), at zero plus the first block's products. -/
theorem acc0_first (c : Dev nD) (n : ℕ) (hn : n < cfg0.N) (h0 : n % 16 = 0) (p : Fin 2048) (q : Fin 128) :
    ((outsAt0 V c n hn).2 (ix2 p q) : EReal)
      = 0 + ∑ k : Fin 1024, ext2 (lhs0 V c) (2048 * (n / 16) + p.val) (1024 * (n % 16) + k.val)
              * ext2 (rhs0 V c) (1024 * (n % 16) + k.val) q.val := by
  have h1 : ¬n % 16 = 15 := by omega
  rw [outsAt0_A V c ⟨n, hn⟩ h0 h1]
  dsimp only
  refine (congrFun (sout0_A_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h)) (blkA0 V c ⟨n, hn⟩) (blkB0 V c ⟨n, hn⟩)) (ix2 p q)).trans ?_
  refine (pay0_2_apply (blkA0 V c ⟨n, hn⟩) (blkB0 V c ⟨n, hn⟩) (k0_pay1 (F := Ideal)) p q).trans ?_
  rw [pay0_1_apply p q]
  refine congrArg (fun z : EReal => 0 + z) (Finset.sum_congr rfl fun k _ => ?_)
  rw [iblk0_0_apply V c ⟨n, hn⟩ p k, iblk0_1_apply V c ⟨n, hn⟩ k q]

/-- At a later contraction block it ends at what the point before left (`prev` at this entry) plus this block's
    products. -/
theorem acc0_later (c : Dev nD) (n : ℕ) (hn : n + 1 < cfg0.N) (h0 : ¬(n + 1) % 16 = 0) (p : Fin 2048) (q : Fin 128)
    (prev : EReal) (hprev : ((outsAt0 V c n (Nat.lt_of_succ_lt hn)).2 (ix2 p q) : EReal) = prev) :
    ((outsAt0 V c (n + 1) hn).2 (ix2 p q) : EReal)
      = prev + ∑ k : Fin 1024, ext2 (lhs0 V c) (2048 * ((n + 1) / 16) + p.val) (1024 * ((n + 1) % 16) + k.val)
              * ext2 (rhs0 V c) (1024 * ((n + 1) % 16) + k.val) q.val := by
  by_cases h1 : (n + 1) % 16 = 15
  · -- a last contraction block
    rw [outsAt0_C V c ⟨n + 1, hn⟩ h0 h1]
    dsimp only
    refine (congrFun (sout0_C_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (blkA0 V c ⟨n + 1, hn⟩) (blkB0 V c ⟨n + 1, hn⟩) (outsAt0 V c n (Nat.lt_of_succ_lt hn)).2) (ix2 p q)).trans ?_
    refine (pay0_2_apply (blkA0 V c ⟨n + 1, hn⟩) (blkB0 V c ⟨n + 1, hn⟩) (outsAt0 V c n (Nat.lt_of_succ_lt hn)).2 p q).trans ?_
    refine congrArg₂ (fun y z : EReal => y + z) hprev (Finset.sum_congr rfl fun k _ => ?_)
    rw [iblk0_0_apply V c ⟨n + 1, hn⟩ p k, iblk0_1_apply V c ⟨n + 1, hn⟩ k q]
  · -- a middle contraction block
    rw [outsAt0_B V c ⟨n + 1, hn⟩ h0 h1]
    dsimp only
    refine (congrFun (sout0_B_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (blkA0 V c ⟨n + 1, hn⟩) (blkB0 V c ⟨n + 1, hn⟩) (outsAt0 V c n (Nat.lt_of_succ_lt hn)).2) (ix2 p q)).trans ?_
    refine (pay0_2_apply (blkA0 V c ⟨n + 1, hn⟩) (blkB0 V c ⟨n + 1, hn⟩) (outsAt0 V c n (Nat.lt_of_succ_lt hn)).2 p q).trans ?_
    refine congrArg₂ (fun y z : EReal => y + z) hprev (Finset.sum_congr rfl fun k _ => ?_)
    rw [iblk0_0_apply V c ⟨n + 1, hn⟩ p k, iblk0_1_apply V c ⟨n + 1, hn⟩ k q]

/-- THE ACCUMULATION: after point `n` the accumulator holds, at (p, q), row 2048 · (n / 16) + p of `A` against column
    q of `pre` over the first n % 16 + 1 contraction blocks. -/
theorem acc0_eq (c : Dev nD) : ∀ (n : ℕ) (hn : n < cfg0.N) (p : Fin 2048) (q : Fin 128),
    ((outsAt0 V c n hn).2 (ix2 p q) : EReal)
      = partialDot (lhs0 V c) (rhs0 V c) 1024 (2048 * (n / 16) + p.val) q.val (n % 16 + 1) := by
  intro n
  induction n with
  | zero =>
    intro hn p q
    rw [acc0_first V c 0 hn rfl p q, partialDot_one]
  | succ n ih =>
    intro hn p q
    by_cases h0 : (n + 1) % 16 = 0
    · rw [acc0_first V c (n + 1) hn h0 p q, h0, partialDot_one]
    · have e1 : (n + 1) / 16 = n / 16 := by omega
      have e2 : (n + 1) % 16 = n % 16 + 1 := by omega
      rw [acc0_later V c n hn h0 p q _ (ih (Nat.lt_of_succ_lt hn) p q), e1, e2]
      exact (partialDot_succ (lhs0 V c) (rhs0 V c) 1024 (2048 * (n / 16) + p.val) q.val (n % 16 + 1)).symm

/-- At a last contraction block the output window's buffer holds what the accumulator holds. -/
theorem out0_eq_acc (c : Dev nD) (t : Fin cfg0.N) (h1 : t.val % 16 = 15) :
    (outsAt0 V c t.val t.isLt).1 = (outsAt0 V c t.val t.isLt).2 := by
  have h0 : ¬t.val % 16 = 0 := by omega
  rw [outsAt0_C V c t h0 h1]
  dsimp only
  exact (out0_C_2_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (blkA0 V c t) (blkB0 V c t) (outsAt0 V c (t.val - 1) (Nat.lt_of_le_of_lt (Nat.sub_le _ _) t.isLt)).2).trans
    (sout0_C_0_eq (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (blkA0 V c t) (blkB0 V c t) (outsAt0 V c (t.val - 1) (Nat.lt_of_le_of_lt (Nat.sub_le _ _) t.isLt)).2).symm

/-! ## From the blocks written back to the array -/

/-- The whole product, entry by entry, as the sixteen blocks' sum. -/
def prod0 (c : Dev nD) : S16384x128.Idx → EReal := fun i =>
  partialDot (lhs0 V c) (rhs0 V c) 1024 (i 0).val (i 1).val 16

/-- What a last contraction block writes back is its block of the whole product. -/
theorem flushed0_eq (c : Dev nD) (t : Fin cfg0.N) (hf : (cfg0.win 2).flush t = true) :
    (dat0 V c).flushed 2 t = ((cfg0.win 2).blk t).view.read (Elt Ideal) (prod0 V c) := by
  have h15 : t.val % 16 = 15 := (flush0_2 t).mp hf
  obtain ⟨-, -, -, -, e0, e1⟩ := blockIdx0 t
  show (cfg0.win 2).cut (grid0.coords t) ((dat0 V c).after 2 t) = _
  rw [after0_2, out0_eq_acc V c t h15]
  funext j
  obtain ⟨p, q, rfl⟩ : ∃ (p : Fin 2048) (q : Fin 128), j = ix2 p q := ⟨j 0, j 1, eq_ix2 j⟩
  rw [View.read_apply]
  show ((outsAt0 V c t.val t.isLt).2 (ix2 p q) : EReal) = prod0 V c (((cfg0.win 2).blk t).view.emb (ix2 p q))
  rw [acc0_eq V c t.val t.isLt p q, h15]
  unfold prod0
  have r0 : ((((cfg0.win 2).blk t).view.emb (ix2 p q)) 0).val = 2048 * (t.val / 16) + p.val := by
    show win0_2.index t (0 : Fin 2) * 2048 + 1 * p.val = _; rw [e0]; omega
  have r1 : ((((cfg0.win 2).blk t).view.emb (ix2 p q)) 1).val = q.val := by
    show win0_2.index t (1 : Fin 2) * 128 + 1 * q.val = _; rw [e1]; omega
  rw [r0, r1]

/-- Row r of the array is in the block written back at the last contraction block of row block r / 2048. -/
theorem cover0 (i : S16384x128.Idx) :
    ∃ t : Fin cfg0.N, (cfg0.win 2).flush t = true ∧ i ∈ ((cfg0.win 2).blk t).view.set := by
  have hN : grid0.N = 128 := N_0
  have hi0 : (i 0).val < 16384 := (i 0).isLt
  have hi1 : (i 1).val < 128 := (i 1).isLt
  have hlt : 16 * ((i 0).val / 2048) + 15 < cfg0.N := by show _ < grid0.N; omega
  refine ⟨⟨16 * ((i 0).val / 2048) + 15, hlt⟩, (flush0_2 _).mpr (by show (16 * ((i 0).val / 2048) + 15) % 16 = 15; omega), ?_⟩
  obtain ⟨-, -, -, -, e0, e1⟩ := blockIdx0 ⟨16 * ((i 0).val / 2048) + 15, hlt⟩
  show i ∈ ((View.whole main_v6).slice (win0_2.rect ⟨16 * ((i 0).val / 2048) + 15, hlt⟩)).set
  rw [View.set_slice_whole, Rect.mem_set_unit]
  intro a
  match a with
  | ⟨0, _⟩ =>
    show win0_2.index ⟨16 * ((i 0).val / 2048) + 15, hlt⟩ (0 : Fin 2) * 2048 ≤ (i 0).val ∧ (i 0).val < win0_2.index ⟨16 * ((i 0).val / 2048) + 15, hlt⟩ (0 : Fin 2) * 2048 + 2048
    rw [e0]; dsimp only; omega
  | ⟨1, _⟩ =>
    show win0_2.index ⟨16 * ((i 0).val / 2048) + 15, hlt⟩ (1 : Fin 2) * 128 ≤ (i 1).val ∧ (i 1).val < win0_2.index ⟨16 * ((i 0).val / 2048) + 15, hlt⟩ (1 : Fin 2) * 128 + 128
    rw [e1]; omega

/-! ## The reference's product -/

/-- The dimension numbers of the whole product: [16384,16384] against [16384,128], columns against rows. -/
abbrev DW0 [Cert.ReferenceIdeal.Facts₀] := Cert.ReferenceIdeal.dot_S16384x16384_S16384x128_S16384x128_1_0_0_1_n_n

theorem DW0_hr [Cert.ReferenceIdeal.Facts₀] : DW0.contr.rank = 1 := rfl
theorem DW0_hs [Cert.ReferenceIdeal.Facts₀] : DW0.contr.size ⟨0, by rw [DW0_hr]; exact Nat.one_pos⟩ = 16384 := rfl
theorem DW0_l0 [Cert.ReferenceIdeal.Facts₀] (i : Cert.ReferenceIdeal.S16384x128.Idx) (k : DW0.contr.Idx) : (DW0.lhsIdx i k 0).val = (i 0).val := by
  simp [DotDims.lhsIdx, DW0, Cert.ReferenceIdeal.dot_S16384x16384_S16384x128_S16384x128_1_0_0_1_n_n]; rfl
theorem DW0_l1 [Cert.ReferenceIdeal.Facts₀] (i : Cert.ReferenceIdeal.S16384x128.Idx) (k : DW0.contr.Idx) : (DW0.lhsIdx i k 1).val = (k ⟨0, by rw [DW0_hr]; exact Nat.one_pos⟩).val := by
  simp [DotDims.lhsIdx, DW0, Cert.ReferenceIdeal.dot_S16384x16384_S16384x128_S16384x128_1_0_0_1_n_n]; rfl
theorem DW0_r0 [Cert.ReferenceIdeal.Facts₀] (i : Cert.ReferenceIdeal.S16384x128.Idx) (k : DW0.contr.Idx) : (DW0.rhsIdx i k 0).val = (k ⟨0, by rw [DW0_hr]; exact Nat.one_pos⟩).val := by
  simp [DotDims.rhsIdx, DW0, Cert.ReferenceIdeal.dot_S16384x16384_S16384x128_S16384x128_1_0_0_1_n_n]; rfl
theorem DW0_r1 [Cert.ReferenceIdeal.Facts₀] (i : Cert.ReferenceIdeal.S16384x128.Idx) (k : DW0.contr.Idx) : (DW0.rhsIdx i k 1).val = (i 1).val := by
  simp [DotDims.rhsIdx, DW0, Cert.ReferenceIdeal.dot_S16384x16384_S16384x128_S16384x128_1_0_0_1_n_n]; rfl

/-- The sixteen blocks' sum is the host's product of the same two arrays. -/
theorem prod0_eq [Cert.ReferenceIdeal.Facts₀] (c : Dev nD) :
    prod0 V c = Cert.Spec.allAgg (F := Ideal) (V c main_arg0) (V c main_arg3) := by
  funext i
  obtain ⟨r, q, rfl⟩ : ∃ (r : Fin 16384) (q : Fin 128), i = ix2 r q := ⟨i 0, i 1, eq_ix2 i⟩
  show partialDot (lhs0 V c) (rhs0 V c) 1024 r.val q.val 16 = _
  rw [partialDot_full (lhs0 V c) (rhs0 V c) 1024 16 (by norm_num) r q]
  unfold Cert.Spec.allAgg
  simp only [Host.dotGeneral]
  exact (Cert.PlainDot.dotGeneral_apply DW0 DW0_hr DW0_hs DW0_l0 DW0_l1 DW0_r0 DW0_r1 none .single (V c main_arg0) (V c main_arg3) r q).symm

/-- THE ARRAY the region's output window ends holding is the whole product `A · pre`. -/
theorem mm0_final [Cert.ReferenceIdeal.Facts₀] (V : (c : Dev nD) → (b : Ref sig .tc) → Buf (Elt Ideal) ((c : Thread nD τ).loc b)) (c : Dev nD) :
    (dat0 (F := Ideal) V c).arrAt 2 cfg0.N = Cert.Spec.allAgg (F := Ideal) (V c main_arg0) (V c main_arg3) :=
  ((dat0 V c).arrAt_eq_of_cover 2 (prod0 V c) (flushed0_eq V c) (cover0)).trans (prod0_eq V c)

end Cert.KernelIdeal.Hand

end
-- ==== Proof.KI.Matmul2ValuePieces.lean ====
/-
  Region 2, the blocked product: what the stores a point's body ends with leave, read back as values. At a first
  contraction block the accumulator ends at the block product added to the zero block it was just cleared to; at a
  later one at what the point before left plus the block product; at a last one the output window's buffer ends at a
  copy of that. The body loads and stores its whole buffers, so a load reads a buffer's contents, the last store into a
  buffer leaves its payload, and a load after a store reads that payload back.
-/
import proofs.«119509_j83949430767932_1_alg».proof.Proof.KI.Matmul2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The offsets of every load and store of the body, however spelt, are zero. -/
theorem zeroOffsets2 : (![0, 0] : Fin 2 → Nat) = fun _ => 0 := funext fun a => by fin_cases a <;> rfl

/-- A first contraction block leaves in the accumulator the block product added to the zero block. -/
theorem sout2_A_0_eq (c : Dev nD) (i : grid2.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : cond2_0 i) (hc1 : ¬cond2_1 i)
    (x0 : Vec F S2048x1024 .f32) (x1 : Vec F S1024x128 .f32) :
    sout2_A_0 c i a2 h2 a3 h3 a4 h4 a5 h5 hc0 hc1 x0 x1 = k2_pay2 x0 x1 (k2_pay1 (F := F)) := by
  unfold sout2_A_0
  rw [View.read_writes_eq_canon _ _ _ (scover2_A_0 c i a2 h2 a3 h3 a4 h4 a5 h5 hc0 hc1 x0 x1)]
  unfold kernelRun2_A
  dsimp only
  sl_unfold_words
  rw [View.canon_cons_unit_zero (S := S2048x128) zeroOffsets2, View.readCov_unit_zero (S := S2048x128) _ zeroOffsets2]
  simp only [View.readAt_eq_ld, h2.read_unread, h3.read_unread, View.ld_unit_zero (S := S2048x1024) zeroOffsets2,
    View.ld_unit_zero (S := S1024x128) zeroOffsets2]

/-- A middle contraction block leaves in the accumulator what it found there plus the block product. -/
theorem sout2_B_0_eq (c : Dev nD) (i : grid2.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : ¬cond2_0 i) (hc1 : ¬cond2_1 i)
    (x0 : Vec F S2048x1024 .f32) (x1 : Vec F S1024x128 .f32) (xs0 : Vec F S2048x128 .f32) :
    sout2_B_0 c i a2 h2 a3 h3 a4 h4 a5 h5 hc0 hc1 x0 x1 xs0 = k2_pay2 x0 x1 xs0 := by
  unfold sout2_B_0
  rw [View.read_writes_eq_canon _ _ _ (scover2_B_0 c i a2 h2 a3 h3 a4 h4 a5 h5 hc0 hc1 x0 x1 xs0)]
  unfold kernelRun2_B
  dsimp only
  sl_unfold_words
  rw [View.canon_unit_zero (S := S2048x128) zeroOffsets2]
  simp only [View.readAt_eq_ld, h2.read_unread, h3.read_unread, h5.read_unread, View.ld_unit_zero (S := S2048x1024) zeroOffsets2,
    View.ld_unit_zero (S := S1024x128) zeroOffsets2, View.ld_unit_zero (S := S2048x128) zeroOffsets2]

/-- A last contraction block leaves the same in the accumulator, -/
theorem sout2_C_0_eq (c : Dev nD) (i : grid2.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : ¬cond2_0 i) (hc1 : cond2_1 i)
    (x0 : Vec F S2048x1024 .f32) (x1 : Vec F S1024x128 .f32) (xs0 : Vec F S2048x128 .f32) :
    sout2_C_0 c i a2 h2 a3 h3 a4 h4 a5 h5 hc0 hc1 x0 x1 xs0 = k2_pay2 x0 x1 xs0 := by
  unfold sout2_C_0
  rw [View.read_writes_eq_canon _ _ _ (scover2_C_0 c i a2 h2 a3 h3 a4 h4 a5 h5 hc0 hc1 x0 x1 xs0)]
  unfold kernelRun2_C
  dsimp only
  sl_unfold_words
  rw [View.canon_unit_zero (S := S2048x128) zeroOffsets2]
  simp only [View.readAt_eq_ld, h2.read_unread, h3.read_unread, h5.read_unread, View.ld_unit_zero (S := S2048x1024) zeroOffsets2,
    View.ld_unit_zero (S := S1024x128) zeroOffsets2, View.ld_unit_zero (S := S2048x128) zeroOffsets2]

/-- and a copy of it, read back from the accumulator, in the output window's buffer. -/
theorem out2_C_2_eq (c : Dev nD) (i : grid2.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : ¬cond2_0 i) (hc1 : cond2_1 i)
    (x0 : Vec F S2048x1024 .f32) (x1 : Vec F S1024x128 .f32) (xs0 : Vec F S2048x128 .f32) :
    out2_C_2 c i a2 h2 a3 h3 a4 h4 a5 h5 hc0 hc1 x0 x1 xs0 = k2_pay2 x0 x1 xs0 := by
  unfold out2_C_2
  rw [View.read_writes_eq_canon _ _ _ (cover2_C_2 c i a2 h2 a3 h3 a4 h4 a5 h5 hc0 hc1 x0 x1 xs0)]
  unfold kernelRun2_C
  dsimp only
  sl_unfold_words
  rw [View.canon_unit_zero (S := S2048x128) zeroOffsets2, View.readCov_unit_zero (S := S2048x128) _ zeroOffsets2]
  simp only [View.readAt_eq_ld, h2.read_unread, h3.read_unread, h5.read_unread, View.ld_unit_zero (S := S2048x1024) zeroOffsets2,
    View.ld_unit_zero (S := S1024x128) zeroOffsets2, View.ld_unit_zero (S := S2048x128) zeroOffsets2]

end Cert.KernelIdeal.Hand

end
-- ==== Proof.KI.Matmul2Value.lean ====
/-
  Region 2, the blocked product `A · pre` on the extended reals: the array its output window ends holding is the
  whole product, entry (r, q) at ∑ₖ A (r, k) · pre (k, q).

  The grid is 8 × 16: point t works on row block t / 16 (2048 rows) and contraction block t % 16 (1024 positions).
  The accumulator after point t holds, at (p, q), row 2048 · (t / 16) + p of `A` against column q of `pre` over the
  first t % 16 + 1 contraction blocks — by induction on the point: a first contraction block stores the block product
  added to zero, a later one adds its block product to what the point before left. At a last contraction block that is
  the whole contraction, the output window's buffer holds a copy of it, and the blocks written back there cover the
  array. The roundings of the operands on the way into the block product are no roundings on the extended reals, and
  sums of extended reals regroup freely, so no entry needs to be finite.
-/
import proofs.«119509_j83949430767932_1_alg».proof.Proof.KI.Matmul2ValuePieces
import proofs.«119509_j83949430767932_1_alg».proof.Proof.LibAccum
import proofs.«119509_j83949430767932_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.LibBlockSum Cert.LibAccum

variable (V : (c : Dev nD) → (b : Ref sig .tc) → Buf (Elt Ideal) ((c : Thread nD τ).loc b))

/-- The two arrays the region multiplies, as it finds them: arrays of extended reals. -/
abbrev lhs2 (c : Dev nD) : (⟨2, ![16384, 16384]⟩ : Shape).Idx → EReal := V c main_arg0
abbrev rhs2 (c : Dev nD) : (⟨2, ![16384, 128]⟩ : Shape).Idx → EReal := V c main_v32_0

/-! ## The block product's dimension numbers -/

/-- The dimension numbers of the block product: a [2048,1024] block against a [1024,128] block, the first's columns
    contracted against the second's rows. -/
abbrev DB2 := dot_S2048x1024_S1024x128_S2048x128_1_0_0_1_n_n

/-- One axis is contracted, of extent 1024; -/
theorem DB2_hr : DB2.contr.rank = 1 := rfl
theorem DB2_hs : DB2.contr.size ⟨0, by rw [DB2_hr]; exact Nat.one_pos⟩ = 1024 := rfl
/-- at output entry `i` and contraction position `k` the first operand is read at (i 0, k), the second at (k, i 1). -/
theorem DB2_l0 (i : S2048x128.Idx) (k : DB2.contr.Idx) : (DB2.lhsIdx i k 0).val = (i 0).val := by
  simp [DotDims.lhsIdx, DB2, dot_S2048x1024_S1024x128_S2048x128_1_0_0_1_n_n]; rfl
theorem DB2_l1 (i : S2048x128.Idx) (k : DB2.contr.Idx) : (DB2.lhsIdx i k 1).val = (k ⟨0, by rw [DB2_hr]; exact Nat.one_pos⟩).val := by
  simp [DotDims.lhsIdx, DB2, dot_S2048x1024_S1024x128_S2048x128_1_0_0_1_n_n]; rfl
theorem DB2_r0 (i : S2048x128.Idx) (k : DB2.contr.Idx) : (DB2.rhsIdx i k 0).val = (k ⟨0, by rw [DB2_hr]; exact Nat.one_pos⟩).val := by
  simp [DotDims.rhsIdx, DB2, dot_S2048x1024_S1024x128_S2048x128_1_0_0_1_n_n]; rfl
theorem DB2_r1 (i : S2048x128.Idx) (k : DB2.contr.Idx) : (DB2.rhsIdx i k 1).val = (i 1).val := by
  simp [DotDims.rhsIdx, DB2, dot_S2048x1024_S1024x128_S2048x128_1_0_0_1_n_n]; rfl

/-! ## The body's two stored values, at an entry -/

/-- The block the accumulator is cleared to is zero at every entry. -/
theorem pay2_1_apply (p : Fin 2048) (q : Fin 128) : (k2_pay1 (F := Ideal) (ix2 p q) : EReal) = 0 := by
  unfold k2_pay1
  rw [shapeCast_self]
  exact Ideal.ofBits_zero_f32

/-- The accumulated block at entry (p, q): what was there plus ∑ₖ x0 (p, k) · x1 (k, q). -/
theorem pay2_2_apply (x0 : Vec Ideal S2048x1024 .f32) (x1 : Vec Ideal S1024x128 .f32) (acc : Vec Ideal S2048x128 .f32)
    (p : Fin 2048) (q : Fin 128) :
    (k2_pay2 (F := Ideal) x0 x1 acc (ix2 p q) : EReal)
      = (acc (ix2 p q) : EReal) + ∑ k : Fin 1024, (x0 (ix2 p k) : EReal) * (x1 (ix2 k q) : EReal) := by
  unfold k2_pay2
  simp only [shapeCast_self]
  exact acc_matmul_apply DB2 DB2_hr DB2_hs DB2_l0 DB2_l1 DB2_r0 DB2_r1 none bitsLt_bf16_f32 x0 x1 acc p q

/-! ## The blocks, read where their rectangles say -/

/-- The block of `A` at point `t`, a [2048,1024] array. -/
def blkA2 (c : Dev nD) (t : Fin cfg2.N) : Vec Ideal S2048x1024 .f32 := iblk2 V c 0 t
/-- The block of `pre` at point `t`, a [1024,128] array. -/
def blkB2 (c : Dev nD) (t : Fin cfg2.N) : Vec Ideal S1024x128 .f32 := iblk2 V c 1 t

/-- The windows' block indices at point `t`, decided once over the grid: the block of `A` is (t / 16, t % 16), that of
    `pre` (t % 16, 0), the output's (t / 16, 0). -/
theorem blockIdx2 : ∀ t : Fin cfg2.N, win2_0.index t (0 : Fin 2) = t.val / 16 ∧ win2_0.index t (1 : Fin 2) = t.val % 16
    ∧ win2_1.index t (0 : Fin 2) = t.val % 16 ∧ win2_1.index t (1 : Fin 2) = 0
    ∧ win2_2.index t (0 : Fin 2) = t.val / 16 ∧ win2_2.index t (1 : Fin 2) = 0 :=
  (by decide +kernel : ∀ t : Fin grid2.N, _)

/-- The block of `A` at point `t`, at (p, k): `A` at row 2048 · (t / 16) + p, column 1024 · (t % 16) + k. -/
theorem iblk2_0_apply (c : Dev nD) (t : Fin cfg2.N) (p : Fin 2048) (k : Fin 1024) :
    blkA2 V c t (ix2 p k)
      = ext2 (lhs2 V c) (2048 * (t.val / 16) + p.val) (1024 * (t.val % 16) + k.val) := by
  obtain ⟨e0, e1, -, -, -, -⟩ := blockIdx2 t
  have hN : grid2.N = 128 := N_2
  have ht : t.val < grid2.N := t.isLt
  have hp := p.isLt
  have hk := k.isLt
  rw [ext2_of_lt _ (by omega) (by omega)]
  unfold blkA2 iblk2
  rw [View.read_apply]
  show V c main_arg0 _ = V c main_arg0 _
  refine congrArg (V c main_arg0) ?_
  funext a
  apply Fin.ext
  match a with
  | ⟨0, _⟩ => show win2_0.index t (0 : Fin 2) * 2048 + 1 * p.val = 2048 * (t.val / 16) + p.val; rw [e0]; omega
  | ⟨1, _⟩ => show win2_0.index t (1 : Fin 2) * 1024 + 1 * k.val = 1024 * (t.val % 16) + k.val; rw [e1]; omega

/-- The block of `pre` at point `t`, at (k, q): `pre` at row 1024 · (t % 16) + k, column q. -/
theorem iblk2_1_apply (c : Dev nD) (t : Fin cfg2.N) (k : Fin 1024) (q : Fin 128) :
    blkB2 V c t (ix2 k q)
      = ext2 (rhs2 V c) (1024 * (t.val % 16) + k.val) q.val := by
  obtain ⟨-, -, e0, e1, -, -⟩ := blockIdx2 t
  have hN : grid2.N = 128 := N_2
  have ht : t.val < grid2.N := t.isLt
  have hk := k.isLt
  have hq := q.isLt
  rw [ext2_of_lt _ (by omega) (by omega)]
  unfold blkB2 iblk2
  rw [View.read_apply]
  show V c main_v32_0 _ = V c main_v32_0 _
  refine congrArg (V c main_v32_0) ?_
  funext a
  apply Fin.ext
  match a with
  | ⟨0, _⟩ => show win2_1.index t (0 : Fin 2) * 1024 + 1 * k.val = 1024 * (t.val % 16) + k.val; rw [e0]; omega
  | ⟨1, _⟩ => show win2_1.index t (1 : Fin 2) * 128 + 1 * q.val = q.val; rw [e1]; omega

/-! ## The accumulator, point by point -/

/-- At a first contraction block the accumulator ends, at (p, q), at zero plus the first block's products. -/
theorem acc2_first (c : Dev nD) (n : ℕ) (hn : n < cfg2.N) (h0 : n % 16 = 0) (p : Fin 2048) (q : Fin 128) :
    ((outsAt2 V c n hn).2 (ix2 p q) : EReal)
      = 0 + ∑ k : Fin 1024, ext2 (lhs2 V c) (2048 * (n / 16) + p.val) (1024 * (n % 16) + k.val)
              * ext2 (rhs2 V c) (1024 * (n % 16) + k.val) q.val := by
  have h1 : ¬n % 16 = 15 := by omega
  rw [outsAt2_A V c ⟨n, hn⟩ h0 h1]
  dsimp only
  refine (congrFun (sout2_A_0_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) scM2_0 (Memref.isWhole_whole _) ((hcond2_0 ⟨n, hn⟩).mpr h0) (fun h => h1 ((hcond2_1 ⟨n, hn⟩).mp h)) (blkA2 V c ⟨n, hn⟩) (blkB2 V c ⟨n, hn⟩)) (ix2 p q)).trans ?_
  refine (pay2_2_apply (blkA2 V c ⟨n, hn⟩) (blkB2 V c ⟨n, hn⟩) (k2_pay1 (F := Ideal)) p q).trans ?_
  rw [pay2_1_apply p q]
  refine congrArg (fun z : EReal => 0 + z) (Finset.sum_congr rfl fun k _ => ?_)
  rw [iblk2_0_apply V c ⟨n, hn⟩ p k, iblk2_1_apply V c ⟨n, hn⟩ k q]

/-- At a later contraction block it ends at what the point before left (`prev` at this entry) plus this block's
    products. -/
theorem acc2_later (c : Dev nD) (n : ℕ) (hn : n + 1 < cfg2.N) (h0 : ¬(n + 1) % 16 = 0) (p : Fin 2048) (q : Fin 128)
    (prev : EReal) (hprev : ((outsAt2 V c n (Nat.lt_of_succ_lt hn)).2 (ix2 p q) : EReal) = prev) :
    ((outsAt2 V c (n + 1) hn).2 (ix2 p q) : EReal)
      = prev + ∑ k : Fin 1024, ext2 (lhs2 V c) (2048 * ((n + 1) / 16) + p.val) (1024 * ((n + 1) % 16) + k.val)
              * ext2 (rhs2 V c) (1024 * ((n + 1) % 16) + k.val) q.val := by
  by_cases h1 : (n + 1) % 16 = 15
  · -- a last contraction block
    rw [outsAt2_C V c ⟨n + 1, hn⟩ h0 h1]
    dsimp only
    refine (congrFun (sout2_C_0_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (blkA2 V c ⟨n + 1, hn⟩) (blkB2 V c ⟨n + 1, hn⟩) (outsAt2 V c n (Nat.lt_of_succ_lt hn)).2) (ix2 p q)).trans ?_
    refine (pay2_2_apply (blkA2 V c ⟨n + 1, hn⟩) (blkB2 V c ⟨n + 1, hn⟩) (outsAt2 V c n (Nat.lt_of_succ_lt hn)).2 p q).trans ?_
    refine congrArg₂ (fun y z : EReal => y + z) hprev (Finset.sum_congr rfl fun k _ => ?_)
    rw [iblk2_0_apply V c ⟨n + 1, hn⟩ p k, iblk2_1_apply V c ⟨n + 1, hn⟩ k q]
  · -- a middle contraction block
    rw [outsAt2_B V c ⟨n + 1, hn⟩ h0 h1]
    dsimp only
    refine (congrFun (sout2_B_0_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (blkA2 V c ⟨n + 1, hn⟩) (blkB2 V c ⟨n + 1, hn⟩) (outsAt2 V c n (Nat.lt_of_succ_lt hn)).2) (ix2 p q)).trans ?_
    refine (pay2_2_apply (blkA2 V c ⟨n + 1, hn⟩) (blkB2 V c ⟨n + 1, hn⟩) (outsAt2 V c n (Nat.lt_of_succ_lt hn)).2 p q).trans ?_
    refine congrArg₂ (fun y z : EReal => y + z) hprev (Finset.sum_congr rfl fun k _ => ?_)
    rw [iblk2_0_apply V c ⟨n + 1, hn⟩ p k, iblk2_1_apply V c ⟨n + 1, hn⟩ k q]

/-- THE ACCUMULATION: after point `n` the accumulator holds, at (p, q), row 2048 · (n / 16) + p of `A` against column
    q of `pre` over the first n % 16 + 1 contraction blocks. -/
theorem acc2_eq (c : Dev nD) : ∀ (n : ℕ) (hn : n < cfg2.N) (p : Fin 2048) (q : Fin 128),
    ((outsAt2 V c n hn).2 (ix2 p q) : EReal)
      = partialDot (lhs2 V c) (rhs2 V c) 1024 (2048 * (n / 16) + p.val) q.val (n % 16 + 1) := by
  intro n
  induction n with
  | zero =>
    intro hn p q
    rw [acc2_first V c 0 hn rfl p q, partialDot_one]
  | succ n ih =>
    intro hn p q
    by_cases h0 : (n + 1) % 16 = 0
    · rw [acc2_first V c (n + 1) hn h0 p q, h0, partialDot_one]
    · have e1 : (n + 1) / 16 = n / 16 := by omega
      have e2 : (n + 1) % 16 = n % 16 + 1 := by omega
      rw [acc2_later V c n hn h0 p q _ (ih (Nat.lt_of_succ_lt hn) p q), e1, e2]
      exact (partialDot_succ (lhs2 V c) (rhs2 V c) 1024 (2048 * (n / 16) + p.val) q.val (n % 16 + 1)).symm

/-- At a last contraction block the output window's buffer holds what the accumulator holds. -/
theorem out2_eq_acc (c : Dev nD) (t : Fin cfg2.N) (h1 : t.val % 16 = 15) :
    (outsAt2 V c t.val t.isLt).1 = (outsAt2 V c t.val t.isLt).2 := by
  have h0 : ¬t.val % 16 = 0 := by omega
  rw [outsAt2_C V c t h0 h1]
  dsimp only
  exact (out2_C_2_eq (F := Ideal) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (blkA2 V c t) (blkB2 V c t) (outsAt2 V c (t.val - 1) (Nat.lt_of_le_of_lt (Nat.sub_le _ _) t.isLt)).2).trans
    (sout2_C_0_eq (F := Ideal) c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (blkA2 V c t) (blkB2 V c t) (outsAt2 V c (t.val - 1) (Nat.lt_of_le_of_lt (Nat.sub_le _ _) t.isLt)).2).symm

/-! ## From the blocks written back to the array -/

/-- The whole product, entry by entry, as the sixteen blocks' sum. -/
def prod2 (c : Dev nD) : S16384x128.Idx → EReal := fun i =>
  partialDot (lhs2 V c) (rhs2 V c) 1024 (i 0).val (i 1).val 16

/-- What a last contraction block writes back is its block of the whole product. -/
theorem flushed2_eq (c : Dev nD) (t : Fin cfg2.N) (hf : (cfg2.win 2).flush t = true) :
    (dat2 V c).flushed 2 t = ((cfg2.win 2).blk t).view.read (Elt Ideal) (prod2 V c) := by
  have h15 : t.val % 16 = 15 := (flush2_2 t).mp hf
  obtain ⟨-, -, -, -, e0, e1⟩ := blockIdx2 t
  show (cfg2.win 2).cut (grid2.coords t) ((dat2 V c).after 2 t) = _
  rw [after2_2, out2_eq_acc V c t h15]
  funext j
  obtain ⟨p, q, rfl⟩ : ∃ (p : Fin 2048) (q : Fin 128), j = ix2 p q := ⟨j 0, j 1, eq_ix2 j⟩
  rw [View.read_apply]
  show ((outsAt2 V c t.val t.isLt).2 (ix2 p q) : EReal) = prod2 V c (((cfg2.win 2).blk t).view.emb (ix2 p q))
  rw [acc2_eq V c t.val t.isLt p q, h15]
  unfold prod2
  have r0 : ((((cfg2.win 2).blk t).view.emb (ix2 p q)) 0).val = 2048 * (t.val / 16) + p.val := by
    show win2_2.index t (0 : Fin 2) * 2048 + 1 * p.val = _; rw [e0]; omega
  have r1 : ((((cfg2.win 2).blk t).view.emb (ix2 p q)) 1).val = q.val := by
    show win2_2.index t (1 : Fin 2) * 128 + 1 * q.val = _; rw [e1]; omega
  rw [r0, r1]

/-- Row r of the array is in the block written back at the last contraction block of row block r / 2048. -/
theorem cover2 (i : S16384x128.Idx) :
    ∃ t : Fin cfg2.N, (cfg2.win 2).flush t = true ∧ i ∈ ((cfg2.win 2).blk t).view.set := by
  have hN : grid2.N = 128 := N_2
  have hi0 : (i 0).val < 16384 := (i 0).isLt
  have hi1 : (i 1).val < 128 := (i 1).isLt
  have hlt : 16 * ((i 0).val / 2048) + 15 < cfg2.N := by show _ < grid2.N; omega
  refine ⟨⟨16 * ((i 0).val / 2048) + 15, hlt⟩, (flush2_2 _).mpr (by show (16 * ((i 0).val / 2048) + 15) % 16 = 15; omega), ?_⟩
  obtain ⟨-, -, -, -, e0, e1⟩ := blockIdx2 ⟨16 * ((i 0).val / 2048) + 15, hlt⟩
  show i ∈ ((View.whole main_v33).slice (win2_2.rect ⟨16 * ((i 0).val / 2048) + 15, hlt⟩)).set
  rw [View.set_slice_whole, Rect.mem_set_unit]
  intro a
  match a with
  | ⟨0, _⟩ =>
    show win2_2.index ⟨16 * ((i 0).val / 2048) + 15, hlt⟩ (0 : Fin 2) * 2048 ≤ (i 0).val ∧ (i 0).val < win2_2.index ⟨16 * ((i 0).val / 2048) + 15, hlt⟩ (0 : Fin 2) * 2048 + 2048
    rw [e0]; dsimp only; omega
  | ⟨1, _⟩ =>
    show win2_2.index ⟨16 * ((i 0).val / 2048) + 15, hlt⟩ (1 : Fin 2) * 128 ≤ (i 1).val ∧ (i 1).val < win2_2.index ⟨16 * ((i 0).val / 2048) + 15, hlt⟩ (1 : Fin 2) * 128 + 128
    rw [e1]; omega

/-! ## The reference's product -/

/-- The dimension numbers of the whole product: [16384,16384] against [16384,128], columns against rows. -/
abbrev DW2 [Cert.ReferenceIdeal.Facts₀] := Cert.ReferenceIdeal.dot_S16384x16384_S16384x128_S16384x128_1_0_0_1_n_n

theorem DW2_hr [Cert.ReferenceIdeal.Facts₀] : DW2.contr.rank = 1 := rfl
theorem DW2_hs [Cert.ReferenceIdeal.Facts₀] : DW2.contr.size ⟨0, by rw [DW2_hr]; exact Nat.one_pos⟩ = 16384 := rfl
theorem DW2_l0 [Cert.ReferenceIdeal.Facts₀] (i : Cert.ReferenceIdeal.S16384x128.Idx) (k : DW2.contr.Idx) : (DW2.lhsIdx i k 0).val = (i 0).val := by
  simp [DotDims.lhsIdx, DW2, Cert.ReferenceIdeal.dot_S16384x16384_S16384x128_S16384x128_1_0_0_1_n_n]; rfl
theorem DW2_l1 [Cert.ReferenceIdeal.Facts₀] (i : Cert.ReferenceIdeal.S16384x128.Idx) (k : DW2.contr.Idx) : (DW2.lhsIdx i k 1).val = (k ⟨0, by rw [DW2_hr]; exact Nat.one_pos⟩).val := by
  simp [DotDims.lhsIdx, DW2, Cert.ReferenceIdeal.dot_S16384x16384_S16384x128_S16384x128_1_0_0_1_n_n]; rfl
theorem DW2_r0 [Cert.ReferenceIdeal.Facts₀] (i : Cert.ReferenceIdeal.S16384x128.Idx) (k : DW2.contr.Idx) : (DW2.rhsIdx i k 0).val = (k ⟨0, by rw [DW2_hr]; exact Nat.one_pos⟩).val := by
  simp [DotDims.rhsIdx, DW2, Cert.ReferenceIdeal.dot_S16384x16384_S16384x128_S16384x128_1_0_0_1_n_n]; rfl
theorem DW2_r1 [Cert.ReferenceIdeal.Facts₀] (i : Cert.ReferenceIdeal.S16384x128.Idx) (k : DW2.contr.Idx) : (DW2.rhsIdx i k 1).val = (i 1).val := by
  simp [DotDims.rhsIdx, DW2, Cert.ReferenceIdeal.dot_S16384x16384_S16384x128_S16384x128_1_0_0_1_n_n]; rfl

/-- The sixteen blocks' sum is the host's product of the same two arrays. -/
theorem prod2_eq [Cert.ReferenceIdeal.Facts₀] (c : Dev nD) :
    prod2 V c = Cert.Spec.allAgg (F := Ideal) (V c main_arg0) (V c main_v32_0) := by
  funext i
  obtain ⟨r, q, rfl⟩ : ∃ (r : Fin 16384) (q : Fin 128), i = ix2 r q := ⟨i 0, i 1, eq_ix2 i⟩
  show partialDot (lhs2 V c) (rhs2 V c) 1024 r.val q.val 16 = _
  rw [partialDot_full (lhs2 V c) (rhs2 V c) 1024 16 (by norm_num) r q]
  unfold Cert.Spec.allAgg
  simp only [Host.dotGeneral]
  exact (Cert.PlainDot.dotGeneral_apply DW2 DW2_hr DW2_hs DW2_l0 DW2_l1 DW2_r0 DW2_r1 none .single (V c main_arg0) (V c main_v32_0) r q).symm

/-- THE ARRAY the region's output window ends holding is the whole product `A · pre`. -/
theorem mm2_final [Cert.ReferenceIdeal.Facts₀] (V : (c : Dev nD) → (b : Ref sig .tc) → Buf (Elt Ideal) ((c : Thread nD τ).loc b)) (c : Dev nD) :
    (dat2 (F := Ideal) V c).arrAt 2 cfg2.N = Cert.Spec.allAgg (F := Ideal) (V c main_arg0) (V c main_v32_0) :=
  ((dat2 V c).arrAt_eq_of_cover 2 (prod2 V c) (flushed2_eq V c) (cover2)).trans (prod2_eq V c)

end Cert.KernelIdeal.Hand

end
-- ==== Proof.KI.Matmul4ValuePieces.lean ====
/-
  Region 4, the blocked product: what the stores a point's body ends with leave, read back as values. At a first
  contraction block the accumulator ends at the block product added to the zero block it was just cleared to; at a
  later one at what the point before left plus the block product; at a last one the output window's buffer ends at a
  copy of that. The body loads and stores its whole buffers, so a load reads a buffer's contents, the last store into a
  buffer leaves its payload, and a load after a store reads that payload back.
-/
import proofs.«119509_j83949430767932_1_alg».proof.Proof.KI.Matmul4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The offsets of every load and store of the body, however spelt, are zero. -/
theorem zeroOffsets4 : (![0, 0] : Fin 2 → Nat) = fun _ => 0 := funext fun a => by fin_cases a <;> rfl

/-- A first contraction block leaves in the accumulator the block product added to the zero block. -/
theorem sout4_A_0_eq (c : Dev nD) (i : grid4.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : cond4_0 i) (hc1 : ¬cond4_1 i)
    (x0 : Vec F S2048x1024 .f32) (x1 : Vec F S1024x128 .f32) :
    sout4_A_0 c i a2 h2 a3 h3 a4 h4 a5 h5 hc0 hc1 x0 x1 = k4_pay2 x0 x1 (k4_pay1 (F := F)) := by
  unfold sout4_A_0
  rw [View.read_writes_eq_canon _ _ _ (scover4_A_0 c i a2 h2 a3 h3 a4 h4 a5 h5 hc0 hc1 x0 x1)]
  unfold kernelRun4_A
  dsimp only
  sl_unfold_words
  rw [View.canon_cons_unit_zero (S := S2048x128) zeroOffsets4, View.readCov_unit_zero (S := S2048x128) _ zeroOffsets4]
  simp only [View.readAt_eq_ld, h2.read_unread, h3.read_unread, View.ld_unit_zero (S := S2048x1024) zeroOffsets4,
    View.ld_unit_zero (S := S1024x128) zeroOffsets4]

/-- A middle contraction block leaves in the accumulator what it found there plus the block product. -/
theorem sout4_B_0_eq (c : Dev nD) (i : grid4.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : ¬cond4_0 i) (hc1 : ¬cond4_1 i)
    (x0 : Vec F S2048x1024 .f32) (x1 : Vec F S1024x128 .f32) (xs0 : Vec F S2048x128 .f32) :
    sout4_B_0 c i a2 h2 a3 h3 a4 h4 a5 h5 hc0 hc1 x0 x1 xs0 = k4_pay2 x0 x1 xs0 := by
  unfold sout4_B_0
  rw [View.read_writes_eq_canon _ _ _ (scover4_B_0 c i a2 h2 a3 h3 a4 h4 a5 h5 hc0 hc1 x0 x1 xs0)]
  unfold kernelRun4_B
  dsimp only
  sl_unfold_words
  rw [View.canon_unit_zero (S := S2048x128) zeroOffsets4]
  simp only [View.readAt_eq_ld, h2.read_unread, h3.read_unread, h5.read_unread, View.ld_unit_zero (S := S2048x1024) zeroOffsets4,
    View.ld_unit_zero (S := S1024x128) zeroOffsets4, View.ld_unit_zero (S := S2048x128) zeroOffsets4]

/-- A last contraction block leaves the same in the accumulator, -/
theorem sout4_C_0_eq (c : Dev nD) (i : grid4.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : ¬cond4_0 i) (hc1 : cond4_1 i)
    (x0 : Vec F S2048x1024 .f32) (x1 : Vec F S1024x128 .f32) (xs0 : Vec F S2048x128 .f32) :
    sout4_C_0 c i a2 h2 a3 h3 a4 h4 a5 h5 hc0 hc1 x0 x1 xs0 = k4_pay2 x0 x1 xs0 := by
  unfold sout4_C_0
  rw [View.read_writes_eq_canon _ _ _ (scover4_C_0 c i a2 h2 a3 h3 a4 h4 a5 h5 hc0 hc1 x0 x1 xs0)]
  unfold kernelRun4_C
  dsimp only
  sl_unfold_words
  rw [View.canon_unit_zero (S := S2048x128) zeroOffsets4]
  simp only [View.readAt_eq_ld, h2.read_unread, h3.read_unread, h5.read_unread, View.ld_unit_zero (S := S2048x1024) zeroOffsets4,
    View.ld_unit_zero (S := S1024x128) zeroOffsets4, View.ld_unit_zero (S := S2048x128) zeroOffsets4]

/-- and a copy of it, read back from the accumulator, in the output window's buffer. -/
theorem out4_C_2_eq (c : Dev nD) (i : grid4.Coords) (a2 : Memref sig .tc .vmem S2048x1024 .f32) (h2 : a2.IsWhole) (a3 : Memref sig .tc .vmem S1024x128 .f32) (h3 : a3.IsWhole) (a4 : Memref sig .tc .vmem S2048x128 .f32) (h4 : a4.IsWhole) (a5 : Memref sig .tc .vmem S2048x128 .f32) (h5 : a5.IsWhole) (hc0 : ¬cond4_0 i) (hc1 : cond4_1 i)
    (x0 : Vec F S2048x1024 .f32) (x1 : Vec F S1024x128 .f32) (xs0 : Vec F S2048x128 .f32) :
    out4_C_2 c i a2 h2 a3 h3 a4 h4 a5 h5 hc0 hc1 x0 x1 xs0 = k4_pay2 x0 x1 xs0 := by
  unfold out4_C_2
  rw [View.read_writes_eq_canon _ _ _ (cover4_C_2 c i a2 h2 a3 h3 a4 h4 a5 h5 hc0 hc1 x0 x1 xs0)]
  unfold kernelRun4_C
  dsimp only
  sl_unfold_words
  rw [View.canon_unit_zero (S := S2048x128) zeroOffsets4, View.readCov_unit_zero (S := S2048x128) _ zeroOffsets4]
  simp only [View.readAt_eq_ld, h2.read_unread, h3.read_unread, h5.read_unread, View.ld_unit_zero (S := S2048x1024) zeroOffsets4,
    View.ld_unit_zero (S := S1024x128) zeroOffsets4, View.ld_unit_zero (S := S2048x128) zeroOffsets4]

end Cert.KernelIdeal.Hand

end
-- ==== Proof.KI.Matmul4Value.lean ====
/-
  Region 4, the blocked product `A · pre` on the extended reals: the array its output window ends holding is the
  whole product, entry (r, q) at ∑ₖ A (r, k) · pre (k, q).

  The grid is 8 × 16: point t works on row block t / 16 (2048 rows) and contraction block t % 16 (1024 positions).
  The accumulator after point t holds, at (p, q), row 2048 · (t / 16) + p of `A` against column q of `pre` over the
  first t % 16 + 1 contraction blocks — by induction on the point: a first contraction block stores the block product
  added to zero, a later one adds its block product to what the point before left. At a last contraction block that is
  the whole contraction, the output window's buffer holds a copy of it, and the blocks written back there cover the
  array. The roundings of the operands on the way into the block product are no roundings on the extended reals, and
  sums of extended reals regroup freely, so no entry needs to be finite.
-/
import proofs.«119509_j83949430767932_1_alg».proof.Proof.KI.Matmul4ValuePieces
import proofs.«119509_j83949430767932_1_alg».proof.Proof.LibAccum
import proofs.«119509_j83949430767932_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.LibBlockSum Cert.LibAccum

variable (V : (c : Dev nD) → (b : Ref sig .tc) → Buf (Elt Ideal) ((c : Thread nD τ).loc b))

/-- The two arrays the region multiplies, as it finds them: arrays of extended reals. -/
abbrev lhs4 (c : Dev nD) : (⟨2, ![16384, 16384]⟩ : Shape).Idx → EReal := V c main_arg0
abbrev rhs4 (c : Dev nD) : (⟨2, ![16384, 128]⟩ : Shape).Idx → EReal := V c main_v59_0

/-! ## The block product's dimension numbers -/

/-- The dimension numbers of the block product: a [2048,1024] block against a [1024,128] block, the first's columns
    contracted against the second's rows. -/
abbrev DB4 := dot_S2048x1024_S1024x128_S2048x128_1_0_0_1_n_n

/-- One axis is contracted, of extent 1024; -/
theorem DB4_hr : DB4.contr.rank = 1 := rfl
theorem DB4_hs : DB4.contr.size ⟨0, by rw [DB4_hr]; exact Nat.one_pos⟩ = 1024 := rfl
/-- at output entry `i` and contraction position `k` the first operand is read at (i 0, k), the second at (k, i 1). -/
theorem DB4_l0 (i : S2048x128.Idx) (k : DB4.contr.Idx) : (DB4.lhsIdx i k 0).val = (i 0).val := by
  simp [DotDims.lhsIdx, DB4, dot_S2048x1024_S1024x128_S2048x128_1_0_0_1_n_n]; rfl
theorem DB4_l1 (i : S2048x128.Idx) (k : DB4.contr.Idx) : (DB4.lhsIdx i k 1).val = (k ⟨0, by rw [DB4_hr]; exact Nat.one_pos⟩).val := by
  simp [DotDims.lhsIdx, DB4, dot_S2048x1024_S1024x128_S2048x128_1_0_0_1_n_n]; rfl
theorem DB4_r0 (i : S2048x128.Idx) (k : DB4.contr.Idx) : (DB4.rhsIdx i k 0).val = (k ⟨0, by rw [DB4_hr]; exact Nat.one_pos⟩).val := by
  simp [DotDims.rhsIdx, DB4, dot_S2048x1024_S1024x128_S2048x128_1_0_0_1_n_n]; rfl
theorem DB4_r1 (i : S2048x128.Idx) (k : DB4.contr.Idx) : (DB4.rhsIdx i k 1).val = (i 1).val := by
  simp [DotDims.rhsIdx, DB4, dot_S2048x1024_S1024x128_S2048x128_1_0_0_1_n_n]; rfl

/-! ## The body's two stored values, at an entry -/

/-- The block the accumulator is cleared to is zero at every entry. -/
theorem pay4_1_apply (p : Fin 2048) (q : Fin 128) : (k4_pay1 (F := Ideal) (ix2 p q) : EReal) = 0 := by
  unfold k4_pay1
  rw [shapeCast_self]
  exact Ideal.ofBits_zero_f32

/-- The accumulated block at entry (p, q): what was there plus ∑ₖ x0 (p, k) · x1 (k, q). -/
theorem pay4_2_apply (x0 : Vec Ideal S2048x1024 .f32) (x1 : Vec Ideal S1024x128 .f32) (acc : Vec Ideal S2048x128 .f32)
    (p : Fin 2048) (q : Fin 128) :
    (k4_pay2 (F := Ideal) x0 x1 acc (ix2 p q) : EReal)
      = (acc (ix2 p q) : EReal) + ∑ k : Fin 1024, (x0 (ix2 p k) : EReal) * (x1 (ix2 k q) : EReal) := by
  unfold k4_pay2
  simp only [shapeCast_self]
  exact acc_matmul_apply DB4 DB4_hr DB4_hs DB4_l0 DB4_l1 DB4_r0 DB4_r1 none bitsLt_bf16_f32 x0 x1 acc p q

/-! ## The blocks, read where their rectangles say -/

/-- The block of `A` at point `t`, a [2048,1024] array. -/
def blkA4 (c : Dev nD) (t : Fin cfg4.N) : Vec Ideal S2048x1024 .f32 := iblk4 V c 0 t
/-- The block of `pre` at point `t`, a [1024,128] array. -/
def blkB4 (c : Dev nD) (t : Fin cfg4.N) : Vec Ideal S1024x128 .f32 := iblk4 V c 1 t

/-- The windows' block indices at point `t`, decided once over the grid: the block of `A` is (t / 16, t % 16), that of
    `pre` (t % 16, 0), the output's (t / 16, 0). -/
theorem blockIdx4 : ∀ t : Fin cfg4.N, win4_0.index t (0 : Fin 2) = t.val / 16 ∧ win4_0.index t (1 : Fin 2) = t.val % 16
    ∧ win4_1.index t (0 : Fin 2) = t.val % 16 ∧ win4_1.index t (1 : Fin 2) = 0
    ∧ win4_2.index t (0 : Fin 2) = t.val / 16 ∧ win4_2.index t (1 : Fin 2) = 0 :=
  (by decide +kernel : ∀ t : Fin grid4.N, _)

/-- The block of `A` at point `t`, at (p, k): `A` at row 2048 · (t / 16) + p, column 1024 · (t % 16) + k. -/
theorem iblk4_0_apply (c : Dev nD) (t : Fin cfg4.N) (p : Fin 2048) (k : Fin 1024) :
    blkA4 V c t (ix2 p k)
      = ext2 (lhs4 V c) (2048 * (t.val / 16) + p.val) (1024 * (t.val % 16) + k.val) := by
  obtain ⟨e0, e1, -, -, -, -⟩ := blockIdx4 t
  have hN : grid4.N = 128 := N_4
  have ht : t.val < grid4.N := t.isLt
  have hp := p.isLt
  have hk := k.isLt
  rw [ext2_of_lt _ (by omega) (by omega)]
  unfold blkA4 iblk4
  rw [View.read_apply]
  show V c main_arg0 _ = V c main_arg0 _
  refine congrArg (V c main_arg0) ?_
  funext a
  apply Fin.ext
  match a with
  | ⟨0, _⟩ => show win4_0.index t (0 : Fin 2) * 2048 + 1 * p.val = 2048 * (t.val / 16) + p.val; rw [e0]; omega
  | ⟨1, _⟩ => show win4_0.index t (1 : Fin 2) * 1024 + 1 * k.val = 1024 * (t.val % 16) + k.val; rw [e1]; omega

/-- The block of `pre` at point `t`, at (k, q): `pre` at row 1024 · (t % 16) + k, column q. -/
theorem iblk4_1_apply (c : Dev nD) (t : Fin cfg4.N) (k : Fin 1024) (q : Fin 128) :
    blkB4 V c t (ix2 k q)
      = ext2 (rhs4 V c) (1024 * (t.val % 16) + k.val) q.val := by
  obtain ⟨-, -, e0, e1, -, -⟩ := blockIdx4 t
  have hN : grid4.N = 128 := N_4
  have ht : t.val < grid4.N := t.isLt
  have hk := k.isLt
  have hq := q.isLt
  rw [ext2_of_lt _ (by omega) (by omega)]
  unfold blkB4 iblk4
  rw [View.read_apply]
  show V c main_v59_0 _ = V c main_v59_0 _
  refine congrArg (V c main_v59_0) ?_
  funext a
  apply Fin.ext
  match a with
  | ⟨0, _⟩ => show win4_1.index t (0 : Fin 2) * 1024 + 1 * k.val = 1024 * (t.val % 16) + k.val; rw [e0]; omega
  | ⟨1, _⟩ => show win4_1.index t (1 : Fin 2) * 128 + 1 * q.val = q.val; rw [e1]; omega

/-! ## The accumulator, point by point -/

/-- At a first contraction block the accumulator ends, at (p, q), at zero plus the first block's products. -/
theorem acc4_first (c : Dev nD) (n : ℕ) (hn : n < cfg4.N) (h0 : n % 16 = 0) (p : Fin 2048) (q : Fin 128) :
    ((outsAt4 V c n hn).2 (ix2 p q) : EReal)
      = 0 + ∑ k : Fin 1024, ext2 (lhs4 V c) (2048 * (n / 16) + p.val) (1024 * (n % 16) + k.val)
              * ext2 (rhs4 V c) (1024 * (n % 16) + k.val) q.val := by
  have h1 : ¬n % 16 = 15 := by omega
  rw [outsAt4_A V c ⟨n, hn⟩ h0 h1]
  dsimp only
  refine (congrFun (sout4_A_0_eq (F := Ideal) c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) ((hcond4_0 ⟨n, hn⟩).mpr h0) (fun h => h1 ((hcond4_1 ⟨n, hn⟩).mp h)) (blkA4 V c ⟨n, hn⟩) (blkB4 V c ⟨n, hn⟩)) (ix2 p q)).trans ?_
  refine (pay4_2_apply (blkA4 V c ⟨n, hn⟩) (blkB4 V c ⟨n, hn⟩) (k4_pay1 (F := Ideal)) p q).trans ?_
  rw [pay4_1_apply p q]
  refine congrArg (fun z : EReal => 0 + z) (Finset.sum_congr rfl fun k _ => ?_)
  rw [iblk4_0_apply V c ⟨n, hn⟩ p k, iblk4_1_apply V c ⟨n, hn⟩ k q]

/-- At a later contraction block it ends at what the point before left (`prev` at this entry) plus this block's
    products. -/
theorem acc4_later (c : Dev nD) (n : ℕ) (hn : n + 1 < cfg4.N) (h0 : ¬(n + 1) % 16 = 0) (p : Fin 2048) (q : Fin 128)
    (prev : EReal) (hprev : ((outsAt4 V c n (Nat.lt_of_succ_lt hn)).2 (ix2 p q) : EReal) = prev) :
    ((outsAt4 V c (n + 1) hn).2 (ix2 p q) : EReal)
      = prev + ∑ k : Fin 1024, ext2 (lhs4 V c) (2048 * ((n + 1) / 16) + p.val) (1024 * ((n + 1) % 16) + k.val)
              * ext2 (rhs4 V c) (1024 * ((n + 1) % 16) + k.val) q.val := by
  by_cases h1 : (n + 1) % 16 = 15
  · -- a last contraction block
    rw [outsAt4_C V c ⟨n + 1, hn⟩ h0 h1]
    dsimp only
    refine (congrFun (sout4_C_0_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (blkA4 V c ⟨n + 1, hn⟩) (blkB4 V c ⟨n + 1, hn⟩) (outsAt4 V c n (Nat.lt_of_succ_lt hn)).2) (ix2 p q)).trans ?_
    refine (pay4_2_apply (blkA4 V c ⟨n + 1, hn⟩) (blkB4 V c ⟨n + 1, hn⟩) (outsAt4 V c n (Nat.lt_of_succ_lt hn)).2 p q).trans ?_
    refine congrArg₂ (fun y z : EReal => y + z) hprev (Finset.sum_congr rfl fun k _ => ?_)
    rw [iblk4_0_apply V c ⟨n + 1, hn⟩ p k, iblk4_1_apply V c ⟨n + 1, hn⟩ k q]
  · -- a middle contraction block
    rw [outsAt4_B V c ⟨n + 1, hn⟩ h0 h1]
    dsimp only
    refine (congrFun (sout4_B_0_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (blkA4 V c ⟨n + 1, hn⟩) (blkB4 V c ⟨n + 1, hn⟩) (outsAt4 V c n (Nat.lt_of_succ_lt hn)).2) (ix2 p q)).trans ?_
    refine (pay4_2_apply (blkA4 V c ⟨n + 1, hn⟩) (blkB4 V c ⟨n + 1, hn⟩) (outsAt4 V c n (Nat.lt_of_succ_lt hn)).2 p q).trans ?_
    refine congrArg₂ (fun y z : EReal => y + z) hprev (Finset.sum_congr rfl fun k _ => ?_)
    rw [iblk4_0_apply V c ⟨n + 1, hn⟩ p k, iblk4_1_apply V c ⟨n + 1, hn⟩ k q]

/-- THE ACCUMULATION: after point `n` the accumulator holds, at (p, q), row 2048 · (n / 16) + p of `A` against column
    q of `pre` over the first n % 16 + 1 contraction blocks. -/
theorem acc4_eq (c : Dev nD) : ∀ (n : ℕ) (hn : n < cfg4.N) (p : Fin 2048) (q : Fin 128),
    ((outsAt4 V c n hn).2 (ix2 p q) : EReal)
      = partialDot (lhs4 V c) (rhs4 V c) 1024 (2048 * (n / 16) + p.val) q.val (n % 16 + 1) := by
  intro n
  induction n with
  | zero =>
    intro hn p q
    rw [acc4_first V c 0 hn rfl p q, partialDot_one]
  | succ n ih =>
    intro hn p q
    by_cases h0 : (n + 1) % 16 = 0
    · rw [acc4_first V c (n + 1) hn h0 p q, h0, partialDot_one]
    · have e1 : (n + 1) / 16 = n / 16 := by omega
      have e2 : (n + 1) % 16 = n % 16 + 1 := by omega
      rw [acc4_later V c n hn h0 p q _ (ih (Nat.lt_of_succ_lt hn) p q), e1, e2]
      exact (partialDot_succ (lhs4 V c) (rhs4 V c) 1024 (2048 * (n / 16) + p.val) q.val (n % 16 + 1)).symm

/-- At a last contraction block the output window's buffer holds what the accumulator holds. -/
theorem out4_eq_acc (c : Dev nD) (t : Fin cfg4.N) (h1 : t.val % 16 = 15) :
    (outsAt4 V c t.val t.isLt).1 = (outsAt4 V c t.val t.isLt).2 := by
  have h0 : ¬t.val % 16 = 0 := by omega
  rw [outsAt4_C V c t h0 h1]
  dsimp only
  exact (out4_C_2_eq (F := Ideal) c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (blkA4 V c t) (blkB4 V c t) (outsAt4 V c (t.val - 1) (Nat.lt_of_le_of_lt (Nat.sub_le _ _) t.isLt)).2).trans
    (sout4_C_0_eq (F := Ideal) c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (blkA4 V c t) (blkB4 V c t) (outsAt4 V c (t.val - 1) (Nat.lt_of_le_of_lt (Nat.sub_le _ _) t.isLt)).2).symm

/-! ## From the blocks written back to the array -/

/-- The whole product, entry by entry, as the sixteen blocks' sum. -/
def prod4 (c : Dev nD) : S16384x128.Idx → EReal := fun i =>
  partialDot (lhs4 V c) (rhs4 V c) 1024 (i 0).val (i 1).val 16

/-- What a last contraction block writes back is its block of the whole product. -/
theorem flushed4_eq (c : Dev nD) (t : Fin cfg4.N) (hf : (cfg4.win 2).flush t = true) :
    (dat4 V c).flushed 2 t = ((cfg4.win 2).blk t).view.read (Elt Ideal) (prod4 V c) := by
  have h15 : t.val % 16 = 15 := (flush4_2 t).mp hf
  obtain ⟨-, -, -, -, e0, e1⟩ := blockIdx4 t
  show (cfg4.win 2).cut (grid4.coords t) ((dat4 V c).after 2 t) = _
  rw [after4_2, out4_eq_acc V c t h15]
  funext j
  obtain ⟨p, q, rfl⟩ : ∃ (p : Fin 2048) (q : Fin 128), j = ix2 p q := ⟨j 0, j 1, eq_ix2 j⟩
  rw [View.read_apply]
  show ((outsAt4 V c t.val t.isLt).2 (ix2 p q) : EReal) = prod4 V c (((cfg4.win 2).blk t).view.emb (ix2 p q))
  rw [acc4_eq V c t.val t.isLt p q, h15]
  unfold prod4
  have r0 : ((((cfg4.win 2).blk t).view.emb (ix2 p q)) 0).val = 2048 * (t.val / 16) + p.val := by
    show win4_2.index t (0 : Fin 2) * 2048 + 1 * p.val = _; rw [e0]; omega
  have r1 : ((((cfg4.win 2).blk t).view.emb (ix2 p q)) 1).val = q.val := by
    show win4_2.index t (1 : Fin 2) * 128 + 1 * q.val = _; rw [e1]; omega
  rw [r0, r1]

/-- Row r of the array is in the block written back at the last contraction block of row block r / 2048. -/
theorem cover4 (i : S16384x128.Idx) :
    ∃ t : Fin cfg4.N, (cfg4.win 2).flush t = true ∧ i ∈ ((cfg4.win 2).blk t).view.set := by
  have hN : grid4.N = 128 := N_4
  have hi0 : (i 0).val < 16384 := (i 0).isLt
  have hi1 : (i 1).val < 128 := (i 1).isLt
  have hlt : 16 * ((i 0).val / 2048) + 15 < cfg4.N := by show _ < grid4.N; omega
  refine ⟨⟨16 * ((i 0).val / 2048) + 15, hlt⟩, (flush4_2 _).mpr (by show (16 * ((i 0).val / 2048) + 15) % 16 = 15; omega), ?_⟩
  obtain ⟨-, -, -, -, e0, e1⟩ := blockIdx4 ⟨16 * ((i 0).val / 2048) + 15, hlt⟩
  show i ∈ ((View.whole main_v60).slice (win4_2.rect ⟨16 * ((i 0).val / 2048) + 15, hlt⟩)).set
  rw [View.set_slice_whole, Rect.mem_set_unit]
  intro a
  match a with
  | ⟨0, _⟩ =>
    show win4_2.index ⟨16 * ((i 0).val / 2048) + 15, hlt⟩ (0 : Fin 2) * 2048 ≤ (i 0).val ∧ (i 0).val < win4_2.index ⟨16 * ((i 0).val / 2048) + 15, hlt⟩ (0 : Fin 2) * 2048 + 2048
    rw [e0]; dsimp only; omega
  | ⟨1, _⟩ =>
    show win4_2.index ⟨16 * ((i 0).val / 2048) + 15, hlt⟩ (1 : Fin 2) * 128 ≤ (i 1).val ∧ (i 1).val < win4_2.index ⟨16 * ((i 0).val / 2048) + 15, hlt⟩ (1 : Fin 2) * 128 + 128
    rw [e1]; omega

/-! ## The reference's product -/

/-- The dimension numbers of the whole product: [16384,16384] against [16384,128], columns against rows. -/
abbrev DW4 [Cert.ReferenceIdeal.Facts₀] := Cert.ReferenceIdeal.dot_S16384x16384_S16384x128_S16384x128_1_0_0_1_n_n

theorem DW4_hr [Cert.ReferenceIdeal.Facts₀] : DW4.contr.rank = 1 := rfl
theorem DW4_hs [Cert.ReferenceIdeal.Facts₀] : DW4.contr.size ⟨0, by rw [DW4_hr]; exact Nat.one_pos⟩ = 16384 := rfl
theorem DW4_l0 [Cert.ReferenceIdeal.Facts₀] (i : Cert.ReferenceIdeal.S16384x128.Idx) (k : DW4.contr.Idx) : (DW4.lhsIdx i k 0).val = (i 0).val := by
  simp [DotDims.lhsIdx, DW4, Cert.ReferenceIdeal.dot_S16384x16384_S16384x128_S16384x128_1_0_0_1_n_n]; rfl
theorem DW4_l1 [Cert.ReferenceIdeal.Facts₀] (i : Cert.ReferenceIdeal.S16384x128.Idx) (k : DW4.contr.Idx) : (DW4.lhsIdx i k 1).val = (k ⟨0, by rw [DW4_hr]; exact Nat.one_pos⟩).val := by
  simp [DotDims.lhsIdx, DW4, Cert.ReferenceIdeal.dot_S16384x16384_S16384x128_S16384x128_1_0_0_1_n_n]; rfl
theorem DW4_r0 [Cert.ReferenceIdeal.Facts₀] (i : Cert.ReferenceIdeal.S16384x128.Idx) (k : DW4.contr.Idx) : (DW4.rhsIdx i k 0).val = (k ⟨0, by rw [DW4_hr]; exact Nat.one_pos⟩).val := by
  simp [DotDims.rhsIdx, DW4, Cert.ReferenceIdeal.dot_S16384x16384_S16384x128_S16384x128_1_0_0_1_n_n]; rfl
theorem DW4_r1 [Cert.ReferenceIdeal.Facts₀] (i : Cert.ReferenceIdeal.S16384x128.Idx) (k : DW4.contr.Idx) : (DW4.rhsIdx i k 1).val = (i 1).val := by
  simp [DotDims.rhsIdx, DW4, Cert.ReferenceIdeal.dot_S16384x16384_S16384x128_S16384x128_1_0_0_1_n_n]; rfl

/-- The sixteen blocks' sum is the host's product of the same two arrays. -/
theorem prod4_eq [Cert.ReferenceIdeal.Facts₀] (c : Dev nD) :
    prod4 V c = Cert.Spec.allAgg (F := Ideal) (V c main_arg0) (V c main_v59_0) := by
  funext i
  obtain ⟨r, q, rfl⟩ : ∃ (r : Fin 16384) (q : Fin 128), i = ix2 r q := ⟨i 0, i 1, eq_ix2 i⟩
  show partialDot (lhs4 V c) (rhs4 V c) 1024 r.val q.val 16 = _
  rw [partialDot_full (lhs4 V c) (rhs4 V c) 1024 16 (by norm_num) r q]
  unfold Cert.Spec.allAgg
  simp only [Host.dotGeneral]
  exact (Cert.PlainDot.dotGeneral_apply DW4 DW4_hr DW4_hs DW4_l0 DW4_l1 DW4_r0 DW4_r1 none .single (V c main_arg0) (V c main_v59_0) r q).symm

/-- THE ARRAY the region's output window ends holding is the whole product `A · pre`. -/
theorem mm4_final [Cert.ReferenceIdeal.Facts₀] (V : (c : Dev nD) → (b : Ref sig .tc) → Buf (Elt Ideal) ((c : Thread nD τ).loc b)) (c : Dev nD) :
    (dat4 (F := Ideal) V c).arrAt 2 cfg4.N = Cert.Spec.allAgg (F := Ideal) (V c main_arg0) (V c main_v59_0) :=
  ((dat4 V c).arrAt_eq_of_cover 2 (prod4 V c) (flushed4_eq V c) (cover4)).trans (prod4_eq V c)

end Cert.KernelIdeal.Hand

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.KI.Layer1Value.lean ====
import proofs.«119509_j83949430767932_1_alg».proof.Proof.KI.Layer1
import proofs.«119509_j83949430767932_1_alg».proof.Proof.LibPlainDot
import proofs.«119509_j83949430767932_1_alg».proof.Proof.LibColumns
import Idealize.ShloMosaic.Lib.ValueIdx
import Idealize.ShloMosaic.Lib.ValueLayout
import Idealize.ShloMosaic.Lib.Pipeline.Value
import Idealize.ShloMosaic.PureOps.Ideal.Laws

/-! # The fused layer kernel of region 1, on the extended reals: what its body leaves, entry by entry

At entry (p, q) of a [2048,128] block the body leaves in its first output buffer

  e (p, q) = logistic (∑ₖ (x0 (p,k) + x1 (p,k)) · x3 (k,q) + x4 (0,q)) + leaky (∑ₖ (x0 (p,k) · x2 (p,k)) · x5 (k,q) + x6 (0,q))

and in its second e (p, q) / max (√(∑ⱼ e (p,j)²), c), where x0, x1, x2 are the three input row blocks, x3 and x5 the
two [128,128] weights, x4 and x6 the two [1,128] bias rows, leaky z is z where z ≥ 0 and a constant times z elsewhere,
and c is a small constant. The roundings to bf16 before the two products are the identity on the extended reals,
the products into a zero accumulator are plain sums over the contracted coordinate, and the sum of a row's squares
is the plain sum over the row. The two float constants stay the words the kernel writes. -/

noncomputable section

open scoped BigOperators

namespace Cert.KernelIdeal.Hand

open Cert.KernelIdeal Cert.KernelIdeal.Gen
open Idealize.ShloMosaic Idealize.ShloMosaic.ValueIdx

/-! ## The dimension numbers of the two products -/

/-- The dimension numbers of both of the layer's products: a [2048,128] matrix against a [128,128] matrix,
    the first's columns contracted against the second's rows. -/
abbrev D128 := dot_S2048x128_S128x128_S2048x128_1_0_0_1_n_n

/-- One axis is contracted, of extent 128; -/
theorem D128_hr : D128.contr.rank = 1 := rfl
theorem D128_hs : D128.contr.size ⟨0, by rw [D128_hr]; exact Nat.one_pos⟩ = 128 := rfl
/-- at output entry `i` and contraction position `k` the first operand is read at (i 0, k) and the second at (k, i 1). -/
theorem D128_l0 (i : S2048x128.Idx) (k : D128.contr.Idx) : (D128.lhsIdx i k 0).val = (i 0).val := by
  simp [DotDims.lhsIdx, D128, dot_S2048x128_S128x128_S2048x128_1_0_0_1_n_n]; rfl
theorem D128_l1 (i : S2048x128.Idx) (k : D128.contr.Idx) : (D128.lhsIdx i k 1).val = (k ⟨0, by rw [D128_hr]; exact Nat.one_pos⟩).val := by
  simp [DotDims.lhsIdx, D128, dot_S2048x128_S128x128_S2048x128_1_0_0_1_n_n]; rfl
theorem D128_r0 (i : S2048x128.Idx) (k : D128.contr.Idx) : (D128.rhsIdx i k 0).val = (k ⟨0, by rw [D128_hr]; exact Nat.one_pos⟩).val := by
  simp [DotDims.rhsIdx, D128, dot_S2048x128_S128x128_S2048x128_1_0_0_1_n_n]; rfl
theorem D128_r1 (i : S2048x128.Idx) (k : D128.contr.Idx) : (D128.rhsIdx i k 1).val = (i 1).val := by
  simp [DotDims.rhsIdx, D128, dot_S2048x128_S128x128_S2048x128_1_0_0_1_n_n]; rfl

/-! ## Two elementwise operations at an entry -/

theorem logistic_apply {s : Shape} {φ : FTy} (a : FVec Ideal s φ) (i : s.Idx) : logistic a i = Ideal.logistic (a i) := rfl
theorem sqrt_apply {s : Shape} {φ : FTy} (a : FVec Ideal s φ) (i : s.Idx) : sqrt a i = Ideal.sqrt (a i) := rfl

/-! ## The pieces of the layer, at an entry -/

/-- A product into the zero accumulator plus a bias row, at entry (p, q): the sum over k of a (p, k) · w (k, q),
    plus b (0, q). The roundings to bf16 on the way into the product are the identity on the extended reals. -/
theorem dense_apply (a : FVec Ideal S2048x128 .f32) (w : Vec Ideal S128x128 .f32) (b : Vec Ideal S1x128 .f32) (p : Fin 2048) (q : Fin 128) :
    addf (matmul D128 none (truncf .bf16 a bitsLt_bf16_f32) (truncf .bf16 w bitsLt_bf16_f32) (constant S2048x128 .f32 0x00000000#32))
        (broadcastTo S2048x128 b broadcasts_S1x128_S2048x128) (ix2 p q)
      = (∑ k : Fin 128, (a (ix2 p k) : EReal) * (w (ix2 k q) : EReal)) + (b (ix2 (0 : Fin 1) q) : EReal) := by
  rw [addf_apply, broadcastTo_1b_ab_apply]
  simp only [matmul]
  rw [Cert.PlainDot.matmul_zero_apply D128 D128_hr D128_hs D128_l0 D128_l1 D128_r0 D128_r1]
  rfl

/-- The second branch's activation: z where z ≥ 0, and the constant 0x3C23D70A (about 0.01) times z elsewhere,
    as the kernel spells it: a select on an ordered comparison with the zero word. -/
def leaky (z : EReal) : EReal :=
  Scalar.select (FloatOps.cmpf (F := Ideal) (φ := .f32) .oge z (Ideal.ofBits .f32 0x00000000#32)) z
    (Ideal.ofBits .f32 0x3C23D70A#32 * z)

/-- THE LAYER'S VALUE at entry (p, q) of an [n,128] array, from seven inputs (three [n,128] arrays, two weights, two bias rows): the logistic function of the first dense form,
    of x0 + x1 against the weight x3 with the bias x4, plus the leaky activation of the second, of x0 · x2 against
    the weight x5 with the bias x6. -/
def layerAt {n : Nat} (x0 x1 x2 : (⟨2, ![n, 128]⟩ : Shape).Idx → EReal) (x3 : (⟨2, ![128, 128]⟩ : Shape).Idx → EReal) (x4 : (⟨2, ![1, 128]⟩ : Shape).Idx → EReal) (x5 : (⟨2, ![128, 128]⟩ : Shape).Idx → EReal) (x6 : (⟨2, ![1, 128]⟩ : Shape).Idx → EReal) (p : Fin n) (q : Fin 128) : EReal :=
  Ideal.logistic ((∑ k : Fin 128, ((x0 (ix2 p k) : EReal) + (x1 (ix2 p k) : EReal)) * (x3 (ix2 k q) : EReal)) + (x4 (ix2 (0 : Fin 1) q) : EReal))
    + leaky ((∑ k : Fin 128, ((x0 (ix2 p k) : EReal) * (x2 (ix2 p k) : EReal)) * (x5 (ix2 k q) : EReal)) + (x6 (ix2 (0 : Fin 1) q) : EReal))

/-- The normalised value at entry (p, q): the layer's value divided by the larger of its row's Euclidean norm
    and the constant 0x2B8CBCCC (about 1e-12). -/
def normedAt {n : Nat} (x0 x1 x2 : (⟨2, ![n, 128]⟩ : Shape).Idx → EReal) (x3 : (⟨2, ![128, 128]⟩ : Shape).Idx → EReal) (x4 : (⟨2, ![1, 128]⟩ : Shape).Idx → EReal) (x5 : (⟨2, ![128, 128]⟩ : Shape).Idx → EReal) (x6 : (⟨2, ![1, 128]⟩ : Shape).Idx → EReal) (p : Fin n) (q : Fin 128) : EReal :=
  Ideal.div (layerAt x0 x1 x2 x3 x4 x5 x6 p q)
    (max (Ideal.sqrt (∑ j : Fin 128, layerAt x0 x1 x2 x3 x4 x5 x6 p j * layerAt x0 x1 x2 x3 x4 x5 x6 p j))
      (Ideal.ofBits .f32 0x2B8CBCCC#32))

/-- The row norm's column at (p, z): the larger of the square root of the row's sum of squares and the constant. -/
theorem normCol_apply (P : FVec Ideal S2048x128 .f32) (p : Fin 2048) (z : Fin 1) :
    maximumf (sqrt (shapeCast S2048x1 (multiReduction .add [1] S2048 (mulf P P) 0x00000000#32 reduces_S2048x128_S2048 (.inl rfl) rfl) shapeCasts_S2048_S2048x1))
        (broadcast S2048x1 (Scalar.ofBits (F := Ideal) .f32 0x2B8CBCCC#32)) (ix2 p z)
      = max (Ideal.sqrt (∑ j : Fin 128, (P (ix2 p j) : EReal) * (P (ix2 p j) : EReal))) (Ideal.ofBits .f32 0x2B8CBCCC#32) := by
  rw [maximumf_apply, sqrt_apply, broadcast_apply, Cert.LibColumns.shapeCast_a_a1_apply]
  refine congrArg (fun s : EReal => max (Ideal.sqrt s) (Ideal.ofBits .f32 0x2B8CBCCC#32)) ?_
  exact Cert.LibColumns.rowSum_apply (mulf P P) 0x00000000#32 reduces_S2048x128_S2048 (.inl rfl) rfl p

/-! ## Region 1's payloads at an entry -/

/-- The layer's value, as the body's payload computes it from the loaded blocks (the payload takes the second
    weight before the first bias, as the body loads them). -/
theorem k1_pay2_apply (v0 v1 v4 : Vec Ideal S2048x128 .f32) (v7 v10 : Vec Ideal S128x128 .f32) (v15 v21 : Vec Ideal S1x128 .f32) (p : Fin 2048) (q : Fin 128) :
    k1_pay2 (F := Ideal) v0 v1 v4 v7 v10 v15 v21 (ix2 p q) = layerAt v0 v1 v4 v7 v15 v10 v21 p q := by
  unfold k1_pay2
  simp only [shapeCast_self]
  rw [addf_apply, logistic_apply, select_apply, cmpf_apply, mulf_apply, broadcast_apply, broadcast_apply]
  rw [dense_apply, dense_apply]
  rfl

/-- The divisor: the larger of the row's norm and the constant. -/
theorem k1_pay3_apply (v0 v1 v4 : Vec Ideal S2048x128 .f32) (v7 v10 : Vec Ideal S128x128 .f32) (v15 v21 : Vec Ideal S1x128 .f32) (p : Fin 2048) (q : Fin 128) :
    k1_pay3 (F := Ideal) v0 v1 v4 v7 v10 v15 v21 (ix2 p q)
      = max (Ideal.sqrt (∑ j : Fin 128, layerAt v0 v1 v4 v7 v15 v10 v21 p j * layerAt v0 v1 v4 v7 v15 v10 v21 p j)) (Ideal.ofBits .f32 0x2B8CBCCC#32) := by
  unfold k1_pay3
  rw [Cert.LibColumns.broadcastTo_a1_ab_apply, normCol_apply]
  simp only [k1_pay2_apply]

/-- The quotient the body stores in its second output. -/
theorem k1_pay1_apply (v0 v1 v4 : Vec Ideal S2048x128 .f32) (v7 v10 : Vec Ideal S128x128 .f32) (v15 v21 : Vec Ideal S1x128 .f32) (p : Fin 2048) (q : Fin 128) :
    k1_pay1 (F := Ideal) (k1_pay2 v0 v1 v4 v7 v10 v15 v21) (k1_pay3 v0 v1 v4 v7 v10 v15 v21) (ix2 p q)
      = normedAt v0 v1 v4 v7 v15 v10 v21 p q := by
  unfold k1_pay1
  rw [divf_apply, k1_pay2_apply, k1_pay3_apply]
  rfl

/-! ## What the body leaves in the two output buffers, at an entry -/

theorem hz1 : (![0, 0] : Fin 2 → Nat) = fun _ => 0 := funext fun a => by fin_cases a <;> rfl

/-- Window 7's buffer after the body holds the layer's value of the seven input blocks. -/
theorem out1_7_apply (x0 x1 x2 : Vec Ideal S2048x128 .f32) (x3 : Vec Ideal S128x128 .f32) (x4 : Vec Ideal S1x128 .f32) (x5 : Vec Ideal S128x128 .f32) (x6 : Vec Ideal S1x128 .f32) (p : Fin 2048) (q : Fin 128) :
    out1_7 (F := Ideal) x0 x1 x2 x3 x4 x5 x6 (ix2 p q) = layerAt x0 x1 x2 x3 x4 x5 x6 p q := by
  unfold out1_7
  rw [View.canon_unit_zero hz1]
  simp only [View.ld_unit_zero (S := S2048x128) hz1, View.ld_unit_zero (S := S128x128) hz1, View.ld_unit_zero (S := S1x128) hz1]
  exact k1_pay2_apply x0 x1 x2 x3 x5 x4 x6 p q

/-- Window 8's buffer after the body holds the normalised value. -/
theorem out1_8_apply (x0 x1 x2 : Vec Ideal S2048x128 .f32) (x3 : Vec Ideal S128x128 .f32) (x4 : Vec Ideal S1x128 .f32) (x5 : Vec Ideal S128x128 .f32) (x6 : Vec Ideal S1x128 .f32) (p : Fin 2048) (q : Fin 128) :
    out1_8 (F := Ideal) x0 x1 x2 x3 x4 x5 x6 (ix2 p q) = normedAt x0 x1 x2 x3 x4 x5 x6 p q := by
  unfold out1_8
  rw [View.canon_unit_zero hz1]
  simp only [View.ld_unit_zero (S := S2048x128) hz1, View.ld_unit_zero (S := S128x128) hz1, View.ld_unit_zero (S := S1x128) hz1]
  exact k1_pay1_apply x0 x1 x2 x3 x5 x4 x6 p q

end Cert.KernelIdeal.Hand
-- ==== Proof.KI.Layer1Array.lean ====
import proofs.«119509_j83949430767932_1_alg».proof.Proof.KI.Layer1Value
import Idealize.ShloMosaic.Lib.Pipeline.Value

/-! # Region 1: the two output arrays after the region, entry by entry, on the extended reals

Point `t` of the grid of 8 works on rows 2048·t … 2048·t + 2047 of the [16384,128] arrays: the three input row blocks
and the two output row blocks all sit at block index (t, 0), and the weights and bias rows are whole. So what point
`t` writes back through an output window is block `t` of ONE function of the region's seven input arrays (the layer's
value, or its row-normalised value, at the array's own row), and the eight blocks tile the array: after the region
each output array is that function, at every entry. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The whole-array functions -/

/-- THE LAYER'S VALUE at entry (r, q) of the whole [16384,128] arrays: the logistic function of the first dense form
    plus the leaky activation of the second, row r of the three input arrays against the two weights and bias rows. -/
def layerRowAt (X0 X1 X2 : FVec Ideal S16384x128 .f32) (x3 : FVec Ideal S128x128 .f32) (x4 : FVec Ideal S1x128 .f32)
    (x5 : FVec Ideal S128x128 .f32) (x6 : FVec Ideal S1x128 .f32) (r : Fin 16384) (q : Fin 128) : EReal :=
  Ideal.logistic ((∑ k : Fin 128, ((X0 (ix2 r k) : EReal) + (X1 (ix2 r k) : EReal)) * (x3 (ix2 k q) : EReal)) + (x4 (ix2 (0 : Fin 1) q) : EReal))
    + leaky ((∑ k : Fin 128, ((X0 (ix2 r k) : EReal) * (X2 (ix2 r k) : EReal)) * (x5 (ix2 k q) : EReal)) + (x6 (ix2 (0 : Fin 1) q) : EReal))

/-- The normalised value at entry (r, q): the layer's value divided by the larger of its row's Euclidean norm and
    the constant 0x2B8CBCCC. -/
def normedRowAt (X0 X1 X2 : FVec Ideal S16384x128 .f32) (x3 : FVec Ideal S128x128 .f32) (x4 : FVec Ideal S1x128 .f32)
    (x5 : FVec Ideal S128x128 .f32) (x6 : FVec Ideal S1x128 .f32) (r : Fin 16384) (q : Fin 128) : EReal :=
  Ideal.div (layerRowAt X0 X1 X2 x3 x4 x5 x6 r q)
    (max (Ideal.sqrt (∑ j : Fin 128, layerRowAt X0 X1 X2 x3 x4 x5 x6 r j * layerRowAt X0 X1 X2 x3 x4 x5 x6 r j))
      (Ideal.ofBits .f32 0x2B8CBCCC#32))

/-- They are the per-block formulas at 16384 rows. -/
theorem layerRowAt_eq (X0 X1 X2 : FVec Ideal S16384x128 .f32) (x3 : FVec Ideal S128x128 .f32) (x4 : FVec Ideal S1x128 .f32)
    (x5 : FVec Ideal S128x128 .f32) (x6 : FVec Ideal S1x128 .f32) (r : Fin 16384) (q : Fin 128) :
    layerRowAt X0 X1 X2 x3 x4 x5 x6 r q = layerAt X0 X1 X2 x3 x4 x5 x6 r q := rfl
theorem normedRowAt_eq (X0 X1 X2 : FVec Ideal S16384x128 .f32) (x3 : FVec Ideal S128x128 .f32) (x4 : FVec Ideal S1x128 .f32)
    (x5 : FVec Ideal S128x128 .f32) (x6 : FVec Ideal S1x128 .f32) (r : Fin 16384) (q : Fin 128) :
    normedRowAt X0 X1 X2 x3 x4 x5 x6 r q = normedAt X0 X1 X2 x3 x4 x5 x6 r q := rfl

/-- The layer's value at a row depends on that row of the three input arrays only: two triples of arrays, of any
    two row counts, that agree on a row of each give the same value there. -/
theorem layerAt_congr_row {n n' : Nat} (x0 x1 x2 : (⟨2, ![n, 128]⟩ : Shape).Idx → EReal) (y0 y1 y2 : (⟨2, ![n', 128]⟩ : Shape).Idx → EReal)
    (x3 : (⟨2, ![128, 128]⟩ : Shape).Idx → EReal) (x4 : (⟨2, ![1, 128]⟩ : Shape).Idx → EReal)
    (x5 : (⟨2, ![128, 128]⟩ : Shape).Idx → EReal) (x6 : (⟨2, ![1, 128]⟩ : Shape).Idx → EReal) (p : Fin n) (r : Fin n')
    (h0 : ∀ k : Fin 128, x0 (ix2 p k) = y0 (ix2 r k)) (h1 : ∀ k : Fin 128, x1 (ix2 p k) = y1 (ix2 r k))
    (h2 : ∀ k : Fin 128, x2 (ix2 p k) = y2 (ix2 r k)) (q : Fin 128) :
    layerAt x0 x1 x2 x3 x4 x5 x6 p q = layerAt y0 y1 y2 x3 x4 x5 x6 r q := by
  unfold layerAt
  simp only [h0, h1, h2]

theorem normedAt_congr_row {n n' : Nat} (x0 x1 x2 : (⟨2, ![n, 128]⟩ : Shape).Idx → EReal) (y0 y1 y2 : (⟨2, ![n', 128]⟩ : Shape).Idx → EReal)
    (x3 : (⟨2, ![128, 128]⟩ : Shape).Idx → EReal) (x4 : (⟨2, ![1, 128]⟩ : Shape).Idx → EReal)
    (x5 : (⟨2, ![128, 128]⟩ : Shape).Idx → EReal) (x6 : (⟨2, ![1, 128]⟩ : Shape).Idx → EReal) (p : Fin n) (r : Fin n')
    (h0 : ∀ k : Fin 128, x0 (ix2 p k) = y0 (ix2 r k)) (h1 : ∀ k : Fin 128, x1 (ix2 p k) = y1 (ix2 r k))
    (h2 : ∀ k : Fin 128, x2 (ix2 p k) = y2 (ix2 r k)) (q : Fin 128) :
    normedAt x0 x1 x2 x3 x4 x5 x6 p q = normedAt y0 y1 y2 x3 x4 x5 x6 r q := by
  unfold normedAt
  simp only [layerAt_congr_row x0 x1 x2 y0 y1 y2 x3 x4 x5 x6 p r h0 h1 h2]

/-- The whole arrays' functions, as functions of an index of the [16384,128] shape. -/
abbrev layerArr (X0 X1 X2 : FVec Ideal S16384x128 .f32) (x3 : FVec Ideal S128x128 .f32) (x4 : FVec Ideal S1x128 .f32)
    (x5 : FVec Ideal S128x128 .f32) (x6 : FVec Ideal S1x128 .f32) : S16384x128.Idx → EReal :=
  fun i => layerRowAt X0 X1 X2 x3 x4 x5 x6 ⟨(i 0).val, idx2_lt0 i⟩ ⟨(i 1).val, idx2_lt1 i⟩
abbrev normedArr (X0 X1 X2 : FVec Ideal S16384x128 .f32) (x3 : FVec Ideal S128x128 .f32) (x4 : FVec Ideal S1x128 .f32)
    (x5 : FVec Ideal S128x128 .f32) (x6 : FVec Ideal S1x128 .f32) : S16384x128.Idx → EReal :=
  fun i => normedRowAt X0 X1 X2 x3 x4 x5 x6 ⟨(i 0).val, idx2_lt0 i⟩ ⟨(i 1).val, idx2_lt1 i⟩

/-- A block's entry against the arrays' entry it is a copy of: when block row (j 0) of the three row blocks is
    row (i 0) of the three arrays and the columns agree, the block's value at j is the arrays' value at i. -/
theorem layer_block (x0 x1 x2 : Vec Ideal S2048x128 .f32) (X0 X1 X2 : FVec Ideal S16384x128 .f32)
    (x3 : Vec Ideal S128x128 .f32) (x4 : Vec Ideal S1x128 .f32) (x5 : Vec Ideal S128x128 .f32) (x6 : Vec Ideal S1x128 .f32)
    (j : S2048x128.Idx) (i : S16384x128.Idx) (hq : (j 1).val = (i 1).val)
    (h0 : ∀ k : Fin 128, x0 (ix2 (⟨(j 0).val, idx2_lt0 j⟩ : Fin 2048) k) = X0 (ix2 (⟨(i 0).val, idx2_lt0 i⟩ : Fin 16384) k))
    (h1 : ∀ k : Fin 128, x1 (ix2 (⟨(j 0).val, idx2_lt0 j⟩ : Fin 2048) k) = X1 (ix2 (⟨(i 0).val, idx2_lt0 i⟩ : Fin 16384) k))
    (h2 : ∀ k : Fin 128, x2 (ix2 (⟨(j 0).val, idx2_lt0 j⟩ : Fin 2048) k) = X2 (ix2 (⟨(i 0).val, idx2_lt0 i⟩ : Fin 16384) k)) :
    layerAt x0 x1 x2 x3 x4 x5 x6 (⟨(j 0).val, idx2_lt0 j⟩ : Fin 2048) (⟨(j 1).val, idx2_lt1 j⟩ : Fin 128) = layerArr X0 X1 X2 x3 x4 x5 x6 i
    ∧ normedAt x0 x1 x2 x3 x4 x5 x6 (⟨(j 0).val, idx2_lt0 j⟩ : Fin 2048) (⟨(j 1).val, idx2_lt1 j⟩ : Fin 128) = normedArr X0 X1 X2 x3 x4 x5 x6 i := by
  have hc : (⟨(j 1).val, idx2_lt1 j⟩ : Fin 128) = ⟨(i 1).val, idx2_lt1 i⟩ := Fin.ext hq
  refine ⟨?_, ?_⟩
  · show _ = layerAt X0 X1 X2 x3 x4 x5 x6 _ _
    rw [hc]; exact layerAt_congr_row x0 x1 x2 X0 X1 X2 x3 x4 x5 x6 _ _ h0 h1 h2 _
  · show _ = normedAt X0 X1 X2 x3 x4 x5 x6 _ _
    rw [hc]; exact normedAt_congr_row x0 x1 x2 X0 X1 X2 x3 x4 x5 x6 _ _ h0 h1 h2 _

section Region1
variable (V : (c : Dev nD) → (b : Ref sig .tc) → Buf (Elt Ideal) ((c : Thread nD τ).loc b))

/-! ## The block indices, decided over the grid -/

/-- At point `t` the five row-block windows sit at block (t, 0). -/
theorem idx_facts1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_7.index t (0 : Fin 2) = win1_7.index t (0 : Fin 2) ∧ win1_7.index t (1 : Fin 2) = 0
    ∧ win1_8.index t (0 : Fin 2) = win1_7.index t (0 : Fin 2) ∧ win1_8.index t (1 : Fin 2) = 0
    ∧ win1_7.index t (0 : Fin 2) = t.val :=
  (by decide +kernel : ∀ t : Fin grid1.N, _)

/-! ## The input blocks as parts of their arrays -/

/-- Row block 0 at point `t`, at block entry (p, k), is its array at the entry the output's block puts
    (p, ·) at: both windows move down the rows together. -/
theorem iblk1_0_row (c : Dev nD) (t : Fin cfg1.N) (j : S2048x128.Idx) (k : Fin 128) :
    iblk1 V c 0 t (ix2 (⟨(j 0).val, idx2_lt0 j⟩ : Fin 2048) k)
      = V c main_arg3 (ix2 (⟨((((cfg1.win 7).blk t).view.emb j) 0).val, idx2_lt0 _⟩ : Fin 16384) k) := by
  obtain ⟨e0, e0', e1, e1', e2, e2', e7, e7', e8, e8', -⟩ := idx_facts1 t
  show V c main_arg3 (((cfg1.win 0).blk t).view.emb (ix2 (⟨(j 0).val, idx2_lt0 j⟩ : Fin 2048) k)) = _
  refine congrArg (V c main_arg3) (funext fun a => Fin.ext ?_)
  match a with
  | ⟨0, _⟩ => show win1_0.index t (0 : Fin 2) * 2048 + 1 * (j 0).val = win1_7.index t (0 : Fin 2) * 2048 + 1 * (j 0).val; omega
  | ⟨1, _⟩ => show win1_0.index t (1 : Fin 2) * 128 + 1 * k.val = k.val; omega

/-- Row block 1 at point `t`, at block entry (p, k), is its array at the entry the output's block puts
    (p, ·) at: both windows move down the rows together. -/
theorem iblk1_1_row (c : Dev nD) (t : Fin cfg1.N) (j : S2048x128.Idx) (k : Fin 128) :
    iblk1 V c 1 t (ix2 (⟨(j 0).val, idx2_lt0 j⟩ : Fin 2048) k)
      = V c main_v6 (ix2 (⟨((((cfg1.win 7).blk t).view.emb j) 0).val, idx2_lt0 _⟩ : Fin 16384) k) := by
  obtain ⟨e0, e0', e1, e1', e2, e2', e7, e7', e8, e8', -⟩ := idx_facts1 t
  show V c main_v6 (((cfg1.win 1).blk t).view.emb (ix2 (⟨(j 0).val, idx2_lt0 j⟩ : Fin 2048) k)) = _
  refine congrArg (V c main_v6) (funext fun a => Fin.ext ?_)
  match a with
  | ⟨0, _⟩ => show win1_1.index t (0 : Fin 2) * 2048 + 1 * (j 0).val = win1_7.index t (0 : Fin 2) * 2048 + 1 * (j 0).val; omega
  | ⟨1, _⟩ => show win1_1.index t (1 : Fin 2) * 128 + 1 * k.val = k.val; omega

/-- Row block 2 at point `t`, at block entry (p, k), is its array at the entry the output's block puts
    (p, ·) at: both windows move down the rows together. -/
theorem iblk1_2_row (c : Dev nD) (t : Fin cfg1.N) (j : S2048x128.Idx) (k : Fin 128) :
    iblk1 V c 2 t (ix2 (⟨(j 0).val, idx2_lt0 j⟩ : Fin 2048) k)
      = V c main_v19 (ix2 (⟨((((cfg1.win 7).blk t).view.emb j) 0).val, idx2_lt0 _⟩ : Fin 16384) k) := by
  obtain ⟨e0, e0', e1, e1', e2, e2', e7, e7', e8, e8', -⟩ := idx_facts1 t
  show V c main_v19 (((cfg1.win 2).blk t).view.emb (ix2 (⟨(j 0).val, idx2_lt0 j⟩ : Fin 2048) k)) = _
  refine congrArg (V c main_v19) (funext fun a => Fin.ext ?_)
  match a with
  | ⟨0, _⟩ => show win1_2.index t (0 : Fin 2) * 2048 + 1 * (j 0).val = win1_7.index t (0 : Fin 2) * 2048 + 1 * (j 0).val; omega
  | ⟨1, _⟩ => show win1_2.index t (1 : Fin 2) * 128 + 1 * k.val = k.val; omega

/-- Window 3's block at every point is its whole array. -/
theorem iblk1_3_whole (c : Dev nD) (t : Fin cfg1.N) : iblk1 V c 3 t = V c main_v22 := by
  funext y
  show V c main_v22 (((cfg1.win 3).blk t).view.emb y) = V c main_v22 y
  refine congrArg (V c main_v22) (funext fun a => Fin.ext ?_)
  match a with
  | ⟨0, _⟩ => show win1_3.index t (0 : Fin 2) * 128 + 1 * (y 0).val = (y 0).val; rw [show win1_3.index t (0 : Fin 2) = 0 from rfl]; omega
  | ⟨1, _⟩ => show win1_3.index t (1 : Fin 2) * 128 + 1 * (y 1).val = (y 1).val; rw [show win1_3.index t (1 : Fin 2) = 0 from rfl]; omega

/-- Window 4's block at every point is its whole array. -/
theorem iblk1_4_whole (c : Dev nD) (t : Fin cfg1.N) : iblk1 V c 4 t = V c main_v28 := by
  funext y
  show V c main_v28 (((cfg1.win 4).blk t).view.emb y) = V c main_v28 y
  refine congrArg (V c main_v28) (funext fun a => Fin.ext ?_)
  match a with
  | ⟨0, _⟩ => show win1_4.index t (0 : Fin 2) * 1 + 1 * (y 0).val = (y 0).val; rw [show win1_4.index t (0 : Fin 2) = 0 from rfl]; omega
  | ⟨1, _⟩ => show win1_4.index t (1 : Fin 2) * 128 + 1 * (y 1).val = (y 1).val; rw [show win1_4.index t (1 : Fin 2) = 0 from rfl]; omega

/-- Window 5's block at every point is its whole array. -/
theorem iblk1_5_whole (c : Dev nD) (t : Fin cfg1.N) : iblk1 V c 5 t = V c main_v25 := by
  funext y
  show V c main_v25 (((cfg1.win 5).blk t).view.emb y) = V c main_v25 y
  refine congrArg (V c main_v25) (funext fun a => Fin.ext ?_)
  match a with
  | ⟨0, _⟩ => show win1_5.index t (0 : Fin 2) * 128 + 1 * (y 0).val = (y 0).val; rw [show win1_5.index t (0 : Fin 2) = 0 from rfl]; omega
  | ⟨1, _⟩ => show win1_5.index t (1 : Fin 2) * 128 + 1 * (y 1).val = (y 1).val; rw [show win1_5.index t (1 : Fin 2) = 0 from rfl]; omega

/-- Window 6's block at every point is its whole array. -/
theorem iblk1_6_whole (c : Dev nD) (t : Fin cfg1.N) : iblk1 V c 6 t = V c main_v31 := by
  funext y
  show V c main_v31 (((cfg1.win 6).blk t).view.emb y) = V c main_v31 y
  refine congrArg (V c main_v31) (funext fun a => Fin.ext ?_)
  match a with
  | ⟨0, _⟩ => show win1_6.index t (0 : Fin 2) * 1 + 1 * (y 0).val = (y 0).val; rw [show win1_6.index t (0 : Fin 2) = 0 from rfl]; omega
  | ⟨1, _⟩ => show win1_6.index t (1 : Fin 2) * 128 + 1 * (y 1).val = (y 1).val; rw [show win1_6.index t (1 : Fin 2) = 0 from rfl]; omega

/-! ## What each point writes back -/

/-- WHAT POINT `t` WRITES BACK through window 7 is block `t` of the whole arrays' function. -/
theorem flushed1_7_eq (c : Dev nD) (t : Fin cfg1.N) :
    (dat1 (F := Ideal) V c).flushed 7 t = ((cfg1.win 7).blk t).view.read (Elt Ideal) (layerArr (V c main_arg3) (V c main_v6) (V c main_v19) (V c main_v22) (V c main_v28) (V c main_v25) (V c main_v31)) := by
  show (cfg1.win 7).cut (grid1.coords t) ((dat1 (F := Ideal) V c).after 7 t) = _
  rw [after1_7]
  funext j
  have hj : j = ix2 (⟨(j 0).val, idx2_lt0 j⟩ : Fin 2048) (⟨(j 1).val, idx2_lt1 j⟩ : Fin 128) := eq_ix2 j
  obtain ⟨e0, e0', e1, e1', e2, e2', e7, e7', e8, e8', -⟩ := idx_facts1 t
  show out1_7 (iblk1 V c 0 t) (iblk1 V c 1 t) (iblk1 V c 2 t) (iblk1 V c 3 t) (iblk1 V c 4 t) (iblk1 V c 5 t) (iblk1 V c 6 t) j
    = layerArr (V c main_arg3) (V c main_v6) (V c main_v19) (V c main_v22) (V c main_v28) (V c main_v25) (V c main_v31) (((cfg1.win 7).blk t).view.emb j)
  rw [hj, out1_7_apply, iblk1_3_whole, iblk1_4_whole, iblk1_5_whole, iblk1_6_whole, ← hj]
  have hemb : (((cfg1.win 7).blk t).view.emb j) = (((cfg1.win 7).blk t).view.emb j) := by
    funext a; apply Fin.ext
    match a with
    | ⟨0, _⟩ => show win1_7.index t (0 : Fin 2) * 2048 + 1 * (j 0).val = win1_7.index t (0 : Fin 2) * 2048 + 1 * (j 0).val; omega
    | ⟨1, _⟩ => show win1_7.index t (1 : Fin 2) * 128 + 1 * (j 1).val = win1_7.index t (1 : Fin 2) * 128 + 1 * (j 1).val; omega
  rw [hemb]
  refine (layer_block (iblk1 V c 0 t) (iblk1 V c 1 t) (iblk1 V c 2 t) (V c main_arg3) (V c main_v6) (V c main_v19) (V c main_v22) (V c main_v28) (V c main_v25) (V c main_v31) j _ ?_
    (iblk1_0_row V c t j) (iblk1_1_row V c t j) (iblk1_2_row V c t j)).1
  show (j 1).val = win1_7.index t (1 : Fin 2) * 128 + 1 * (j 1).val
  omega

/-- WHAT POINT `t` WRITES BACK through window 8 is block `t` of the whole arrays' function. -/
theorem flushed1_8_eq (c : Dev nD) (t : Fin cfg1.N) :
    (dat1 (F := Ideal) V c).flushed 8 t = ((cfg1.win 8).blk t).view.read (Elt Ideal) (normedArr (V c main_arg3) (V c main_v6) (V c main_v19) (V c main_v22) (V c main_v28) (V c main_v25) (V c main_v31)) := by
  show (cfg1.win 8).cut (grid1.coords t) ((dat1 (F := Ideal) V c).after 8 t) = _
  rw [after1_8]
  funext j
  have hj : j = ix2 (⟨(j 0).val, idx2_lt0 j⟩ : Fin 2048) (⟨(j 1).val, idx2_lt1 j⟩ : Fin 128) := eq_ix2 j
  obtain ⟨e0, e0', e1, e1', e2, e2', e7, e7', e8, e8', -⟩ := idx_facts1 t
  show out1_8 (iblk1 V c 0 t) (iblk1 V c 1 t) (iblk1 V c 2 t) (iblk1 V c 3 t) (iblk1 V c 4 t) (iblk1 V c 5 t) (iblk1 V c 6 t) j
    = normedArr (V c main_arg3) (V c main_v6) (V c main_v19) (V c main_v22) (V c main_v28) (V c main_v25) (V c main_v31) (((cfg1.win 8).blk t).view.emb j)
  rw [hj, out1_8_apply, iblk1_3_whole, iblk1_4_whole, iblk1_5_whole, iblk1_6_whole, ← hj]
  have hemb : (((cfg1.win 8).blk t).view.emb j) = (((cfg1.win 7).blk t).view.emb j) := by
    funext a; apply Fin.ext
    match a with
    | ⟨0, _⟩ => show win1_8.index t (0 : Fin 2) * 2048 + 1 * (j 0).val = win1_7.index t (0 : Fin 2) * 2048 + 1 * (j 0).val; omega
    | ⟨1, _⟩ => show win1_8.index t (1 : Fin 2) * 128 + 1 * (j 1).val = win1_7.index t (1 : Fin 2) * 128 + 1 * (j 1).val; omega
  rw [hemb]
  refine (layer_block (iblk1 V c 0 t) (iblk1 V c 1 t) (iblk1 V c 2 t) (V c main_arg3) (V c main_v6) (V c main_v19) (V c main_v22) (V c main_v28) (V c main_v25) (V c main_v31) j _ ?_
    (iblk1_0_row V c t j) (iblk1_1_row V c t j) (iblk1_2_row V c t j)).2
  show (j 1).val = win1_7.index t (1 : Fin 2) * 128 + 1 * (j 1).val
  omega

/-! ## The blocks tile the arrays -/

/-- An index of the array is in point `t`'s block of window 7 iff each coordinate is in the block's range. -/
theorem mem_blk1_7 (t : Fin cfg1.N) (i : S16384x128.Idx) :
    i ∈ ((cfg1.win 7).blk t).view.set ↔ ∀ a : Fin 2, win1_7.index t a * S2048x128.size a ≤ (i a).val ∧ (i a).val < win1_7.index t a * S2048x128.size a + S2048x128.size a := by
  show i ∈ ((View.whole main_v32_0).slice (win1_7.rect t)).set ↔ _
  rw [View.set_slice_whole, Rect.mem_set_unit]
  exact Iff.rfl

/-- Every entry of the array is in the block of the point its row falls in: row r in block r / 2048. -/
theorem cover1_7 (i : S16384x128.Idx) : ∃ t : Fin cfg1.N, (cfg1.win 7).flush t = true ∧ i ∈ ((cfg1.win 7).blk t).view.set := by
  have hi0 : (i 0).val < 16384 := idx2_lt0 i
  have hi1 : (i 1).val < 128 := idx2_lt1 i
  have hN : (i 0).val / 2048 < grid1.N := by rw [N_1]; omega
  refine ⟨⟨(i 0).val / 2048, hN⟩, flush1_7 _, ?_⟩
  obtain ⟨e0, e0', e1, e1', e2, e2', e7, e7', e8, e8', et⟩ := idx_facts1 ⟨(i 0).val / 2048, hN⟩
  rw [mem_blk1_7]
  intro a
  match a with
  | ⟨0, _⟩ => show win1_7.index _ (0 : Fin 2) * 2048 ≤ (i 0).val ∧ (i 0).val < win1_7.index _ (0 : Fin 2) * 2048 + 2048; simp only [] at et; omega
  | ⟨1, _⟩ => show win1_7.index _ (1 : Fin 2) * 128 ≤ (i 1).val ∧ (i 1).val < win1_7.index _ (1 : Fin 2) * 128 + 128; omega

/-- An index of the array is in point `t`'s block of window 8 iff each coordinate is in the block's range. -/
theorem mem_blk1_8 (t : Fin cfg1.N) (i : S16384x128.Idx) :
    i ∈ ((cfg1.win 8).blk t).view.set ↔ ∀ a : Fin 2, win1_8.index t a * S2048x128.size a ≤ (i a).val ∧ (i a).val < win1_8.index t a * S2048x128.size a + S2048x128.size a := by
  show i ∈ ((View.whole main_v32_1).slice (win1_8.rect t)).set ↔ _
  rw [View.set_slice_whole, Rect.mem_set_unit]
  exact Iff.rfl

/-- Every entry of the array is in the block of the point its row falls in: row r in block r / 2048. -/
theorem cover1_8 (i : S16384x128.Idx) : ∃ t : Fin cfg1.N, (cfg1.win 8).flush t = true ∧ i ∈ ((cfg1.win 8).blk t).view.set := by
  have hi0 : (i 0).val < 16384 := idx2_lt0 i
  have hi1 : (i 1).val < 128 := idx2_lt1 i
  have hN : (i 0).val / 2048 < grid1.N := by rw [N_1]; omega
  refine ⟨⟨(i 0).val / 2048, hN⟩, flush1_8 _, ?_⟩
  obtain ⟨e0, e0', e1, e1', e2, e2', e7, e7', e8, e8', et⟩ := idx_facts1 ⟨(i 0).val / 2048, hN⟩
  rw [mem_blk1_8]
  intro a
  match a with
  | ⟨0, _⟩ => show win1_8.index _ (0 : Fin 2) * 2048 ≤ (i 0).val ∧ (i 0).val < win1_8.index _ (0 : Fin 2) * 2048 + 2048; simp only [] at et; omega
  | ⟨1, _⟩ => show win1_8.index _ (1 : Fin 2) * 128 ≤ (i 1).val ∧ (i 1).val < win1_8.index _ (1 : Fin 2) * 128 + 128; omega

/-! ## The arrays after the region -/

/-- Window 7's array after the region: the whole arrays' function, every entry. -/
theorem final1_7 (c : Dev nD) : (dat1 (F := Ideal) V c).arrAt 7 cfg1.N = layerArr (V c main_arg3) (V c main_v6) (V c main_v19) (V c main_v22) (V c main_v28) (V c main_v25) (V c main_v31) :=
  (dat1 (F := Ideal) V c).arrAt_eq_of_cover 7 (layerArr (V c main_arg3) (V c main_v6) (V c main_v19) (V c main_v22) (V c main_v28) (V c main_v25) (V c main_v31)) (fun t _ => flushed1_7_eq V c t) (cover1_7)

theorem layer1_arr7 (c : Dev nD) (r : Fin 16384) (q : Fin 128) :
    (dat1 (F := Ideal) V c).arrAt 7 cfg1.N (ix2 r q) = layerRowAt (V c main_arg3) (V c main_v6) (V c main_v19) (V c main_v22) (V c main_v28) (V c main_v25) (V c main_v31) r q := by
  rw [final1_7]

/-- Window 8's array after the region: the whole arrays' function, every entry. -/
theorem final1_8 (c : Dev nD) : (dat1 (F := Ideal) V c).arrAt 8 cfg1.N = normedArr (V c main_arg3) (V c main_v6) (V c main_v19) (V c main_v22) (V c main_v28) (V c main_v25) (V c main_v31) :=
  (dat1 (F := Ideal) V c).arrAt_eq_of_cover 8 (normedArr (V c main_arg3) (V c main_v6) (V c main_v19) (V c main_v22) (V c main_v28) (V c main_v25) (V c main_v31)) (fun t _ => flushed1_8_eq V c t) (cover1_8)

theorem layer1_arr8 (c : Dev nD) (r : Fin 16384) (q : Fin 128) :
    (dat1 (F := Ideal) V c).arrAt 8 cfg1.N (ix2 r q) = normedRowAt (V c main_arg3) (V c main_v6) (V c main_v19) (V c main_v22) (V c main_v28) (V c main_v25) (V c main_v31) r q := by
  rw [final1_8]

end Region1

end Cert.KernelIdeal.Hand
-- ==== Proof.LibLayerOps.lean ====
/-
  Layers of a network as functions of whole arrays, entry by entry, on the extended reals, for any extents.

  `rowsDot x w`: rows of x against columns of w, entry (r, q) the sum over k of x (r, k) · w (k, q).
  `addRow a b` / `addVec a b`: a bias, given as a one-row matrix or as a vector, added to every row of a
  (`addRow_shapeCast`: the vector laid out as a row is the same thing). `sigm a`: the logistic function of every entry.
  `ofBits_one`: the float 1.0 denotes 1. `logistic_host`: the host's spelling 1.0 / (1.0 + exp (-z)) of the logistic
  function, in the host's divide, add, exponential and negate, is the logistic function the vector unit's one
  operation denotes. Each function comes with its value at an entry `ix2 r q` (`…_apply`, by `rfl`), and `row`, `col`,
  `eq_row_col` split an entry of an [n0, n1] array into coordinates of literal `Fin` types.
-/
import Idealize.ShloMosaic.Lib.ValueIdx
import Idealize.ShloMosaic.Lib.ValueLayout
import Idealize.ShloMosaic.PureOps.Ideal

noncomputable section

open scoped BigOperators

namespace Cert.LayerOps

open Idealize.ShloMosaic Idealize.ShloMosaic.ValueIdx

/-- The row coordinate of an entry of an [n0, n1] array, as a number below n0. -/
abbrev row {n0 n1 : Nat} (i : (⟨2, ![n0, n1]⟩ : Shape).Idx) : Fin n0 := ⟨(i 0).val, idx2_lt0 i⟩
/-- The column coordinate of an entry of an [n0, n1] array, as a number below n1. -/
abbrev col {n0 n1 : Nat} (i : (⟨2, ![n0, n1]⟩ : Shape).Idx) : Fin n1 := ⟨(i 1).val, idx2_lt1 i⟩

theorem eq_row_col {n0 n1 : Nat} (i : (⟨2, ![n0, n1]⟩ : Shape).Idx) : i = ix2 (row i) (col i) := eq_ix2 i

/-- Entry (r, q) of x · w is the sum over k of x (r, k) · w (k, q). -/
def rowsDot {n K M : Nat} (x : (⟨2, ![n, K]⟩ : Shape).Idx → EReal) (w : (⟨2, ![K, M]⟩ : Shape).Idx → EReal) :
    (⟨2, ![n, M]⟩ : Shape).Idx → EReal :=
  fun i => ∑ k : Fin K, x (ix2 (row i) k) * w (ix2 k (col i))

theorem rowsDot_apply {n K M : Nat} (x : (⟨2, ![n, K]⟩ : Shape).Idx → EReal) (w : (⟨2, ![K, M]⟩ : Shape).Idx → EReal)
    (r : Fin n) (q : Fin M) : rowsDot x w (ix2 r q) = ∑ k : Fin K, x (ix2 r k) * w (ix2 k q) := rfl

/-- Entry (r, q) of a with the bias row b added to every row is a (r, q) + b (0, q). -/
def addRow {n M : Nat} (a : (⟨2, ![n, M]⟩ : Shape).Idx → EReal) (b : (⟨2, ![1, M]⟩ : Shape).Idx → EReal) :
    (⟨2, ![n, M]⟩ : Shape).Idx → EReal :=
  fun i => a i + b (ix2 (0 : Fin 1) (col i))

theorem addRow_apply {n M : Nat} (a : (⟨2, ![n, M]⟩ : Shape).Idx → EReal) (b : (⟨2, ![1, M]⟩ : Shape).Idx → EReal)
    (r : Fin n) (q : Fin M) : addRow a b (ix2 r q) = a (ix2 r q) + b (ix2 (0 : Fin 1) q) := rfl

/-- Entry (r, q) of a with the bias vector b added to every row is a (r, q) + b (q). -/
def addVec {n M : Nat} (a : (⟨2, ![n, M]⟩ : Shape).Idx → EReal) (b : (⟨1, ![M]⟩ : Shape).Idx → EReal) :
    (⟨2, ![n, M]⟩ : Shape).Idx → EReal :=
  fun i => a i + b (ix1 (col i))

theorem addVec_apply {n M : Nat} (a : (⟨2, ![n, M]⟩ : Shape).Idx → EReal) (b : (⟨1, ![M]⟩ : Shape).Idx → EReal)
    (r : Fin n) (q : Fin M) : addVec a b (ix2 r q) = a (ix2 r q) + b (ix1 q) := rfl

/-- A bias vector laid out as a one-row matrix and added as a row is the vector added to every row. -/
theorem addRow_shapeCast {n M : Nat} (a : (⟨2, ![n, M]⟩ : Shape).Idx → EReal) (b : (⟨1, ![M]⟩ : Shape).Idx → EReal)
    (h : (⟨1, ![M]⟩ : Shape).ShapeCasts ⟨2, ![1, M]⟩) : addRow a (shapeCast ⟨2, ![1, M]⟩ b h) = addVec a b := by
  funext i
  show a i + shapeCast ⟨2, ![1, M]⟩ b h (ix2 (0 : Fin 1) (col i)) = a i + b (ix1 (col i))
  rw [shapeCast_a_1a_apply]

/-- The logistic function 1 / (1 + e^(-x)) of every entry. -/
def sigm {s : Shape} (a : s.Idx → EReal) : s.Idx → EReal := fun i => Ideal.logistic (a i)

theorem sigm_apply {s : Shape} (a : s.Idx → EReal) (i : s.Idx) : sigm a i = Ideal.logistic (a i) := rfl

/-- The float 1.0 denotes the number 1. -/
theorem ofBits_one : Ideal.ofBits .f32 0x3F800000#32 = 1 := by
  simp [Ideal.ofBits, Ideal.ieee, -EReal.coe_mul]; norm_num

/-- The host's spelling of the logistic function, 1.0 / (1.0 + exp (-z)), is the logistic function. -/
theorem logistic_host (z : EReal) :
    FloatOps.hostDivf (F := Ideal) (φ := .f32) (Ideal.ofBits .f32 0x3F800000#32)
        (FloatOps.addf (F := Ideal) (φ := .f32) (Ideal.ofBits .f32 0x3F800000#32) (FloatOps.hostUnary (F := Ideal) (φ := .f32) .exp (FloatOps.hostNegf (F := Ideal) (φ := .f32) z)))
      = Ideal.logistic z := by
  rw [ofBits_one]; rfl

end Cert.LayerOps

end
-- ==== Proof.LibDotRows.lean ====
/-
  A reusable general lemma: a matrix product that contracts the COLUMNS of both operands, read at an entry.

  The product of an `n` × `K` matrix `l` with the transpose of an `M` × `K` matrix `r` (`l @ r.T`, a linear layer
  whose weight matrix is stored one row per output feature) pairs row `p` of `l` with row `c` of `r`. Its dimension
  numbers index the sum by the contraction shape's positions; when that shape has the one axis of extent `K` and the
  two operand indices at output entry (p, c) and contraction position `k` are (p, k) and (c, k) — four coordinate
  facts a program's literal dimension numbers decide — the sum is `∑ k : Fin K, l (p, k) · r (c, k)`. On the extended
  reals this reads a vector unit's matrix product into a zero accumulator. Stated at any extents.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

/-- The contraction's sum, re-indexed by the one contracted coordinate. -/
theorem sum_contr_eq {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's matrix product into the zero accumulator, at entry (p, c): `∑ k, lhs (p, k) · rhs (c, k)`. -/
theorem matmul_zero_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_eq D hr hs l0 l1 r0 r1 lhs rhs p c)

end Idealize.ShloMosaic.DotRows

end
-- ==== Proof.SpecRead.lean ====
/-
  The specification's layer read entry by entry, on the extended reals.

  At entry (r, q) one layer's embedding is the logistic function of one dense form plus the leaky rectifier of
  another,

    emb (r, q) = logistic (∑ₖ (pre (r,k) + agg (r,k)) · w2 (q,k) + bb2 q) + leaky (∑ₖ (pre (r,k) · sub (r,k)) · w3 (q,k) + bb3 q),

  and the normalised rows are emb (r, q) / max (√(∑ⱼ emb (r,j)²), c) with c the small literal.  The dense forms
  contract the columns of both operands (a weight matrix stored one row per output feature); the two unit scales
  `1 · h` vanish because the float 1.0 denotes 1; the host's spelling `1 / (1 + exp (-z))` is the logistic function;
  the host's row sum from the zero word is the plain sum over the row.
-/
import proofs.«119509_j83949430767932_1_alg».proof.Proof.Spec
import proofs.«119509_j83949430767932_1_alg».proof.Proof.LibLayerOps
import proofs.«119509_j83949430767932_1_alg».proof.Proof.LibDotRows
import Idealize.ShloMosaic.Lib.IdealHost
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Spec

open Idealize.ShloMosaic Idealize.ShloMosaic.ValueIdx Cert.ReferenceIdeal Cert.ReferenceIdeal.Facts₀

variable [Facts₀]

/-! ## The dense layers' dimension numbers -/

/-- The dimension numbers of both dense layers: an [n,128] matrix against a [128,128] matrix, the columns of both
    contracted. -/
abbrev DW := dot_S16384x128_S128x128_S16384x128_1_1_0_0_n_n

theorem DW_hr : (DW).contr.rank = 1 := rfl
theorem DW_hs : (DW).contr.size ⟨0, by rw [DW_hr]; exact Nat.one_pos⟩ = 128 := rfl
theorem DW_l0 (i : S16384x128.Idx) (k : (DW).contr.Idx) : ((DW).lhsIdx i k 0).val = (i 0).val := by
  simp [DotDims.lhsIdx, DW, dot_S16384x128_S128x128_S16384x128_1_1_0_0_n_n]; rfl
theorem DW_l1 (i : S16384x128.Idx) (k : (DW).contr.Idx) :
    ((DW).lhsIdx i k 1).val = (k ⟨0, by rw [DW_hr]; exact Nat.one_pos⟩).val := by
  simp [DotDims.lhsIdx, DW, dot_S16384x128_S128x128_S16384x128_1_1_0_0_n_n]; rfl
theorem DW_r0 (i : S16384x128.Idx) (k : (DW).contr.Idx) : ((DW).rhsIdx i k 0).val = (i 1).val := by
  simp [DotDims.rhsIdx, DW, dot_S16384x128_S128x128_S16384x128_1_1_0_0_n_n]; rfl
theorem DW_r1 (i : S16384x128.Idx) (k : (DW).contr.Idx) :
    ((DW).rhsIdx i k 1).val = (k ⟨0, by rw [DW_hr]; exact Nat.one_pos⟩).val := by
  simp [DotDims.rhsIdx, DW, dot_S16384x128_S128x128_S16384x128_1_1_0_0_n_n]; rfl

/-! ## The pieces at an entry -/

/-- A bias vector laid along every row reads, at (r, q), the vector's entry q. -/
theorem bias_apply (b : FVec Ideal S128 .f32) (r : Fin 16384) (q : Fin 128) :
    broadcastInDim S16384x128 ![0, 1] bcast_S1x128_S16384x128_0_1 (broadcastInDim S1x128 ![1] bcast_S128_S1x128_1 b) (ix2 r q)
      = b (ix1 q) := by
  rw [broadcastInDim_oneRow_apply]
  refine broadcastInDim_apply ![1] bcast_S128_S1x128_1 b (ix2 (0 : Fin 1) q) (ix1 q) fun a => ?_
  match a with
  | ⟨0, _⟩ => rfl

/-- A dense layer at (r, q): row r of x against row q of w, plus the bias's entry q. -/
theorem dense_apply (x : Mat Ideal) (w : FVec Ideal S128x128 .f32) (b : FVec Ideal S128 .f32) (r : Fin 16384) (q : Fin 128) :
    dense x w b (ix2 r q) = (∑ k : Fin 128, (x (ix2 r k) : EReal) * (w (ix2 q k) : EReal)) + (b (ix1 q) : EReal) := by
  unfold dense
  rw [addf_apply, bias_apply]
  congr 1
  exact (Ideal.dotGeneral_apply DW none .single x w (ix2 r q)).trans
    (DotRows.sum_contr_eq DW DW_hr DW_hs DW_l0 DW_l1 DW_r0 DW_r1 x w r q)

/-- The array of ones reads one everywhere. -/
theorem one_apply (i : S16384x128.Idx) : (one (F := Ideal)) i = 1 := by
  show Ideal.ofBits .f32 0x3F800000#32 = 1
  exact Cert.LayerOps.ofBits_one

/-- The host's spelling of the logistic function of `1 · h` is the logistic function of h. -/
theorem sigm_apply (h : Mat Ideal) (i : S16384x128.Idx) : sigm h i = Ideal.logistic (h i) := by
  show FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32)
          (Ideal.ofBits .f32 0x3F800000#32 * h i)))) = _
  rw [Cert.LayerOps.logistic_host, Cert.LayerOps.ofBits_one, one_mul]

/-- The leaky rectifier of a number: z where z ≥ 0, the slope literal times z elsewhere. -/
def leaky (z : EReal) : EReal :=
  Scalar.select (FloatOps.cmpf (F := Ideal) (φ := .f32) .oge z (Ideal.ofBits .f32 0x00000000#32)) z
    (Ideal.ofBits .f32 0x3C23D70A#32 * z)

theorem lrelu_apply (z : Mat Ideal) (i : S16384x128.Idx) : lrelu z i = leaky (z i) := rfl

/-! ## The layer at an entry -/

/-- One layer's embedding at entry (r, q), from whole arrays. -/
def embAt (pre agg sub : Mat Ideal) (w2 : FVec Ideal S128x128 .f32) (bb2 : FVec Ideal S128 .f32)
    (w3 : FVec Ideal S128x128 .f32) (bb3 : FVec Ideal S128 .f32) (r : Fin 16384) (q : Fin 128) : EReal :=
  Ideal.logistic ((∑ k : Fin 128, ((pre (ix2 r k) : EReal) + (agg (ix2 r k) : EReal)) * (w2 (ix2 q k) : EReal)) + (bb2 (ix1 q) : EReal))
    + leaky ((∑ k : Fin 128, ((pre (ix2 r k) : EReal) * (sub (ix2 r k) : EReal)) * (w3 (ix2 q k) : EReal)) + (bb3 (ix1 q) : EReal))

theorem emb_apply (pre agg sub : Mat Ideal) (w2 : FVec Ideal S128x128 .f32) (bb2 : FVec Ideal S128 .f32)
    (w3 : FVec Ideal S128x128 .f32) (bb3 : FVec Ideal S128 .f32) (r : Fin 16384) (q : Fin 128) :
    emb pre agg sub w2 bb2 w3 bb3 (ix2 r q) = embAt pre agg sub w2 bb2 w3 bb3 r q := by
  unfold emb embAt
  rw [addf_apply, sigm_apply, lrelu_apply, mulf_apply, one_apply, one_mul, dense_apply, dense_apply]
  rfl

/-- The normalised rows at entry (r, q): the entry over the larger of its row's length and the small literal. -/
def l2nAt (e : Mat Ideal) (r : Fin 16384) (q : Fin 128) : EReal :=
  Ideal.div (e (ix2 r q))
    (max (Ideal.sqrt (∑ j : Fin 128, (e (ix2 r j) : EReal) * (e (ix2 r j) : EReal))) (Ideal.ofBits .f32 0x2B8CBCCC#32))

/-- The host's sum of a row's squares from the zero word is the plain sum over the row. -/
theorem rowSq_apply (e : Mat Ideal) (r : Fin 16384) :
    Host.reduceAdd (mulf e e) (constant S_ .f32 0x00000000#32 : FVec Ideal S_ .f32) reducesTo_S16384x128_S16384_d1 h_S_ (ix1 r)
      = ∑ j : Fin 128, (e (ix2 r j) : EReal) * (e (ix2 r j) : EReal) := by
  have hR : S16384x128.Reduces [1] S16384 := by decide
  rw [hostReduceAdd_apply, Ideal.hostReduceAdd_single reducesTo_S16384x128_S16384_d1 hR]
  rw [show (constant S_ .f32 0x00000000#32 : FVec Ideal S_ .f32) (Shape.Idx.first h_S_) = (0 : EReal) from Ideal.ofBits_zero_f32,
    zero_add]
  refine Finset.sum_congr rfl fun j _ => ?_
  have e1 : hR.lift (ix1 r) j = ix2 r j := by
    funext c
    apply Fin.ext
    match c with
    | ⟨0, _⟩ => rfl
    | ⟨1, _⟩ => rfl
  rw [e1]
  rfl

theorem hostSqrt_apply {s : Shape} {φ : FTy} (a : FVec Ideal s φ) (i : s.Idx) : Host.sqrt a i = Ideal.sqrt (a i) := rfl

theorem eps_apply (i : S16384x1.Idx) :
    broadcastInDim S16384x1 ![] bcast_S_S16384x1 (constant S_ .f32 0x2B8CBCCC#32 : FVec Ideal S_ .f32) i
      = Ideal.ofBits .f32 0x2B8CBCCC#32 := rfl

theorem l2n_apply (e : Mat Ideal) (r : Fin 16384) (q : Fin 128) : l2n e (ix2 r q) = l2nAt e r q := by
  unfold l2n l2nAt
  rw [hostDivf_apply]
  refine congrArg (Ideal.div (e (ix2 r q))) ?_
  have hc : ∀ v : FVec Ideal S16384x1 .f32,
      broadcastInDim S16384x128 ![0, 1] bcast_S16384x1_S16384x128_0_1 v (ix2 r q) = v (ix2 r (0 : Fin 1)) := fun v =>
    broadcastInDim_apply ![0, 1] bcast_S16384x1_S16384x128_0_1 v (ix2 r q) (ix2 r (0 : Fin 1)) fun a => by
      match a with
      | ⟨0, _⟩ => rfl
      | ⟨1, _⟩ => rfl
  rw [hc, maximumf_apply, hostSqrt_apply, eps_apply]
  refine congrArg (fun s : EReal => max (Ideal.sqrt s) (Ideal.ofBits .f32 0x2B8CBCCC#32)) ?_
  rw [broadcastInDim_apply ![0] bcast_S16384_S16384x1_0 _ (ix2 r (0 : Fin 1)) (ix1 r) fun a => by
    match a with
    | ⟨0, _⟩ => rfl]
  exact rowSq_apply e r

end Cert.Spec

end
-- ==== Proof.BridgeLayer0.lean ====
/-
  The fused layer's row formula is the specification's layer, entry by entry.

  The kernel is handed each weight matrix transposed and each bias as a one-row matrix; read at an entry the
  transposed weight's (k, q) is the weight's (q, k) and the bias row's (0, q) is the bias's q, so the row formula
  over those arrays is the specification's dense form, which contracts the columns of both operands.  The same for
  the normalised rows.
-/
import proofs.«119509_j83949430767932_1_alg».proof.Proof.KI.Layer1Array
import proofs.«119509_j83949430767932_1_alg».proof.Proof.SpecRead

noncomputable section

open scoped BigOperators

namespace Cert.KernelIdeal.Hand

open Cert.KernelIdeal Cert.KernelIdeal.Gen
open Idealize.ShloMosaic Idealize.ShloMosaic.TcCoe Idealize.ShloMosaic.ValueIdx

variable [Cert.ReferenceIdeal.Facts₀]

/-- The leaky rectifier of a number is one function on both sides. -/
theorem leaky_eq (z : EReal) : leaky z = Cert.Spec.leaky z := rfl

/-- The row formula over the transposed weights and the bias rows is the specification's embedding at that entry. -/
theorem layerRowAt_spec (X0 X1 X2 : FVec Ideal S16384x128 .f32) (w2 w3 : FVec Ideal S128x128 .f32) (bb2 bb3 : FVec Ideal S128 .f32)
    (r : Fin 16384) (q : Fin 128) :
    layerRowAt X0 X1 X2 (transpose S128x128 [1, 0] w2 transposes_S128x128_S128x128_1_0) (shapeCast S1x128 bb2 shapeCasts_S128_S1x128)
        (transpose S128x128 [1, 0] w3 transposes_S128x128_S128x128_1_0) (shapeCast S1x128 bb3 shapeCasts_S128_S1x128) r q
      = Cert.Spec.emb (F := Ideal) X0 X1 X2 w2 bb2 w3 bb3 (ix2 r q) := by
  rw [Cert.Spec.emb_apply]
  unfold layerRowAt Cert.Spec.embAt
  have ht2 : ∀ k : Fin 128, transpose S128x128 [1, 0] w2 transposes_S128x128_S128x128_1_0 (ix2 k q) = w2 (ix2 q k) :=
    fun k => transpose_ix2_apply w2 transposes_S128x128_S128x128_1_0 k q
  have ht3 : ∀ k : Fin 128, transpose S128x128 [1, 0] w3 transposes_S128x128_S128x128_1_0 (ix2 k q) = w3 (ix2 q k) :=
    fun k => transpose_ix2_apply w3 transposes_S128x128_S128x128_1_0 k q
  have hr2 : shapeCast S1x128 bb2 shapeCasts_S128_S1x128 (ix2 (0 : Fin 1) q) = bb2 (ix1 q) :=
    shapeCast_a_1a_apply bb2 shapeCasts_S128_S1x128 0 q
  have hr3 : shapeCast S1x128 bb3 shapeCasts_S128_S1x128 (ix2 (0 : Fin 1) q) = bb3 (ix1 q) :=
    shapeCast_a_1a_apply bb3 shapeCasts_S128_S1x128 0 q
  simp only [ht2, ht3, hr2, hr3, leaky_eq]

/-- The normalised row formula likewise is the specification's normalised rows of its embedding. -/
theorem normedRowAt_spec (X0 X1 X2 : FVec Ideal S16384x128 .f32) (w2 w3 : FVec Ideal S128x128 .f32) (bb2 bb3 : FVec Ideal S128 .f32)
    (r : Fin 16384) (q : Fin 128) :
    normedRowAt X0 X1 X2 (transpose S128x128 [1, 0] w2 transposes_S128x128_S128x128_1_0) (shapeCast S1x128 bb2 shapeCasts_S128_S1x128)
        (transpose S128x128 [1, 0] w3 transposes_S128x128_S128x128_1_0) (shapeCast S1x128 bb3 shapeCasts_S128_S1x128) r q
      = Cert.Spec.l2n (F := Ideal) (Cert.Spec.emb (F := Ideal) X0 X1 X2 w2 bb2 w3 bb3) (ix2 r q) := by
  rw [Cert.Spec.l2n_apply]
  unfold normedRowAt Cert.Spec.l2nAt
  have h := fun j : Fin 128 => layerRowAt_spec X0 X1 X2 w2 w3 bb2 bb3 r j
  simp only [h]

end Cert.KernelIdeal.Hand

end
-- ==== Proof.BridgeLayer1.lean ====
/-
  Region 1's two output arrays after the region are the specification's layer and its normalised rows, of the
  region's three input arrays and of the weights and biases whose transposes and rows the region is handed.
-/
import proofs.«119509_j83949430767932_1_alg».proof.Proof.KI.Layer1Array
import proofs.«119509_j83949430767932_1_alg».proof.Proof.BridgeLayer0

noncomputable section

open scoped BigOperators

namespace Cert.KernelIdeal.Hand

open Cert.KernelIdeal Cert.KernelIdeal.Gen
open Idealize.ShloMosaic Idealize.ShloMosaic.TcCoe Idealize.ShloMosaic.ValueIdx

variable [Cert.ReferenceIdeal.Facts₀]

variable (V : (c : Dev nD) → (b : Ref sig .tc) → Buf (Elt Ideal) ((c : Thread nD τ).loc b))

/-- Window 7's array after the region is the specification's embedding. -/
theorem layer1_emb (c : Dev nD) (w2 w3 : FVec Ideal S128x128 .f32) (bb2 bb3 : FVec Ideal S128 .f32)
    (hw2 : V c main_v22 = transpose S128x128 [1, 0] w2 transposes_S128x128_S128x128_1_0)
    (hb2 : V c main_v28 = shapeCast S1x128 bb2 shapeCasts_S128_S1x128)
    (hw3 : V c main_v25 = transpose S128x128 [1, 0] w3 transposes_S128x128_S128x128_1_0)
    (hb3 : V c main_v31 = shapeCast S1x128 bb3 shapeCasts_S128_S1x128) :
    (dat1 (F := Ideal) V c).arrAt 7 cfg1.N
      = Cert.Spec.emb (F := Ideal) (V c main_arg3) (V c main_v6) (V c main_v19) w2 bb2 w3 bb3 := by
  funext i
  obtain ⟨r, q, rfl⟩ : ∃ (r : Fin 16384) (q : Fin 128), i = ix2 r q := ⟨i 0, i 1, eq_ix2 i⟩
  rw [layer1_arr7, hw2, hb2, hw3, hb3]
  exact layerRowAt_spec _ _ _ w2 w3 bb2 bb3 r q

/-- Window 8's array after the region is the specification's normalised rows of that embedding. -/
theorem layer1_l2n (c : Dev nD) (w2 w3 : FVec Ideal S128x128 .f32) (bb2 bb3 : FVec Ideal S128 .f32)
    (hw2 : V c main_v22 = transpose S128x128 [1, 0] w2 transposes_S128x128_S128x128_1_0)
    (hb2 : V c main_v28 = shapeCast S1x128 bb2 shapeCasts_S128_S1x128)
    (hw3 : V c main_v25 = transpose S128x128 [1, 0] w3 transposes_S128x128_S128x128_1_0)
    (hb3 : V c main_v31 = shapeCast S1x128 bb3 shapeCasts_S128_S1x128) :
    (dat1 (F := Ideal) V c).arrAt 8 cfg1.N
      = Cert.Spec.l2n (F := Ideal) (Cert.Spec.emb (F := Ideal) (V c main_arg3) (V c main_v6) (V c main_v19) w2 bb2 w3 bb3) := by
  funext i
  obtain ⟨r, q, rfl⟩ : ∃ (r : Fin 16384) (q : Fin 128), i = ix2 r q := ⟨i 0, i 1, eq_ix2 i⟩
  rw [layer1_arr8, hw2, hb2, hw3, hb3]
  exact normedRowAt_spec _ _ _ w2 w3 bb2 bb3 r q

end Cert.KernelIdeal.Hand

end
-- ==== Proof.KI.Layer3Value.lean ====
import proofs.«119509_j83949430767932_1_alg».proof.Proof.KI.Layer3
import proofs.«119509_j83949430767932_1_alg».proof.Proof.KI.Layer1Value
import proofs.«119509_j83949430767932_1_alg».proof.Proof.LibPlainDot
import proofs.«119509_j83949430767932_1_alg».proof.Proof.LibColumns
import Idealize.ShloMosaic.Lib.ValueIdx
import Idealize.ShloMosaic.Lib.ValueLayout
import Idealize.ShloMosaic.Lib.Pipeline.Value
import Idealize.ShloMosaic.PureOps.Ideal.Laws

/-! # The fused layer kernel of region 3, on the extended reals: what its body leaves, entry by entry

At entry (p, q) of a [2048,128] block the body leaves in its first output buffer

  e (p, q) = logistic (∑ₖ (x0 (p,k) + x1 (p,k)) · x3 (k,q) + x4 (0,q)) + leaky (∑ₖ (x0 (p,k) · x2 (p,k)) · x5 (k,q) + x6 (0,q))

and in its second e (p, q) / max (√(∑ⱼ e (p,j)²), c), where x0, x1, x2 are the three input row blocks, x3 and x5 the
two [128,128] weights, x4 and x6 the two [1,128] bias rows, leaky z is z where z ≥ 0 and a constant times z elsewhere,
and c is a small constant. The roundings to bf16 before the two products are the identity on the extended reals,
the products into a zero accumulator are plain sums over the contracted coordinate, and the sum of a row's squares
is the plain sum over the row. The two float constants stay the words the kernel writes. -/

noncomputable section

open scoped BigOperators

namespace Cert.KernelIdeal.Hand

open Cert.KernelIdeal Cert.KernelIdeal.Gen
open Idealize.ShloMosaic Idealize.ShloMosaic.ValueIdx

/-! ## Region 3's payloads at an entry -/

/-- The layer's value, as the body's payload computes it from the loaded blocks (the payload takes the second
    weight before the first bias, as the body loads them). -/
theorem k3_pay2_apply (v0 v1 v4 : Vec Ideal S2048x128 .f32) (v7 v10 : Vec Ideal S128x128 .f32) (v15 v21 : Vec Ideal S1x128 .f32) (p : Fin 2048) (q : Fin 128) :
    k3_pay2 (F := Ideal) v0 v1 v4 v7 v10 v15 v21 (ix2 p q) = layerAt v0 v1 v4 v7 v15 v10 v21 p q := by
  unfold k3_pay2
  simp only [shapeCast_self]
  rw [addf_apply, logistic_apply, select_apply, cmpf_apply, mulf_apply, broadcast_apply, broadcast_apply]
  rw [dense_apply, dense_apply]
  rfl

/-- The divisor: the larger of the row's norm and the constant. -/
theorem k3_pay3_apply (v0 v1 v4 : Vec Ideal S2048x128 .f32) (v7 v10 : Vec Ideal S128x128 .f32) (v15 v21 : Vec Ideal S1x128 .f32) (p : Fin 2048) (z : Fin 1) :
    k3_pay3 (F := Ideal) v0 v1 v4 v7 v10 v15 v21 (ix2 p z)
      = max (Ideal.sqrt (∑ j : Fin 128, layerAt v0 v1 v4 v7 v15 v10 v21 p j * layerAt v0 v1 v4 v7 v15 v10 v21 p j)) (Ideal.ofBits .f32 0x2B8CBCCC#32) := by
  unfold k3_pay3
  rw [normCol_apply]
  simp only [k3_pay2_apply]

/-- The quotient the body stores in its second output. -/
theorem k3_pay1_apply (v0 v1 v4 : Vec Ideal S2048x128 .f32) (v7 v10 : Vec Ideal S128x128 .f32) (v15 v21 : Vec Ideal S1x128 .f32) (p : Fin 2048) (q : Fin 128) :
    k3_pay1 (F := Ideal) (k3_pay2 v0 v1 v4 v7 v10 v15 v21) (k3_pay3 v0 v1 v4 v7 v10 v15 v21) (ix2 p q)
      = normedAt v0 v1 v4 v7 v15 v10 v21 p q := by
  unfold k3_pay1
  rw [divf_apply, Cert.LibColumns.broadcastTo_a1_ab_apply, k3_pay2_apply, k3_pay3_apply]
  rfl

/-! ## What the body leaves in the two output buffers, at an entry -/

theorem hz3 : (![0, 0] : Fin 2 → Nat) = fun _ => 0 := funext fun a => by fin_cases a <;> rfl

/-- Window 7's buffer after the body holds the layer's value of the seven input blocks. -/
theorem out3_7_apply (x0 x1 x2 : Vec Ideal S2048x128 .f32) (x3 : Vec Ideal S128x128 .f32) (x4 : Vec Ideal S1x128 .f32) (x5 : Vec Ideal S128x128 .f32) (x6 : Vec Ideal S1x128 .f32) (p : Fin 2048) (q : Fin 128) :
    out3_7 (F := Ideal) x0 x1 x2 x3 x4 x5 x6 (ix2 p q) = layerAt x0 x1 x2 x3 x4 x5 x6 p q := by
  unfold out3_7
  rw [View.canon_unit_zero hz3]
  simp only [View.ld_unit_zero (S := S2048x128) hz3, View.ld_unit_zero (S := S128x128) hz3, View.ld_unit_zero (S := S1x128) hz3]
  exact k3_pay2_apply x0 x1 x2 x3 x5 x4 x6 p q

/-- Window 8's buffer after the body holds the normalised value. -/
theorem out3_8_apply (x0 x1 x2 : Vec Ideal S2048x128 .f32) (x3 : Vec Ideal S128x128 .f32) (x4 : Vec Ideal S1x128 .f32) (x5 : Vec Ideal S128x128 .f32) (x6 : Vec Ideal S1x128 .f32) (p : Fin 2048) (q : Fin 128) :
    out3_8 (F := Ideal) x0 x1 x2 x3 x4 x5 x6 (ix2 p q) = normedAt x0 x1 x2 x3 x4 x5 x6 p q := by
  unfold out3_8
  rw [View.canon_unit_zero hz3]
  simp only [View.ld_unit_zero (S := S2048x128) hz3, View.ld_unit_zero (S := S128x128) hz3, View.ld_unit_zero (S := S1x128) hz3]
  exact k3_pay1_apply x0 x1 x2 x3 x5 x4 x6 p q

end Cert.KernelIdeal.Hand
-- ==== Proof.KI.Layer3Array.lean ====
import proofs.«119509_j83949430767932_1_alg».proof.Proof.KI.Layer3Value
import proofs.«119509_j83949430767932_1_alg».proof.Proof.KI.Layer1Array
import Idealize.ShloMosaic.Lib.Pipeline.Value

/-! # Region 3: the two output arrays after the region, entry by entry, on the extended reals

Point `t` of the grid of 8 works on rows 2048·t … 2048·t + 2047 of the [16384,128] arrays: the three input row blocks
and the two output row blocks all sit at block index (t, 0), and the weights and bias rows are whole. So what point
`t` writes back through an output window is block `t` of ONE function of the region's seven input arrays (the layer's
value, or its row-normalised value, at the array's own row), and the eight blocks tile the array: after the region
each output array is that function, at every entry. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

section Region3
variable (V : (c : Dev nD) → (b : Ref sig .tc) → Buf (Elt Ideal) ((c : Thread nD τ).loc b))

/-! ## The block indices, decided over the grid -/

/-- At point `t` the five row-block windows sit at block (t, 0). -/
theorem idx_facts3 : ∀ t : Fin cfg3.N,
    win3_0.index t (0 : Fin 2) = win3_7.index t (0 : Fin 2) ∧ win3_0.index t (1 : Fin 2) = 0
    ∧ win3_1.index t (0 : Fin 2) = win3_7.index t (0 : Fin 2) ∧ win3_1.index t (1 : Fin 2) = 0
    ∧ win3_2.index t (0 : Fin 2) = win3_7.index t (0 : Fin 2) ∧ win3_2.index t (1 : Fin 2) = 0
    ∧ win3_7.index t (0 : Fin 2) = win3_7.index t (0 : Fin 2) ∧ win3_7.index t (1 : Fin 2) = 0
    ∧ win3_8.index t (0 : Fin 2) = win3_7.index t (0 : Fin 2) ∧ win3_8.index t (1 : Fin 2) = 0
    ∧ win3_7.index t (0 : Fin 2) = t.val :=
  (by decide +kernel : ∀ t : Fin grid3.N, _)

/-! ## The input blocks as parts of their arrays -/

/-- Row block 0 at point `t`, at block entry (p, k), is its array at the entry the output's block puts
    (p, ·) at: both windows move down the rows together. -/
theorem iblk3_0_row (c : Dev nD) (t : Fin cfg3.N) (j : S2048x128.Idx) (k : Fin 128) :
    iblk3 V c 0 t (ix2 (⟨(j 0).val, idx2_lt0 j⟩ : Fin 2048) k)
      = V c main_v32_0 (ix2 (⟨((((cfg3.win 7).blk t).view.emb j) 0).val, idx2_lt0 _⟩ : Fin 16384) k) := by
  obtain ⟨e0, e0', e1, e1', e2, e2', e7, e7', e8, e8', -⟩ := idx_facts3 t
  show V c main_v32_0 (((cfg3.win 0).blk t).view.emb (ix2 (⟨(j 0).val, idx2_lt0 j⟩ : Fin 2048) k)) = _
  refine congrArg (V c main_v32_0) (funext fun a => Fin.ext ?_)
  match a with
  | ⟨0, _⟩ => show win3_0.index t (0 : Fin 2) * 2048 + 1 * (j 0).val = win3_7.index t (0 : Fin 2) * 2048 + 1 * (j 0).val; omega
  | ⟨1, _⟩ => show win3_0.index t (1 : Fin 2) * 128 + 1 * k.val = k.val; omega

/-- Row block 1 at point `t`, at block entry (p, k), is its array at the entry the output's block puts
    (p, ·) at: both windows move down the rows together. -/
theorem iblk3_1_row (c : Dev nD) (t : Fin cfg3.N) (j : S2048x128.Idx) (k : Fin 128) :
    iblk3 V c 1 t (ix2 (⟨(j 0).val, idx2_lt0 j⟩ : Fin 2048) k)
      = V c main_v33 (ix2 (⟨((((cfg3.win 7).blk t).view.emb j) 0).val, idx2_lt0 _⟩ : Fin 16384) k) := by
  obtain ⟨e0, e0', e1, e1', e2, e2', e7, e7', e8, e8', -⟩ := idx_facts3 t
  show V c main_v33 (((cfg3.win 1).blk t).view.emb (ix2 (⟨(j 0).val, idx2_lt0 j⟩ : Fin 2048) k)) = _
  refine congrArg (V c main_v33) (funext fun a => Fin.ext ?_)
  match a with
  | ⟨0, _⟩ => show win3_1.index t (0 : Fin 2) * 2048 + 1 * (j 0).val = win3_7.index t (0 : Fin 2) * 2048 + 1 * (j 0).val; omega
  | ⟨1, _⟩ => show win3_1.index t (1 : Fin 2) * 128 + 1 * k.val = k.val; omega

/-- Row block 2 at point `t`, at block entry (p, k), is its array at the entry the output's block puts
    (p, ·) at: both windows move down the rows together. -/
theorem iblk3_2_row (c : Dev nD) (t : Fin cfg3.N) (j : S2048x128.Idx) (k : Fin 128) :
    iblk3 V c 2 t (ix2 (⟨(j 0).val, idx2_lt0 j⟩ : Fin 2048) k)
      = V c main_v46 (ix2 (⟨((((cfg3.win 7).blk t).view.emb j) 0).val, idx2_lt0 _⟩ : Fin 16384) k) := by
  obtain ⟨e0, e0', e1, e1', e2, e2', e7, e7', e8, e8', -⟩ := idx_facts3 t
  show V c main_v46 (((cfg3.win 2).blk t).view.emb (ix2 (⟨(j 0).val, idx2_lt0 j⟩ : Fin 2048) k)) = _
  refine congrArg (V c main_v46) (funext fun a => Fin.ext ?_)
  match a with
  | ⟨0, _⟩ => show win3_2.index t (0 : Fin 2) * 2048 + 1 * (j 0).val = win3_7.index t (0 : Fin 2) * 2048 + 1 * (j 0).val; omega
  | ⟨1, _⟩ => show win3_2.index t (1 : Fin 2) * 128 + 1 * k.val = k.val; omega

/-- Window 3's block at every point is its whole array. -/
theorem iblk3_3_whole (c : Dev nD) (t : Fin cfg3.N) : iblk3 V c 3 t = V c main_v49 := by
  funext y
  show V c main_v49 (((cfg3.win 3).blk t).view.emb y) = V c main_v49 y
  refine congrArg (V c main_v49) (funext fun a => Fin.ext ?_)
  match a with
  | ⟨0, _⟩ => show win3_3.index t (0 : Fin 2) * 128 + 1 * (y 0).val = (y 0).val; rw [show win3_3.index t (0 : Fin 2) = 0 from rfl]; omega
  | ⟨1, _⟩ => show win3_3.index t (1 : Fin 2) * 128 + 1 * (y 1).val = (y 1).val; rw [show win3_3.index t (1 : Fin 2) = 0 from rfl]; omega

/-- Window 4's block at every point is its whole array. -/
theorem iblk3_4_whole (c : Dev nD) (t : Fin cfg3.N) : iblk3 V c 4 t = V c main_v55 := by
  funext y
  show V c main_v55 (((cfg3.win 4).blk t).view.emb y) = V c main_v55 y
  refine congrArg (V c main_v55) (funext fun a => Fin.ext ?_)
  match a with
  | ⟨0, _⟩ => show win3_4.index t (0 : Fin 2) * 1 + 1 * (y 0).val = (y 0).val; rw [show win3_4.index t (0 : Fin 2) = 0 from rfl]; omega
  | ⟨1, _⟩ => show win3_4.index t (1 : Fin 2) * 128 + 1 * (y 1).val = (y 1).val; rw [show win3_4.index t (1 : Fin 2) = 0 from rfl]; omega

/-- Window 5's block at every point is its whole array. -/
theorem iblk3_5_whole (c : Dev nD) (t : Fin cfg3.N) : iblk3 V c 5 t = V c main_v52 := by
  funext y
  show V c main_v52 (((cfg3.win 5).blk t).view.emb y) = V c main_v52 y
  refine congrArg (V c main_v52) (funext fun a => Fin.ext ?_)
  match a with
  | ⟨0, _⟩ => show win3_5.index t (0 : Fin 2) * 128 + 1 * (y 0).val = (y 0).val; rw [show win3_5.index t (0 : Fin 2) = 0 from rfl]; omega
  | ⟨1, _⟩ => show win3_5.index t (1 : Fin 2) * 128 + 1 * (y 1).val = (y 1).val; rw [show win3_5.index t (1 : Fin 2) = 0 from rfl]; omega

/-- Window 6's block at every point is its whole array. -/
theorem iblk3_6_whole (c : Dev nD) (t : Fin cfg3.N) : iblk3 V c 6 t = V c main_v58 := by
  funext y
  show V c main_v58 (((cfg3.win 6).blk t).view.emb y) = V c main_v58 y
  refine congrArg (V c main_v58) (funext fun a => Fin.ext ?_)
  match a with
  | ⟨0, _⟩ => show win3_6.index t (0 : Fin 2) * 1 + 1 * (y 0).val = (y 0).val; rw [show win3_6.index t (0 : Fin 2) = 0 from rfl]; omega
  | ⟨1, _⟩ => show win3_6.index t (1 : Fin 2) * 128 + 1 * (y 1).val = (y 1).val; rw [show win3_6.index t (1 : Fin 2) = 0 from rfl]; omega

/-! ## What each point writes back -/

/-- WHAT POINT `t` WRITES BACK through window 7 is block `t` of the whole arrays' function. -/
theorem flushed3_7_eq (c : Dev nD) (t : Fin cfg3.N) :
    (dat3 (F := Ideal) V c).flushed 7 t = ((cfg3.win 7).blk t).view.read (Elt Ideal) (layerArr (V c main_v32_0) (V c main_v33) (V c main_v46) (V c main_v49) (V c main_v55) (V c main_v52) (V c main_v58)) := by
  show (cfg3.win 7).cut (grid3.coords t) ((dat3 (F := Ideal) V c).after 7 t) = _
  rw [after3_7]
  funext j
  have hj : j = ix2 (⟨(j 0).val, idx2_lt0 j⟩ : Fin 2048) (⟨(j 1).val, idx2_lt1 j⟩ : Fin 128) := eq_ix2 j
  obtain ⟨e0, e0', e1, e1', e2, e2', e7, e7', e8, e8', -⟩ := idx_facts3 t
  show out3_7 (iblk3 V c 0 t) (iblk3 V c 1 t) (iblk3 V c 2 t) (iblk3 V c 3 t) (iblk3 V c 4 t) (iblk3 V c 5 t) (iblk3 V c 6 t) j
    = layerArr (V c main_v32_0) (V c main_v33) (V c main_v46) (V c main_v49) (V c main_v55) (V c main_v52) (V c main_v58) (((cfg3.win 7).blk t).view.emb j)
  rw [hj, out3_7_apply, iblk3_3_whole, iblk3_4_whole, iblk3_5_whole, iblk3_6_whole, ← hj]
  have hemb : (((cfg3.win 7).blk t).view.emb j) = (((cfg3.win 7).blk t).view.emb j) := by
    funext a; apply Fin.ext
    match a with
    | ⟨0, _⟩ => show win3_7.index t (0 : Fin 2) * 2048 + 1 * (j 0).val = win3_7.index t (0 : Fin 2) * 2048 + 1 * (j 0).val; omega
    | ⟨1, _⟩ => show win3_7.index t (1 : Fin 2) * 128 + 1 * (j 1).val = win3_7.index t (1 : Fin 2) * 128 + 1 * (j 1).val; omega
  rw [hemb]
  refine (layer_block (iblk3 V c 0 t) (iblk3 V c 1 t) (iblk3 V c 2 t) (V c main_v32_0) (V c main_v33) (V c main_v46) (V c main_v49) (V c main_v55) (V c main_v52) (V c main_v58) j _ ?_
    (iblk3_0_row V c t j) (iblk3_1_row V c t j) (iblk3_2_row V c t j)).1
  show (j 1).val = win3_7.index t (1 : Fin 2) * 128 + 1 * (j 1).val
  omega

/-- WHAT POINT `t` WRITES BACK through window 8 is block `t` of the whole arrays' function. -/
theorem flushed3_8_eq (c : Dev nD) (t : Fin cfg3.N) :
    (dat3 (F := Ideal) V c).flushed 8 t = ((cfg3.win 8).blk t).view.read (Elt Ideal) (normedArr (V c main_v32_0) (V c main_v33) (V c main_v46) (V c main_v49) (V c main_v55) (V c main_v52) (V c main_v58)) := by
  show (cfg3.win 8).cut (grid3.coords t) ((dat3 (F := Ideal) V c).after 8 t) = _
  rw [after3_8]
  funext j
  have hj : j = ix2 (⟨(j 0).val, idx2_lt0 j⟩ : Fin 2048) (⟨(j 1).val, idx2_lt1 j⟩ : Fin 128) := eq_ix2 j
  obtain ⟨e0, e0', e1, e1', e2, e2', e7, e7', e8, e8', -⟩ := idx_facts3 t
  show out3_8 (iblk3 V c 0 t) (iblk3 V c 1 t) (iblk3 V c 2 t) (iblk3 V c 3 t) (iblk3 V c 4 t) (iblk3 V c 5 t) (iblk3 V c 6 t) j
    = normedArr (V c main_v32_0) (V c main_v33) (V c main_v46) (V c main_v49) (V c main_v55) (V c main_v52) (V c main_v58) (((cfg3.win 8).blk t).view.emb j)
  rw [hj, out3_8_apply, iblk3_3_whole, iblk3_4_whole, iblk3_5_whole, iblk3_6_whole, ← hj]
  have hemb : (((cfg3.win 8).blk t).view.emb j) = (((cfg3.win 7).blk t).view.emb j) := by
    funext a; apply Fin.ext
    match a with
    | ⟨0, _⟩ => show win3_8.index t (0 : Fin 2) * 2048 + 1 * (j 0).val = win3_7.index t (0 : Fin 2) * 2048 + 1 * (j 0).val; omega
    | ⟨1, _⟩ => show win3_8.index t (1 : Fin 2) * 128 + 1 * (j 1).val = win3_7.index t (1 : Fin 2) * 128 + 1 * (j 1).val; omega
  rw [hemb]
  refine (layer_block (iblk3 V c 0 t) (iblk3 V c 1 t) (iblk3 V c 2 t) (V c main_v32_0) (V c main_v33) (V c main_v46) (V c main_v49) (V c main_v55) (V c main_v52) (V c main_v58) j _ ?_
    (iblk3_0_row V c t j) (iblk3_1_row V c t j) (iblk3_2_row V c t j)).2
  show (j 1).val = win3_7.index t (1 : Fin 2) * 128 + 1 * (j 1).val
  omega

/-! ## The blocks tile the arrays -/

/-- An index of the array is in point `t`'s block of window 7 iff each coordinate is in the block's range. -/
theorem mem_blk3_7 (t : Fin cfg3.N) (i : S16384x128.Idx) :
    i ∈ ((cfg3.win 7).blk t).view.set ↔ ∀ a : Fin 2, win3_7.index t a * S2048x128.size a ≤ (i a).val ∧ (i a).val < win3_7.index t a * S2048x128.size a + S2048x128.size a := by
  show i ∈ ((View.whole main_v59_0).slice (win3_7.rect t)).set ↔ _
  rw [View.set_slice_whole, Rect.mem_set_unit]
  exact Iff.rfl

/-- Every entry of the array is in the block of the point its row falls in: row r in block r / 2048. -/
theorem cover3_7 (i : S16384x128.Idx) : ∃ t : Fin cfg3.N, (cfg3.win 7).flush t = true ∧ i ∈ ((cfg3.win 7).blk t).view.set := by
  have hi0 : (i 0).val < 16384 := idx2_lt0 i
  have hi1 : (i 1).val < 128 := idx2_lt1 i
  have hN : (i 0).val / 2048 < grid3.N := by rw [N_3]; omega
  refine ⟨⟨(i 0).val / 2048, hN⟩, flush3_7 _, ?_⟩
  obtain ⟨e0, e0', e1, e1', e2, e2', e7, e7', e8, e8', et⟩ := idx_facts3 ⟨(i 0).val / 2048, hN⟩
  rw [mem_blk3_7]
  intro a
  match a with
  | ⟨0, _⟩ => show win3_7.index _ (0 : Fin 2) * 2048 ≤ (i 0).val ∧ (i 0).val < win3_7.index _ (0 : Fin 2) * 2048 + 2048; simp only [] at et; omega
  | ⟨1, _⟩ => show win3_7.index _ (1 : Fin 2) * 128 ≤ (i 1).val ∧ (i 1).val < win3_7.index _ (1 : Fin 2) * 128 + 128; omega

/-- An index of the array is in point `t`'s block of window 8 iff each coordinate is in the block's range. -/
theorem mem_blk3_8 (t : Fin cfg3.N) (i : S16384x128.Idx) :
    i ∈ ((cfg3.win 8).blk t).view.set ↔ ∀ a : Fin 2, win3_8.index t a * S2048x128.size a ≤ (i a).val ∧ (i a).val < win3_8.index t a * S2048x128.size a + S2048x128.size a := by
  show i ∈ ((View.whole main_v59_1).slice (win3_8.rect t)).set ↔ _
  rw [View.set_slice_whole, Rect.mem_set_unit]
  exact Iff.rfl

/-- Every entry of the array is in the block of the point its row falls in: row r in block r / 2048. -/
theorem cover3_8 (i : S16384x128.Idx) : ∃ t : Fin cfg3.N, (cfg3.win 8).flush t = true ∧ i ∈ ((cfg3.win 8).blk t).view.set := by
  have hi0 : (i 0).val < 16384 := idx2_lt0 i
  have hi1 : (i 1).val < 128 := idx2_lt1 i
  have hN : (i 0).val / 2048 < grid3.N := by rw [N_3]; omega
  refine ⟨⟨(i 0).val / 2048, hN⟩, flush3_8 _, ?_⟩
  obtain ⟨e0, e0', e1, e1', e2, e2', e7, e7', e8, e8', et⟩ := idx_facts3 ⟨(i 0).val / 2048, hN⟩
  rw [mem_blk3_8]
  intro a
  match a with
  | ⟨0, _⟩ => show win3_8.index _ (0 : Fin 2) * 2048 ≤ (i 0).val ∧ (i 0).val < win3_8.index _ (0 : Fin 2) * 2048 + 2048; simp only [] at et; omega
  | ⟨1, _⟩ => show win3_8.index _ (1 : Fin 2) * 128 ≤ (i 1).val ∧ (i 1).val < win3_8.index _ (1 : Fin 2) * 128 + 128; omega

/-! ## The arrays after the region -/

/-- Window 7's array after the region: the whole arrays' function, every entry. -/
theorem final3_7 (c : Dev nD) : (dat3 (F := Ideal) V c).arrAt 7 cfg3.N = layerArr (V c main_v32_0) (V c main_v33) (V c main_v46) (V c main_v49) (V c main_v55) (V c main_v52) (V c main_v58) :=
  (dat3 (F := Ideal) V c).arrAt_eq_of_cover 7 (layerArr (V c main_v32_0) (V c main_v33) (V c main_v46) (V c main_v49) (V c main_v55) (V c main_v52) (V c main_v58)) (fun t _ => flushed3_7_eq V c t) (cover3_7)

theorem layer3_arr7 (c : Dev nD) (r : Fin 16384) (q : Fin 128) :
    (dat3 (F := Ideal) V c).arrAt 7 cfg3.N (ix2 r q) = layerRowAt (V c main_v32_0) (V c main_v33) (V c main_v46) (V c main_v49) (V c main_v55) (V c main_v52) (V c main_v58) r q := by
  rw [final3_7]

/-- Window 8's array after the region: the whole arrays' function, every entry. -/
theorem final3_8 (c : Dev nD) : (dat3 (F := Ideal) V c).arrAt 8 cfg3.N = normedArr (V c main_v32_0) (V c main_v33) (V c main_v46) (V c main_v49) (V c main_v55) (V c main_v52) (V c main_v58) :=
  (dat3 (F := Ideal) V c).arrAt_eq_of_cover 8 (normedArr (V c main_v32_0) (V c main_v33) (V c main_v46) (V c main_v49) (V c main_v55) (V c main_v52) (V c main_v58)) (fun t _ => flushed3_8_eq V c t) (cover3_8)

theorem layer3_arr8 (c : Dev nD) (r : Fin 16384) (q : Fin 128) :
    (dat3 (F := Ideal) V c).arrAt 8 cfg3.N (ix2 r q) = normedRowAt (V c main_v32_0) (V c main_v33) (V c main_v46) (V c main_v49) (V c main_v55) (V c main_v52) (V c main_v58) r q := by
  rw [final3_8]

end Region3

end Cert.KernelIdeal.Hand
-- ==== Proof.BridgeLayer3.lean ====
/-
  Region 3's two output arrays after the region are the specification's layer and its normalised rows, of the
  region's three input arrays and of the weights and biases whose transposes and rows the region is handed.
-/
import proofs.«119509_j83949430767932_1_alg».proof.Proof.KI.Layer3Array
import proofs.«119509_j83949430767932_1_alg».proof.Proof.BridgeLayer0

noncomputable section

open scoped BigOperators

namespace Cert.KernelIdeal.Hand

open Cert.KernelIdeal Cert.KernelIdeal.Gen
open Idealize.ShloMosaic Idealize.ShloMosaic.TcCoe Idealize.ShloMosaic.ValueIdx

variable [Cert.ReferenceIdeal.Facts₀]

variable (V : (c : Dev nD) → (b : Ref sig .tc) → Buf (Elt Ideal) ((c : Thread nD τ).loc b))

/-- Window 7's array after the region is the specification's embedding. -/
theorem layer3_emb (c : Dev nD) (w2 w3 : FVec Ideal S128x128 .f32) (bb2 bb3 : FVec Ideal S128 .f32)
    (hw2 : V c main_v49 = transpose S128x128 [1, 0] w2 transposes_S128x128_S128x128_1_0)
    (hb2 : V c main_v55 = shapeCast S1x128 bb2 shapeCasts_S128_S1x128)
    (hw3 : V c main_v52 = transpose S128x128 [1, 0] w3 transposes_S128x128_S128x128_1_0)
    (hb3 : V c main_v58 = shapeCast S1x128 bb3 shapeCasts_S128_S1x128) :
    (dat3 (F := Ideal) V c).arrAt 7 cfg3.N
      = Cert.Spec.emb (F := Ideal) (V c main_v32_0) (V c main_v33) (V c main_v46) w2 bb2 w3 bb3 := by
  funext i
  obtain ⟨r, q, rfl⟩ : ∃ (r : Fin 16384) (q : Fin 128), i = ix2 r q := ⟨i 0, i 1, eq_ix2 i⟩
  rw [layer3_arr7, hw2, hb2, hw3, hb3]
  exact layerRowAt_spec _ _ _ w2 w3 bb2 bb3 r q

/-- Window 8's array after the region is the specification's normalised rows of that embedding. -/
theorem layer3_l2n (c : Dev nD) (w2 w3 : FVec Ideal S128x128 .f32) (bb2 bb3 : FVec Ideal S128 .f32)
    (hw2 : V c main_v49 = transpose S128x128 [1, 0] w2 transposes_S128x128_S128x128_1_0)
    (hb2 : V c main_v55 = shapeCast S1x128 bb2 shapeCasts_S128_S1x128)
    (hw3 : V c main_v52 = transpose S128x128 [1, 0] w3 transposes_S128x128_S128x128_1_0)
    (hb3 : V c main_v58 = shapeCast S1x128 bb3 shapeCasts_S128_S1x128) :
    (dat3 (F := Ideal) V c).arrAt 8 cfg3.N
      = Cert.Spec.l2n (F := Ideal) (Cert.Spec.emb (F := Ideal) (V c main_v32_0) (V c main_v33) (V c main_v46) w2 bb2 w3 bb3) := by
  funext i
  obtain ⟨r, q, rfl⟩ : ∃ (r : Fin 16384) (q : Fin 128), i = ix2 r q := ⟨i 0, i 1, eq_ix2 i⟩
  rw [layer3_arr8, hw2, hb2, hw3, hb3]
  exact normedRowAt_spec _ _ _ w2 w3 bb2 bb3 r q

end Cert.KernelIdeal.Hand

end
-- ==== Proof.KI.Layer5Value.lean ====
import proofs.«119509_j83949430767932_1_alg».proof.Proof.KI.Layer5
import proofs.«119509_j83949430767932_1_alg».proof.Proof.KI.Layer1Value
import proofs.«119509_j83949430767932_1_alg».proof.Proof.LibPlainDot
import proofs.«119509_j83949430767932_1_alg».proof.Proof.LibColumns
import Idealize.ShloMosaic.Lib.ValueIdx
import Idealize.ShloMosaic.Lib.ValueLayout
import Idealize.ShloMosaic.Lib.Pipeline.Value
import Idealize.ShloMosaic.PureOps.Ideal.Laws

/-! # The fused layer kernel of region 5, on the extended reals: what its body leaves, entry by entry

At entry (p, q) of a [2048,128] block the body leaves in its first output buffer

  e (p, q) = logistic (∑ₖ (x0 (p,k) + x1 (p,k)) · x3 (k,q) + x4 (0,q)) + leaky (∑ₖ (x0 (p,k) · x2 (p,k)) · x5 (k,q) + x6 (0,q))

and in its second e (p, q) / max (√(∑ⱼ e (p,j)²), c), where x0, x1, x2 are the three input row blocks, x3 and x5 the
two [128,128] weights, x4 and x6 the two [1,128] bias rows, leaky z is z where z ≥ 0 and a constant times z elsewhere,
and c is a small constant. The roundings to bf16 before the two products are the identity on the extended reals,
the products into a zero accumulator are plain sums over the contracted coordinate, and the sum of a row's squares
is the plain sum over the row. The two float constants stay the words the kernel writes. -/

noncomputable section

open scoped BigOperators

namespace Cert.KernelIdeal.Hand

open Cert.KernelIdeal Cert.KernelIdeal.Gen
open Idealize.ShloMosaic Idealize.ShloMosaic.ValueIdx

/-! ## Region 5's payloads at an entry -/

/-- The layer's value, as the body's payload computes it from the loaded blocks (the payload takes the second
    weight before the first bias, as the body loads them). -/
theorem k5_pay2_apply (v0 v1 v4 : Vec Ideal S2048x128 .f32) (v7 v10 : Vec Ideal S128x128 .f32) (v15 v21 : Vec Ideal S1x128 .f32) (p : Fin 2048) (q : Fin 128) :
    k5_pay2 (F := Ideal) v0 v1 v4 v7 v10 v15 v21 (ix2 p q) = layerAt v0 v1 v4 v7 v15 v10 v21 p q := by
  unfold k5_pay2
  simp only [shapeCast_self]
  rw [addf_apply, logistic_apply, select_apply, cmpf_apply, mulf_apply, broadcast_apply, broadcast_apply]
  rw [dense_apply, dense_apply]
  rfl

/-- The divisor: the larger of the row's norm and the constant. -/
theorem k5_pay3_apply (v0 v1 v4 : Vec Ideal S2048x128 .f32) (v7 v10 : Vec Ideal S128x128 .f32) (v15 v21 : Vec Ideal S1x128 .f32) (p : Fin 2048) (z : Fin 1) :
    k5_pay3 (F := Ideal) v0 v1 v4 v7 v10 v15 v21 (ix2 p z)
      = max (Ideal.sqrt (∑ j : Fin 128, layerAt v0 v1 v4 v7 v15 v10 v21 p j * layerAt v0 v1 v4 v7 v15 v10 v21 p j)) (Ideal.ofBits .f32 0x2B8CBCCC#32) := by
  unfold k5_pay3
  rw [normCol_apply]
  simp only [k5_pay2_apply]

/-- The quotient the body stores in its second output. -/
theorem k5_pay1_apply (v0 v1 v4 : Vec Ideal S2048x128 .f32) (v7 v10 : Vec Ideal S128x128 .f32) (v15 v21 : Vec Ideal S1x128 .f32) (p : Fin 2048) (q : Fin 128) :
    k5_pay1 (F := Ideal) (k5_pay2 v0 v1 v4 v7 v10 v15 v21) (k5_pay3 v0 v1 v4 v7 v10 v15 v21) (ix2 p q)
      = normedAt v0 v1 v4 v7 v15 v10 v21 p q := by
  unfold k5_pay1
  rw [divf_apply, Cert.LibColumns.broadcastTo_a1_ab_apply, k5_pay2_apply, k5_pay3_apply]
  rfl

/-! ## What the body leaves in the two output buffers, at an entry -/

theorem hz5 : (![0, 0] : Fin 2 → Nat) = fun _ => 0 := funext fun a => by fin_cases a <;> rfl

/-- Window 7's buffer after the body holds the layer's value of the seven input blocks. -/
theorem out5_7_apply (x0 x1 x2 : Vec Ideal S2048x128 .f32) (x3 : Vec Ideal S128x128 .f32) (x4 : Vec Ideal S1x128 .f32) (x5 : Vec Ideal S128x128 .f32) (x6 : Vec Ideal S1x128 .f32) (p : Fin 2048) (q : Fin 128) :
    out5_7 (F := Ideal) x0 x1 x2 x3 x4 x5 x6 (ix2 p q) = layerAt x0 x1 x2 x3 x4 x5 x6 p q := by
  unfold out5_7
  rw [View.canon_unit_zero hz5]
  simp only [View.ld_unit_zero (S := S2048x128) hz5, View.ld_unit_zero (S := S128x128) hz5, View.ld_unit_zero (S := S1x128) hz5]
  exact k5_pay2_apply x0 x1 x2 x3 x5 x4 x6 p q

/-- Window 8's buffer after the body holds the normalised value. -/
theorem out5_8_apply (x0 x1 x2 : Vec Ideal S2048x128 .f32) (x3 : Vec Ideal S128x128 .f32) (x4 : Vec Ideal S1x128 .f32) (x5 : Vec Ideal S128x128 .f32) (x6 : Vec Ideal S1x128 .f32) (p : Fin 2048) (q : Fin 128) :
    out5_8 (F := Ideal) x0 x1 x2 x3 x4 x5 x6 (ix2 p q) = normedAt x0 x1 x2 x3 x4 x5 x6 p q := by
  unfold out5_8
  rw [View.canon_unit_zero hz5]
  simp only [View.ld_unit_zero (S := S2048x128) hz5, View.ld_unit_zero (S := S128x128) hz5, View.ld_unit_zero (S := S1x128) hz5]
  exact k5_pay1_apply x0 x1 x2 x3 x5 x4 x6 p q

end Cert.KernelIdeal.Hand
-- ==== Proof.KI.Layer5Array.lean ====
import proofs.«119509_j83949430767932_1_alg».proof.Proof.KI.Layer5Value
import proofs.«119509_j83949430767932_1_alg».proof.Proof.KI.Layer1Array
import Idealize.ShloMosaic.Lib.Pipeline.Value

/-! # Region 5: the two output arrays after the region, entry by entry, on the extended reals

Point `t` of the grid of 8 works on rows 2048·t … 2048·t + 2047 of the [16384,128] arrays: the three input row blocks
and the two output row blocks all sit at block index (t, 0), and the weights and bias rows are whole. So what point
`t` writes back through an output window is block `t` of ONE function of the region's seven input arrays (the layer's
value, or its row-normalised value, at the array's own row), and the eight blocks tile the array: after the region
each output array is that function, at every entry. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

section Region5
variable (V : (c : Dev nD) → (b : Ref sig .tc) → Buf (Elt Ideal) ((c : Thread nD τ).loc b))

/-! ## The block indices, decided over the grid -/

/-- At point `t` the five row-block windows sit at block (t, 0). -/
theorem idx_facts5 : ∀ t : Fin cfg5.N,
    win5_0.index t (0 : Fin 2) = win5_7.index t (0 : Fin 2) ∧ win5_0.index t (1 : Fin 2) = 0
    ∧ win5_1.index t (0 : Fin 2) = win5_7.index t (0 : Fin 2) ∧ win5_1.index t (1 : Fin 2) = 0
    ∧ win5_2.index t (0 : Fin 2) = win5_7.index t (0 : Fin 2) ∧ win5_2.index t (1 : Fin 2) = 0
    ∧ win5_7.index t (0 : Fin 2) = win5_7.index t (0 : Fin 2) ∧ win5_7.index t (1 : Fin 2) = 0
    ∧ win5_8.index t (0 : Fin 2) = win5_7.index t (0 : Fin 2) ∧ win5_8.index t (1 : Fin 2) = 0
    ∧ win5_7.index t (0 : Fin 2) = t.val :=
  (by decide +kernel : ∀ t : Fin grid5.N, _)

/-! ## The input blocks as parts of their arrays -/

/-- Row block 0 at point `t`, at block entry (p, k), is its array at the entry the output's block puts
    (p, ·) at: both windows move down the rows together. -/
theorem iblk5_0_row (c : Dev nD) (t : Fin cfg5.N) (j : S2048x128.Idx) (k : Fin 128) :
    iblk5 V c 0 t (ix2 (⟨(j 0).val, idx2_lt0 j⟩ : Fin 2048) k)
      = V c main_v59_0 (ix2 (⟨((((cfg5.win 7).blk t).view.emb j) 0).val, idx2_lt0 _⟩ : Fin 16384) k) := by
  obtain ⟨e0, e0', e1, e1', e2, e2', e7, e7', e8, e8', -⟩ := idx_facts5 t
  show V c main_v59_0 (((cfg5.win 0).blk t).view.emb (ix2 (⟨(j 0).val, idx2_lt0 j⟩ : Fin 2048) k)) = _
  refine congrArg (V c main_v59_0) (funext fun a => Fin.ext ?_)
  match a with
  | ⟨0, _⟩ => show win5_0.index t (0 : Fin 2) * 2048 + 1 * (j 0).val = win5_7.index t (0 : Fin 2) * 2048 + 1 * (j 0).val; omega
  | ⟨1, _⟩ => show win5_0.index t (1 : Fin 2) * 128 + 1 * k.val = k.val; omega

/-- Row block 1 at point `t`, at block entry (p, k), is its array at the entry the output's block puts
    (p, ·) at: both windows move down the rows together. -/
theorem iblk5_1_row (c : Dev nD) (t : Fin cfg5.N) (j : S2048x128.Idx) (k : Fin 128) :
    iblk5 V c 1 t (ix2 (⟨(j 0).val, idx2_lt0 j⟩ : Fin 2048) k)
      = V c main_v60 (ix2 (⟨((((cfg5.win 7).blk t).view.emb j) 0).val, idx2_lt0 _⟩ : Fin 16384) k) := by
  obtain ⟨e0, e0', e1, e1', e2, e2', e7, e7', e8, e8', -⟩ := idx_facts5 t
  show V c main_v60 (((cfg5.win 1).blk t).view.emb (ix2 (⟨(j 0).val, idx2_lt0 j⟩ : Fin 2048) k)) = _
  refine congrArg (V c main_v60) (funext fun a => Fin.ext ?_)
  match a with
  | ⟨0, _⟩ => show win5_1.index t (0 : Fin 2) * 2048 + 1 * (j 0).val = win5_7.index t (0 : Fin 2) * 2048 + 1 * (j 0).val; omega
  | ⟨1, _⟩ => show win5_1.index t (1 : Fin 2) * 128 + 1 * k.val = k.val; omega

/-- Row block 2 at point `t`, at block entry (p, k), is its array at the entry the output's block puts
    (p, ·) at: both windows move down the rows together. -/
theorem iblk5_2_row (c : Dev nD) (t : Fin cfg5.N) (j : S2048x128.Idx) (k : Fin 128) :
    iblk5 V c 2 t (ix2 (⟨(j 0).val, idx2_lt0 j⟩ : Fin 2048) k)
      = V c main_v73 (ix2 (⟨((((cfg5.win 7).blk t).view.emb j) 0).val, idx2_lt0 _⟩ : Fin 16384) k) := by
  obtain ⟨e0, e0', e1, e1', e2, e2', e7, e7', e8, e8', -⟩ := idx_facts5 t
  show V c main_v73 (((cfg5.win 2).blk t).view.emb (ix2 (⟨(j 0).val, idx2_lt0 j⟩ : Fin 2048) k)) = _
  refine congrArg (V c main_v73) (funext fun a => Fin.ext ?_)
  match a with
  | ⟨0, _⟩ => show win5_2.index t (0 : Fin 2) * 2048 + 1 * (j 0).val = win5_7.index t (0 : Fin 2) * 2048 + 1 * (j 0).val; omega
  | ⟨1, _⟩ => show win5_2.index t (1 : Fin 2) * 128 + 1 * k.val = k.val; omega

/-- Window 3's block at every point is its whole array. -/
theorem iblk5_3_whole (c : Dev nD) (t : Fin cfg5.N) : iblk5 V c 3 t = V c main_v76 := by
  funext y
  show V c main_v76 (((cfg5.win 3).blk t).view.emb y) = V c main_v76 y
  refine congrArg (V c main_v76) (funext fun a => Fin.ext ?_)
  match a with
  | ⟨0, _⟩ => show win5_3.index t (0 : Fin 2) * 128 + 1 * (y 0).val = (y 0).val; rw [show win5_3.index t (0 : Fin 2) = 0 from rfl]; omega
  | ⟨1, _⟩ => show win5_3.index t (1 : Fin 2) * 128 + 1 * (y 1).val = (y 1).val; rw [show win5_3.index t (1 : Fin 2) = 0 from rfl]; omega

/-- Window 4's block at every point is its whole array. -/
theorem iblk5_4_whole (c : Dev nD) (t : Fin cfg5.N) : iblk5 V c 4 t = V c main_v82 := by
  funext y
  show V c main_v82 (((cfg5.win 4).blk t).view.emb y) = V c main_v82 y
  refine congrArg (V c main_v82) (funext fun a => Fin.ext ?_)
  match a with
  | ⟨0, _⟩ => show win5_4.index t (0 : Fin 2) * 1 + 1 * (y 0).val = (y 0).val; rw [show win5_4.index t (0 : Fin 2) = 0 from rfl]; omega
  | ⟨1, _⟩ => show win5_4.index t (1 : Fin 2) * 128 + 1 * (y 1).val = (y 1).val; rw [show win5_4.index t (1 : Fin 2) = 0 from rfl]; omega

/-- Window 5's block at every point is its whole array. -/
theorem iblk5_5_whole (c : Dev nD) (t : Fin cfg5.N) : iblk5 V c 5 t = V c main_v79 := by
  funext y
  show V c main_v79 (((cfg5.win 5).blk t).view.emb y) = V c main_v79 y
  refine congrArg (V c main_v79) (funext fun a => Fin.ext ?_)
  match a with
  | ⟨0, _⟩ => show win5_5.index t (0 : Fin 2) * 128 + 1 * (y 0).val = (y 0).val; rw [show win5_5.index t (0 : Fin 2) = 0 from rfl]; omega
  | ⟨1, _⟩ => show win5_5.index t (1 : Fin 2) * 128 + 1 * (y 1).val = (y 1).val; rw [show win5_5.index t (1 : Fin 2) = 0 from rfl]; omega

/-- Window 6's block at every point is its whole array. -/
theorem iblk5_6_whole (c : Dev nD) (t : Fin cfg5.N) : iblk5 V c 6 t = V c main_v85 := by
  funext y
  show V c main_v85 (((cfg5.win 6).blk t).view.emb y) = V c main_v85 y
  refine congrArg (V c main_v85) (funext fun a => Fin.ext ?_)
  match a with
  | ⟨0, _⟩ => show win5_6.index t (0 : Fin 2) * 1 + 1 * (y 0).val = (y 0).val; rw [show win5_6.index t (0 : Fin 2) = 0 from rfl]; omega
  | ⟨1, _⟩ => show win5_6.index t (1 : Fin 2) * 128 + 1 * (y 1).val = (y 1).val; rw [show win5_6.index t (1 : Fin 2) = 0 from rfl]; omega

/-! ## What each point writes back -/

/-- WHAT POINT `t` WRITES BACK through window 7 is block `t` of the whole arrays' function. -/
theorem flushed5_7_eq (c : Dev nD) (t : Fin cfg5.N) :
    (dat5 (F := Ideal) V c).flushed 7 t = ((cfg5.win 7).blk t).view.read (Elt Ideal) (layerArr (V c main_v59_0) (V c main_v60) (V c main_v73) (V c main_v76) (V c main_v82) (V c main_v79) (V c main_v85)) := by
  show (cfg5.win 7).cut (grid5.coords t) ((dat5 (F := Ideal) V c).after 7 t) = _
  rw [after5_7]
  funext j
  have hj : j = ix2 (⟨(j 0).val, idx2_lt0 j⟩ : Fin 2048) (⟨(j 1).val, idx2_lt1 j⟩ : Fin 128) := eq_ix2 j
  obtain ⟨e0, e0', e1, e1', e2, e2', e7, e7', e8, e8', -⟩ := idx_facts5 t
  show out5_7 (iblk5 V c 0 t) (iblk5 V c 1 t) (iblk5 V c 2 t) (iblk5 V c 3 t) (iblk5 V c 4 t) (iblk5 V c 5 t) (iblk5 V c 6 t) j
    = layerArr (V c main_v59_0) (V c main_v60) (V c main_v73) (V c main_v76) (V c main_v82) (V c main_v79) (V c main_v85) (((cfg5.win 7).blk t).view.emb j)
  rw [hj, out5_7_apply, iblk5_3_whole, iblk5_4_whole, iblk5_5_whole, iblk5_6_whole, ← hj]
  have hemb : (((cfg5.win 7).blk t).view.emb j) = (((cfg5.win 7).blk t).view.emb j) := by
    funext a; apply Fin.ext
    match a with
    | ⟨0, _⟩ => show win5_7.index t (0 : Fin 2) * 2048 + 1 * (j 0).val = win5_7.index t (0 : Fin 2) * 2048 + 1 * (j 0).val; omega
    | ⟨1, _⟩ => show win5_7.index t (1 : Fin 2) * 128 + 1 * (j 1).val = win5_7.index t (1 : Fin 2) * 128 + 1 * (j 1).val; omega
  rw [hemb]
  refine (layer_block (iblk5 V c 0 t) (iblk5 V c 1 t) (iblk5 V c 2 t) (V c main_v59_0) (V c main_v60) (V c main_v73) (V c main_v76) (V c main_v82) (V c main_v79) (V c main_v85) j _ ?_
    (iblk5_0_row V c t j) (iblk5_1_row V c t j) (iblk5_2_row V c t j)).1
  show (j 1).val = win5_7.index t (1 : Fin 2) * 128 + 1 * (j 1).val
  omega

/-- WHAT POINT `t` WRITES BACK through window 8 is block `t` of the whole arrays' function. -/
theorem flushed5_8_eq (c : Dev nD) (t : Fin cfg5.N) :
    (dat5 (F := Ideal) V c).flushed 8 t = ((cfg5.win 8).blk t).view.read (Elt Ideal) (normedArr (V c main_v59_0) (V c main_v60) (V c main_v73) (V c main_v76) (V c main_v82) (V c main_v79) (V c main_v85)) := by
  show (cfg5.win 8).cut (grid5.coords t) ((dat5 (F := Ideal) V c).after 8 t) = _
  rw [after5_8]
  funext j
  have hj : j = ix2 (⟨(j 0).val, idx2_lt0 j⟩ : Fin 2048) (⟨(j 1).val, idx2_lt1 j⟩ : Fin 128) := eq_ix2 j
  obtain ⟨e0, e0', e1, e1', e2, e2', e7, e7', e8, e8', -⟩ := idx_facts5 t
  show out5_8 (iblk5 V c 0 t) (iblk5 V c 1 t) (iblk5 V c 2 t) (iblk5 V c 3 t) (iblk5 V c 4 t) (iblk5 V c 5 t) (iblk5 V c 6 t) j
    = normedArr (V c main_v59_0) (V c main_v60) (V c main_v73) (V c main_v76) (V c main_v82) (V c main_v79) (V c main_v85) (((cfg5.win 8).blk t).view.emb j)
  rw [hj, out5_8_apply, iblk5_3_whole, iblk5_4_whole, iblk5_5_whole, iblk5_6_whole, ← hj]
  have hemb : (((cfg5.win 8).blk t).view.emb j) = (((cfg5.win 7).blk t).view.emb j) := by
    funext a; apply Fin.ext
    match a with
    | ⟨0, _⟩ => show win5_8.index t (0 : Fin 2) * 2048 + 1 * (j 0).val = win5_7.index t (0 : Fin 2) * 2048 + 1 * (j 0).val; omega
    | ⟨1, _⟩ => show win5_8.index t (1 : Fin 2) * 128 + 1 * (j 1).val = win5_7.index t (1 : Fin 2) * 128 + 1 * (j 1).val; omega
  rw [hemb]
  refine (layer_block (iblk5 V c 0 t) (iblk5 V c 1 t) (iblk5 V c 2 t) (V c main_v59_0) (V c main_v60) (V c main_v73) (V c main_v76) (V c main_v82) (V c main_v79) (V c main_v85) j _ ?_
    (iblk5_0_row V c t j) (iblk5_1_row V c t j) (iblk5_2_row V c t j)).2
  show (j 1).val = win5_7.index t (1 : Fin 2) * 128 + 1 * (j 1).val
  omega

/-! ## The blocks tile the arrays -/

/-- An index of the array is in point `t`'s block of window 7 iff each coordinate is in the block's range. -/
theorem mem_blk5_7 (t : Fin cfg5.N) (i : S16384x128.Idx) :
    i ∈ ((cfg5.win 7).blk t).view.set ↔ ∀ a : Fin 2, win5_7.index t a * S2048x128.size a ≤ (i a).val ∧ (i a).val < win5_7.index t a * S2048x128.size a + S2048x128.size a := by
  show i ∈ ((View.whole main_v86_0).slice (win5_7.rect t)).set ↔ _
  rw [View.set_slice_whole, Rect.mem_set_unit]
  exact Iff.rfl

/-- Every entry of the array is in the block of the point its row falls in: row r in block r / 2048. -/
theorem cover5_7 (i : S16384x128.Idx) : ∃ t : Fin cfg5.N, (cfg5.win 7).flush t = true ∧ i ∈ ((cfg5.win 7).blk t).view.set := by
  have hi0 : (i 0).val < 16384 := idx2_lt0 i
  have hi1 : (i 1).val < 128 := idx2_lt1 i
  have hN : (i 0).val / 2048 < grid5.N := by rw [N_5]; omega
  refine ⟨⟨(i 0).val / 2048, hN⟩, flush5_7 _, ?_⟩
  obtain ⟨e0, e0', e1, e1', e2, e2', e7, e7', e8, e8', et⟩ := idx_facts5 ⟨(i 0).val / 2048, hN⟩
  rw [mem_blk5_7]
  intro a
  match a with
  | ⟨0, _⟩ => show win5_7.index _ (0 : Fin 2) * 2048 ≤ (i 0).val ∧ (i 0).val < win5_7.index _ (0 : Fin 2) * 2048 + 2048; simp only [] at et; omega
  | ⟨1, _⟩ => show win5_7.index _ (1 : Fin 2) * 128 ≤ (i 1).val ∧ (i 1).val < win5_7.index _ (1 : Fin 2) * 128 + 128; omega

/-- An index of the array is in point `t`'s block of window 8 iff each coordinate is in the block's range. -/
theorem mem_blk5_8 (t : Fin cfg5.N) (i : S16384x128.Idx) :
    i ∈ ((cfg5.win 8).blk t).view.set ↔ ∀ a : Fin 2, win5_8.index t a * S2048x128.size a ≤ (i a).val ∧ (i a).val < win5_8.index t a * S2048x128.size a + S2048x128.size a := by
  show i ∈ ((View.whole main_v86_1).slice (win5_8.rect t)).set ↔ _
  rw [View.set_slice_whole, Rect.mem_set_unit]
  exact Iff.rfl

/-- Every entry of the array is in the block of the point its row falls in: row r in block r / 2048. -/
theorem cover5_8 (i : S16384x128.Idx) : ∃ t : Fin cfg5.N, (cfg5.win 8).flush t = true ∧ i ∈ ((cfg5.win 8).blk t).view.set := by
  have hi0 : (i 0).val < 16384 := idx2_lt0 i
  have hi1 : (i 1).val < 128 := idx2_lt1 i
  have hN : (i 0).val / 2048 < grid5.N := by rw [N_5]; omega
  refine ⟨⟨(i 0).val / 2048, hN⟩, flush5_8 _, ?_⟩
  obtain ⟨e0, e0', e1, e1', e2, e2', e7, e7', e8, e8', et⟩ := idx_facts5 ⟨(i 0).val / 2048, hN⟩
  rw [mem_blk5_8]
  intro a
  match a with
  | ⟨0, _⟩ => show win5_8.index _ (0 : Fin 2) * 2048 ≤ (i 0).val ∧ (i 0).val < win5_8.index _ (0 : Fin 2) * 2048 + 2048; simp only [] at et; omega
  | ⟨1, _⟩ => show win5_8.index _ (1 : Fin 2) * 128 ≤ (i 1).val ∧ (i 1).val < win5_8.index _ (1 : Fin 2) * 128 + 128; omega

/-! ## The arrays after the region -/

/-- Window 7's array after the region: the whole arrays' function, every entry. -/
theorem final5_7 (c : Dev nD) : (dat5 (F := Ideal) V c).arrAt 7 cfg5.N = layerArr (V c main_v59_0) (V c main_v60) (V c main_v73) (V c main_v76) (V c main_v82) (V c main_v79) (V c main_v85) :=
  (dat5 (F := Ideal) V c).arrAt_eq_of_cover 7 (layerArr (V c main_v59_0) (V c main_v60) (V c main_v73) (V c main_v76) (V c main_v82) (V c main_v79) (V c main_v85)) (fun t _ => flushed5_7_eq V c t) (cover5_7)

theorem layer5_arr7 (c : Dev nD) (r : Fin 16384) (q : Fin 128) :
    (dat5 (F := Ideal) V c).arrAt 7 cfg5.N (ix2 r q) = layerRowAt (V c main_v59_0) (V c main_v60) (V c main_v73) (V c main_v76) (V c main_v82) (V c main_v79) (V c main_v85) r q := by
  rw [final5_7]

/-- Window 8's array after the region: the whole arrays' function, every entry. -/
theorem final5_8 (c : Dev nD) : (dat5 (F := Ideal) V c).arrAt 8 cfg5.N = normedArr (V c main_v59_0) (V c main_v60) (V c main_v73) (V c main_v76) (V c main_v82) (V c main_v79) (V c main_v85) :=
  (dat5 (F := Ideal) V c).arrAt_eq_of_cover 8 (normedArr (V c main_v59_0) (V c main_v60) (V c main_v73) (V c main_v76) (V c main_v82) (V c main_v79) (V c main_v85)) (fun t _ => flushed5_8_eq V c t) (cover5_8)

theorem layer5_arr8 (c : Dev nD) (r : Fin 16384) (q : Fin 128) :
    (dat5 (F := Ideal) V c).arrAt 8 cfg5.N (ix2 r q) = normedRowAt (V c main_v59_0) (V c main_v60) (V c main_v73) (V c main_v76) (V c main_v82) (V c main_v79) (V c main_v85) r q := by
  rw [final5_8]

end Region5

end Cert.KernelIdeal.Hand
-- ==== Proof.BridgeLayer5.lean ====
/-
  Region 5's two output arrays after the region are the specification's layer and its normalised rows, of the
  region's three input arrays and of the weights and biases whose transposes and rows the region is handed.
-/
import proofs.«119509_j83949430767932_1_alg».proof.Proof.KI.Layer5Array
import proofs.«119509_j83949430767932_1_alg».proof.Proof.BridgeLayer0

noncomputable section

open scoped BigOperators

namespace Cert.KernelIdeal.Hand

open Cert.KernelIdeal Cert.KernelIdeal.Gen
open Idealize.ShloMosaic Idealize.ShloMosaic.TcCoe Idealize.ShloMosaic.ValueIdx

variable [Cert.ReferenceIdeal.Facts₀]

variable (V : (c : Dev nD) → (b : Ref sig .tc) → Buf (Elt Ideal) ((c : Thread nD τ).loc b))

/-- Window 7's array after the region is the specification's embedding. -/
theorem layer5_emb (c : Dev nD) (w2 w3 : FVec Ideal S128x128 .f32) (bb2 bb3 : FVec Ideal S128 .f32)
    (hw2 : V c main_v76 = transpose S128x128 [1, 0] w2 transposes_S128x128_S128x128_1_0)
    (hb2 : V c main_v82 = shapeCast S1x128 bb2 shapeCasts_S128_S1x128)
    (hw3 : V c main_v79 = transpose S128x128 [1, 0] w3 transposes_S128x128_S128x128_1_0)
    (hb3 : V c main_v85 = shapeCast S1x128 bb3 shapeCasts_S128_S1x128) :
    (dat5 (F := Ideal) V c).arrAt 7 cfg5.N
      = Cert.Spec.emb (F := Ideal) (V c main_v59_0) (V c main_v60) (V c main_v73) w2 bb2 w3 bb3 := by
  funext i
  obtain ⟨r, q, rfl⟩ : ∃ (r : Fin 16384) (q : Fin 128), i = ix2 r q := ⟨i 0, i 1, eq_ix2 i⟩
  rw [layer5_arr7, hw2, hb2, hw3, hb3]
  exact layerRowAt_spec _ _ _ w2 w3 bb2 bb3 r q

/-- Window 8's array after the region is the specification's normalised rows of that embedding. -/
theorem layer5_l2n (c : Dev nD) (w2 w3 : FVec Ideal S128x128 .f32) (bb2 bb3 : FVec Ideal S128 .f32)
    (hw2 : V c main_v76 = transpose S128x128 [1, 0] w2 transposes_S128x128_S128x128_1_0)
    (hb2 : V c main_v82 = shapeCast S1x128 bb2 shapeCasts_S128_S1x128)
    (hw3 : V c main_v79 = transpose S128x128 [1, 0] w3 transposes_S128x128_S128x128_1_0)
    (hb3 : V c main_v85 = shapeCast S1x128 bb3 shapeCasts_S128_S1x128) :
    (dat5 (F := Ideal) V c).arrAt 8 cfg5.N
      = Cert.Spec.l2n (F := Ideal) (Cert.Spec.emb (F := Ideal) (V c main_v59_0) (V c main_v60) (V c main_v73) w2 bb2 w3 bb3) := by
  funext i
  obtain ⟨r, q, rfl⟩ : ∃ (r : Fin 16384) (q : Fin 128), i = ix2 r q := ⟨i 0, i 1, eq_ix2 i⟩
  rw [layer5_arr8, hw2, hb2, hw3, hb3]
  exact normedRowAt_spec _ _ _ w2 w3 bb2 bb3 r q

end Cert.KernelIdeal.Hand

end
-- ==== Proof.KI.Bridge.lean ====
/-
  The kernel program's result as a function of its arguments. Boundary by boundary, each buffer the next segment reads is
  named as one of the reference's whole-array functions of the launch arguments: the host stretches apply the very
  operations the reference applies (the edge table's rows, the sparse aggregation, the weight and bias slices, the last
  concatenation); a blocked-product region leaves `A · pre`; a fused-layer region leaves the layer's embedding and its
  rows normalised. Chained through the three layers, the last boundary holds the reference's result.
-/
import proofs.«119509_j83949430767932_1_alg».proof.Proof.KI.RunKeep
import proofs.«119509_j83949430767932_1_alg».proof.Proof.KI.HostStretch
import proofs.«119509_j83949430767932_1_alg».proof.Proof.KI.Matmul0Value
import proofs.«119509_j83949430767932_1_alg».proof.Proof.KI.Matmul2Value
import proofs.«119509_j83949430767932_1_alg».proof.Proof.KI.Matmul4Value
import proofs.«119509_j83949430767932_1_alg».proof.Proof.BridgeLayer1
import proofs.«119509_j83949430767932_1_alg».proof.Proof.BridgeLayer3
import proofs.«119509_j83949430767932_1_alg».proof.Proof.BridgeLayer5
import proofs.«119509_j83949430767932_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! ## The arguments as launched -/
abbrev aA := W0 (F := Ideal) m ρ c (main_arg0 : DevRef τ sig)
abbrev aI := W0 (F := Ideal) m ρ c (main_arg1 : DevRef τ sig)
abbrev aV := W0 (F := Ideal) m ρ c (main_arg2 : DevRef τ sig)
abbrev aX := W0 (F := Ideal) m ρ c (main_arg3 : DevRef τ sig)
abbrev aW2 := W0 (F := Ideal) m ρ c (main_arg4 : DevRef τ sig)
abbrev aB2 := W0 (F := Ideal) m ρ c (main_arg5 : DevRef τ sig)
abbrev aW3 := W0 (F := Ideal) m ρ c (main_arg6 : DevRef τ sig)
abbrev aB3 := W0 (F := Ideal) m ρ c (main_arg7 : DevRef τ sig)

/-! ## The first host stretch: the edge table's rows and the block `2·X` -/
theorem W1_main_v1 : W1 (F := Ideal) m ρ c main_v1 = Cert.Spec.rowVec (aI m ρ c) := host0_v1 (W0 m ρ c)
theorem W1_main_v3 : W1 (F := Ideal) m ρ c main_v3 = Cert.Spec.colVec (aI m ρ c) := host0_v3 (W0 m ρ c)
theorem W1_main_v5 : W1 (F := Ideal) m ρ c main_v5 = Cert.Spec.twice (F := Ideal) (aX m ρ c) := host0_v5 (W0 m ρ c)

/-! ### Layer 1's dense aggregation `A · pre` (region 0) -/
theorem W2_main_v6 : W2 (F := Ideal) m ρ c main_v6 = Cert.Spec.allAgg (F := Ideal) (aA m ρ c) (aX m ρ c) := by
  refine (W2_arr m ρ c 2).trans ((mm0_final (V1 m ρ) c).trans ?_)
  rw [show V1 m ρ c main_arg0 = _ from (W1_keep m ρ c main_arg0 (by decide)), show V1 m ρ c main_arg3 = _ from (W1_keep m ρ c main_arg3 (by decide))]

/-! ### The host stretch before layer 1's fused kernel -/
theorem W3_main_v19 : W3 (F := Ideal) m ρ c main_v19 = Cert.Spec.subAgg (F := Ideal) (aI m ρ c) (aV m ρ c) (aX m ρ c) := by
  refine (host1_v19 (W2 m ρ c)).trans ?_
  rw [show W2 m ρ c main_v1 = _ from ((W2_keep m ρ c main_v1 (by decide))).trans (W1_main_v1 m ρ c),
    show W2 m ρ c main_v3 = _ from ((W2_keep m ρ c main_v3 (by decide))).trans (W1_main_v3 m ρ c),
    show W2 m ρ c main_arg2 = _ from ((W2_keep m ρ c main_arg2 (by decide)).trans <| (W1_keep m ρ c main_arg2 (by decide))),
    show W2 m ρ c main_arg3 = _ from ((W2_keep m ρ c main_arg3 (by decide)).trans <| (W1_keep m ρ c main_arg3 (by decide)))]
  rfl
theorem W3_main_v22 : W3 (F := Ideal) m ρ c main_v22 = transpose S128x128 [1, 0] (Cert.Spec.w0 (F := Ideal) (aW2 m ρ c)) transposes_S128x128_S128x128_1_0 := by
  refine (host1_v22 (W2 m ρ c)).trans ?_
  rw [show W2 m ρ c main_arg4 = _ from ((W2_keep m ρ c main_arg4 (by decide)).trans <| (W1_keep m ρ c main_arg4 (by decide)))]
theorem W3_main_v25 : W3 (F := Ideal) m ρ c main_v25 = transpose S128x128 [1, 0] (Cert.Spec.w0 (F := Ideal) (aW3 m ρ c)) transposes_S128x128_S128x128_1_0 := by
  refine (host1_v25 (W2 m ρ c)).trans ?_
  rw [show W2 m ρ c main_arg6 = _ from ((W2_keep m ρ c main_arg6 (by decide)).trans <| (W1_keep m ρ c main_arg6 (by decide)))]
theorem W3_main_v28 : W3 (F := Ideal) m ρ c main_v28 = shapeCast S1x128 (Cert.Spec.b0 (F := Ideal) (aB2 m ρ c)) shapeCasts_S128_S1x128 := by
  refine (host1_v28 (W2 m ρ c)).trans ?_
  rw [show W2 m ρ c main_arg5 = _ from ((W2_keep m ρ c main_arg5 (by decide)).trans <| (W1_keep m ρ c main_arg5 (by decide)))]
theorem W3_main_v31 : W3 (F := Ideal) m ρ c main_v31 = shapeCast S1x128 (Cert.Spec.b0 (F := Ideal) (aB3 m ρ c)) shapeCasts_S128_S1x128 := by
  refine (host1_v31 (W2 m ρ c)).trans ?_
  rw [show W2 m ρ c main_arg7 = _ from ((W2_keep m ρ c main_arg7 (by decide)).trans <| (W1_keep m ρ c main_arg7 (by decide)))]

/-! ### Layer 1's fused kernel (region 1) -/
theorem W4_main_v32_0 : W4 (F := Ideal) m ρ c main_v32_0 = (Cert.Spec.e1 (F := Ideal) (aA m ρ c) (aI m ρ c) (aV m ρ c) (aX m ρ c) (aW2 m ρ c) (aB2 m ρ c) (aW3 m ρ c) (aB3 m ρ c)) := by
  refine (W4_arr m ρ c 7).trans ((layer1_emb (V3 m ρ) c (Cert.Spec.w0 (aW2 m ρ c)) (Cert.Spec.w0 (aW3 m ρ c)) (Cert.Spec.b0 (aB2 m ρ c)) (Cert.Spec.b0 (aB3 m ρ c))
    (W3_main_v22 m ρ c) (W3_main_v28 m ρ c) (W3_main_v25 m ρ c) (W3_main_v31 m ρ c)).trans ?_)
  rw [show V3 m ρ c main_arg3 = _ from ((W3_keep m ρ c main_arg3 (by decide)).trans <| (W2_keep m ρ c main_arg3 (by decide)).trans <| (W1_keep m ρ c main_arg3 (by decide))), show V3 m ρ c main_v6 = _ from ((W3_keep m ρ c main_v6 (by decide)).trans (W2_main_v6 m ρ c)), show V3 m ρ c main_v19 = _ from (W3_main_v19 m ρ c)]
  rfl
theorem W4_main_v32_1 : W4 (F := Ideal) m ρ c main_v32_1 = Cert.Spec.l2n (F := Ideal) (Cert.Spec.e1 (F := Ideal) (aA m ρ c) (aI m ρ c) (aV m ρ c) (aX m ρ c) (aW2 m ρ c) (aB2 m ρ c) (aW3 m ρ c) (aB3 m ρ c)) := by
  refine (W4_arr m ρ c 8).trans ((layer1_l2n (V3 m ρ) c (Cert.Spec.w0 (aW2 m ρ c)) (Cert.Spec.w0 (aW3 m ρ c)) (Cert.Spec.b0 (aB2 m ρ c)) (Cert.Spec.b0 (aB3 m ρ c))
    (W3_main_v22 m ρ c) (W3_main_v28 m ρ c) (W3_main_v25 m ρ c) (W3_main_v31 m ρ c)).trans ?_)
  rw [show V3 m ρ c main_arg3 = _ from ((W3_keep m ρ c main_arg3 (by decide)).trans <| (W2_keep m ρ c main_arg3 (by decide)).trans <| (W1_keep m ρ c main_arg3 (by decide))), show V3 m ρ c main_v6 = _ from ((W3_keep m ρ c main_v6 (by decide)).trans (W2_main_v6 m ρ c)), show V3 m ρ c main_v19 = _ from (W3_main_v19 m ρ c)]
  rfl

/-! ### Layer 2's dense aggregation `A · pre` (region 2) -/
theorem W5_main_v33 : W5 (F := Ideal) m ρ c main_v33 = Cert.Spec.allAgg (F := Ideal) (aA m ρ c) (Cert.Spec.e1 (F := Ideal) (aA m ρ c) (aI m ρ c) (aV m ρ c) (aX m ρ c) (aW2 m ρ c) (aB2 m ρ c) (aW3 m ρ c) (aB3 m ρ c)) := by
  refine (W5_arr m ρ c 2).trans ((mm2_final (V4 m ρ) c).trans ?_)
  rw [show V4 m ρ c main_arg0 = _ from ((W4_keep m ρ c main_arg0 (by decide) (by decide)).trans <| (W3_keep m ρ c main_arg0 (by decide)).trans <| (W2_keep m ρ c main_arg0 (by decide)).trans <| (W1_keep m ρ c main_arg0 (by decide))), show V4 m ρ c main_v32_0 = _ from (W4_main_v32_0 m ρ c)]

/-! ### The host stretch before layer 2's fused kernel -/
theorem W6_main_v46 : W6 (F := Ideal) m ρ c main_v46 = Cert.Spec.subAgg (F := Ideal) (aI m ρ c) (aV m ρ c) (Cert.Spec.e1 (F := Ideal) (aA m ρ c) (aI m ρ c) (aV m ρ c) (aX m ρ c) (aW2 m ρ c) (aB2 m ρ c) (aW3 m ρ c) (aB3 m ρ c)) := by
  refine (host3_v46 (W5 m ρ c)).trans ?_
  rw [show W5 m ρ c main_v1 = _ from (((W5_keep m ρ c main_v1 (by decide)).trans <| (W4_keep m ρ c main_v1 (by decide) (by decide)).trans <| (W3_keep m ρ c main_v1 (by decide)).trans <| (W2_keep m ρ c main_v1 (by decide)))).trans (W1_main_v1 m ρ c),
    show W5 m ρ c main_v3 = _ from (((W5_keep m ρ c main_v3 (by decide)).trans <| (W4_keep m ρ c main_v3 (by decide) (by decide)).trans <| (W3_keep m ρ c main_v3 (by decide)).trans <| (W2_keep m ρ c main_v3 (by decide)))).trans (W1_main_v3 m ρ c),
    show W5 m ρ c main_arg2 = _ from ((W5_keep m ρ c main_arg2 (by decide)).trans <| (W4_keep m ρ c main_arg2 (by decide) (by decide)).trans <| (W3_keep m ρ c main_arg2 (by decide)).trans <| (W2_keep m ρ c main_arg2 (by decide)).trans <| (W1_keep m ρ c main_arg2 (by decide))),
    show W5 m ρ c main_v32_0 = _ from ((W5_keep m ρ c main_v32_0 (by decide)).trans (W4_main_v32_0 m ρ c))]
  rfl
theorem W6_main_v49 : W6 (F := Ideal) m ρ c main_v49 = transpose S128x128 [1, 0] (Cert.Spec.w1 (F := Ideal) (aW2 m ρ c)) transposes_S128x128_S128x128_1_0 := by
  refine (host3_v49 (W5 m ρ c)).trans ?_
  rw [show W5 m ρ c main_arg4 = _ from ((W5_keep m ρ c main_arg4 (by decide)).trans <| (W4_keep m ρ c main_arg4 (by decide) (by decide)).trans <| (W3_keep m ρ c main_arg4 (by decide)).trans <| (W2_keep m ρ c main_arg4 (by decide)).trans <| (W1_keep m ρ c main_arg4 (by decide)))]
theorem W6_main_v52 : W6 (F := Ideal) m ρ c main_v52 = transpose S128x128 [1, 0] (Cert.Spec.w1 (F := Ideal) (aW3 m ρ c)) transposes_S128x128_S128x128_1_0 := by
  refine (host3_v52 (W5 m ρ c)).trans ?_
  rw [show W5 m ρ c main_arg6 = _ from ((W5_keep m ρ c main_arg6 (by decide)).trans <| (W4_keep m ρ c main_arg6 (by decide) (by decide)).trans <| (W3_keep m ρ c main_arg6 (by decide)).trans <| (W2_keep m ρ c main_arg6 (by decide)).trans <| (W1_keep m ρ c main_arg6 (by decide)))]
theorem W6_main_v55 : W6 (F := Ideal) m ρ c main_v55 = shapeCast S1x128 (Cert.Spec.b1 (F := Ideal) (aB2 m ρ c)) shapeCasts_S128_S1x128 := by
  refine (host3_v55 (W5 m ρ c)).trans ?_
  rw [show W5 m ρ c main_arg5 = _ from ((W5_keep m ρ c main_arg5 (by decide)).trans <| (W4_keep m ρ c main_arg5 (by decide) (by decide)).trans <| (W3_keep m ρ c main_arg5 (by decide)).trans <| (W2_keep m ρ c main_arg5 (by decide)).trans <| (W1_keep m ρ c main_arg5 (by decide)))]
theorem W6_main_v58 : W6 (F := Ideal) m ρ c main_v58 = shapeCast S1x128 (Cert.Spec.b1 (F := Ideal) (aB3 m ρ c)) shapeCasts_S128_S1x128 := by
  refine (host3_v58 (W5 m ρ c)).trans ?_
  rw [show W5 m ρ c main_arg7 = _ from ((W5_keep m ρ c main_arg7 (by decide)).trans <| (W4_keep m ρ c main_arg7 (by decide) (by decide)).trans <| (W3_keep m ρ c main_arg7 (by decide)).trans <| (W2_keep m ρ c main_arg7 (by decide)).trans <| (W1_keep m ρ c main_arg7 (by decide)))]

/-! ### Layer 2's fused kernel (region 3) -/
theorem W7_main_v59_0 : W7 (F := Ideal) m ρ c main_v59_0 = (Cert.Spec.e2 (F := Ideal) (aA m ρ c) (aI m ρ c) (aV m ρ c) (aX m ρ c) (aW2 m ρ c) (aB2 m ρ c) (aW3 m ρ c) (aB3 m ρ c)) := by
  refine (W7_arr m ρ c 7).trans ((layer3_emb (V6 m ρ) c (Cert.Spec.w1 (aW2 m ρ c)) (Cert.Spec.w1 (aW3 m ρ c)) (Cert.Spec.b1 (aB2 m ρ c)) (Cert.Spec.b1 (aB3 m ρ c))
    (W6_main_v49 m ρ c) (W6_main_v55 m ρ c) (W6_main_v52 m ρ c) (W6_main_v58 m ρ c)).trans ?_)
  rw [show V6 m ρ c main_v32_0 = _ from (((W6_keep m ρ c main_v32_0 (by decide)).trans <| (W5_keep m ρ c main_v32_0 (by decide))).trans (W4_main_v32_0 m ρ c)), show V6 m ρ c main_v33 = _ from ((W6_keep m ρ c main_v33 (by decide)).trans (W5_main_v33 m ρ c)), show V6 m ρ c main_v46 = _ from (W6_main_v46 m ρ c)]
  rfl
theorem W7_main_v59_1 : W7 (F := Ideal) m ρ c main_v59_1 = Cert.Spec.l2n (F := Ideal) (Cert.Spec.e2 (F := Ideal) (aA m ρ c) (aI m ρ c) (aV m ρ c) (aX m ρ c) (aW2 m ρ c) (aB2 m ρ c) (aW3 m ρ c) (aB3 m ρ c)) := by
  refine (W7_arr m ρ c 8).trans ((layer3_l2n (V6 m ρ) c (Cert.Spec.w1 (aW2 m ρ c)) (Cert.Spec.w1 (aW3 m ρ c)) (Cert.Spec.b1 (aB2 m ρ c)) (Cert.Spec.b1 (aB3 m ρ c))
    (W6_main_v49 m ρ c) (W6_main_v55 m ρ c) (W6_main_v52 m ρ c) (W6_main_v58 m ρ c)).trans ?_)
  rw [show V6 m ρ c main_v32_0 = _ from (((W6_keep m ρ c main_v32_0 (by decide)).trans <| (W5_keep m ρ c main_v32_0 (by decide))).trans (W4_main_v32_0 m ρ c)), show V6 m ρ c main_v33 = _ from ((W6_keep m ρ c main_v33 (by decide)).trans (W5_main_v33 m ρ c)), show V6 m ρ c main_v46 = _ from (W6_main_v46 m ρ c)]
  rfl

/-! ### Layer 3's dense aggregation `A · pre` (region 4) -/
theorem W8_main_v60 : W8 (F := Ideal) m ρ c main_v60 = Cert.Spec.allAgg (F := Ideal) (aA m ρ c) (Cert.Spec.e2 (F := Ideal) (aA m ρ c) (aI m ρ c) (aV m ρ c) (aX m ρ c) (aW2 m ρ c) (aB2 m ρ c) (aW3 m ρ c) (aB3 m ρ c)) := by
  refine (W8_arr m ρ c 2).trans ((mm4_final (V7 m ρ) c).trans ?_)
  rw [show V7 m ρ c main_arg0 = _ from ((W7_keep m ρ c main_arg0 (by decide) (by decide)).trans <| (W6_keep m ρ c main_arg0 (by decide)).trans <| (W5_keep m ρ c main_arg0 (by decide)).trans <| (W4_keep m ρ c main_arg0 (by decide) (by decide)).trans <| (W3_keep m ρ c main_arg0 (by decide)).trans <| (W2_keep m ρ c main_arg0 (by decide)).trans <| (W1_keep m ρ c main_arg0 (by decide))), show V7 m ρ c main_v59_0 = _ from (W7_main_v59_0 m ρ c)]

/-! ### The host stretch before layer 3's fused kernel -/
theorem W9_main_v73 : W9 (F := Ideal) m ρ c main_v73 = Cert.Spec.subAgg (F := Ideal) (aI m ρ c) (aV m ρ c) (Cert.Spec.e2 (F := Ideal) (aA m ρ c) (aI m ρ c) (aV m ρ c) (aX m ρ c) (aW2 m ρ c) (aB2 m ρ c) (aW3 m ρ c) (aB3 m ρ c)) := by
  refine (host5_v73 (W8 m ρ c)).trans ?_
  rw [show W8 m ρ c main_v1 = _ from (((W8_keep m ρ c main_v1 (by decide)).trans <| (W7_keep m ρ c main_v1 (by decide) (by decide)).trans <| (W6_keep m ρ c main_v1 (by decide)).trans <| (W5_keep m ρ c main_v1 (by decide)).trans <| (W4_keep m ρ c main_v1 (by decide) (by decide)).trans <| (W3_keep m ρ c main_v1 (by decide)).trans <| (W2_keep m ρ c main_v1 (by decide)))).trans (W1_main_v1 m ρ c),
    show W8 m ρ c main_v3 = _ from (((W8_keep m ρ c main_v3 (by decide)).trans <| (W7_keep m ρ c main_v3 (by decide) (by decide)).trans <| (W6_keep m ρ c main_v3 (by decide)).trans <| (W5_keep m ρ c main_v3 (by decide)).trans <| (W4_keep m ρ c main_v3 (by decide) (by decide)).trans <| (W3_keep m ρ c main_v3 (by decide)).trans <| (W2_keep m ρ c main_v3 (by decide)))).trans (W1_main_v3 m ρ c),
    show W8 m ρ c main_arg2 = _ from ((W8_keep m ρ c main_arg2 (by decide)).trans <| (W7_keep m ρ c main_arg2 (by decide) (by decide)).trans <| (W6_keep m ρ c main_arg2 (by decide)).trans <| (W5_keep m ρ c main_arg2 (by decide)).trans <| (W4_keep m ρ c main_arg2 (by decide) (by decide)).trans <| (W3_keep m ρ c main_arg2 (by decide)).trans <| (W2_keep m ρ c main_arg2 (by decide)).trans <| (W1_keep m ρ c main_arg2 (by decide))),
    show W8 m ρ c main_v59_0 = _ from ((W8_keep m ρ c main_v59_0 (by decide)).trans (W7_main_v59_0 m ρ c))]
  rfl
theorem W9_main_v76 : W9 (F := Ideal) m ρ c main_v76 = transpose S128x128 [1, 0] (Cert.Spec.w2 (F := Ideal) (aW2 m ρ c)) transposes_S128x128_S128x128_1_0 := by
  refine (host5_v76 (W8 m ρ c)).trans ?_
  rw [show W8 m ρ c main_arg4 = _ from ((W8_keep m ρ c main_arg4 (by decide)).trans <| (W7_keep m ρ c main_arg4 (by decide) (by decide)).trans <| (W6_keep m ρ c main_arg4 (by decide)).trans <| (W5_keep m ρ c main_arg4 (by decide)).trans <| (W4_keep m ρ c main_arg4 (by decide) (by decide)).trans <| (W3_keep m ρ c main_arg4 (by decide)).trans <| (W2_keep m ρ c main_arg4 (by decide)).trans <| (W1_keep m ρ c main_arg4 (by decide)))]
theorem W9_main_v79 : W9 (F := Ideal) m ρ c main_v79 = transpose S128x128 [1, 0] (Cert.Spec.w2 (F := Ideal) (aW3 m ρ c)) transposes_S128x128_S128x128_1_0 := by
  refine (host5_v79 (W8 m ρ c)).trans ?_
  rw [show W8 m ρ c main_arg6 = _ from ((W8_keep m ρ c main_arg6 (by decide)).trans <| (W7_keep m ρ c main_arg6 (by decide) (by decide)).trans <| (W6_keep m ρ c main_arg6 (by decide)).trans <| (W5_keep m ρ c main_arg6 (by decide)).trans <| (W4_keep m ρ c main_arg6 (by decide) (by decide)).trans <| (W3_keep m ρ c main_arg6 (by decide)).trans <| (W2_keep m ρ c main_arg6 (by decide)).trans <| (W1_keep m ρ c main_arg6 (by decide)))]
theorem W9_main_v82 : W9 (F := Ideal) m ρ c main_v82 = shapeCast S1x128 (Cert.Spec.b2 (F := Ideal) (aB2 m ρ c)) shapeCasts_S128_S1x128 := by
  refine (host5_v82 (W8 m ρ c)).trans ?_
  rw [show W8 m ρ c main_arg5 = _ from ((W8_keep m ρ c main_arg5 (by decide)).trans <| (W7_keep m ρ c main_arg5 (by decide) (by decide)).trans <| (W6_keep m ρ c main_arg5 (by decide)).trans <| (W5_keep m ρ c main_arg5 (by decide)).trans <| (W4_keep m ρ c main_arg5 (by decide) (by decide)).trans <| (W3_keep m ρ c main_arg5 (by decide)).trans <| (W2_keep m ρ c main_arg5 (by decide)).trans <| (W1_keep m ρ c main_arg5 (by decide)))]
theorem W9_main_v85 : W9 (F := Ideal) m ρ c main_v85 = shapeCast S1x128 (Cert.Spec.b2 (F := Ideal) (aB3 m ρ c)) shapeCasts_S128_S1x128 := by
  refine (host5_v85 (W8 m ρ c)).trans ?_
  rw [show W8 m ρ c main_arg7 = _ from ((W8_keep m ρ c main_arg7 (by decide)).trans <| (W7_keep m ρ c main_arg7 (by decide) (by decide)).trans <| (W6_keep m ρ c main_arg7 (by decide)).trans <| (W5_keep m ρ c main_arg7 (by decide)).trans <| (W4_keep m ρ c main_arg7 (by decide) (by decide)).trans <| (W3_keep m ρ c main_arg7 (by decide)).trans <| (W2_keep m ρ c main_arg7 (by decide)).trans <| (W1_keep m ρ c main_arg7 (by decide)))]

/-! ### Layer 3's fused kernel (region 5) -/
theorem W10_main_v86_0 : W10 (F := Ideal) m ρ c main_v86_0 = (Cert.Spec.e3 (F := Ideal) (aA m ρ c) (aI m ρ c) (aV m ρ c) (aX m ρ c) (aW2 m ρ c) (aB2 m ρ c) (aW3 m ρ c) (aB3 m ρ c)) := by
  refine (W10_arr m ρ c 7).trans ((layer5_emb (V9 m ρ) c (Cert.Spec.w2 (aW2 m ρ c)) (Cert.Spec.w2 (aW3 m ρ c)) (Cert.Spec.b2 (aB2 m ρ c)) (Cert.Spec.b2 (aB3 m ρ c))
    (W9_main_v76 m ρ c) (W9_main_v82 m ρ c) (W9_main_v79 m ρ c) (W9_main_v85 m ρ c)).trans ?_)
  rw [show V9 m ρ c main_v59_0 = _ from (((W9_keep m ρ c main_v59_0 (by decide)).trans <| (W8_keep m ρ c main_v59_0 (by decide))).trans (W7_main_v59_0 m ρ c)), show V9 m ρ c main_v60 = _ from ((W9_keep m ρ c main_v60 (by decide)).trans (W8_main_v60 m ρ c)), show V9 m ρ c main_v73 = _ from (W9_main_v73 m ρ c)]
  rfl
theorem W10_main_v86_1 : W10 (F := Ideal) m ρ c main_v86_1 = Cert.Spec.l2n (F := Ideal) (Cert.Spec.e3 (F := Ideal) (aA m ρ c) (aI m ρ c) (aV m ρ c) (aX m ρ c) (aW2 m ρ c) (aB2 m ρ c) (aW3 m ρ c) (aB3 m ρ c)) := by
  refine (W10_arr m ρ c 8).trans ((layer5_l2n (V9 m ρ) c (Cert.Spec.w2 (aW2 m ρ c)) (Cert.Spec.w2 (aW3 m ρ c)) (Cert.Spec.b2 (aB2 m ρ c)) (Cert.Spec.b2 (aB3 m ρ c))
    (W9_main_v76 m ρ c) (W9_main_v82 m ρ c) (W9_main_v79 m ρ c) (W9_main_v85 m ρ c)).trans ?_)
  rw [show V9 m ρ c main_v59_0 = _ from (((W9_keep m ρ c main_v59_0 (by decide)).trans <| (W8_keep m ρ c main_v59_0 (by decide))).trans (W7_main_v59_0 m ρ c)), show V9 m ρ c main_v60 = _ from ((W9_keep m ρ c main_v60 (by decide)).trans (W8_main_v60 m ρ c)), show V9 m ρ c main_v73 = _ from (W9_main_v73 m ρ c)]
  rfl

/-! ## The last host stretch: the four blocks side by side -/
/-- THE KERNEL PROGRAM'S RESULT is the reference's function of the launch arguments. -/
theorem W11_out : W11 (F := Ideal) m ρ c main_v87
    = Cert.Spec.out (F := Ideal) (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  refine (host6_v87 (W10 m ρ c)).trans ?_
  rw [show W10 m ρ c main_v5 = _ from (((W10_keep m ρ c main_v5 (by decide) (by decide)).trans <| (W9_keep m ρ c main_v5 (by decide)).trans <| (W8_keep m ρ c main_v5 (by decide)).trans <| (W7_keep m ρ c main_v5 (by decide) (by decide)).trans <| (W6_keep m ρ c main_v5 (by decide)).trans <| (W5_keep m ρ c main_v5 (by decide)).trans <| (W4_keep m ρ c main_v5 (by decide) (by decide)).trans <| (W3_keep m ρ c main_v5 (by decide)).trans <| (W2_keep m ρ c main_v5 (by decide)))).trans (W1_main_v5 m ρ c),
    show W10 m ρ c main_v32_1 = _ from (((W10_keep m ρ c main_v32_1 (by decide) (by decide)).trans <| (W9_keep m ρ c main_v32_1 (by decide)).trans <| (W8_keep m ρ c main_v32_1 (by decide)).trans <| (W7_keep m ρ c main_v32_1 (by decide) (by decide)).trans <| (W6_keep m ρ c main_v32_1 (by decide)).trans <| (W5_keep m ρ c main_v32_1 (by decide)))).trans (W4_main_v32_1 m ρ c),
    show W10 m ρ c main_v59_1 = _ from (((W10_keep m ρ c main_v59_1 (by decide) (by decide)).trans <| (W9_keep m ρ c main_v59_1 (by decide)).trans <| (W8_keep m ρ c main_v59_1 (by decide)))).trans (W7_main_v59_1 m ρ c),
    show W10 m ρ c main_v86_1 = _ from W10_main_v86_1 m ρ c]
  rfl

end Cert.KernelIdeal.Hand

end
-- ==== Proof.RefRun1.lean ====
/-
  The reference program as a line of host operations, and its run.

  The program's body is straight-line: its statements are listed here in order, each call of the leaky rectifier
  replaced by the seven operations of the called function over that call's buffers (the call's unfolding).  The
  list is cut where the mathematics is: what precedes the layers, the three layers, the final concatenation.  Every
  weakly fair execution then terminates with each buffer at the fold of the operations' results over the
  launch contents.
-/
import proofs.«119509_j83949430767932_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge table's two rows as vectors, and twice the input features: the seven operations before the first layer. -/
abbrev pre : List (HloOp τ sig (Elt F)) :=
  [ unary main_arg1 main_v0 ((extractStridedSlice S1x524288 ![0, 0] · slices_S2x524288_S1x524288_0_0) : (⟨S2x524288, .i32⟩ : BufTy).Contents (Elt F) → (⟨S1x524288, .i32⟩ : BufTy).Contents (Elt F)),
    reshape main_v0 main_v1 rfl shapeCasts_S1x524288_S524288,
    unary main_arg1 main_v2 ((extractStridedSlice S1x524288 ![1, 0] · slices_S2x524288_S1x524288_1_0) : (⟨S2x524288, .i32⟩ : BufTy).Contents (Elt F) → (⟨S1x524288, .i32⟩ : BufTy).Contents (Elt F)),
    reshape main_v2 main_v3 rfl shapeCasts_S1x524288_S524288,
    nullary main_cst (constant S_ .f32 0x40000000#32),
    unary main_cst main_v4 (broadcastInDim S16384x128 ![] bcast_S_S16384x128 : (⟨S_, .f32⟩ : BufTy).Contents (Elt F) → (⟨S16384x128, .f32⟩ : BufTy).Contents (Elt F)),
    binary main_v4 main_arg3 main_v5 (mulf : (⟨S16384x128, .f32⟩ : BufTy).Contents (Elt F) → (⟨S16384x128, .f32⟩ : BufTy).Contents (Elt F) → (⟨S16384x128, .f32⟩ : BufTy).Contents (Elt F)) ]

/-- The first layer: the two aggregations of the input features, the two dense layers, the logistic and the leaky rectifier (its called function's seven operations listed at the call), and the rows normalised. -/
abbrev L1 : List (HloOp τ sig (Elt F)) :=
  [ binary main_arg0 main_arg3 main_v6 ((fun l r => Host.dotGeneral dot_S16384x16384_S16384x128_S16384x128_1_0_0_1_n_n none l r) : (⟨S16384x16384, .f32⟩ : BufTy).Contents (Elt F) → (⟨S16384x128, .f32⟩ : BufTy).Contents (Elt F) → (⟨S16384x128, .f32⟩ : BufTy).Contents (Elt F)),
    unary main_arg2 main_v7 (broadcastInDim S524288x1 ![0] bcast_S524288_S524288x1_0 : (⟨S524288, .f32⟩ : BufTy).Contents (Elt F) → (⟨S524288x1, .f32⟩ : BufTy).Contents (Elt F)),
    nullary main_c (constantI S_ 32 0#32),
    unary main_c main_v8 (broadcastInDim S524288 ![] bcast_S_S524288 : (⟨S_, .i32⟩ : BufTy).Contents (Elt F) → (⟨S524288, .i32⟩ : BufTy).Contents (Elt F)),
    binary main_v3 main_v8 main_v9 (cmpi .slt : (⟨S524288, .i32⟩ : BufTy).Contents (Elt F) → (⟨S524288, .i32⟩ : BufTy).Contents (Elt F) → (⟨S524288, .i1⟩ : BufTy).Contents (Elt F)),
    nullary main_c_0 (constantI S_ 32 16384#32),
    unary main_c_0 main_v10 (broadcastInDim S524288 ![] bcast_S_S524288 : (⟨S_, .i32⟩ : BufTy).Contents (Elt F) → (⟨S524288, .i32⟩ : BufTy).Contents (Elt F)),
    binary main_v3 main_v10 main_v11 (addi : (⟨S524288, .i32⟩ : BufTy).Contents (Elt F) → (⟨S524288, .i32⟩ : BufTy).Contents (Elt F) → (⟨S524288, .i32⟩ : BufTy).Contents (Elt F)),
    ternary main_v9 main_v11 main_v3 main_v12 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v12 main_v13 (broadcastInDim S524288x1 ![0] bcast_S524288_S524288x1_0 : (⟨S524288, .i32⟩ : BufTy).Contents (Elt F) → (⟨S524288x1, .i32⟩ : BufTy).Contents (Elt F)),
    binary main_arg3 main_v13 main_v14 ((fun x i => Host.gather gather_S16384x128_S524288x1_S524288x128_1_0_n_n_0_1_1128 x i) : (⟨S16384x128, .f32⟩ : BufTy).Contents (Elt F) → (⟨S524288x1, .i32⟩ : BufTy).Contents (Elt F) → (⟨S524288x128, .f32⟩ : BufTy).Contents (Elt F)),
    unary main_v7 main_v15 (broadcastInDim S524288x128 ![0, 1] bcast_S524288x1_S524288x128_0_1 : (⟨S524288x1, .f32⟩ : BufTy).Contents (Elt F) → (⟨S524288x128, .f32⟩ : BufTy).Contents (Elt F)),
    binary main_v15 main_v14 main_v16 (mulf : (⟨S524288x128, .f32⟩ : BufTy).Contents (Elt F) → (⟨S524288x128, .f32⟩ : BufTy).Contents (Elt F) → (⟨S524288x128, .f32⟩ : BufTy).Contents (Elt F)),
    nullary main_cst_1 (constant S_ .f32 0x00000000#32),
    unary main_cst_1 main_v17 (broadcastInDim S16384x128 ![] bcast_S_S16384x128 : (⟨S_, .f32⟩ : BufTy).Contents (Elt F) → (⟨S16384x128, .f32⟩ : BufTy).Contents (Elt F)),
    unary main_v1 main_v18 (broadcastInDim S524288x1 ![0] bcast_S524288_S524288x1_0 : (⟨S524288, .i32⟩ : BufTy).Contents (Elt F) → (⟨S524288x1, .i32⟩ : BufTy).Contents (Elt F)),
    ternary main_v17 main_v18 main_v16 main_v19 ((fun x i u => Host.scatterAdd scatter_S16384x128_S524288x1_S524288x128_1_0_0_1 x i u) : (⟨S16384x128, .f32⟩ : BufTy).Contents (Elt F) → (⟨S524288x1, .i32⟩ : BufTy).Contents (Elt F) → (⟨S524288x128, .f32⟩ : BufTy).Contents (Elt F) → (⟨S16384x128, .f32⟩ : BufTy).Contents (Elt F)),
    binary main_arg3 main_v6 main_v20 (addf : (⟨S16384x128, .f32⟩ : BufTy).Contents (Elt F) → (⟨S16384x128, .f32⟩ : BufTy).Contents (Elt F) → (⟨S16384x128, .f32⟩ : BufTy).Contents (Elt F)),
    binary main_arg3 main_v19 main_v21 (mulf : (⟨S16384x128, .f32⟩ : BufTy).Contents (Elt F) → (⟨S16384x128, .f32⟩ : BufTy).Contents (Elt F) → (⟨S16384x128, .f32⟩ : BufTy).Contents (Elt F)),
    unary main_arg4 main_v22 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v22 main_v23 rfl shapeCasts_S1x128x128_S128x128,
    binary main_v20 main_v23 main_v24 ((fun l r => Host.dotGeneral dot_S16384x128_S128x128_S16384x128_1_1_0_0_n_n none l r) : (⟨S16384x128, .f32⟩ : BufTy).Contents (Elt F) → (⟨S128x128, .f32⟩ : BufTy).Contents (Elt F) → (⟨S16384x128, .f32⟩ : BufTy).Contents (Elt F)),
    unary main_arg5 main_v25 ((extractStridedSlice S1x128 ![0, 0] · slices_S3x128_S1x128_0_0) : (⟨S3x128, .f32⟩ : BufTy).Contents (Elt F) → (⟨S1x128, .f32⟩ : BufTy).Contents (Elt F)),
    reshape main_v25 main_v26 rfl shapeCasts_S1x128_S128,
    unary main_v26 main_v27 (broadcastInDim S1x128 ![1] bcast_S128_S1x128_1 : (⟨S128, .f32⟩ : BufTy).Contents (Elt F) → (⟨S1x128, .f32⟩ : BufTy).Contents (Elt F)),
    unary main_v27 main_v28 (broadcastInDim S16384x128 ![0, 1] bcast_S1x128_S16384x128_0_1 : (⟨S1x128, .f32⟩ : BufTy).Contents (Elt F) → (⟨S16384x128, .f32⟩ : BufTy).Contents (Elt F)),
    binary main_v24 main_v28 main_v29 (addf : (⟨S16384x128, .f32⟩ : BufTy).Contents (Elt F) → (⟨S16384x128, .f32⟩ : BufTy).Contents (Elt F) → (⟨S16384x128, .f32⟩ : BufTy).Contents (Elt F)),
    unary main_arg6 main_v30 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v30 main_v31 rfl shapeCasts_S1x128x128_S128x128,
    binary main_v21 main_v31 main_v32 ((fun l r => Host.dotGeneral dot_S16384x128_S128x128_S16384x128_1_1_0_0_n_n none l r) : (⟨S16384x128, .f32⟩ : BufTy).Contents (Elt F) → (⟨S128x128, .f32⟩ : BufTy).Contents (Elt F) → (⟨S16384x128, .f32⟩ : BufTy).Contents (Elt F)),
    unary main_arg7 main_v33 ((extractStridedSlice S1x128 ![0, 0] · slices_S3x128_S1x128_0_0) : (⟨S3x128, .f32⟩ : BufTy).Contents (Elt F) → (⟨S1x128, .f32⟩ : BufTy).Contents (Elt F)),
    reshape main_v33 main_v34 rfl shapeCasts_S1x128_S128,
    unary main_v34 main_v35 (broadcastInDim S1x128 ![1] bcast_S128_S1x128_1 : (⟨S128, .f32⟩ : BufTy).Contents (Elt F) → (⟨S1x128, .f32⟩ : BufTy).Contents (Elt F)),
    unary main_v35 main_v36 (broadcastInDim S16384x128 ![0, 1] bcast_S1x128_S16384x128_0_1 : (⟨S1x128, .f32⟩ : BufTy).Contents (Elt F) → (⟨S16384x128, .f32⟩ : BufTy).Contents (Elt F)),
    binary main_v32 main_v36 main_v37 (addf : (⟨S16384x128, .f32⟩ : BufTy).Contents (Elt F) → (⟨S16384x128, .f32⟩ : BufTy).Contents (Elt F) → (⟨S16384x128, .f32⟩ : BufTy).Contents (Elt F)),
    nullary main_cst_2 (constant S_ .f32 0x3F800000#32),
    unary main_cst_2 main_v38 (broadcastInDim S16384x128 ![] bcast_S_S16384x128 : (⟨S_, .f32⟩ : BufTy).Contents (Elt F) → (⟨S16384x128, .f32⟩ : BufTy).Contents (Elt F)),
    binary main_v38 main_v29 main_v39 (mulf : (⟨S16384x128, .f32⟩ : BufTy).Contents (Elt F) → (⟨S16384x128, .f32⟩ : BufTy).Contents (Elt F) → (⟨S16384x128, .f32⟩ : BufTy).Contents (Elt F)),
    unary main_v39 main_v40 (Host.negf : (⟨S16384x128, .f32⟩ : BufTy).Contents (Elt F) → (⟨S16384x128, .f32⟩ : BufTy).Contents (Elt F)),
    unary main_v40 main_v41 (Host.exp : (⟨S16384x128, .f32⟩ : BufTy).Contents (Elt F) → (⟨S16384x128, .f32⟩ : BufTy).Contents (Elt F)),
    nullary main_cst_3 (constant S_ .f32 0x3F800000#32),
    unary main_cst_3 main_v42 (broadcastInDim S16384x128 ![] bcast_S_S16384x128 : (⟨S_, .f32⟩ : BufTy).Contents (Elt F) → (⟨S16384x128, .f32⟩ : BufTy).Contents (Elt F)),
    binary main_v42 main_v41 main_v43 (addf : (⟨S16384x128, .f32⟩ : BufTy).Contents (Elt F) → (⟨S16384x128, .f32⟩ : BufTy).Contents (Elt F) → (⟨S16384x128, .f32⟩ : BufTy).Contents (Elt F)),
    nullary main_cst_4 (constant S_ .f32 0x3F800000#32),
    unary main_cst_4 main_v44 (broadcastInDim S16384x128 ![] bcast_S_S16384x128 : (⟨S_, .f32⟩ : BufTy).Contents (Elt F) → (⟨S16384x128, .f32⟩ : BufTy).Contents (Elt F)),
    binary main_v44 main_v43 main_v45 (Host.divf : (⟨S16384x128, .f32⟩ : BufTy).Contents (Elt F) → (⟨S16384x128, .f32⟩ : BufTy).Contents (Elt F) → (⟨S16384x128, .f32⟩ : BufTy).Contents (Elt F)),
    nullary main_cst_5 (constant S_ .f32 0x3F800000#32),
    unary main_cst_5 main_v46 (broadcastInDim S16384x128 ![] bcast_S_S16384x128 : (⟨S_, .f32⟩ : BufTy).Contents (Elt F) → (⟨S16384x128, .f32⟩ : BufTy).Contents (Elt F)),
    binary main_v46 main_v37 main_v47 (mulf : (⟨S16384x128, .f32⟩ : BufTy).Contents (Elt F) → (⟨S16384x128, .f32⟩ : BufTy).Contents (Elt F) → (⟨S16384x128, .f32⟩ : BufTy).Contents (Elt F)),
    TRef.nullary main_call0.cst (constant S_ .f32 0x00000000#32),
    TRef.unary main_call0.cst main_call0.v0 (broadcastInDim S16384x128 ![] bcast_S_S16384x128),
    TRef.binary (.of main_v47 : TRef sig ⟨S16384x128, .f32⟩) main_call0.v0 main_call0.v1 (cmpf .oge),
    TRef.nullary main_call0.cst_0 (constant S_ .f32 0x3C23D70A#32),
    TRef.unary main_call0.cst_0 main_call0.v2 (broadcastInDim S16384x128 ![] bcast_S_S16384x128),
    TRef.binary main_call0.v2 (.of main_v47 : TRef sig ⟨S16384x128, .f32⟩) main_call0.v3 mulf,
    TRef.ternary main_call0.v1 (.of main_v47 : TRef sig ⟨S16384x128, .f32⟩) main_call0.v3 main_call0.call0.v0 select,
    binary main_v45 main_v48 main_v49 (addf : (⟨S16384x128, .f32⟩ : BufTy).Contents (Elt F) → (⟨S16384x128, .f32⟩ : BufTy).Contents (Elt F) → (⟨S16384x128, .f32⟩ : BufTy).Contents (Elt F)),
    binary main_v49 main_v49 main_v50 (mulf : (⟨S16384x128, .f32⟩ : BufTy).Contents (Elt F) → (⟨S16384x128, .f32⟩ : BufTy).Contents (Elt F) → (⟨S16384x128, .f32⟩ : BufTy).Contents (Elt F)),
    nullary main_cst_6 (constant S_ .f32 0x00000000#32),
    binary main_v50 main_cst_6 main_v51 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v51 main_v52 (broadcastInDim S16384x1 ![0] bcast_S16384_S16384x1_0 : (⟨S16384, .f32⟩ : BufTy).Contents (Elt F) → (⟨S16384x1, .f32⟩ : BufTy).Contents (Elt F)),
    unary main_v52 main_v53 (Host.sqrt : (⟨S16384x1, .f32⟩ : BufTy).Contents (Elt F) → (⟨S16384x1, .f32⟩ : BufTy).Contents (Elt F)),
    nullary main_cst_7 (constant S_ .f32 0x2B8CBCCC#32),
    unary main_cst_7 main_v54 (broadcastInDim S16384x1 ![] bcast_S_S16384x1 : (⟨S_, .f32⟩ : BufTy).Contents (Elt F) → (⟨S16384x1, .f32⟩ : BufTy).Contents (Elt F)),
    binary main_v53 main_v54 main_v55 (maximumf : (⟨S16384x1, .f32⟩ : BufTy).Contents (Elt F) → (⟨S16384x1, .f32⟩ : BufTy).Contents (Elt F) → (⟨S16384x1, .f32⟩ : BufTy).Contents (Elt F)),
    unary main_v55 main_v56 (broadcastInDim S16384x128 ![0, 1] bcast_S16384x1_S16384x128_0_1 : (⟨S16384x1, .f32⟩ : BufTy).Contents (Elt F) → (⟨S16384x128, .f32⟩ : BufTy).Contents (Elt F)),
    binary main_v49 main_v56 main_v57 (Host.divf : (⟨S16384x128, .f32⟩ : BufTy).Contents (Elt F) → (⟨S16384x128, .f32⟩ : BufTy).Contents (Elt F) → (⟨S16384x128, .f32⟩ : BufTy).Contents (Elt F)) ]

/-- The second layer, on the first layer's embedding. -/
abbrev L2 : List (HloOp τ sig (Elt F)) :=
  [ binary main_arg0 main_v49 main_v58 ((fun l r => Host.dotGeneral dot_S16384x16384_S16384x128_S16384x128_1_0_0_1_n_n none l r) : (⟨S16384x16384, .f32⟩ : BufTy).Contents (Elt F) → (⟨S16384x128, .f32⟩ : BufTy).Contents (Elt F) → (⟨S16384x128, .f32⟩ : BufTy).Contents (Elt F)),
    unary main_arg2 main_v59 (broadcastInDim S524288x1 ![0] bcast_S524288_S524288x1_0 : (⟨S524288, .f32⟩ : BufTy).Contents (Elt F) → (⟨S524288x1, .f32⟩ : BufTy).Contents (Elt F)),
    nullary main_c_8 (constantI S_ 32 0#32),
    unary main_c_8 main_v60 (broadcastInDim S524288 ![] bcast_S_S524288 : (⟨S_, .i32⟩ : BufTy).Contents (Elt F) → (⟨S524288, .i32⟩ : BufTy).Contents (Elt F)),
    binary main_v3 main_v60 main_v61 (cmpi .slt : (⟨S524288, .i32⟩ : BufTy).Contents (Elt F) → (⟨S524288, .i32⟩ : BufTy).Contents (Elt F) → (⟨S524288, .i1⟩ : BufTy).Contents (Elt F)),
    nullary main_c_9 (constantI S_ 32 16384#32),
    unary main_c_9 main_v62 (broadcastInDim S524288 ![] bcast_S_S524288 : (⟨S_, .i32⟩ : BufTy).Contents (Elt F) → (⟨S524288, .i32⟩ : BufTy).Contents (Elt F)),
    binary main_v3 main_v62 main_v63 (addi : (⟨S524288, .i32⟩ : BufTy).Contents (Elt F) → (⟨S524288, .i32⟩ : BufTy).Contents (Elt F) → (⟨S524288, .i32⟩ : BufTy).Contents (Elt F)),
    ternary main_v61 main_v63 main_v3 main_v64 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v64 main_v65 (broadcastInDim S524288x1 ![0] bcast_S524288_S524288x1_0 : (⟨S524288, .i32⟩ : BufTy).Contents (Elt F) → (⟨S524288x1, .i32⟩ : BufTy).Contents (Elt F)),
    binary main_v49 main_v65 main_v66 ((fun x i => Host.gather gather_S16384x128_S524288x1_S524288x128_1_0_n_n_0_1_1128 x i) : (⟨S16384x128, .f32⟩ : BufTy).Contents (Elt F) → (⟨S524288x1, .i32⟩ : BufTy).Contents (Elt F) → (⟨S524288x128, .f32⟩ : BufTy).Contents (Elt F)),
    unary main_v59 main_v67 (broadcastInDim S524288x128 ![0, 1] bcast_S524288x1_S524288x128_0_1 : (⟨S524288x1, .f32⟩ : BufTy).Contents (Elt F) → (⟨S524288x128, .f32⟩ : BufTy).Contents (Elt F)),
    binary main_v67 main_v66 main_v68 (mulf : (⟨S524288x128, .f32⟩ : BufTy).Contents (Elt F) → (⟨S524288x128, .f32⟩ : BufTy).Contents (Elt F) → (⟨S524288x128, .f32⟩ : BufTy).Contents (Elt F)),
    nullary main_cst_10 (constant S_ .f32 0x00000000#32),
    unary main_cst_10 main_v69 (broadcastInDim S16384x128 ![] bcast_S_S16384x128 : (⟨S_, .f32⟩ : BufTy).Contents (Elt F) → (⟨S16384x128, .f32⟩ : BufTy).Contents (Elt F)),
    unary main_v1 main_v70 (broadcastInDim S524288x1 ![0] bcast_S524288_S524288x1_0 : (⟨S524288, .i32⟩ : BufTy).Contents (Elt F) → (⟨S524288x1, .i32⟩ : BufTy).Contents (Elt F)),
    ternary main_v69 main_v70 main_v68 main_v71 ((fun x i u => Host.scatterAdd scatter_S16384x128_S524288x1_S524288x128_1_0_0_1 x i u) : (⟨S16384x128, .f32⟩ : BufTy).Contents (Elt F) → (⟨S524288x1, .i32⟩ : BufTy).Contents (Elt F) → (⟨S524288x128, .f32⟩ : BufTy).Contents (Elt F) → (⟨S16384x128, .f32⟩ : BufTy).Contents (Elt F)),
    binary main_v49 main_v58 main_v72 (addf : (⟨S16384x128, .f32⟩ : BufTy).Contents (Elt F) → (⟨S16384x128, .f32⟩ : BufTy).Contents (Elt F) → (⟨S16384x128, .f32⟩ : BufTy).Contents (Elt F)),
    binary main_v49 main_v71 main_v73 (mulf : (⟨S16384x128, .f32⟩ : BufTy).Contents (Elt F) → (⟨S16384x128, .f32⟩ : BufTy).Contents (Elt F) → (⟨S16384x128, .f32⟩ : BufTy).Contents (Elt F)),
    unary main_arg4 main_v74 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v74 main_v75 rfl shapeCasts_S1x128x128_S128x128,
    binary main_v72 main_v75 main_v76 ((fun l r => Host.dotGeneral dot_S16384x128_S128x128_S16384x128_1_1_0_0_n_n none l r) : (⟨S16384x128, .f32⟩ : BufTy).Contents (Elt F) → (⟨S128x128, .f32⟩ : BufTy).Contents (Elt F) → (⟨S16384x128, .f32⟩ : BufTy).Contents (Elt F)),
    unary main_arg5 main_v77 ((extractStridedSlice S1x128 ![1, 0] · slices_S3x128_S1x128_1_0) : (⟨S3x128, .f32⟩ : BufTy).Contents (Elt F) → (⟨S1x128, .f32⟩ : BufTy).Contents (Elt F)),
    reshape main_v77 main_v78 rfl shapeCasts_S1x128_S128,
    unary main_v78 main_v79 (broadcastInDim S1x128 ![1] bcast_S128_S1x128_1 : (⟨S128, .f32⟩ : BufTy).Contents (Elt F) → (⟨S1x128, .f32⟩ : BufTy).Contents (Elt F)),
    unary main_v79 main_v80 (broadcastInDim S16384x128 ![0, 1] bcast_S1x128_S16384x128_0_1 : (⟨S1x128, .f32⟩ : BufTy).Contents (Elt F) → (⟨S16384x128, .f32⟩ : BufTy).Contents (Elt F)),
    binary main_v76 main_v80 main_v81 (addf : (⟨S16384x128, .f32⟩ : BufTy).Contents (Elt F) → (⟨S16384x128, .f32⟩ : BufTy).Contents (Elt F) → (⟨S16384x128, .f32⟩ : BufTy).Contents (Elt F)),
    unary main_arg6 main_v82 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v82 main_v83 rfl shapeCasts_S1x128x128_S128x128,
    binary main_v73 main_v83 main_v84 ((fun l r => Host.dotGeneral dot_S16384x128_S128x128_S16384x128_1_1_0_0_n_n none l r) : (⟨S16384x128, .f32⟩ : BufTy).Contents (Elt F) → (⟨S128x128, .f32⟩ : BufTy).Contents (Elt F) → (⟨S16384x128, .f32⟩ : BufTy).Contents (Elt F)),
    unary main_arg7 main_v85 ((extractStridedSlice S1x128 ![1, 0] · slices_S3x128_S1x128_1_0) : (⟨S3x128, .f32⟩ : BufTy).Contents (Elt F) → (⟨S1x128, .f32⟩ : BufTy).Contents (Elt F)),
    reshape main_v85 main_v86 rfl shapeCasts_S1x128_S128,
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S16384x128 ![0, 1] bcast_S1x128_S16384x128_0_1 : (⟨S1x128, .f32⟩ : BufTy).Contents (Elt F) → (⟨S16384x128, .f32⟩ : BufTy).Contents (Elt F)),
    binary main_v84 main_v88 main_v89 (addf : (⟨S16384x128, .f32⟩ : BufTy).Contents (Elt F) → (⟨S16384x128, .f32⟩ : BufTy).Contents (Elt F) → (⟨S16384x128, .f32⟩ : BufTy).Contents (Elt F)),
    nullary main_cst_11 (constant S_ .f32 0x3F800000#32),
    unary main_cst_11 main_v90 (broadcastInDim S16384x128 ![] bcast_S_S16384x128 : (⟨S_, .f32⟩ : BufTy).Contents (Elt F) → (⟨S16384x128, .f32⟩ : BufTy).Contents (Elt F)),
    binary main_v90 main_v81 main_v91 (mulf : (⟨S16384x128, .f32⟩ : BufTy).Contents (Elt F) → (⟨S16384x128, .f32⟩ : BufTy).Contents (Elt F) → (⟨S16384x128, .f32⟩ : BufTy).Contents (Elt F)),
    unary main_v91 main_v92 (Host.negf : (⟨S16384x128, .f32⟩ : BufTy).Contents (Elt F) → (⟨S16384x128, .f32⟩ : BufTy).Contents (Elt F)),
    unary main_v92 main_v93 (Host.exp : (⟨S16384x128, .f32⟩ : BufTy).Contents (Elt F) → (⟨S16384x128, .f32⟩ : BufTy).Contents (Elt F)),
    nullary main_cst_12 (constant S_ .f32 0x3F800000#32),
    unary main_cst_12 main_v94 (broadcastInDim S16384x128 ![] bcast_S_S16384x128 : (⟨S_, .f32⟩ : BufTy).Contents (Elt F) → (⟨S16384x128, .f32⟩ : BufTy).Contents (Elt F)),
    binary main_v94 main_v93 main_v95 (addf : (⟨S16384x128, .f32⟩ : BufTy).Contents (Elt F) → (⟨S16384x128, .f32⟩ : BufTy).Contents (Elt F) → (⟨S16384x128, .f32⟩ : BufTy).Contents (Elt F)),
    nullary main_cst_13 (constant S_ .f32 0x3F800000#32),
    unary main_cst_13 main_v96 (broadcastInDim S16384x128 ![] bcast_S_S16384x128 : (⟨S_, .f32⟩ : BufTy).Contents (Elt F) → (⟨S16384x128, .f32⟩ : BufTy).Contents (Elt F)),
    binary main_v96 main_v95 main_v97 (Host.divf : (⟨S16384x128, .f32⟩ : BufTy).Contents (Elt F) → (⟨S16384x128, .f32⟩ : BufTy).Contents (Elt F) → (⟨S16384x128, .f32⟩ : BufTy).Contents (Elt F)),
    nullary main_cst_14 (constant S_ .f32 0x3F800000#32),
    unary main_cst_14 main_v98 (broadcastInDim S16384x128 ![] bcast_S_S16384x128 : (⟨S_, .f32⟩ : BufTy).Contents (Elt F) → (⟨S16384x128, .f32⟩ : BufTy).Contents (Elt F)),
    binary main_v98 main_v89 main_v99 (mulf : (⟨S16384x128, .f32⟩ : BufTy).Contents (Elt F) → (⟨S16384x128, .f32⟩ : BufTy).Contents (Elt F) → (⟨S16384x128, .f32⟩ : BufTy).Contents (Elt F)),
    TRef.nullary main_call1.cst (constant S_ .f32 0x00000000#32),
    TRef.unary main_call1.cst main_call1.v0 (broadcastInDim S16384x128 ![] bcast_S_S16384x128),
    TRef.binary (.of main_v99 : TRef sig ⟨S16384x128, .f32⟩) main_call1.v0 main_call1.v1 (cmpf .oge),
    TRef.nullary main_call1.cst_0 (constant S_ .f32 0x3C23D70A#32),
    TRef.unary main_call1.cst_0 main_call1.v2 (broadcastInDim S16384x128 ![] bcast_S_S16384x128),
    TRef.binary main_call1.v2 (.of main_v99 : TRef sig ⟨S16384x128, .f32⟩) main_call1.v3 mulf,
    TRef.ternary main_call1.v1 (.of main_v99 : TRef sig ⟨S16384x128, .f32⟩) main_call1.v3 main_call1.call0.v0 select,
    binary main_v97 main_v100 main_v101 (addf : (⟨S16384x128, .f32⟩ : BufTy).Contents (Elt F) → (⟨S16384x128, .f32⟩ : BufTy).Contents (Elt F) → (⟨S16384x128, .f32⟩ : BufTy).Contents (Elt F)),
    binary main_v101 main_v101 main_v102 (mulf : (⟨S16384x128, .f32⟩ : BufTy).Contents (Elt F) → (⟨S16384x128, .f32⟩ : BufTy).Contents (Elt F) → (⟨S16384x128, .f32⟩ : BufTy).Contents (Elt F)),
    nullary main_cst_15 (constant S_ .f32 0x00000000#32),
    binary main_v102 main_cst_15 main_v103 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v103 main_v104 (broadcastInDim S16384x1 ![0] bcast_S16384_S16384x1_0 : (⟨S16384, .f32⟩ : BufTy).Contents (Elt F) → (⟨S16384x1, .f32⟩ : BufTy).Contents (Elt F)),
    unary main_v104 main_v105 (Host.sqrt : (⟨S16384x1, .f32⟩ : BufTy).Contents (Elt F) → (⟨S16384x1, .f32⟩ : BufTy).Contents (Elt F)),
    nullary main_cst_16 (constant S_ .f32 0x2B8CBCCC#32),
    unary main_cst_16 main_v106 (broadcastInDim S16384x1 ![] bcast_S_S16384x1 : (⟨S_, .f32⟩ : BufTy).Contents (Elt F) → (⟨S16384x1, .f32⟩ : BufTy).Contents (Elt F)),
    binary main_v105 main_v106 main_v107 (maximumf : (⟨S16384x1, .f32⟩ : BufTy).Contents (Elt F) → (⟨S16384x1, .f32⟩ : BufTy).Contents (Elt F) → (⟨S16384x1, .f32⟩ : BufTy).Contents (Elt F)),
    unary main_v107 main_v108 (broadcastInDim S16384x128 ![0, 1] bcast_S16384x1_S16384x128_0_1 : (⟨S16384x1, .f32⟩ : BufTy).Contents (Elt F) → (⟨S16384x128, .f32⟩ : BufTy).Contents (Elt F)),
    binary main_v101 main_v108 main_v109 (Host.divf : (⟨S16384x128, .f32⟩ : BufTy).Contents (Elt F) → (⟨S16384x128, .f32⟩ : BufTy).Contents (Elt F) → (⟨S16384x128, .f32⟩ : BufTy).Contents (Elt F)) ]

/-- The third layer, on the second layer's embedding. -/
abbrev L3 : List (HloOp τ sig (Elt F)) :=
  [ binary main_arg0 main_v101 main_v110 ((fun l r => Host.dotGeneral dot_S16384x16384_S16384x128_S16384x128_1_0_0_1_n_n none l r) : (⟨S16384x16384, .f32⟩ : BufTy).Contents (Elt F) → (⟨S16384x128, .f32⟩ : BufTy).Contents (Elt F) → (⟨S16384x128, .f32⟩ : BufTy).Contents (Elt F)),
    unary main_arg2 main_v111 (broadcastInDim S524288x1 ![0] bcast_S524288_S524288x1_0 : (⟨S524288, .f32⟩ : BufTy).Contents (Elt F) → (⟨S524288x1, .f32⟩ : BufTy).Contents (Elt F)),
    nullary main_c_17 (constantI S_ 32 0#32),
    unary main_c_17 main_v112 (broadcastInDim S524288 ![] bcast_S_S524288 : (⟨S_, .i32⟩ : BufTy).Contents (Elt F) → (⟨S524288, .i32⟩ : BufTy).Contents (Elt F)),
    binary main_v3 main_v112 main_v113 (cmpi .slt : (⟨S524288, .i32⟩ : BufTy).Contents (Elt F) → (⟨S524288, .i32⟩ : BufTy).Contents (Elt F) → (⟨S524288, .i1⟩ : BufTy).Contents (Elt F)),
    nullary main_c_18 (constantI S_ 32 16384#32),
    unary main_c_18 main_v114 (broadcastInDim S524288 ![] bcast_S_S524288 : (⟨S_, .i32⟩ : BufTy).Contents (Elt F) → (⟨S524288, .i32⟩ : BufTy).Contents (Elt F)),
    binary main_v3 main_v114 main_v115 (addi : (⟨S524288, .i32⟩ : BufTy).Contents (Elt F) → (⟨S524288, .i32⟩ : BufTy).Contents (Elt F) → (⟨S524288, .i32⟩ : BufTy).Contents (Elt F)),
    ternary main_v113 main_v115 main_v3 main_v116 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v116 main_v117 (broadcastInDim S524288x1 ![0] bcast_S524288_S524288x1_0 : (⟨S524288, .i32⟩ : BufTy).Contents (Elt F) → (⟨S524288x1, .i32⟩ : BufTy).Contents (Elt F)),
    binary main_v101 main_v117 main_v118 ((fun x i => Host.gather gather_S16384x128_S524288x1_S524288x128_1_0_n_n_0_1_1128 x i) : (⟨S16384x128, .f32⟩ : BufTy).Contents (Elt F) → (⟨S524288x1, .i32⟩ : BufTy).Contents (Elt F) → (⟨S524288x128, .f32⟩ : BufTy).Contents (Elt F)),
    unary main_v111 main_v119 (broadcastInDim S524288x128 ![0, 1] bcast_S524288x1_S524288x128_0_1 : (⟨S524288x1, .f32⟩ : BufTy).Contents (Elt F) → (⟨S524288x128, .f32⟩ : BufTy).Contents (Elt F)),
    binary main_v119 main_v118 main_v120 (mulf : (⟨S524288x128, .f32⟩ : BufTy).Contents (Elt F) → (⟨S524288x128, .f32⟩ : BufTy).Contents (Elt F) → (⟨S524288x128, .f32⟩ : BufTy).Contents (Elt F)),
    nullary main_cst_19 (constant S_ .f32 0x00000000#32),
    unary main_cst_19 main_v121 (broadcastInDim S16384x128 ![] bcast_S_S16384x128 : (⟨S_, .f32⟩ : BufTy).Contents (Elt F) → (⟨S16384x128, .f32⟩ : BufTy).Contents (Elt F)),
    unary main_v1 main_v122 (broadcastInDim S524288x1 ![0] bcast_S524288_S524288x1_0 : (⟨S524288, .i32⟩ : BufTy).Contents (Elt F) → (⟨S524288x1, .i32⟩ : BufTy).Contents (Elt F)),
    ternary main_v121 main_v122 main_v120 main_v123 ((fun x i u => Host.scatterAdd scatter_S16384x128_S524288x1_S524288x128_1_0_0_1 x i u) : (⟨S16384x128, .f32⟩ : BufTy).Contents (Elt F) → (⟨S524288x1, .i32⟩ : BufTy).Contents (Elt F) → (⟨S524288x128, .f32⟩ : BufTy).Contents (Elt F) → (⟨S16384x128, .f32⟩ : BufTy).Contents (Elt F)),
    binary main_v101 main_v110 main_v124 (addf : (⟨S16384x128, .f32⟩ : BufTy).Contents (Elt F) → (⟨S16384x128, .f32⟩ : BufTy).Contents (Elt F) → (⟨S16384x128, .f32⟩ : BufTy).Contents (Elt F)),
    binary main_v101 main_v123 main_v125 (mulf : (⟨S16384x128, .f32⟩ : BufTy).Contents (Elt F) → (⟨S16384x128, .f32⟩ : BufTy).Contents (Elt F) → (⟨S16384x128, .f32⟩ : BufTy).Contents (Elt F)),
    unary main_arg4 main_v126 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v126 main_v127 rfl shapeCasts_S1x128x128_S128x128,
    binary main_v124 main_v127 main_v128 ((fun l r => Host.dotGeneral dot_S16384x128_S128x128_S16384x128_1_1_0_0_n_n none l r) : (⟨S16384x128, .f32⟩ : BufTy).Contents (Elt F) → (⟨S128x128, .f32⟩ : BufTy).Contents (Elt F) → (⟨S16384x128, .f32⟩ : BufTy).Contents (Elt F)),
    unary main_arg5 main_v129 ((extractStridedSlice S1x128 ![2, 0] · slices_S3x128_S1x128_2_0) : (⟨S3x128, .f32⟩ : BufTy).Contents (Elt F) → (⟨S1x128, .f32⟩ : BufTy).Contents (Elt F)),
    reshape main_v129 main_v130 rfl shapeCasts_S1x128_S128,
    unary main_v130 main_v131 (broadcastInDim S1x128 ![1] bcast_S128_S1x128_1 : (⟨S128, .f32⟩ : BufTy).Contents (Elt F) → (⟨S1x128, .f32⟩ : BufTy).Contents (Elt F)),
    unary main_v131 main_v132 (broadcastInDim S16384x128 ![0, 1] bcast_S1x128_S16384x128_0_1 : (⟨S1x128, .f32⟩ : BufTy).Contents (Elt F) → (⟨S16384x128, .f32⟩ : BufTy).Contents (Elt F)),
    binary main_v128 main_v132 main_v133 (addf : (⟨S16384x128, .f32⟩ : BufTy).Contents (Elt F) → (⟨S16384x128, .f32⟩ : BufTy).Contents (Elt F) → (⟨S16384x128, .f32⟩ : BufTy).Contents (Elt F)),
    unary main_arg6 main_v134 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v134 main_v135 rfl shapeCasts_S1x128x128_S128x128,
    binary main_v125 main_v135 main_v136 ((fun l r => Host.dotGeneral dot_S16384x128_S128x128_S16384x128_1_1_0_0_n_n none l r) : (⟨S16384x128, .f32⟩ : BufTy).Contents (Elt F) → (⟨S128x128, .f32⟩ : BufTy).Contents (Elt F) → (⟨S16384x128, .f32⟩ : BufTy).Contents (Elt F)),
    unary main_arg7 main_v137 ((extractStridedSlice S1x128 ![2, 0] · slices_S3x128_S1x128_2_0) : (⟨S3x128, .f32⟩ : BufTy).Contents (Elt F) → (⟨S1x128, .f32⟩ : BufTy).Contents (Elt F)),
    reshape main_v137 main_v138 rfl shapeCasts_S1x128_S128,
    unary main_v138 main_v139 (broadcastInDim S1x128 ![1] bcast_S128_S1x128_1 : (⟨S128, .f32⟩ : BufTy).Contents (Elt F) → (⟨S1x128, .f32⟩ : BufTy).Contents (Elt F)),
    unary main_v139 main_v140 (broadcastInDim S16384x128 ![0, 1] bcast_S1x128_S16384x128_0_1 : (⟨S1x128, .f32⟩ : BufTy).Contents (Elt F) → (⟨S16384x128, .f32⟩ : BufTy).Contents (Elt F)),
    binary main_v136 main_v140 main_v141 (addf : (⟨S16384x128, .f32⟩ : BufTy).Contents (Elt F) → (⟨S16384x128, .f32⟩ : BufTy).Contents (Elt F) → (⟨S16384x128, .f32⟩ : BufTy).Contents (Elt F)),
    nullary main_cst_20 (constant S_ .f32 0x3F800000#32),
    unary main_cst_20 main_v142 (broadcastInDim S16384x128 ![] bcast_S_S16384x128 : (⟨S_, .f32⟩ : BufTy).Contents (Elt F) → (⟨S16384x128, .f32⟩ : BufTy).Contents (Elt F)),
    binary main_v142 main_v133 main_v143 (mulf : (⟨S16384x128, .f32⟩ : BufTy).Contents (Elt F) → (⟨S16384x128, .f32⟩ : BufTy).Contents (Elt F) → (⟨S16384x128, .f32⟩ : BufTy).Contents (Elt F)),
    unary main_v143 main_v144 (Host.negf : (⟨S16384x128, .f32⟩ : BufTy).Contents (Elt F) → (⟨S16384x128, .f32⟩ : BufTy).Contents (Elt F)),
    unary main_v144 main_v145 (Host.exp : (⟨S16384x128, .f32⟩ : BufTy).Contents (Elt F) → (⟨S16384x128, .f32⟩ : BufTy).Contents (Elt F)),
    nullary main_cst_21 (constant S_ .f32 0x3F800000#32),
    unary main_cst_21 main_v146 (broadcastInDim S16384x128 ![] bcast_S_S16384x128 : (⟨S_, .f32⟩ : BufTy).Contents (Elt F) → (⟨S16384x128, .f32⟩ : BufTy).Contents (Elt F)),
    binary main_v146 main_v145 main_v147 (addf : (⟨S16384x128, .f32⟩ : BufTy).Contents (Elt F) → (⟨S16384x128, .f32⟩ : BufTy).Contents (Elt F) → (⟨S16384x128, .f32⟩ : BufTy).Contents (Elt F)),
    nullary main_cst_22 (constant S_ .f32 0x3F800000#32),
    unary main_cst_22 main_v148 (broadcastInDim S16384x128 ![] bcast_S_S16384x128 : (⟨S_, .f32⟩ : BufTy).Contents (Elt F) → (⟨S16384x128, .f32⟩ : BufTy).Contents (Elt F)),
    binary main_v148 main_v147 main_v149 (Host.divf : (⟨S16384x128, .f32⟩ : BufTy).Contents (Elt F) → (⟨S16384x128, .f32⟩ : BufTy).Contents (Elt F) → (⟨S16384x128, .f32⟩ : BufTy).Contents (Elt F)),
    nullary main_cst_23 (constant S_ .f32 0x3F800000#32),
    unary main_cst_23 main_v150 (broadcastInDim S16384x128 ![] bcast_S_S16384x128 : (⟨S_, .f32⟩ : BufTy).Contents (Elt F) → (⟨S16384x128, .f32⟩ : BufTy).Contents (Elt F)),
    binary main_v150 main_v141 main_v151 (mulf : (⟨S16384x128, .f32⟩ : BufTy).Contents (Elt F) → (⟨S16384x128, .f32⟩ : BufTy).Contents (Elt F) → (⟨S16384x128, .f32⟩ : BufTy).Contents (Elt F)),
    TRef.nullary main_call2.cst (constant S_ .f32 0x00000000#32),
    TRef.unary main_call2.cst main_call2.v0 (broadcastInDim S16384x128 ![] bcast_S_S16384x128),
    TRef.binary (.of main_v151 : TRef sig ⟨S16384x128, .f32⟩) main_call2.v0 main_call2.v1 (cmpf .oge),
    TRef.nullary main_call2.cst_0 (constant S_ .f32 0x3C23D70A#32),
    TRef.unary main_call2.cst_0 main_call2.v2 (broadcastInDim S16384x128 ![] bcast_S_S16384x128),
    TRef.binary main_call2.v2 (.of main_v151 : TRef sig ⟨S16384x128, .f32⟩) main_call2.v3 mulf,
    TRef.ternary main_call2.v1 (.of main_v151 : TRef sig ⟨S16384x128, .f32⟩) main_call2.v3 main_call2.call0.v0 select,
    binary main_v149 main_v152 main_v153 (addf : (⟨S16384x128, .f32⟩ : BufTy).Contents (Elt F) → (⟨S16384x128, .f32⟩ : BufTy).Contents (Elt F) → (⟨S16384x128, .f32⟩ : BufTy).Contents (Elt F)),
    binary main_v153 main_v153 main_v154 (mulf : (⟨S16384x128, .f32⟩ : BufTy).Contents (Elt F) → (⟨S16384x128, .f32⟩ : BufTy).Contents (Elt F) → (⟨S16384x128, .f32⟩ : BufTy).Contents (Elt F)),
    nullary main_cst_24 (constant S_ .f32 0x00000000#32),
    binary main_v154 main_cst_24 main_v155 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v155 main_v156 (broadcastInDim S16384x1 ![0] bcast_S16384_S16384x1_0 : (⟨S16384, .f32⟩ : BufTy).Contents (Elt F) → (⟨S16384x1, .f32⟩ : BufTy).Contents (Elt F)),
    unary main_v156 main_v157 (Host.sqrt : (⟨S16384x1, .f32⟩ : BufTy).Contents (Elt F) → (⟨S16384x1, .f32⟩ : BufTy).Contents (Elt F)),
    nullary main_cst_25 (constant S_ .f32 0x2B8CBCCC#32),
    unary main_cst_25 main_v158 (broadcastInDim S16384x1 ![] bcast_S_S16384x1 : (⟨S_, .f32⟩ : BufTy).Contents (Elt F) → (⟨S16384x1, .f32⟩ : BufTy).Contents (Elt F)),
    binary main_v157 main_v158 main_v159 (maximumf : (⟨S16384x1, .f32⟩ : BufTy).Contents (Elt F) → (⟨S16384x1, .f32⟩ : BufTy).Contents (Elt F) → (⟨S16384x1, .f32⟩ : BufTy).Contents (Elt F)),
    unary main_v159 main_v160 (broadcastInDim S16384x128 ![0, 1] bcast_S16384x1_S16384x128_0_1 : (⟨S16384x1, .f32⟩ : BufTy).Contents (Elt F) → (⟨S16384x128, .f32⟩ : BufTy).Contents (Elt F)),
    binary main_v153 main_v160 main_v161 (Host.divf : (⟨S16384x128, .f32⟩ : BufTy).Contents (Elt F) → (⟨S16384x128, .f32⟩ : BufTy).Contents (Elt F) → (⟨S16384x128, .f32⟩ : BufTy).Contents (Elt F)) ]

/-- The four blocks laid side by side. -/
abbrev fin : List (HloOp τ sig (Elt F)) :=
  [ nary ![main_v5, main_v57, main_v109, main_v161] main_v162 (fun u => concatenate S16384x512 1 [⟨S16384x128, u 0⟩, ⟨S16384x128, u 1⟩, ⟨S16384x128, u 2⟩, ⟨S16384x128, u 3⟩] concatenates_S16384x128_S16384x128_S16384x128_S16384x128_S16384x512_d1) ]

/-- The program's operations, in order. -/
abbrev ops : List (HloOp τ sig (Elt F)) := pre ++ (L1 ++ (L2 ++ (L3 ++ fin)))

/-- A property of every element of two lists holds of every element of their concatenation. -/
theorem forall_append {α : Type} {p : α → Prop} {l1 l2 : List α} (h1 : l1.Forall p) (h2 : l2.Forall p) : (l1 ++ l2).Forall p :=
  List.forall_iff_forall_mem.2 fun x hx =>
    (List.mem_append.1 hx).elim (List.forall_iff_forall_mem.1 h1 x) (List.forall_iff_forall_mem.1 h2 x)

theorem scopedRefs_eq : (Finset.univ.filter fun b : Ref sig .tc => b.isScoped) = ∅ := by decide
theorem scopedSems_eq : (Finset.univ.filter fun sm : SemLoc sig => sm.isScoped .tc) = ∅ := by decide

theorem pre_sub : (pre : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub ..⟩
theorem L1_sub : (L1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem L2_sub : (L2 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem L3_sub : (L3 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem fin_sub : (fin : List (HloOp τ sig (Elt F))).Forall fun op => op.bufs ⊆ tcRefs τ sig :=
  nary_bufs_sub ..

theorem ops_sub : (ops : List (HloOp τ sig (Elt F))).Forall fun op => op.bufs ⊆ tcRefs τ sig :=
  forall_append pre_sub (forall_append L1_sub (forall_append L2_sub (forall_append L3_sub fin_sub)))

theorem pre_fresh : ∀ op ∈ (pre : List (HloOp τ sig (Elt F))), op.fresh = ∅ := by
  intro _ h; (repeat (cases h with | head => rfl | tail _ h => ?_)); exact nomatch h
theorem L1_fresh : ∀ op ∈ (L1 : List (HloOp τ sig (Elt F))), op.fresh = ∅ := by
  intro _ h; (repeat (cases h with | head => rfl | tail _ h => ?_)); exact nomatch h
theorem L2_fresh : ∀ op ∈ (L2 : List (HloOp τ sig (Elt F))), op.fresh = ∅ := by
  intro _ h; (repeat (cases h with | head => rfl | tail _ h => ?_)); exact nomatch h
theorem L3_fresh : ∀ op ∈ (L3 : List (HloOp τ sig (Elt F))), op.fresh = ∅ := by
  intro _ h; (repeat (cases h with | head => rfl | tail _ h => ?_)); exact nomatch h
theorem fin_fresh : ∀ op ∈ (fin : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h =>
  (List.mem_append.1 h).elim (pre_fresh op) fun h => (List.mem_append.1 h).elim (L1_fresh op) fun h =>
    (List.mem_append.1 h).elim (L2_fresh op) fun h => (List.mem_append.1 h).elim (L3_fresh op) (fin_fresh op)

/-- The program is that line: its four windows in a row, the called function unfolded at its three calls. -/
theorem main_eq (c : Dev nD) : main (F := F) c = seq ops := rfl

/-- On every device, for any float values, from any memory with zero counters: every weakly fair execution of the
    program terminates, and every final state has each buffer at the fold of the operations' results over its launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRun2.lean ====
/-
  Layer 1 of the reference, read back: from any buffer contents, the layer's operations leave the layer's
  embedding and its normalised rows as the specification's functions of what the layer reads, and leave what the later
  operations still read as it was.
-/
import proofs.«119509_j83949430767932_1_alg».proof.Proof.RefRun1
import proofs.«119509_j83949430767932_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- After the layer its embedding is the specification's, of the previous embedding, the edge table's two vectors
    and the parameters as the layer finds them. -/
theorem L1_emb (V : Valuation τ sig (Elt F)) :
    after L1 V (main_v49 : DevRef τ sig)
      = Cert.Spec.emb (V (main_arg3 : DevRef τ sig)) (Cert.Spec.allAgg (V (main_arg0 : DevRef τ sig)) (V (main_arg3 : DevRef τ sig)))
        (Cert.Spec.subAggOf (Cert.Spec.rowColOf (V (main_v1 : DevRef τ sig))) (Cert.Spec.colColOf (V (main_v3 : DevRef τ sig)))
          (V (main_arg2 : DevRef τ sig)) (V (main_arg3 : DevRef τ sig)))
        (Cert.Spec.w0 (V (main_arg4 : DevRef τ sig))) (Cert.Spec.b0 (V (main_arg5 : DevRef τ sig)))
        (Cert.Spec.w0 (V (main_arg6 : DevRef τ sig))) (Cert.Spec.b0 (V (main_arg7 : DevRef τ sig))) := by
  after_results_simp
  rfl

/-- After the layer its normalised rows are the specification's. -/
theorem L1_l2n (V : Valuation τ sig (Elt F)) :
    after L1 V (main_v57 : DevRef τ sig)
      = Cert.Spec.l2n (Cert.Spec.emb (V (main_arg3 : DevRef τ sig)) (Cert.Spec.allAgg (V (main_arg0 : DevRef τ sig)) (V (main_arg3 : DevRef τ sig)))
        (Cert.Spec.subAggOf (Cert.Spec.rowColOf (V (main_v1 : DevRef τ sig))) (Cert.Spec.colColOf (V (main_v3 : DevRef τ sig)))
          (V (main_arg2 : DevRef τ sig)) (V (main_arg3 : DevRef τ sig)))
        (Cert.Spec.w0 (V (main_arg4 : DevRef τ sig))) (Cert.Spec.b0 (V (main_arg5 : DevRef τ sig)))
        (Cert.Spec.w0 (V (main_arg6 : DevRef τ sig))) (Cert.Spec.b0 (V (main_arg7 : DevRef τ sig)))) := by
  after_results_simp
  rfl

theorem L1_keep_arg0 (V : Valuation τ sig (Elt F)) :
    after L1 V (main_arg0 : DevRef τ sig) = V (main_arg0 : DevRef τ sig) := by
  after_results_simp
theorem L1_keep_arg1 (V : Valuation τ sig (Elt F)) :
    after L1 V (main_arg1 : DevRef τ sig) = V (main_arg1 : DevRef τ sig) := by
  after_results_simp
theorem L1_keep_arg2 (V : Valuation τ sig (Elt F)) :
    after L1 V (main_arg2 : DevRef τ sig) = V (main_arg2 : DevRef τ sig) := by
  after_results_simp
theorem L1_keep_arg3 (V : Valuation τ sig (Elt F)) :
    after L1 V (main_arg3 : DevRef τ sig) = V (main_arg3 : DevRef τ sig) := by
  after_results_simp
theorem L1_keep_arg4 (V : Valuation τ sig (Elt F)) :
    after L1 V (main_arg4 : DevRef τ sig) = V (main_arg4 : DevRef τ sig) := by
  after_results_simp
theorem L1_keep_arg5 (V : Valuation τ sig (Elt F)) :
    after L1 V (main_arg5 : DevRef τ sig) = V (main_arg5 : DevRef τ sig) := by
  after_results_simp
theorem L1_keep_arg6 (V : Valuation τ sig (Elt F)) :
    after L1 V (main_arg6 : DevRef τ sig) = V (main_arg6 : DevRef τ sig) := by
  after_results_simp
theorem L1_keep_arg7 (V : Valuation τ sig (Elt F)) :
    after L1 V (main_arg7 : DevRef τ sig) = V (main_arg7 : DevRef τ sig) := by
  after_results_simp
theorem L1_keep_v1 (V : Valuation τ sig (Elt F)) :
    after L1 V (main_v1 : DevRef τ sig) = V (main_v1 : DevRef τ sig) := by
  after_results_simp
theorem L1_keep_v3 (V : Valuation τ sig (Elt F)) :
    after L1 V (main_v3 : DevRef τ sig) = V (main_v3 : DevRef τ sig) := by
  after_results_simp
theorem L1_keep_v5 (V : Valuation τ sig (Elt F)) :
    after L1 V (main_v5 : DevRef τ sig) = V (main_v5 : DevRef τ sig) := by
  after_results_simp

end Cert.ReferenceIdeal.RefRun

end
-- ==== Proof.RefRun3.lean ====
/-
  Layer 2 of the reference, read back: from any buffer contents, the layer's operations leave the layer's
  embedding and its normalised rows as the specification's functions of what the layer reads, and leave what the later
  operations still read as it was.
-/
import proofs.«119509_j83949430767932_1_alg».proof.Proof.RefRun1
import proofs.«119509_j83949430767932_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- After the layer its embedding is the specification's, of the previous embedding, the edge table's two vectors
    and the parameters as the layer finds them. -/
theorem L2_emb (V : Valuation τ sig (Elt F)) :
    after L2 V (main_v101 : DevRef τ sig)
      = Cert.Spec.emb (V (main_v49 : DevRef τ sig)) (Cert.Spec.allAgg (V (main_arg0 : DevRef τ sig)) (V (main_v49 : DevRef τ sig)))
        (Cert.Spec.subAggOf (Cert.Spec.rowColOf (V (main_v1 : DevRef τ sig))) (Cert.Spec.colColOf (V (main_v3 : DevRef τ sig)))
          (V (main_arg2 : DevRef τ sig)) (V (main_v49 : DevRef τ sig)))
        (Cert.Spec.w1 (V (main_arg4 : DevRef τ sig))) (Cert.Spec.b1 (V (main_arg5 : DevRef τ sig)))
        (Cert.Spec.w1 (V (main_arg6 : DevRef τ sig))) (Cert.Spec.b1 (V (main_arg7 : DevRef τ sig))) := by
  after_results_simp
  rfl

/-- After the layer its normalised rows are the specification's. -/
theorem L2_l2n (V : Valuation τ sig (Elt F)) :
    after L2 V (main_v109 : DevRef τ sig)
      = Cert.Spec.l2n (Cert.Spec.emb (V (main_v49 : DevRef τ sig)) (Cert.Spec.allAgg (V (main_arg0 : DevRef τ sig)) (V (main_v49 : DevRef τ sig)))
        (Cert.Spec.subAggOf (Cert.Spec.rowColOf (V (main_v1 : DevRef τ sig))) (Cert.Spec.colColOf (V (main_v3 : DevRef τ sig)))
          (V (main_arg2 : DevRef τ sig)) (V (main_v49 : DevRef τ sig)))
        (Cert.Spec.w1 (V (main_arg4 : DevRef τ sig))) (Cert.Spec.b1 (V (main_arg5 : DevRef τ sig)))
        (Cert.Spec.w1 (V (main_arg6 : DevRef τ sig))) (Cert.Spec.b1 (V (main_arg7 : DevRef τ sig)))) := by
  after_results_simp
  rfl

theorem L2_keep_arg0 (V : Valuation τ sig (Elt F)) :
    after L2 V (main_arg0 : DevRef τ sig) = V (main_arg0 : DevRef τ sig) := by
  after_results_simp
theorem L2_keep_arg1 (V : Valuation τ sig (Elt F)) :
    after L2 V (main_arg1 : DevRef τ sig) = V (main_arg1 : DevRef τ sig) := by
  after_results_simp
theorem L2_keep_arg2 (V : Valuation τ sig (Elt F)) :
    after L2 V (main_arg2 : DevRef τ sig) = V (main_arg2 : DevRef τ sig) := by
  after_results_simp
theorem L2_keep_arg3 (V : Valuation τ sig (Elt F)) :
    after L2 V (main_arg3 : DevRef τ sig) = V (main_arg3 : DevRef τ sig) := by
  after_results_simp
theorem L2_keep_arg4 (V : Valuation τ sig (Elt F)) :
    after L2 V (main_arg4 : DevRef τ sig) = V (main_arg4 : DevRef τ sig) := by
  after_results_simp
theorem L2_keep_arg5 (V : Valuation τ sig (Elt F)) :
    after L2 V (main_arg5 : DevRef τ sig) = V (main_arg5 : DevRef τ sig) := by
  after_results_simp
theorem L2_keep_arg6 (V : Valuation τ sig (Elt F)) :
    after L2 V (main_arg6 : DevRef τ sig) = V (main_arg6 : DevRef τ sig) := by
  after_results_simp
theorem L2_keep_arg7 (V : Valuation τ sig (Elt F)) :
    after L2 V (main_arg7 : DevRef τ sig) = V (main_arg7 : DevRef τ sig) := by
  after_results_simp
theorem L2_keep_v1 (V : Valuation τ sig (Elt F)) :
    after L2 V (main_v1 : DevRef τ sig) = V (main_v1 : DevRef τ sig) := by
  after_results_simp
theorem L2_keep_v3 (V : Valuation τ sig (Elt F)) :
    after L2 V (main_v3 : DevRef τ sig) = V (main_v3 : DevRef τ sig) := by
  after_results_simp
theorem L2_keep_v5 (V : Valuation τ sig (Elt F)) :
    after L2 V (main_v5 : DevRef τ sig) = V (main_v5 : DevRef τ sig) := by
  after_results_simp
theorem L2_keep_v57 (V : Valuation τ sig (Elt F)) :
    after L2 V (main_v57 : DevRef τ sig) = V (main_v57 : DevRef τ sig) := by
  after_results_simp

end Cert.ReferenceIdeal.RefRun

end
-- ==== Proof.RefRun4.lean ====
/-
  Layer 3 of the reference, read back: from any buffer contents, the layer's operations leave the layer's
  embedding and its normalised rows as the specification's functions of what the layer reads, and leave what the later
  operations still read as it was.
-/
import proofs.«119509_j83949430767932_1_alg».proof.Proof.RefRun1
import proofs.«119509_j83949430767932_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- After the layer its embedding is the specification's, of the previous embedding, the edge table's two vectors
    and the parameters as the layer finds them. -/
theorem L3_emb (V : Valuation τ sig (Elt F)) :
    after L3 V (main_v153 : DevRef τ sig)
      = Cert.Spec.emb (V (main_v101 : DevRef τ sig)) (Cert.Spec.allAgg (V (main_arg0 : DevRef τ sig)) (V (main_v101 : DevRef τ sig)))
        (Cert.Spec.subAggOf (Cert.Spec.rowColOf (V (main_v1 : DevRef τ sig))) (Cert.Spec.colColOf (V (main_v3 : DevRef τ sig)))
          (V (main_arg2 : DevRef τ sig)) (V (main_v101 : DevRef τ sig)))
        (Cert.Spec.w2 (V (main_arg4 : DevRef τ sig))) (Cert.Spec.b2 (V (main_arg5 : DevRef τ sig)))
        (Cert.Spec.w2 (V (main_arg6 : DevRef τ sig))) (Cert.Spec.b2 (V (main_arg7 : DevRef τ sig))) := by
  after_results_simp
  rfl

/-- After the layer its normalised rows are the specification's. -/
theorem L3_l2n (V : Valuation τ sig (Elt F)) :
    after L3 V (main_v161 : DevRef τ sig)
      = Cert.Spec.l2n (Cert.Spec.emb (V (main_v101 : DevRef τ sig)) (Cert.Spec.allAgg (V (main_arg0 : DevRef τ sig)) (V (main_v101 : DevRef τ sig)))
        (Cert.Spec.subAggOf (Cert.Spec.rowColOf (V (main_v1 : DevRef τ sig))) (Cert.Spec.colColOf (V (main_v3 : DevRef τ sig)))
          (V (main_arg2 : DevRef τ sig)) (V (main_v101 : DevRef τ sig)))
        (Cert.Spec.w2 (V (main_arg4 : DevRef τ sig))) (Cert.Spec.b2 (V (main_arg5 : DevRef τ sig)))
        (Cert.Spec.w2 (V (main_arg6 : DevRef τ sig))) (Cert.Spec.b2 (V (main_arg7 : DevRef τ sig)))) := by
  after_results_simp
  rfl

theorem L3_keep_arg0 (V : Valuation τ sig (Elt F)) :
    after L3 V (main_arg0 : DevRef τ sig) = V (main_arg0 : DevRef τ sig) := by
  after_results_simp
theorem L3_keep_arg1 (V : Valuation τ sig (Elt F)) :
    after L3 V (main_arg1 : DevRef τ sig) = V (main_arg1 : DevRef τ sig) := by
  after_results_simp
theorem L3_keep_arg2 (V : Valuation τ sig (Elt F)) :
    after L3 V (main_arg2 : DevRef τ sig) = V (main_arg2 : DevRef τ sig) := by
  after_results_simp
theorem L3_keep_arg3 (V : Valuation τ sig (Elt F)) :
    after L3 V (main_arg3 : DevRef τ sig) = V (main_arg3 : DevRef τ sig) := by
  after_results_simp
theorem L3_keep_arg4 (V : Valuation τ sig (Elt F)) :
    after L3 V (main_arg4 : DevRef τ sig) = V (main_arg4 : DevRef τ sig) := by
  after_results_simp
theorem L3_keep_arg5 (V : Valuation τ sig (Elt F)) :
    after L3 V (main_arg5 : DevRef τ sig) = V (main_arg5 : DevRef τ sig) := by
  after_results_simp
theorem L3_keep_arg6 (V : Valuation τ sig (Elt F)) :
    after L3 V (main_arg6 : DevRef τ sig) = V (main_arg6 : DevRef τ sig) := by
  after_results_simp
theorem L3_keep_arg7 (V : Valuation τ sig (Elt F)) :
    after L3 V (main_arg7 : DevRef τ sig) = V (main_arg7 : DevRef τ sig) := by
  after_results_simp
theorem L3_keep_v5 (V : Valuation τ sig (Elt F)) :
    after L3 V (main_v5 : DevRef τ sig) = V (main_v5 : DevRef τ sig) := by
  after_results_simp
theorem L3_keep_v57 (V : Valuation τ sig (Elt F)) :
    after L3 V (main_v57 : DevRef τ sig) = V (main_v57 : DevRef τ sig) := by
  after_results_simp
theorem L3_keep_v109 (V : Valuation τ sig (Elt F)) :
    after L3 V (main_v109 : DevRef τ sig) = V (main_v109 : DevRef τ sig) := by
  after_results_simp

end Cert.ReferenceIdeal.RefRun

end
-- ==== Proof.LibHostLine.lean ====
/-
  Two facts about a line of host operations, general in the program.

  Running two lines in a row is running the second from the buffer contents the first leaves.  And a value written
  through a typed reference and read back through the same reference is the value: the two transports along the
  reference's type equation cancel, whatever the buffer — so the transports inside a called function's operations
  (each result written through its typed reference, each operand read through its own) collapse pairwise without the
  buffers' types ever being computed.  After the results of such a line are rewritten, `simp only [ofBuf_toBuf]` leaves
  only the transports at the line's own inputs and at its result.
-/
import Idealize.ShloMosaic.Lib.StableHlo.Run

noncomputable section

namespace Cert.LibHostLine

open Idealize.ShloMosaic Idealize.ShloMosaic.StableHlo

variable {τ : Topo} {sig : RefSig} {Val : EltTy → Type}

/-- Running two lines in a row is running the second from where the first ends. -/
theorem after_append (l1 l2 : List (HloOp τ sig Val)) (V : Valuation τ sig Val) :
    StableHlo.after (l1 ++ l2) V = StableHlo.after l2 (StableHlo.after l1 V) := by
  induction l1 generalizing V with
  | nil => rfl
  | cons op l ih => exact ih _

/-- Reading back through a typed reference what was written through it gives the value back. -/
theorem ofBuf_toBuf {T : BufTy} (x : TRef sig T) (v : T.Contents Val) : x.ofBuf (x.toBuf v) = v := by
  obtain ⟨r, h, h2, h3⟩ := x
  subst h
  rfl

end Cert.LibHostLine

end
-- ==== Proof.RefRun.lean ====
/-
  The reference's run, read back: every weakly fair execution of the reference program terminates with its result
  buffer at the specification's function of the argument arrays, the arguments unchanged.

  The line of operations is run stretch by stretch: what precedes the layers leaves the edge table's two vectors
  and twice the input; each layer turns the previous embedding into the next and its normalised rows, and leaves
  the rest; the last operation lays the four blocks side by side.
-/
import proofs.«119509_j83949430767932_1_alg».proof.Proof.RefRun2
import proofs.«119509_j83949430767932_1_alg».proof.Proof.RefRun3
import proofs.«119509_j83949430767932_1_alg».proof.Proof.RefRun4
import proofs.«119509_j83949430767932_1_alg».proof.Proof.LibHostLine
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

open Cert.LibHostLine

/-! ## Before the layers, and the last operation -/

theorem pre_v1 (V : Valuation τ sig (Elt F)) :
    after pre V (main_v1 : DevRef τ sig) = Cert.Spec.rowVec (V (main_arg1 : DevRef τ sig)) := by
  after_results
  rfl
theorem pre_v3 (V : Valuation τ sig (Elt F)) :
    after pre V (main_v3 : DevRef τ sig) = Cert.Spec.colVec (V (main_arg1 : DevRef τ sig)) := by
  after_results
  rfl
theorem pre_v5 (V : Valuation τ sig (Elt F)) :
    after pre V (main_v5 : DevRef τ sig) = Cert.Spec.twice (V (main_arg3 : DevRef τ sig)) := by
  after_results
  rfl
theorem pre_keep_arg0 (V : Valuation τ sig (Elt F)) :
    after pre V (main_arg0 : DevRef τ sig) = V (main_arg0 : DevRef τ sig) := by
  after_results_simp
theorem pre_keep_arg1 (V : Valuation τ sig (Elt F)) :
    after pre V (main_arg1 : DevRef τ sig) = V (main_arg1 : DevRef τ sig) := by
  after_results_simp
theorem pre_keep_arg2 (V : Valuation τ sig (Elt F)) :
    after pre V (main_arg2 : DevRef τ sig) = V (main_arg2 : DevRef τ sig) := by
  after_results_simp
theorem pre_keep_arg3 (V : Valuation τ sig (Elt F)) :
    after pre V (main_arg3 : DevRef τ sig) = V (main_arg3 : DevRef τ sig) := by
  after_results_simp
theorem pre_keep_arg4 (V : Valuation τ sig (Elt F)) :
    after pre V (main_arg4 : DevRef τ sig) = V (main_arg4 : DevRef τ sig) := by
  after_results_simp
theorem pre_keep_arg5 (V : Valuation τ sig (Elt F)) :
    after pre V (main_arg5 : DevRef τ sig) = V (main_arg5 : DevRef τ sig) := by
  after_results_simp
theorem pre_keep_arg6 (V : Valuation τ sig (Elt F)) :
    after pre V (main_arg6 : DevRef τ sig) = V (main_arg6 : DevRef τ sig) := by
  after_results_simp
theorem pre_keep_arg7 (V : Valuation τ sig (Elt F)) :
    after pre V (main_arg7 : DevRef τ sig) = V (main_arg7 : DevRef τ sig) := by
  after_results_simp

theorem fin_cat (V : Valuation τ sig (Elt F)) :
    after fin V (main_v162 : DevRef τ sig)
      = Cert.Spec.cat4 (V (main_v5 : DevRef τ sig)) (V (main_v57 : DevRef τ sig)) (V (main_v109 : DevRef τ sig)) (V (main_v161 : DevRef τ sig)) := by
  after_results
  rfl
theorem fin_keep_arg0 (V : Valuation τ sig (Elt F)) :
    after fin V (main_arg0 : DevRef τ sig) = V (main_arg0 : DevRef τ sig) := by
  after_results_simp
theorem fin_keep_arg1 (V : Valuation τ sig (Elt F)) :
    after fin V (main_arg1 : DevRef τ sig) = V (main_arg1 : DevRef τ sig) := by
  after_results_simp
theorem fin_keep_arg2 (V : Valuation τ sig (Elt F)) :
    after fin V (main_arg2 : DevRef τ sig) = V (main_arg2 : DevRef τ sig) := by
  after_results_simp
theorem fin_keep_arg3 (V : Valuation τ sig (Elt F)) :
    after fin V (main_arg3 : DevRef τ sig) = V (main_arg3 : DevRef τ sig) := by
  after_results_simp
theorem fin_keep_arg4 (V : Valuation τ sig (Elt F)) :
    after fin V (main_arg4 : DevRef τ sig) = V (main_arg4 : DevRef τ sig) := by
  after_results_simp
theorem fin_keep_arg5 (V : Valuation τ sig (Elt F)) :
    after fin V (main_arg5 : DevRef τ sig) = V (main_arg5 : DevRef τ sig) := by
  after_results_simp
theorem fin_keep_arg6 (V : Valuation τ sig (Elt F)) :
    after fin V (main_arg6 : DevRef τ sig) = V (main_arg6 : DevRef τ sig) := by
  after_results_simp
theorem fin_keep_arg7 (V : Valuation τ sig (Elt F)) :
    after fin V (main_arg7 : DevRef τ sig) = V (main_arg7 : DevRef τ sig) := by
  after_results_simp

/-! ## The whole line -/

/-- The line run stretch by stretch. -/
theorem ops_split (V : Valuation τ sig (Elt F)) :
    after ops V = after fin (after L3 (after L2 (after L1 (after pre V)))) := by
  show after (pre ++ (L1 ++ (L2 ++ (L3 ++ fin)))) V = _
  rw [after_append, after_append, after_append, after_append]

/-- The result buffer after the line is the specification's function of the arguments as the line finds them. -/
theorem out_eq (V : Valuation τ sig (Elt F)) :
    after ops V (main_v162 : DevRef τ sig)
      = Cert.Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops_split, fin_cat,
    L3_keep_v5, L3_keep_v57, L3_keep_v109, L3_l2n,
    L2_keep_v5, L2_keep_v57, L2_l2n, L2_emb, L2_keep_arg0, L2_keep_arg2, L2_keep_arg4, L2_keep_arg5, L2_keep_arg6, L2_keep_arg7,
    L2_keep_v1, L2_keep_v3,
    L1_keep_v5, L1_l2n, L1_emb, L1_keep_arg0, L1_keep_arg2, L1_keep_arg4, L1_keep_arg5, L1_keep_arg6, L1_keep_arg7,
    L1_keep_v1, L1_keep_v3,
    pre_v5, pre_v1, pre_v3, pre_keep_arg0, pre_keep_arg2, pre_keep_arg3, pre_keep_arg4, pre_keep_arg5, pre_keep_arg6, pre_keep_arg7]
  rfl

theorem arg0_eq (V : Valuation τ sig (Elt F)) :
    after ops V (main_arg0 : DevRef τ sig) = V (main_arg0 : DevRef τ sig) := by
  rw [ops_split, fin_keep_arg0, L3_keep_arg0, L2_keep_arg0, L1_keep_arg0, pre_keep_arg0]
theorem arg1_eq (V : Valuation τ sig (Elt F)) :
    after ops V (main_arg1 : DevRef τ sig) = V (main_arg1 : DevRef τ sig) := by
  rw [ops_split, fin_keep_arg1, L3_keep_arg1, L2_keep_arg1, L1_keep_arg1, pre_keep_arg1]
theorem arg2_eq (V : Valuation τ sig (Elt F)) :
    after ops V (main_arg2 : DevRef τ sig) = V (main_arg2 : DevRef τ sig) := by
  rw [ops_split, fin_keep_arg2, L3_keep_arg2, L2_keep_arg2, L1_keep_arg2, pre_keep_arg2]
theorem arg3_eq (V : Valuation τ sig (Elt F)) :
    after ops V (main_arg3 : DevRef τ sig) = V (main_arg3 : DevRef τ sig) := by
  rw [ops_split, fin_keep_arg3, L3_keep_arg3, L2_keep_arg3, L1_keep_arg3, pre_keep_arg3]
theorem arg4_eq (V : Valuation τ sig (Elt F)) :
    after ops V (main_arg4 : DevRef τ sig) = V (main_arg4 : DevRef τ sig) := by
  rw [ops_split, fin_keep_arg4, L3_keep_arg4, L2_keep_arg4, L1_keep_arg4, pre_keep_arg4]
theorem arg5_eq (V : Valuation τ sig (Elt F)) :
    after ops V (main_arg5 : DevRef τ sig) = V (main_arg5 : DevRef τ sig) := by
  rw [ops_split, fin_keep_arg5, L3_keep_arg5, L2_keep_arg5, L1_keep_arg5, pre_keep_arg5]
theorem arg6_eq (V : Valuation τ sig (Elt F)) :
    after ops V (main_arg6 : DevRef τ sig) = V (main_arg6 : DevRef τ sig) := by
  rw [ops_split, fin_keep_arg6, L3_keep_arg6, L2_keep_arg6, L1_keep_arg6, pre_keep_arg6]
theorem arg7_eq (V : Valuation τ sig (Elt F)) :
    after ops V (main_arg7 : DevRef τ sig) = V (main_arg7 : DevRef τ sig) := by
  rw [ops_split, fin_keep_arg7, L3_keep_arg7, L2_keep_arg7, L1_keep_arg7, pre_keep_arg7]

/-- On every device, for any float values, from any memory with zero counters: every weakly fair execution of the
    reference terminates with its result the specification's function of the arguments, and the arguments unchanged. -/
theorem run_gen (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v162)
          = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v162).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c))⟩)
    (run_main m ρ)

/-- The same at the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v162)
          = Cert.Spec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_gen m ρ

end Cert.ReferenceIdeal.RefRun

end
-- ==== Proof.lean ====
/-
  A three-layer graph network on 16384 nodes — per layer a dense aggregation `A · pre`, a sparse aggregation over 524288
  edges, two dense layers, a logistic plus a leaky rectifier, and the rows normalised to unit length; the result lays
  `2·X` and the three normalised embeddings side by side — computed by a program of six kernel regions (a blocked product
  accumulated over sixteen contraction blocks, and a fused layer, per layer) between stretches of host operations, against
  the same network written with whole-array operations.

  Frames: each program runs to the end from any memory, faults nowhere, and leaves its arguments as launched — the kernel
  programs segment by segment (every region's body run case by case, the accumulator carried by the region's
  invariant), the reference operation by operation. The idealization rewrote nothing, so `preserves` has no conjunct.
  At the ideal instance both programs end with ONE function of the arguments (`Cert.Spec.out`): the reference by
  unfolding its operations; the kernel program because a sum taken in sixteen blocks is the whole sum, the rounding to
  a narrower format is the identity, `1 · h = h` and `0 + s = s` on the extended reals, the logistic operation is
  `1 / (1 + e^(-h))`, and a product with a transposed weight matrix contracts the same index pairs as the reference's
  contraction over the second axis of both operands. No finiteness of the inputs is used.
-/
import proofs.«119509_j83949430767932_1_alg».proof.Defs
import proofs.«119509_j83949430767932_1_alg».proof.Proof.Gen.Kernel
import proofs.«119509_j83949430767932_1_alg».proof.Proof.Gen.KernelIdeal
import proofs.«119509_j83949430767932_1_alg».proof.Proof.Gen.ReferenceIdeal
import proofs.«119509_j83949430767932_1_alg».proof.Proof.Gen.Pre_finite_inputs
import proofs.«119509_j83949430767932_1_alg».proof.Proof.K.RunKeep
import proofs.«119509_j83949430767932_1_alg».proof.Proof.KI.RunKeep
import proofs.«119509_j83949430767932_1_alg».proof.Proof.KI.Bridge
import proofs.«119509_j83949430767932_1_alg».proof.Proof.RefRun

noncomputable section

namespace Cert.Proof

open Idealize.ShloMosaic Idealize.ShloMosaic.TcCoe Idealize.SL.Sem

theorem frame_k : Cert.frame_Kernel := fun m ρ _ => Cert.Kernel.Hand.frame_all m ρ

theorem frame_ki : Cert.frame_KernelIdeal := fun m ρ _ => Cert.KernelIdeal.Hand.frame_all m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both runs end with the same function of the launch arguments. -/
theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨?_, ?_⟩) (Cert.KernelIdeal.Hand.run_all m ρ)
    · exact (h c _ (Cert.KernelIdeal.Hand.mem_uc Cert.KernelIdeal.main_v87 (by decide))).trans (Cert.KernelIdeal.Hand.W11_out m ρ c)
    · exact ⟨(h c _ (Cert.KernelIdeal.Hand.mem_uc Cert.KernelIdeal.main_arg0 (by decide))).trans (Cert.KernelIdeal.Hand.W11_main_arg0 m ρ c),
        (h c _ (Cert.KernelIdeal.Hand.mem_uc Cert.KernelIdeal.main_arg1 (by decide))).trans (Cert.KernelIdeal.Hand.W11_main_arg1 m ρ c),
        (h c _ (Cert.KernelIdeal.Hand.mem_uc Cert.KernelIdeal.main_arg2 (by decide))).trans (Cert.KernelIdeal.Hand.W11_main_arg2 m ρ c),
        (h c _ (Cert.KernelIdeal.Hand.mem_uc Cert.KernelIdeal.main_arg3 (by decide))).trans (Cert.KernelIdeal.Hand.W11_main_arg3 m ρ c),
        (h c _ (Cert.KernelIdeal.Hand.mem_uc Cert.KernelIdeal.main_arg4 (by decide))).trans (Cert.KernelIdeal.Hand.W11_main_arg4 m ρ c),
        (h c _ (Cert.KernelIdeal.Hand.mem_uc Cert.KernelIdeal.main_arg5 (by decide))).trans (Cert.KernelIdeal.Hand.W11_main_arg5 m ρ c),
        (h c _ (Cert.KernelIdeal.Hand.mem_uc Cert.KernelIdeal.main_arg6 (by decide))).trans (Cert.KernelIdeal.Hand.W11_main_arg6 m ρ c),
        (h c _ (Cert.KernelIdeal.Hand.mem_uc Cert.KernelIdeal.main_arg7 (by decide))).trans (Cert.KernelIdeal.Hand.W11_main_arg7 m ρ c)⟩
  · refine (θ_run Cert.ReferenceIdeal.defs _ _).mono (fun _ h c => ⟨?_, (h c).2⟩) (Cert.ReferenceIdeal.RefRun.run m' ρ')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
